-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v240) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S69905x512 : Shape := ⟨2, ![69905, 512]⟩
abbrev S512x1024 : Shape := ⟨2, ![512, 1024]⟩
abbrev S512 : Shape := ⟨1, ![512]⟩
abbrev S_ : Shape := ⟨0, ![]⟩

class Facts : Prop where
  bcast_S_S69905x512 : S_.BroadcastsInDim S69905x512 (![] : Fin 0 → Fin S69905x512.rank)
  reducesTo_S69905x512_S_d0_1 : S69905x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x1024 .f32) (main_arg8 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S69905x512 .f32) (main_arg1 : FVec F S512x1024 .f32) (main_arg2 : FVec F S512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) : IVec S_ 1 :=
  let main_v0 : FVec F S69905x512 .f32 := Host.absf main_arg0
  let main_cst : FVec F S_ .f32 := constant S_ .f32 0x7F800000#32
  let main_v1 : FVec F S69905x512 .f32 := broadcastInDim S69905x512 ![] bcast_S_S69905x512 main_cst
  let main_v2 : IVec S69905x512 1 := cmpf .olt main_v0 main_v1
  let main_c : IVec S_ 1 := constantI S_ 1 1#1
  let main_v3 : IVec S_ 1 := (fun x v => Host.reduce IntOp.andi x v reducesTo_S69905x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_v13 main_v16
-- ==== Kernel.lean ====
abbrev S69905x512 : Shape := ⟨2, ![69905, 512]⟩
abbrev S512x1024 : Shape := ⟨2, ![512, 1024]⟩
abbrev S512 : Shape := ⟨1, ![512]⟩
abbrev S1x512 : Shape := ⟨2, ![1, 512]⟩
abbrev S16x512 : Shape := ⟨2, ![16, 512]⟩
abbrev S256x512 : Shape := ⟨2, ![256, 512]⟩
abbrev S4096x512 : Shape := ⟨2, ![4096, 512]⟩
abbrev S65536x512 : Shape := ⟨2, ![65536, 512]⟩
abbrev S1024x512 : Shape := ⟨2, ![1024, 512]⟩
abbrev S512x512 : Shape := ⟨2, ![512, 512]⟩
abbrev S64x512 : Shape := ⟨2, ![64, 512]⟩
abbrev S64x16x512 : Shape := ⟨3, ![64, 16, 512]⟩
abbrev S64x1x512 : Shape := ⟨3, ![64, 1, 512]⟩
abbrev S256x16x512 : Shape := ⟨3, ![256, 16, 512]⟩
abbrev S16x16x512 : Shape := ⟨3, ![16, 16, 512]⟩
abbrev S16x1x512 : Shape := ⟨3, ![16, 1, 512]⟩
abbrev S1x16x512 : Shape := ⟨3, ![1, 16, 512]⟩
abbrev S1x1x512 : Shape := ⟨3, ![1, 1, 512]⟩

abbrev nBuf : Space → Nat
  | .hbm => 46
  | .vmem => 76
  | .smem => 0
  | _ => 0

abbrev bufTy : (tb : Table) → Fin (tcTables nBuf tb) → BufTy
  | .hbm, ⟨0, _⟩ => ⟨S69905x512, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S1x512, .f32⟩
  | .hbm, ⟨10, _⟩ => ⟨S16x512, .f32⟩
  | .hbm, ⟨11, _⟩ => ⟨S256x512, .f32⟩
  | .hbm, ⟨12, _⟩ => ⟨S4096x512, .f32⟩
  | .hbm, ⟨13, _⟩ => ⟨S65536x512, .f32⟩
  | .hbm, ⟨14, _⟩ => ⟨S1024x512, .f32⟩
  | .hbm, ⟨15, _⟩ => ⟨S512x512, .f32⟩
  | .hbm, ⟨16, _⟩ => ⟨S512x512, .f32⟩
  | .hbm, ⟨17, _⟩ => ⟨S1024x512, .f32⟩
  | .hbm, ⟨18, _⟩ => ⟨S512x512, .f32⟩
  | .hbm, ⟨19, _⟩ => ⟨S512x512, .f32⟩
  | .hbm, ⟨20, _⟩ => ⟨S1024x512, .f32⟩
  | .hbm, ⟨21, _⟩ => ⟨S512x512, .f32⟩
  | .hbm, ⟨22, _⟩ => ⟨S512x512, .f32⟩
  | .hbm, ⟨23, _⟩ => ⟨S1024x512, .f32⟩
  | .hbm, ⟨24, _⟩ => ⟨S512x512, .f32⟩
  | .hbm, ⟨25, _⟩ => ⟨S512x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S4096x512, .bf16⟩
  | .hbm, ⟨31, _⟩ => ⟨S4096x512, .bf16⟩
  | .hbm, ⟨32, _⟩ => ⟨S256x16x512, .bf16⟩
  | .hbm, ⟨33, _⟩ => ⟨S256x16x512, .bf16⟩
  | .hbm, ⟨34, _⟩ => ⟨S256x512, .bf16⟩
  | .hbm, ⟨35, _⟩ => ⟨S256x512, .bf16⟩
  | .hbm, ⟨36, _⟩ => ⟨S16x16x512, .bf16⟩
  | .hbm, ⟨37, _⟩ => ⟨S16x16x512, .bf16⟩
  | .hbm, ⟨38, _⟩ => ⟨S16x512, .bf16⟩
  | .hbm, ⟨39, _⟩ => ⟨S16x512, .bf16⟩
  | .hbm, ⟨40, _⟩ => ⟨S1x16x512, .bf16⟩
  | .hbm, ⟨41, _⟩ => ⟨S1x16x512, .bf16⟩
  | .hbm, ⟨42, _⟩ => ⟨S1x512, .f32⟩
  | .hbm, ⟨43, _⟩ => ⟨S1x512, .f32⟩
  | .hbm, ⟨44, _⟩ => ⟨S512, .f32⟩
  | .hbm, ⟨45, _⟩ => ⟨S512, .f32⟩
  | .local _ .vmem, ⟨0, _⟩ => ⟨S64x512, .f32⟩
  | .local _ .vmem, ⟨1, _⟩ => ⟨S64x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S64x512, .bf16⟩
  | .local _ .vmem, ⟨17, _⟩ => ⟨S64x512, .bf16⟩
  | .local _ .vmem, ⟨18, _⟩ => ⟨S64x512, .bf16⟩
  | .local _ .vmem, ⟨19, _⟩ => ⟨S64x512, .bf16⟩
  | .local _ .vmem, ⟨20, _⟩ => ⟨S64x512, .f32⟩
  | .local _ .vmem, ⟨21, _⟩ => ⟨S64x512, .f32⟩
  | .local _ .vmem, ⟨22, _⟩ => ⟨S64x16x512, .bf16⟩
  | .local _ .vmem, ⟨23, _⟩ => ⟨S64x16x512, .bf16⟩
  | .local _ .vmem, ⟨24, _⟩ => ⟨S64x16x512, .bf16⟩
  | .local _ .vmem, ⟨25, _⟩ => ⟨S64x16x512, .bf16⟩
  | .local _ .vmem, ⟨26, _⟩ => ⟨S512x512, .f32⟩
  | .local _ .vmem, ⟨27, _⟩ => ⟨S512x512, .f32⟩
  | .local _ .vmem, ⟨28, _⟩ => ⟨S1x512, .f32⟩
  | .local _ .vmem, ⟨29, _⟩ => ⟨S512x512, .f32⟩
  | .local _ .vmem, ⟨30, _⟩ => ⟨S512x512, .f32⟩
  | .local _ .vmem, ⟨31, _⟩ => ⟨S1x512, .f32⟩
  | .local _ .vmem, ⟨32, _⟩ => ⟨S512x512, .f32⟩
  | .local _ .vmem, ⟨33, _⟩ => ⟨S512x512, .f32⟩
  | .local _ .vmem, ⟨34, _⟩ => ⟨S1x512, .f32⟩
  | .local _ .vmem, ⟨35, _⟩ => ⟨S512x512, .f32⟩
  | .local _ .vmem, ⟨36, _⟩ => ⟨S512x512, .f32⟩
  | .local _ .vmem, ⟨37, _⟩ => ⟨S1x512, .f32⟩
  | .local _ .vmem, ⟨38, _⟩ => ⟨S64x512, .bf16⟩
  | .local _ .vmem, ⟨39, _⟩ => ⟨S64x512, .bf16⟩
  | .local _ .vmem, ⟨40, _⟩ => ⟨S64x512, .bf16⟩
  | .local _ .vmem, ⟨41, _⟩ => ⟨S64x512, .bf16⟩
  | .local _ .vmem, ⟨42, _⟩ => ⟨S16x512, .f32⟩
  | .local _ .vmem, ⟨43, _⟩ => ⟨S16x16x512, .bf16⟩
  | .local _ .vmem, ⟨44, _⟩ => ⟨S16x16x512, .bf16⟩
  | .local _ .vmem, ⟨45, _⟩ => ⟨S512x512, .f32⟩
  | .local _ .vmem, ⟨46, _⟩ => ⟨S512x512, .f32⟩
  | .local _ .vmem, ⟨47, _⟩ => ⟨S1x512, .f32⟩
  | .local _ .vmem, ⟨48, _⟩ => ⟨S512x512, .f32⟩
  | .local _ .vmem, ⟨49, _⟩ => ⟨S512x512, .f32⟩
  | .local _ .vmem, ⟨50, _⟩ => ⟨S1x512, .f32⟩
  | .local _ .vmem, ⟨51, _⟩ => ⟨S512x512, .f32⟩
  | .local _ .vmem, ⟨52, _⟩ => ⟨S512x512, .f32⟩
  | .local _ .vmem, ⟨53, _⟩ => ⟨S1x512, .f32⟩
  | .local _ .vmem, ⟨54, _⟩ => ⟨S512x512, .f32⟩
  | .local _ .vmem, ⟨55, _⟩ => ⟨S512x512, .f32⟩
  | .local _ .vmem, ⟨56, _⟩ => ⟨S1x512, .f32⟩
  | .local _ .vmem, ⟨57, _⟩ => ⟨S16x512, .bf16⟩
  | .local _ .vmem, ⟨58, _⟩ => ⟨S16x512, .bf16⟩
  | .local _ .vmem, ⟨59, _⟩ => ⟨S1x512, .f32⟩
  | .local _ .vmem, ⟨60, _⟩ => ⟨S1x16x512, .bf16⟩
  | .local _ .vmem, ⟨61, _⟩ => ⟨S1x16x512, .bf16⟩
  | .local _ .vmem, ⟨62, _⟩ => ⟨S512x512, .f32⟩
  | .local _ .vmem, ⟨63, _⟩ => ⟨S512x512, .f32⟩
  | .local _ .vmem, ⟨64, _⟩ => ⟨S1x512, .f32⟩
  | .local _ .vmem, ⟨65, _⟩ => ⟨S512x512, .f32⟩
  | .local _ .vmem, ⟨66, _⟩ => ⟨S512x512, .f32⟩
  | .local _ .vmem, ⟨67, _⟩ => ⟨S1x512, .f32⟩
  | .local _ .vmem, ⟨68, _⟩ => ⟨S512x512, .f32⟩
  | .local _ .vmem, ⟨69, _⟩ => ⟨S512x512, .f32⟩
  | .local _ .vmem, ⟨70, _⟩ => ⟨S1x512, .f32⟩
  | .local _ .vmem, ⟨71, _⟩ => ⟨S512x512, .f32⟩
  | .local _ .vmem, ⟨72, _⟩ => ⟨S512x512, .f32⟩
  | .local _ .vmem, ⟨73, _⟩ => ⟨S1x512, .f32⟩
  | .local _ .vmem, ⟨74, _⟩ => ⟨S1x512, .f32⟩
  | .local _ .vmem, ⟨75, _⟩ => ⟨S1x512, .f32⟩
  | _, _ => ⟨S69905x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg14_0 : Ref sig .tc := ⟨.vmem, 37, rfl⟩
abbrev cc1_stg15_0 : Ref sig .tc := ⟨.vmem, 38, rfl⟩
abbrev cc1_stg15_1 : Ref sig .tc := ⟨.vmem, 39, rfl⟩
abbrev cc1_stg16_0 : Ref sig .tc := ⟨.vmem, 40, rfl⟩
abbrev cc1_stg16_1 : Ref sig .tc := ⟨.vmem, 41, rfl⟩
abbrev cc2_stg0_0 : Ref sig .tc := ⟨.vmem, 42, rfl⟩
abbrev cc2_stg1_0 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg10_0 : Ref sig .tc := ⟨.vmem, 52, rfl⟩
abbrev cc2_stg11_0 : Ref sig .tc := ⟨.vmem, 53, rfl⟩
abbrev cc2_stg12_0 : Ref sig .tc := ⟨.vmem, 54, rfl⟩
abbrev cc2_stg13_0 : Ref sig .tc := ⟨.vmem, 55, rfl⟩
abbrev cc2_stg14_0 : Ref sig .tc := ⟨.vmem, 56, rfl⟩
abbrev cc2_stg15_0 : Ref sig .tc := ⟨.vmem, 57, rfl⟩
abbrev cc2_stg16_0 : Ref sig .tc := ⟨.vmem, 58, rfl⟩
abbrev cc3_stg0_0 : Ref sig .tc := ⟨.vmem, 59, rfl⟩
abbrev cc3_stg1_0 : Ref sig .tc := ⟨.vmem, 60, rfl⟩
abbrev cc3_stg2_0 : Ref sig .tc := ⟨.vmem, 61, rfl⟩
abbrev cc3_stg3_0 : Ref sig .tc := ⟨.vmem, 62, rfl⟩
abbrev cc3_stg4_0 : Ref sig .tc := ⟨.vmem, 63, rfl⟩
abbrev cc3_stg5_0 : Ref sig .tc := ⟨.vmem, 64, rfl⟩
abbrev cc3_stg6_0 : Ref sig .tc := ⟨.vmem, 65, rfl⟩
abbrev cc3_stg7_0 : Ref sig .tc := ⟨.vmem, 66, rfl⟩
abbrev cc3_stg8_0 : Ref sig .tc := ⟨.vmem, 67, rfl⟩
abbrev cc3_stg9_0 : Ref sig .tc := ⟨.vmem, 68, rfl⟩
abbrev cc3_stg10_0 : Ref sig .tc := ⟨.vmem, 69, rfl⟩
abbrev cc3_stg11_0 : Ref sig .tc := ⟨.vmem, 70, rfl⟩
abbrev cc3_stg12_0 : Ref sig .tc := ⟨.vmem, 71, rfl⟩
abbrev cc3_stg13_0 : Ref sig .tc := ⟨.vmem, 72, rfl⟩
abbrev cc3_stg14_0 : Ref sig .tc := ⟨.vmem, 73, rfl⟩
abbrev cc3_stg15_0 : Ref sig .tc := ⟨.vmem, 74, rfl⟩
abbrev cc3_stg16_0 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem14_0 : DmaSem sig := 37
abbrev cc1_sem15_0 : DmaSem sig := 38
abbrev cc1_sem15_1 : DmaSem sig := 39
abbrev cc1_sem16_0 : DmaSem sig := 40
abbrev cc1_sem16_1 : DmaSem sig := 41
abbrev cc2_sem0_0 : DmaSem sig := 42
abbrev cc2_sem1_0 : DmaSem sig := 43
abbrev cc2_sem2_0 : DmaSem sig := 44
abbrev cc2_sem3_0 : DmaSem sig := 45
abbrev cc2_sem4_0 : DmaSem sig := 46
abbrev cc2_sem5_0 : DmaSem sig := 47
abbrev cc2_sem6_0 : DmaSem sig := 48
abbrev cc2_sem7_0 : DmaSem sig := 49
abbrev cc2_sem8_0 : DmaSem sig := 50
abbrev cc2_sem9_0 : DmaSem sig := 51
abbrev cc2_sem10_0 : DmaSem sig := 52
abbrev cc2_sem11_0 : DmaSem sig := 53
abbrev cc2_sem12_0 : DmaSem sig := 54
abbrev cc2_sem13_0 : DmaSem sig := 55
abbrev cc2_sem14_0 : DmaSem sig := 56
abbrev cc2_sem15_0 : DmaSem sig := 57
abbrev cc2_sem16_0 : DmaSem sig := 58
abbrev cc3_sem0_0 : DmaSem sig := 59
abbrev cc3_sem1_0 : DmaSem sig := 60
abbrev cc3_sem2_0 : DmaSem sig := 61
abbrev cc3_sem3_0 : DmaSem sig := 62
abbrev cc3_sem4_0 : DmaSem sig := 63
abbrev cc3_sem5_0 : DmaSem sig := 64
abbrev cc3_sem6_0 : DmaSem sig := 65
abbrev cc3_sem7_0 : DmaSem sig := 66
abbrev cc3_sem8_0 : DmaSem sig := 67
abbrev cc3_sem9_0 : DmaSem sig := 68
abbrev cc3_sem10_0 : DmaSem sig := 69
abbrev cc3_sem11_0 : DmaSem sig := 70
abbrev cc3_sem12_0 : DmaSem sig := 71
abbrev cc3_sem13_0 : DmaSem sig := 72
abbrev cc3_sem14_0 : DmaSem sig := 73
abbrev cc3_sem15_0 : DmaSem sig := 74
abbrev cc3_sem16_0 : DmaSem sig := 75

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x16x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x16x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S512x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S512x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S64x512 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S64x512 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S16x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S16x16x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S16x16x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S512x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S16x512 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![true]

abbrev stage2_16 : Fin 1 → Memref sig .tc .vmem S16x512 .bf16 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x16x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x16x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S512x512 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S512x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x512 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x512 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![true]

abbrev stage3_16 : Fin 1 → Memref sig .tc .vmem S1x512 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![true]

class Facts₀ : Prop where
  slices_S69905x512_S1x512_0_0 : S69905x512.Slices ![0, 0] S1x512
  slices_S69905x512_S16x512_1_0 : S69905x512.Slices ![1, 0] S16x512
  slices_S69905x512_S256x512_17_0 : S69905x512.Slices ![17, 0] S256x512
  slices_S69905x512_S4096x512_273_0 : S69905x512.Slices ![273, 0] S4096x512
  slices_S69905x512_S65536x512_4369_0 : S69905x512.Slices ![4369, 0] S65536x512
  transposes_S512x1024_S1024x512_1_0 : S512x1024.Transposes [1, 0] S1024x512
  slices_S1024x512_S512x512_0_0 : S1024x512.Slices ![0, 0] S512x512
  slices_S1024x512_S512x512_512_0 : S1024x512.Slices ![512, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S64x16x512 : S1024x512.ShapeCasts S64x16x512
  reduces_S64x16x512_S64x512 : S64x16x512.Reduces [1] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x512_S64x512 : S1x512.Broadcasts S64x512
  shapeCasts_S64x16x512_S1024x512 : S64x16x512.ShapeCasts S1024x512
  shapeCasts_S64x512_S64x1x512 : S64x512.ShapeCasts S64x1x512
  broadcasts_S64x1x512_S64x16x512 : S64x1x512.Broadcasts S64x16x512
  packedbf16_S64x512_S64x512_0_0 : (Rect.unit (s := S64x512) ![0, 0] S64x512.size inb_S64x512_S64x512_0_0).PackedRows (EltTy.packing .bf16)
  shapeCasts_S4096x512_S256x16x512 : S4096x512.ShapeCasts S256x16x512
  inb_S64x16x512_S64x16x512_0_0_0 : ∀ a, (![0, 0, 0] : Fin 3 → Nat) a + S64x16x512.size a ≤ S64x16x512.size a
  h_S64x16x512 : 0 < S64x16x512.numel
  shapeCasts_S64x16x512_S64x16x512 : S64x16x512.ShapeCasts S64x16x512
  shapeCasts_S256x512_S16x16x512 : S256x512.ShapeCasts S16x16x512
  inb_S16x16x512_S16x16x512_0_0_0 : ∀ a, (![0, 0, 0] : Fin 3 → Nat) a + S16x16x512.size a ≤ S16x16x512.size a
  h_S16x16x512 : 0 < S16x16x512.numel
  shapeCasts_S16x16x512_S16x16x512 : S16x16x512.ShapeCasts S16x16x512
  reduces_S16x16x512_S16x512 : S16x16x512.Reduces [1] S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  broadcasts_S1x512_S16x512 : S1x512.Broadcasts S16x512
  shapeCasts_S16x16x512_S256x512 : S16x16x512.ShapeCasts S256x512
  shapeCasts_S16x512_S16x1x512 : S16x512.ShapeCasts S16x1x512
  broadcasts_S16x1x512_S16x16x512 : S16x1x512.Broadcasts S16x16x512
  packedbf16_S16x512_S16x512_0_0 : (Rect.unit (s := S16x512) ![0, 0] S16x512.size inb_S16x512_S16x512_0_0).PackedRows (EltTy.packing .bf16)
  shapeCasts_S16x512_S1x16x512 : S16x512.ShapeCasts S1x16x512
  inb_S1x16x512_S1x16x512_0_0_0 : ∀ a, (![0, 0, 0] : Fin 3 → Nat) a + S1x16x512.size a ≤ S1x16x512.size a
  h_S1x16x512 : 0 < S1x16x512.numel
  shapeCasts_S1x16x512_S1x16x512 : S1x16x512.ShapeCasts S1x16x512
  reduces_S1x16x512_S1x512 : S1x16x512.Reduces [1] S1x512
  shapeCasts_S1x16x512_S16x512 : S1x16x512.ShapeCasts S16x512
  shapeCasts_S1x512_S1x1x512 : S1x512.ShapeCasts S1x1x512
  broadcasts_S1x1x512_S1x16x512 : S1x1x512.Broadcasts S1x16x512
  shapeCasts_S1x512_S512 : S1x512.ShapeCasts S512
  dot_S1024x512_S512x512_S1024x512_1_0_0_1_n_n_wf : DotDims.WF S1024x512 S512x512 S1024x512 [1] [0] [0] [1] [] []
  dot_S64x512_S512x512_S64x512_1_0_0_1_n_n_wf : DotDims.WF S64x512 S512x512 S64x512 [1] [0] [0] [1] [] []
  dot_S16x512_S512x512_S16x512_1_0_0_1_n_n_wf : DotDims.WF S16x512 S512x512 S16x512 [1] [0] [0] [1] [] []
  dot_S256x512_S512x512_S256x512_1_0_0_1_n_n_wf : DotDims.WF S256x512 S512x512 S256x512 [1] [0] [0] [1] [] []
  dot_S1x512_S512x512_S1x512_1_0_0_1_n_n_wf : DotDims.WF S1x512 S512x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S4096x512.size a
  hwx0_0 : ∀ i : grid0.Coords, EltTy.bits .f32 = 32 ∨ (Rect.block (s := S4096x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x512.size a ≤ S4096x512.size a
  hwx0_14 : ∀ i : grid0.Coords, EltTy.bits .bf16 = 32 ∨ (Rect.block (s := S4096x512) S64x512.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x512.size a ≤ S4096x512.size a
  hwx0_15 : ∀ i : grid0.Coords, EltTy.bits .bf16 = 32 ∨ (Rect.block (s := S4096x512) S64x512.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S256x512.size a
  hwx1_0 : ∀ i : grid1.Coords, EltTy.bits .f32 = 32 ∨ (Rect.block (s := S256x512) S64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x16x512.size a ≤ S256x16x512.size a
  hwx1_1 : ∀ i : grid1.Coords, EltTy.bits .bf16 = 32 ∨ (Rect.block (s := S256x16x512) S64x16x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x16x512.size a ≤ S256x16x512.size a
  hwx1_2 : ∀ i : grid1.Coords, EltTy.bits .bf16 = 32 ∨ (Rect.block (s := S256x16x512) S64x16x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .f32 = 32 ∨ (Rect.block (s := S512x512) S512x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .f32 = 32 ∨ (Rect.block (s := S512x512) S512x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S512x512.size a
  hwx1_9 : ∀ i : grid1.Coords, EltTy.bits .f32 = 32 ∨ (Rect.block (s := S512x512) S512x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x512.size a ≤ S512x512.size a
  hwx1_10 : ∀ i : grid1.Coords, EltTy.bits .f32 = 32 ∨ (Rect.block (s := S512x512) S512x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x512.size a ≤ S1x512.size a
  hwx1_11 : ∀ i : grid1.Coords, EltTy.bits .f32 = 32 ∨ (Rect.block (s := S1x512) S1x512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S512x512.size a ≤ S512x512.size a
  hwx1_12 : ∀ i : grid1.Coords, EltTy.bits .f32 = 32 ∨ (Rect.block (s := S512x512) S512x512.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S512x512.size a ≤ S512x512.size a
  hwx1_13 : ∀ i : grid1.Coords, EltTy.bits .f32 = 32 ∨ (Rect.block (s := S512x512) S512x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x512.size a ≤ S1x512.size a
  hwx1_14 : ∀ i : grid1.Coords, EltTy.bits .f32 = 32 ∨ (Rect.block (s := S1x512) S1x512.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S64x512.size a ≤ S256x512.size a
  hwx1_15 : ∀ i : grid1.Coords, EltTy.bits .bf16 = 32 ∨ (Rect.block (s := S256x512) S64x512.size (cc1_transform_15 i) (hinb1_15 i)).WholeWords (EltTy.packing .bf16)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S64x512.size a ≤ S256x512.size a
  hwx1_16 : ∀ i : grid1.Coords, EltTy.bits .bf16 = 32 ∨ (Rect.block (s := S256x512) S64x512.size (cc1_transform_16 i) (hinb1_16 i)).WholeWords (EltTy.packing .bf16)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S16x512.size a ≤ S16x512.size a
  hwx2_0 : ∀ i : grid2.Coords, EltTy.bits .f32 = 32 ∨ (Rect.block (s := S16x512) S16x512.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S16x16x512.size a ≤ S16x16x512.size a
  hwx2_1 : ∀ i : grid2.Coords, EltTy.bits .bf16 = 32 ∨ (Rect.block (s := S16x16x512) S16x16x512.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S16x16x512.size a ≤ S16x16x512.size a
  hwx2_2 : ∀ i : grid2.Coords, EltTy.bits .bf16 = 32 ∨ (Rect.block (s := S16x16x512) S16x16x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .f32 = 32 ∨ (Rect.block (s := S512x512) S512x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S512x512.size a
  hwx2_6 : ∀ i : grid2.Coords, EltTy.bits .f32 = 32 ∨ (Rect.block (s := S512x512) S512x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S512x512.size a
  hwx2_7 : ∀ i : grid2.Coords, EltTy.bits .f32 = 32 ∨ (Rect.block (s := S512x512) S512x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x512.size a ≤ S512x512.size a
  hwx2_9 : ∀ i : grid2.Coords, EltTy.bits .f32 = 32 ∨ (Rect.block (s := S512x512) S512x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512x512.size a ≤ S512x512.size a
  hwx2_10 : ∀ i : grid2.Coords, EltTy.bits .f32 = 32 ∨ (Rect.block (s := S512x512) S512x512.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x512.size a ≤ S1x512.size a
  hwx2_11 : ∀ i : grid2.Coords, EltTy.bits .f32 = 32 ∨ (Rect.block (s := S1x512) S1x512.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S512x512.size a ≤ S512x512.size a
  hwx2_12 : ∀ i : grid2.Coords, EltTy.bits .f32 = 32 ∨ (Rect.block (s := S512x512) S512x512.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S512x512.size a ≤ S512x512.size a
  hwx2_13 : ∀ i : grid2.Coords, EltTy.bits .f32 = 32 ∨ (Rect.block (s := S512x512) S512x512.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x512.size a ≤ S1x512.size a
  hwx2_14 : ∀ i : grid2.Coords, EltTy.bits .f32 = 32 ∨ (Rect.block (s := S1x512) S1x512.size (cc2_transform_14 i) (hinb2_14 i)).WholeWords (EltTy.packing .f32)
  hstage2_15 : ∀ j, (stage2_15 j).IsWhole
  nbuf2_15 : grid2.bufCount reads2_15 false = 1
  hreads2_15 : ∀ i i' : grid2.Coords, (∀ a, reads2_15 a = true → i a = i' a) → cc2_transform_15 i = cc2_transform_15 i'
  hinb2_15 : ∀ (i : grid2.Coords) a, (cc2_transform_15 i a + 1) * S16x512.size a ≤ S16x512.size a
  hwx2_15 : ∀ i : grid2.Coords, EltTy.bits .bf16 = 32 ∨ (Rect.block (s := S16x512) S16x512.size (cc2_transform_15 i) (hinb2_15 i)).WholeWords (EltTy.packing .bf16)
  hstage2_16 : ∀ j, (stage2_16 j).IsWhole
  nbuf2_16 : grid2.bufCount reads2_16 false = 1
  hreads2_16 : ∀ i i' : grid2.Coords, (∀ a, reads2_16 a = true → i a = i' a) → cc2_transform_16 i = cc2_transform_16 i'
  hinb2_16 : ∀ (i : grid2.Coords) a, (cc2_transform_16 i a + 1) * S16x512.size a ≤ S16x512.size a
  hwx2_16 : ∀ i : grid2.Coords, EltTy.bits .bf16 = 32 ∨ (Rect.block (s := S16x512) S16x512.size (cc2_transform_16 i) (hinb2_16 i)).WholeWords (EltTy.packing .bf16)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1x512.size a ≤ S1x512.size a
  hwx3_0 : ∀ i : grid3.Coords, EltTy.bits .f32 = 32 ∨ (Rect.block (s := S1x512) S1x512.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1x16x512.size a ≤ S1x16x512.size a
  hwx3_1 : ∀ i : grid3.Coords, EltTy.bits .bf16 = 32 ∨ (Rect.block (s := S1x16x512) S1x16x512.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x16x512.size a ≤ S1x16x512.size a
  hwx3_2 : ∀ i : grid3.Coords, EltTy.bits .bf16 = 32 ∨ (Rect.block (s := S1x16x512) S1x16x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x512.size a ≤ S512x512.size a
  hwx3_6 : ∀ i : grid3.Coords, EltTy.bits .f32 = 32 ∨ (Rect.block (s := S512x512) S512x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x512.size a ≤ S512x512.size a
  hwx3_7 : ∀ i : grid3.Coords, EltTy.bits .f32 = 32 ∨ (Rect.block (s := S512x512) S512x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512x512.size a ≤ S512x512.size a
  hwx3_9 : ∀ i : grid3.Coords, EltTy.bits .f32 = 32 ∨ (Rect.block (s := S512x512) S512x512.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S512x512.size a ≤ S512x512.size a
  hwx3_10 : ∀ i : grid3.Coords, EltTy.bits .f32 = 32 ∨ (Rect.block (s := S512x512) S512x512.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x512.size a ≤ S1x512.size a
  hwx3_11 : ∀ i : grid3.Coords, EltTy.bits .f32 = 32 ∨ (Rect.block (s := S1x512) S1x512.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S512x512.size a ≤ S512x512.size a
  hwx3_12 : ∀ i : grid3.Coords, EltTy.bits .f32 = 32 ∨ (Rect.block (s := S512x512) S512x512.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S512x512.size a ≤ S512x512.size a
  hwx3_13 : ∀ i : grid3.Coords, EltTy.bits .f32 = 32 ∨ (Rect.block (s := S512x512) S512x512.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x512.size a ≤ S1x512.size a
  hwx3_14 : ∀ i : grid3.Coords, EltTy.bits .f32 = 32 ∨ (Rect.block (s := S1x512) S1x512.size (cc3_transform_14 i) (hinb3_14 i)).WholeWords (EltTy.packing .f32)
  hstage3_15 : ∀ j, (stage3_15 j).IsWhole
  nbuf3_15 : grid3.bufCount reads3_15 false = 1
  hreads3_15 : ∀ i i' : grid3.Coords, (∀ a, reads3_15 a = true → i a = i' a) → cc3_transform_15 i = cc3_transform_15 i'
  hinb3_15 : ∀ (i : grid3.Coords) a, (cc3_transform_15 i a + 1) * S1x512.size a ≤ S1x512.size a
  hwx3_15 : ∀ i : grid3.Coords, EltTy.bits .f32 = 32 ∨ (Rect.block (s := S1x512) S1x512.size (cc3_transform_15 i) (hinb3_15 i)).WholeWords (EltTy.packing .f32)
  hstage3_16 : ∀ j, (stage3_16 j).IsWhole
  nbuf3_16 : grid3.bufCount reads3_16 false = 1
  hreads3_16 : ∀ i i' : grid3.Coords, (∀ a, reads3_16 a = true → i a = i' a) → cc3_transform_16 i = cc3_transform_16 i'
  hinb3_16 : ∀ (i : grid3.Coords) a, (cc3_transform_16 i a + 1) * S1x512.size a ≤ S1x512.size a
  hwx3_16 : ∀ i : grid3.Coords, EltTy.bits .f32 = 32 ∨ (Rect.block (s := S1x512) S1x512.size (cc3_transform_16 i) (hinb3_16 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

abbrev win0_0 : Pipeline.Window sig grid0 :=
  Pipeline.Window.ofSpec (Memref.whole main_v3) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21_0) S64x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v21_1) S64x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v2) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S64x16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S512x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S512x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S1x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v9) S512x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v10) S512x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v18) S1x512.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v24_0) S64x512.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v24_1) S64x512.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_v1) S16x512.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v25) S16x16x512.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S16x16x512.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S512x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S512x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S1x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v15) S512x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v16) S512x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v20) S1x512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v9) S512x512.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v10) S512x512.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v18) S1x512.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v27_0) S16x512.size cc2_transform_15 reads2_15 true false 1 stage2_15 sem2_15
    hrank2 hreads2_15 hinb2_15 nbuf2_15 (Memref.isWhole_whole _) hwx2_15 hstage2_15

abbrev win2_16 : Pipeline.Window sig grid2 :=
  Pipeline.Window.ofSpec (Memref.whole main_v27_1) S16x512.size cc2_transform_16 reads2_16 true false 1 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_v0) S1x512.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x16x512.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x16x512.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S512x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v13) S512x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v19) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v15) S512x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v16) S512x512.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v20) S1x512.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v9) S512x512.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v10) S512x512.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v18) S1x512.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v30_0) S1x512.size cc3_transform_15 reads3_15 true false 1 stage3_15 sem3_15
    hrank3 hreads3_15 hinb3_15 nbuf3_15 (Memref.isWhole_whole _) hwx3_15 hstage3_15

abbrev win3_16 : Pipeline.Window sig grid3 :=
  Pipeline.Window.ofSpec (Memref.whole main_v30_1) S1x512.size cc3_transform_16 reads3_16 true false 1 stage3_16 sem3_16
    hrank3 hreads3_16 hinb3_16 nbuf3_16 (Memref.isWhole_whole _) hwx3_16 hstage3_16

abbrev win3 : Fin 17 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | ⟨_ + 17, h⟩ => absurd h (Nat.not_lt.2 (Nat.le_add_left _ _))
abbrev spec3 : Fin 17 → Pipeline.WinSpec sig grid3.rank := fun w => (win3 w).toWinSpec

class Facts : Prop extends Facts₀ where

variable [Facts]
-- ==== ReferenceIdeal.lean ====
abbrev S69905x512 : Shape := ⟨2, ![69905, 512]⟩
abbrev S512x1024 : Shape := ⟨2, ![512, 1024]⟩
abbrev S512 : Shape := ⟨1, ![512]⟩
abbrev S1x512 : Shape := ⟨2, ![1, 512]⟩
abbrev S16x512 : Shape := ⟨2, ![16, 512]⟩
abbrev S256x512 : Shape := ⟨2, ![256, 512]⟩
abbrev S4096x512 : Shape := ⟨2, ![4096, 512]⟩
abbrev S65536x512 : Shape := ⟨2, ![65536, 512]⟩
abbrev S_ : Shape := ⟨0, ![]⟩
abbrev S65536x1024 : Shape := ⟨2, ![65536, 1024]⟩
abbrev S1024x512 : Shape := ⟨2, ![1024, 512]⟩
abbrev S4096x16x512 : Shape := ⟨3, ![4096, 16, 512]⟩
abbrev S4096x1024 : Shape := ⟨2, ![4096, 1024]⟩
abbrev S4096x1x512 : Shape := ⟨3, ![4096, 1, 512]⟩
abbrev S4096x16x1024 : Shape := ⟨3, ![4096, 16, 1024]⟩
abbrev S1x1x512 : Shape := ⟨3, ![1, 1, 512]⟩
abbrev S256x16x512 : Shape := ⟨3, ![256, 16, 512]⟩
abbrev S256x1024 : Shape := ⟨2, ![256, 1024]⟩
abbrev S256x1x512 : Shape := ⟨3, ![256, 1, 512]⟩
abbrev S256x16x1024 : Shape := ⟨3, ![256, 16, 1024]⟩
abbrev S16x16x512 : Shape := ⟨3, ![16, 16, 512]⟩
abbrev S16x1024 : Shape := ⟨2, ![16, 1024]⟩
abbrev S16x1x512 : Shape := ⟨3, ![16, 1, 512]⟩
abbrev S16x16x1024 : Shape := ⟨3, ![16, 16, 1024]⟩
abbrev S1x16x512 : Shape := ⟨3, ![1, 16, 512]⟩
abbrev S1x1024 : Shape := ⟨2, ![1, 1024]⟩
abbrev S1x16x1024 : Shape := ⟨3, ![1, 16, 1024]⟩

abbrev nBuf : Space → Nat
  | .hbm => 287
  | .vmem => 0
  | .smem => 0
  | _ => 0

abbrev hbmTy0_0 (i : Nat) : BufTy := match i % 128 with
  | 0 => ⟨S69905x512, .f32⟩
  | 1 => ⟨S512x1024, .f32⟩
  | 2 => ⟨S512, .f32⟩
  | 3 => ⟨S512x1024, .f32⟩
  | 4 => ⟨S512, .f32⟩
  | 5 => ⟨S512x1024, .f32⟩
  | 6 => ⟨S512, .f32⟩
  | 7 => ⟨S512x1024, .f32⟩
  | 8 => ⟨S512, .f32⟩
  | 9 => ⟨S1x512, .f32⟩
  | 10 => ⟨S16x512, .f32⟩
  | 11 => ⟨S256x512, .f32⟩
  | 12 => ⟨S4096x512, .f32⟩
  | 13 => ⟨S65536x512, .f32⟩
  | 14 => ⟨S_, .f32⟩
  | 15 => ⟨S65536x512, .f32⟩
  | 16 => ⟨S65536x1024, .f32⟩
  | 17 => ⟨S1024x512, .f32⟩
  | 18 => ⟨S65536x512, .f32⟩
  | 19 => ⟨S1x512, .f32⟩
  | 20 => ⟨S65536x512, .f32⟩
  | 21 => ⟨S65536x512, .f32⟩
  | 22 => ⟨S65536x512, .f32⟩
  | 23 => ⟨S65536x512, .f32⟩
  | 24 => ⟨S_, .f32⟩
  | 25 => ⟨S65536x512, .f32⟩
  | 26 => ⟨S65536x512, .f32⟩
  | 27 => ⟨S_, .f32⟩
  | 28 => ⟨S65536x512, .f32⟩
  | 29 => ⟨S65536x512, .f32⟩
  | 30 => ⟨S1024x512, .f32⟩
  | 31 => ⟨S65536x512, .f32⟩
  | 32 => ⟨S1x512, .f32⟩
  | 33 => ⟨S65536x512, .f32⟩
  | 34 => ⟨S65536x512, .f32⟩
  | 35 => ⟨S65536x512, .f32⟩
  | 36 => ⟨S65536x512, .f32⟩
  | 37 => ⟨S_, .f32⟩
  | 38 => ⟨S65536x512, .f32⟩
  | 39 => ⟨S65536x512, .f32⟩
  | 40 => ⟨S_, .f32⟩
  | 41 => ⟨S65536x512, .f32⟩
  | 42 => ⟨S65536x512, .f32⟩
  | 43 => ⟨S1024x512, .f32⟩
  | 44 => ⟨S65536x512, .f32⟩
  | 45 => ⟨S1x512, .f32⟩
  | 46 => ⟨S65536x512, .f32⟩
  | 47 => ⟨S65536x512, .f32⟩
  | 48 => ⟨S65536x512, .f32⟩
  | 49 => ⟨S65536x512, .f32⟩
  | 50 => ⟨S65536x512, .f32⟩
  | 51 => ⟨S65536x512, .f32⟩
  | 52 => ⟨S4096x16x512, .f32⟩
  | 53 => ⟨S4096x16x512, .f32⟩
  | 54 => ⟨S_, .f32⟩
  | 55 => ⟨S4096x512, .f32⟩
  | 56 => ⟨S4096x1024, .f32⟩
  | 57 => ⟨S1024x512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S1024x512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S1024x512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S4096x1x512, .f32⟩
  | 90 => ⟨S4096x16x512, .f32⟩
  | 91 => ⟨S4096x16x1024, .f32⟩
  | 92 => ⟨S4096x16x512, .f32⟩
  | 93 => ⟨S1x1x512, .f32⟩
  | 94 => ⟨S4096x16x512, .f32⟩
  | 95 => ⟨S4096x16x512, .f32⟩
  | 96 => ⟨S4096x16x512, .f32⟩
  | 97 => ⟨S4096x16x512, .f32⟩
  | 98 => ⟨S_, .f32⟩
  | 99 => ⟨S4096x16x512, .f32⟩
  | 100 => ⟨S4096x16x512, .f32⟩
  | 101 => ⟨S_, .f32⟩
  | 102 => ⟨S4096x16x512, .f32⟩
  | 103 => ⟨S4096x16x512, .f32⟩
  | 104 => ⟨S4096x512, .f32⟩
  | 105 => ⟨S4096x16x512, .f32⟩
  | 106 => ⟨S_, .f32⟩
  | 107 => ⟨S4096x512, .f32⟩
  | 108 => ⟨S4096x512, .f32⟩
  | 109 => ⟨S4096x512, .f32⟩
  | 110 => ⟨S4096x512, .f32⟩
  | 111 => ⟨S256x16x512, .f32⟩
  | 112 => ⟨S256x16x512, .f32⟩
  | 113 => ⟨S_, .f32⟩
  | 114 => ⟨S256x512, .f32⟩
  | 115 => ⟨S256x1024, .f32⟩
  | 116 => ⟨S1024x512, .f32⟩
  | 117 => ⟨S256x512, .f32⟩
  | 118 => ⟨S1x512, .f32⟩
  | 119 => ⟨S256x512, .f32⟩
  | 120 => ⟨S256x512, .f32⟩
  | 121 => ⟨S256x512, .f32⟩
  | 122 => ⟨S256x512, .f32⟩
  | 123 => ⟨S_, .f32⟩
  | 124 => ⟨S256x512, .f32⟩
  | 125 => ⟨S256x512, .f32⟩
  | 126 => ⟨S_, .f32⟩
  | 127 => ⟨S256x512, .f32⟩
  | _ => ⟨S69905x512, .f32⟩

abbrev hbmTy0_1 (i : Nat) : BufTy := match i % 128 with
  | 0 => ⟨S256x512, .f32⟩
  | 1 => ⟨S1024x512, .f32⟩
  | 2 => ⟨S256x512, .f32⟩
  | 3 => ⟨S1x512, .f32⟩
  | 4 => ⟨S256x512, .f32⟩
  | 5 => ⟨S256x512, .f32⟩
  | 6 => ⟨S256x512, .f32⟩
  | 7 => ⟨S256x512, .f32⟩
  | 8 => ⟨S_, .f32⟩
  | 9 => ⟨S256x512, .f32⟩
  | 10 => ⟨S256x512, .f32⟩
  | 11 => ⟨S_, .f32⟩
  | 12 => ⟨S256x512, .f32⟩
  | 13 => ⟨S256x512, .f32⟩
  | 14 => ⟨S1024x512, .f32⟩
  | 15 => ⟨S256x512, .f32⟩
  | 16 => ⟨S1x512, .f32⟩
  | 17 => ⟨S256x512, .f32⟩
  | 18 => ⟨S256x512, .f32⟩
  | 19 => ⟨S256x512, .f32⟩
  | 20 => ⟨S256x1x512, .f32⟩
  | 21 => ⟨S256x16x512, .f32⟩
  | 22 => ⟨S256x16x1024, .f32⟩
  | 23 => ⟨S256x16x512, .f32⟩
  | 24 => ⟨S1x1x512, .f32⟩
  | 25 => ⟨S256x16x512, .f32⟩
  | 26 => ⟨S256x16x512, .f32⟩
  | 27 => ⟨S256x16x512, .f32⟩
  | 28 => ⟨S256x16x512, .f32⟩
  | 29 => ⟨S_, .f32⟩
  | 30 => ⟨S256x16x512, .f32⟩
  | 31 => ⟨S256x16x512, .f32⟩
  | 32 => ⟨S_, .f32⟩
  | 33 => ⟨S256x16x512, .f32⟩
  | 34 => ⟨S256x16x512, .f32⟩
  | 35 => ⟨S256x512, .f32⟩
  | 36 => ⟨S256x16x512, .f32⟩
  | 37 => ⟨S_, .f32⟩
  | 38 => ⟨S256x512, .f32⟩
  | 39 => ⟨S256x512, .f32⟩
  | 40 => ⟨S256x512, .f32⟩
  | 41 => ⟨S256x512, .f32⟩
  | 42 => ⟨S16x16x512, .f32⟩
  | 43 => ⟨S16x16x512, .f32⟩
  | 44 => ⟨S_, .f32⟩
  | 45 => ⟨S16x512, .f32⟩
  | 46 => ⟨S16x1024, .f32⟩
  | 47 => ⟨S1024x512, .f32⟩
  | 48 => ⟨S16x512, .f32⟩
  | 49 => ⟨S1x512, .f32⟩
  | 50 => ⟨S16x512, .f32⟩
  | 51 => ⟨S16x512, .f32⟩
  | 52 => ⟨S16x512, .f32⟩
  | 53 => ⟨S16x512, .f32⟩
  | 54 => ⟨S_, .f32⟩
  | 55 => ⟨S16x512, .f32⟩
  | 56 => ⟨S16x512, .f32⟩
  | 57 => ⟨S_, .f32⟩
  | 58 => ⟨S16x512, .f32⟩
  | 59 => ⟨S16x512, .f32⟩
  | 60 => ⟨S1024x512, .f32⟩
  | 61 => ⟨S16x512, .f32⟩
  | 62 => ⟨S1x512, .f32⟩
  | 63 => ⟨S16x512, .f32⟩
  | 64 => ⟨S16x512, .f32⟩
  | 65 => ⟨S16x512, .f32⟩
  | 66 => ⟨S16x512, .f32⟩
  | 67 => ⟨S_, .f32⟩
  | 68 => ⟨S16x512, .f32⟩
  | 69 => ⟨S16x512, .f32⟩
  | 70 => ⟨S_, .f32⟩
  | 71 => ⟨S16x512, .f32⟩
  | 72 => ⟨S16x512, .f32⟩
  | 73 => ⟨S1024x512, .f32⟩
  | 74 => ⟨S16x512, .f32⟩
  | 75 => ⟨S1x512, .f32⟩
  | 76 => ⟨S16x512, .f32⟩
  | 77 => ⟨S16x512, .f32⟩
  | 78 => ⟨S16x512, .f32⟩
  | 79 => ⟨S16x1x512, .f32⟩
  | 80 => ⟨S16x16x512, .f32⟩
  | 81 => ⟨S16x16x1024, .f32⟩
  | 82 => ⟨S16x16x512, .f32⟩
  | 83 => ⟨S1x1x512, .f32⟩
  | 84 => ⟨S16x16x512, .f32⟩
  | 85 => ⟨S16x16x512, .f32⟩
  | 86 => ⟨S16x16x512, .f32⟩
  | 87 => ⟨S16x16x512, .f32⟩
  | 88 => ⟨S_, .f32⟩
  | 89 => ⟨S16x16x512, .f32⟩
  | 90 => ⟨S16x16x512, .f32⟩
  | 91 => ⟨S_, .f32⟩
  | 92 => ⟨S16x16x512, .f32⟩
  | 93 => ⟨S16x16x512, .f32⟩
  | 94 => ⟨S16x512, .f32⟩
  | 95 => ⟨S16x16x512, .f32⟩
  | 96 => ⟨S_, .f32⟩
  | 97 => ⟨S16x512, .f32⟩
  | 98 => ⟨S16x512, .f32⟩
  | 99 => ⟨S16x512, .f32⟩
  | 100 => ⟨S16x512, .f32⟩
  | 101 => ⟨S1x16x512, .f32⟩
  | 102 => ⟨S1x16x512, .f32⟩
  | 103 => ⟨S_, .f32⟩
  | 104 => ⟨S1x512, .f32⟩
  | 105 => ⟨S1x1024, .f32⟩
  | 106 => ⟨S1024x512, .f32⟩
  | 107 => ⟨S1x512, .f32⟩
  | 108 => ⟨S1x512, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S_, .f32⟩
  | 116 => ⟨S1x512, .f32⟩
  | 117 => ⟨S1x512, .f32⟩
  | 118 => ⟨S1024x512, .f32⟩
  | 119 => ⟨S1x512, .f32⟩
  | 120 => ⟨S1x512, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S_, .f32⟩
  | _ => ⟨S69905x512, .f32⟩

abbrev hbmTy0_2 (i : Nat) : BufTy := match i % 128 with
  | 0 => ⟨S1x512, .f32⟩
  | 1 => ⟨S1x512, .f32⟩
  | 2 => ⟨S1024x512, .f32⟩
  | 3 => ⟨S1x512, .f32⟩
  | 4 => ⟨S1x512, .f32⟩
  | 5 => ⟨S1x512, .f32⟩
  | 6 => ⟨S1x512, .f32⟩
  | 7 => ⟨S1x1x512, .f32⟩
  | 8 => ⟨S1x16x512, .f32⟩
  | 9 => ⟨S1x16x1024, .f32⟩
  | 10 => ⟨S1x16x512, .f32⟩
  | 11 => ⟨S1x1x512, .f32⟩
  | 12 => ⟨S1x16x512, .f32⟩
  | 13 => ⟨S1x16x512, .f32⟩
  | 14 => ⟨S1x16x512, .f32⟩
  | 15 => ⟨S1x16x512, .f32⟩
  | 16 => ⟨S_, .f32⟩
  | 17 => ⟨S1x16x512, .f32⟩
  | 18 => ⟨S1x16x512, .f32⟩
  | 19 => ⟨S_, .f32⟩
  | 20 => ⟨S1x16x512, .f32⟩
  | 21 => ⟨S1x16x512, .f32⟩
  | 22 => ⟨S1x512, .f32⟩
  | 23 => ⟨S1x16x512, .f32⟩
  | 24 => ⟨S_, .f32⟩
  | 25 => ⟨S1x512, .f32⟩
  | 26 => ⟨S1x512, .f32⟩
  | 27 => ⟨S1x512, .f32⟩
  | 28 => ⟨S1x512, .f32⟩
  | 29 => ⟨S512, .f32⟩
  | 30 => ⟨S512, .f32⟩
  | _ => ⟨S69905x512, .f32⟩

abbrev hbmTy (i : Nat) : BufTy := match i / 128 with
  | 0 => hbmTy0_0 i
  | 1 => hbmTy0_1 i
  | 2 => hbmTy0_2 i
  | _ => ⟨S69905x512, .f32⟩

abbrev bufTy : (tb : Table) → Fin (tcTables nBuf tb) → BufTy
  | .hbm, ⟨i, _⟩ => hbmTy i
  | _, _ => ⟨S69905x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_9 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_11 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_12 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_13 : Ref sig .tc := ⟨.hbm, 123, rfl⟩
abbrev main_v100 : Ref sig .tc := ⟨.hbm, 124, rfl⟩
abbrev main_v101 : Ref sig .tc := ⟨.hbm, 125, rfl⟩
abbrev main_cst_14 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_15 : Ref sig .tc := ⟨.hbm, 136, rfl⟩
abbrev main_v111 : Ref sig .tc := ⟨.hbm, 137, rfl⟩
abbrev main_v112 : Ref sig .tc := ⟨.hbm, 138, rfl⟩
abbrev main_cst_16 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_17 : Ref sig .tc := ⟨.hbm, 157, rfl⟩
abbrev main_v130 : Ref sig .tc := ⟨.hbm, 158, rfl⟩
abbrev main_v131 : Ref sig .tc := ⟨.hbm, 159, rfl⟩
abbrev main_cst_18 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_19 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_20 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_cst_21 : Ref sig .tc := ⟨.hbm, 182, rfl⟩
abbrev main_v151 : Ref sig .tc := ⟨.hbm, 183, rfl⟩
abbrev main_v152 : Ref sig .tc := ⟨.hbm, 184, rfl⟩
abbrev main_cst_22 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_23 : Ref sig .tc := ⟨.hbm, 195, rfl⟩
abbrev main_v162 : Ref sig .tc := ⟨.hbm, 196, rfl⟩
abbrev main_v163 : Ref sig .tc := ⟨.hbm, 197, rfl⟩
abbrev main_cst_24 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_cst_25 : Ref sig .tc := ⟨.hbm, 216, rfl⟩
abbrev main_v181 : Ref sig .tc := ⟨.hbm, 217, rfl⟩
abbrev main_v182 : Ref sig .tc := ⟨.hbm, 218, rfl⟩
abbrev main_cst_26 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_27 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_cst_28 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_cst_29 : Ref sig .tc := ⟨.hbm, 240, rfl⟩
abbrev main_v201 : Ref sig .tc := ⟨.hbm, 241, rfl⟩
abbrev main_v202 : Ref sig .tc := ⟨.hbm, 242, rfl⟩
abbrev main_cst_30 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_cst_31 : Ref sig .tc := ⟨.hbm, 252, rfl⟩
abbrev main_v211 : Ref sig .tc := ⟨.hbm, 253, rfl⟩
abbrev main_v212 : Ref sig .tc := ⟨.hbm, 254, rfl⟩
abbrev main_cst_32 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_cst_33 : Ref sig .tc := ⟨.hbm, 272, rfl⟩
abbrev main_v229 : Ref sig .tc := ⟨.hbm, 273, rfl⟩
abbrev main_v230 : Ref sig .tc := ⟨.hbm, 274, rfl⟩
abbrev main_cst_34 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_cst_35 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩

abbrev nD : Nat := 1
abbrev τ : Topo := Topo.v7x

variable {F : FTy → Type} [FloatOps F]

class Facts₀ : Prop where
  slices_S69905x512_S1x512_0_0 : S69905x512.Slices ![0, 0] S1x512
  slices_S69905x512_S16x512_1_0 : S69905x512.Slices ![1, 0] S16x512
  slices_S69905x512_S256x512_17_0 : S69905x512.Slices ![17, 0] S256x512
  slices_S69905x512_S4096x512_273_0 : S69905x512.Slices ![273, 0] S4096x512
  slices_S69905x512_S65536x512_4369_0 : S69905x512.Slices ![4369, 0] S65536x512
  bcast_S_S65536x512 : S_.BroadcastsInDim S65536x512 (![] : Fin 0 → Fin S65536x512.rank)
  concatenates_S65536x512_S65536x512_S65536x1024_d1 : Shape.Concatenates [S65536x512, S65536x512] S65536x1024 1
  transposes_S512x1024_S1024x512_1_0 : S512x1024.Transposes [1, 0] S1024x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S4096x16x512 : S65536x512.ShapeCasts S4096x16x512
  reducesTo_S4096x16x512_S4096x512_d1 : S4096x16x512.ReducesTo [1] S4096x512
  h_S_ : 0 < S_.numel
  concatenates_S4096x512_S4096x512_S4096x1024_d1 : Shape.Concatenates [S4096x512, S4096x512] S4096x1024 1
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S4096x512_S4096x1x512_0_2 : S4096x512.BroadcastsInDim S4096x1x512 (![0, 2] : Fin 2 → Fin S4096x1x512.rank)
  bcast_S4096x1x512_S4096x16x512_0_1_2 : S4096x1x512.BroadcastsInDim S4096x16x512 (![0, 1, 2] : Fin 3 → Fin S4096x16x512.rank)
  concatenates_S4096x16x512_S4096x16x512_S4096x16x1024_d2 : Shape.Concatenates [S4096x16x512, S4096x16x512] S4096x16x1024 2
  bcast_S512_S1x1x512_2 : S512.BroadcastsInDim S1x1x512 (![2] : Fin 1 → Fin S1x1x512.rank)
  bcast_S1x1x512_S4096x16x512_0_1_2 : S1x1x512.BroadcastsInDim S4096x16x512 (![0, 1, 2] : Fin 3 → Fin S4096x16x512.rank)
  bcast_S_S4096x16x512 : S_.BroadcastsInDim S4096x16x512 (![] : Fin 0 → Fin S4096x16x512.rank)
  shapeCasts_S4096x512_S256x16x512 : S4096x512.ShapeCasts S256x16x512
  reducesTo_S256x16x512_S256x512_d1 : S256x16x512.ReducesTo [1] S256x512
  concatenates_S256x512_S256x512_S256x1024_d1 : Shape.Concatenates [S256x512, S256x512] S256x1024 1
  bcast_S1x512_S256x512_0_1 : S1x512.BroadcastsInDim S256x512 (![0, 1] : Fin 2 → Fin S256x512.rank)
  bcast_S_S256x512 : S_.BroadcastsInDim S256x512 (![] : Fin 0 → Fin S256x512.rank)
  bcast_S256x512_S256x1x512_0_2 : S256x512.BroadcastsInDim S256x1x512 (![0, 2] : Fin 2 → Fin S256x1x512.rank)
  bcast_S256x1x512_S256x16x512_0_1_2 : S256x1x512.BroadcastsInDim S256x16x512 (![0, 1, 2] : Fin 3 → Fin S256x16x512.rank)
  concatenates_S256x16x512_S256x16x512_S256x16x1024_d2 : Shape.Concatenates [S256x16x512, S256x16x512] S256x16x1024 2
  bcast_S1x1x512_S256x16x512_0_1_2 : S1x1x512.BroadcastsInDim S256x16x512 (![0, 1, 2] : Fin 3 → Fin S256x16x512.rank)
  bcast_S_S256x16x512 : S_.BroadcastsInDim S256x16x512 (![] : Fin 0 → Fin S256x16x512.rank)
  shapeCasts_S256x512_S16x16x512 : S256x512.ShapeCasts S16x16x512
  reducesTo_S16x16x512_S16x512_d1 : S16x16x512.ReducesTo [1] S16x512
  concatenates_S16x512_S16x512_S16x1024_d1 : Shape.Concatenates [S16x512, S16x512] S16x1024 1
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S16x512_S16x1x512_0_2 : S16x512.BroadcastsInDim S16x1x512 (![0, 2] : Fin 2 → Fin S16x1x512.rank)
  bcast_S16x1x512_S16x16x512_0_1_2 : S16x1x512.BroadcastsInDim S16x16x512 (![0, 1, 2] : Fin 3 → Fin S16x16x512.rank)
  concatenates_S16x16x512_S16x16x512_S16x16x1024_d2 : Shape.Concatenates [S16x16x512, S16x16x512] S16x16x1024 2
  bcast_S1x1x512_S16x16x512_0_1_2 : S1x1x512.BroadcastsInDim S16x16x512 (![0, 1, 2] : Fin 3 → Fin S16x16x512.rank)
  bcast_S_S16x16x512 : S_.BroadcastsInDim S16x16x512 (![] : Fin 0 → Fin S16x16x512.rank)
  shapeCasts_S16x512_S1x16x512 : S16x512.ShapeCasts S1x16x512
  reducesTo_S1x16x512_S1x512_d1 : S1x16x512.ReducesTo [1] S1x512
  concatenates_S1x512_S1x512_S1x1024_d1 : Shape.Concatenates [S1x512, S1x512] S1x1024 1
  bcast_S_S1x512 : S_.BroadcastsInDim S1x512 (![] : Fin 0 → Fin S1x512.rank)
  bcast_S1x512_S1x1x512_0_2 : S1x512.BroadcastsInDim S1x1x512 (![0, 2] : Fin 2 → Fin S1x1x512.rank)
  bcast_S1x1x512_S1x16x512_0_1_2 : S1x1x512.BroadcastsInDim S1x16x512 (![0, 1, 2] : Fin 3 → Fin S1x16x512.rank)
  concatenates_S1x16x512_S1x16x512_S1x16x1024_d2 : Shape.Concatenates [S1x16x512, S1x16x512] S1x16x1024 2
  bcast_S_S1x16x512 : S_.BroadcastsInDim S1x16x512 (![] : Fin 0 → Fin S1x16x512.rank)
  shapeCasts_S1x512_S512 : S1x512.ShapeCasts S512
  dot_S65536x1024_S1024x512_S65536x512_1_0_0_1_n_n_wf : DotDims.WF S65536x1024 S1024x512 S65536x512 [1] [0] [0] [1] [] []
  dot_S4096x1024_S1024x512_S4096x512_1_0_0_1_n_n_wf : DotDims.WF S4096x1024 S1024x512 S4096x512 [1] [0] [0] [1] [] []
  dot_S4096x16x1024_S512x1024_S4096x16x512_2_1_01_0_n_n_wf : DotDims.WF S4096x16x1024 S512x1024 S4096x16x512 [2] [1] [0, 1] [0] [] []
  dot_S256x1024_S1024x512_S256x512_1_0_0_1_n_n_wf : DotDims.WF S256x1024 S1024x512 S256x512 [1] [0] [0] [1] [] []
  dot_S256x16x1024_S512x1024_S256x16x512_2_1_01_0_n_n_wf : DotDims.WF S256x16x1024 S512x1024 S256x16x512 [2] [1] [0, 1] [0] [] []
  dot_S16x1024_S1024x512_S16x512_1_0_0_1_n_n_wf : DotDims.WF S16x1024 S1024x512 S16x512 [1] [0] [0] [1] [] []
  dot_S16x16x1024_S512x1024_S16x16x512_2_1_01_0_n_n_wf : DotDims.WF S16x16x1024 S512x1024 S16x16x512 [2] [1] [0, 1] [0] [] []
  dot_S1x1024_S1024x512_S1x512_1_0_0_1_n_n_wf : DotDims.WF S1x1024 S1024x512 S1x512 [1] [0] [0] [1] [] []
  dot_S1x16x1024_S512x1024_S1x16x512_2_1_01_0_n_n_wf : DotDims.WF S1x16x1024 S512x1024 S1x16x512 [2] [1] [0, 1] [0] [] []

variable [Facts₀]

def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x16x1024_S512x1024_S4096x16x512_2_1_01_0_n_n : DotDims S4096x16x1024 S512x1024 S4096x16x512 where
  lhsContracting := [2]
  rhsContracting := [1]
  lhsNonContracting := [0, 1]
  rhsNonContracting := [0]
  lhsBatch := []
  rhsBatch := []
  wf := dot_S4096x16x1024_S512x1024_S4096x16x512_2_1_01_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x16x1024_S512x1024_S256x16x512_2_1_01_0_n_n : DotDims S256x16x1024 S512x1024 S256x16x512 where
  lhsContracting := [2]
  rhsContracting := [1]
  lhsNonContracting := [0, 1]
  rhsNonContracting := [0]
  lhsBatch := []
  rhsBatch := []
  wf := dot_S256x16x1024_S512x1024_S256x16x512_2_1_01_0_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S16x16x1024_S512x1024_S16x16x512_2_1_01_0_n_n : DotDims S16x16x1024 S512x1024 S16x16x512 where
  lhsContracting := [2]
  rhsContracting := [1]
  lhsNonContracting := [0, 1]
  rhsNonContracting := [0]
  lhsBatch := []
  rhsBatch := []
  wf := dot_S16x16x1024_S512x1024_S16x16x512_2_1_01_0_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x16x1024_S512x1024_S1x16x512_2_1_01_0_n_n : DotDims S1x16x1024 S512x1024 S1x16x512 where
  lhsContracting := [2]
  rhsContracting := [1]
  lhsNonContracting := [0, 1]
  rhsNonContracting := [0]
  lhsBatch := []
  rhsBatch := []
  wf := dot_S1x16x1024_S512x1024_S1x16x512_2_1_01_0_n_n_wf

class Facts : Prop extends Facts₀ where

variable [Facts]
-- ==== Proof.KerRun.lean ====
/-
  The idealized kernel program's run with its two results NAMED. Every weakly fair execution of @main from a
  memory m with zero counters terminates without a fault; at the end each of the two result arrays holds what
  the fold of the buffer contents through @main's nine segments (host operations, a pallas_call's write-backs,
  host operations, …) assigns to it — the last contents `Gen.W9 m ρ c` read at the result's buffer — and the
  nine argument arrays are as launched. The run is the launch over the segments that also gives the frame; the
  last thread state holds every unscoped buffer at `W9`, and here the two result buffers are read from it
  beside the arguments.
-/
import proofs.«172855_j27504970564112_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run : θ_run defs (onTc (τ := τ) (main (F := F))) ⟨m, fun _ => 0, ρ⟩ (fun r => ∀ c : Dev nD,
      r.2.mem ((c.tc : Thread nD τ).loc main_v31) = W9 m ρ c (Proc.devRef .tc main_v31)
      ∧ r.2.mem ((c.tc : Thread nD τ).loc main_v32) = W9 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v31 (by decide)), h c _ (mem_uc main_v32 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.KerFusedOps.lean ====
/-
  The operations of the fused leaf-and-parent kernel body read at an index of their result, at the instance where
  a float is an extended real: a matrix product into a zero accumulator is the sum over the contracted axis of
  products; a row broadcast over rows reads the row; the row-major reshapes between [1024, 512] and [64, 16, 512]
  identify row 16·p + b with (p, b); the lane sum over the sixteen children is a finite sum; a [64, 512] array
  broadcast over the children's axis reads its own row.
-/
import proofs.«172855_j27504970564112_2_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.FusedValue

open Cert.KernelIdeal Idealize.ShloMosaic Idealize.ShloMosaic.ValueIdx
open Cert.KernelIdeal.Facts₀ Cert.KernelIdeal.Facts

/-! ## Matrix products into a zero accumulator -/

abbrev D64 : DotDims S64x512 S512x512 S64x512 := dot_S64x512_S512x512_S64x512_1_0_0_1_n_n
abbrev D1024 : DotDims S1024x512 S512x512 S1024x512 := dot_S1024x512_S512x512_S1024x512_1_0_0_1_n_n

theorem lhs64_0 (i : S64x512.Idx) (q : D64.contr.Idx) : (D64.lhsIdx i q 0).val = (i 0).val := by
  unfold DotDims.lhsIdx
  rw [dif_neg (show ¬(0 : Fin S64x512.rank) ∈ D64.lhsBatch by decide), dif_pos (show (0 : Fin S64x512.rank) ∈ D64.lhsNonContracting by decide)]
  rfl
theorem lhs64_1 (i : S64x512.Idx) (q : D64.contr.Idx) : (D64.lhsIdx i q 1).val = (q ⟨0, by decide⟩).val :=
  D64.lhsIdx_val_of_single rfl i q
theorem rhs64_0 (i : S64x512.Idx) (q : D64.contr.Idx) : (D64.rhsIdx i q 0).val = (q ⟨0, by decide⟩).val :=
  D64.rhsIdx_val_of_single rfl i q
theorem rhs64_1 (i : S64x512.Idx) (q : D64.contr.Idx) : (D64.rhsIdx i q 1).val = (i 1).val := by
  unfold DotDims.rhsIdx
  rw [dif_neg (show ¬(1 : Fin S512x512.rank) ∈ D64.rhsBatch by decide), dif_pos (show (1 : Fin S512x512.rank) ∈ D64.rhsNonContracting by decide)]
  rfl

/-- Row p of A against column o of B, 64 rows. -/
theorem matmul64_apply {φ₁ φ₂ : FTy} (A : FVec Ideal S64x512 φ₁) (B : FVec Ideal S512x512 φ₂) (p : Fin 64) (o : Fin 512) :
    matmul D64 none A B (constant (F := Ideal) S64x512 .f32 0x00000000#32) (ix2 p o)
      = ∑ k : Fin 512, A (ix2 p k) * B (ix2 k o) := by
  show FloatOps.matmul D64 none A B (constant (F := Ideal) S64x512 .f32 0x00000000#32) (ix2 p o) = _
  rw [Ideal.matmul_constant_zero_apply, ← Equiv.sum_comp (contrEquiv1 D64 512 rfl rfl).symm]
  refine Finset.sum_congr rfl fun k _ => ?_
  have hk := contrEquiv1_symm_val D64 512 rfl rfl k
  have el : D64.lhsIdx (ix2 p o) ((contrEquiv1 D64 512 rfl rfl).symm k) = ix2 p k := funext fun a => Fin.ext (by
    match a with
    | ⟨0, _⟩ => exact lhs64_0 _ _
    | ⟨1, _⟩ => exact (lhs64_1 _ _).trans hk)
  have er : D64.rhsIdx (ix2 p o) ((contrEquiv1 D64 512 rfl rfl).symm k) = ix2 k o := funext fun a => Fin.ext (by
    match a with
    | ⟨0, _⟩ => exact (rhs64_0 _ _).trans hk
    | ⟨1, _⟩ => exact rhs64_1 _ _)
  rw [el, er]

theorem lhs1024_0 (i : S1024x512.Idx) (q : D1024.contr.Idx) : (D1024.lhsIdx i q 0).val = (i 0).val := by
  unfold DotDims.lhsIdx
  rw [dif_neg (show ¬(0 : Fin S1024x512.rank) ∈ D1024.lhsBatch by decide), dif_pos (show (0 : Fin S1024x512.rank) ∈ D1024.lhsNonContracting by decide)]
  rfl
theorem lhs1024_1 (i : S1024x512.Idx) (q : D1024.contr.Idx) : (D1024.lhsIdx i q 1).val = (q ⟨0, by decide⟩).val :=
  D1024.lhsIdx_val_of_single rfl i q
theorem rhs1024_0 (i : S1024x512.Idx) (q : D1024.contr.Idx) : (D1024.rhsIdx i q 0).val = (q ⟨0, by decide⟩).val :=
  D1024.rhsIdx_val_of_single rfl i q
theorem rhs1024_1 (i : S1024x512.Idx) (q : D1024.contr.Idx) : (D1024.rhsIdx i q 1).val = (i 1).val := by
  unfold DotDims.rhsIdx
  rw [dif_neg (show ¬(1 : Fin S512x512.rank) ∈ D1024.rhsBatch by decide), dif_pos (show (1 : Fin S512x512.rank) ∈ D1024.rhsNonContracting by decide)]
  rfl

/-- Row r of A against column o of B, 1024 rows. -/
theorem matmul1024_apply {φ₁ φ₂ : FTy} (A : FVec Ideal S1024x512 φ₁) (B : FVec Ideal S512x512 φ₂) (r : Fin 1024) (o : Fin 512) :
    matmul D1024 none A B (constant (F := Ideal) S1024x512 .f32 0x00000000#32) (ix2 r o)
      = ∑ k : Fin 512, A (ix2 r k) * B (ix2 k o) := by
  show FloatOps.matmul D1024 none A B (constant (F := Ideal) S1024x512 .f32 0x00000000#32) (ix2 r o) = _
  rw [Ideal.matmul_constant_zero_apply, ← Equiv.sum_comp (contrEquiv1 D1024 512 rfl rfl).symm]
  refine Finset.sum_congr rfl fun k _ => ?_
  have hk := contrEquiv1_symm_val D1024 512 rfl rfl k
  have el : D1024.lhsIdx (ix2 r o) ((contrEquiv1 D1024 512 rfl rfl).symm k) = ix2 r k := funext fun a => Fin.ext (by
    match a with
    | ⟨0, _⟩ => exact lhs1024_0 _ _
    | ⟨1, _⟩ => exact (lhs1024_1 _ _).trans hk)
  have er : D1024.rhsIdx (ix2 r o) ((contrEquiv1 D1024 512 rfl rfl).symm k) = ix2 k o := funext fun a => Fin.ext (by
    match a with
    | ⟨0, _⟩ => exact (rhs1024_0 _ _).trans hk
    | ⟨1, _⟩ => exact rhs1024_1 _ _)
  rw [el, er]

/-! ## Layout -/

/-- One row broadcast over 64 rows. -/
theorem bcast64_apply {φ : FTy} (v : FVec Ideal S1x512 φ) (p : Fin 64) (o : Fin 512) :
    broadcastTo S64x512 v broadcasts_S1x512_S64x512 (ix2 p o) = v (ix2 (0 : Fin 1) o) :=
  broadcastTo_1b_ab_apply v broadcasts_S1x512_S64x512 p o

/-- One row broadcast over 1024 rows. -/
theorem bcast1024_apply {φ : FTy} (v : FVec Ideal S1x512 φ) (r : Fin 1024) (o : Fin 512) :
    broadcastTo S1024x512 v broadcasts_S1x512_S1024x512 (ix2 r o) = v (ix2 (0 : Fin 1) o) :=
  broadcastTo_1b_ab_apply v broadcasts_S1x512_S1024x512 r o

/-- Row 16·p + b of the flat array is entry (p, b) of the reshaped one. -/
theorem unflatten_apply {α : Type} (v : S1024x512.Idx → α) (p : Fin 64) (b : Fin 16) (o : Fin 512) :
    shapeCast S64x16x512 v shapeCasts_S1024x512_S64x16x512 (ix3 p b o)
      = v (ix2 (⟨16 * p.val + b.val, by omega⟩ : Fin 1024) o) :=
  shapeCast_apply v shapeCasts_S1024x512_S64x16x512 _ _ (by
    rw [Shape.rowMajor_val_three, Shape.rowMajor_val_two]
    show (16 * p.val + b.val) * 512 + o.val = (p.val * 16 + b.val) * 512 + o.val
    omega)

/-- Entry (p, b) of the [64, 16, 512] array is row 16·p + b of the flattened one. -/
theorem flatten_apply {α : Type} (v : S64x16x512.Idx → α) (p : Fin 64) (b : Fin 16) (o : Fin 512) :
    shapeCast S1024x512 v shapeCasts_S64x16x512_S1024x512 (ix2 (⟨16 * p.val + b.val, by omega⟩ : Fin 1024) o)
      = v (ix3 p b o) :=
  shapeCast_apply v shapeCasts_S64x16x512_S1024x512 _ _ (by
    rw [Shape.rowMajor_val_three, Shape.rowMajor_val_two]
    show (p.val * 16 + b.val) * 512 + o.val = (16 * p.val + b.val) * 512 + o.val
    omega)

/-- A [64, 512] array given a unit middle axis and broadcast over the sixteen children reads its own row. -/
theorem overChildren_apply {φ : FTy} (v : FVec Ideal S64x512 φ) (p : Fin 64) (b : Fin 16) (o : Fin 512) :
    broadcastTo S64x16x512 (shapeCast S64x1x512 v shapeCasts_S64x512_S64x1x512) broadcasts_S64x1x512_S64x16x512 (ix3 p b o)
      = v (ix2 p o) := by
  rw [broadcastTo_apply (shapeCast S64x1x512 v shapeCasts_S64x512_S64x1x512) broadcasts_S64x1x512_S64x16x512 (ix3 p b o)
      (ix3 p (0 : Fin 1) o) (fun a => by
        match a with
        | ⟨0, _⟩ => rfl
        | ⟨1, _⟩ => rfl
        | ⟨2, _⟩ => rfl)]
  exact shapeCast_apply v shapeCasts_S64x512_S64x1x512 _ _ (by
    rw [Shape.rowMajor_val_three, Shape.rowMajor_val_two]
    show p.val * 512 + o.val = (p.val * 1 + 0) * 512 + o.val
    omega)

/-- The lane sum over the children's axis. -/
theorem sumChildren_apply (src : FVec Ideal S64x16x512 .f32) (p : Fin 64) (o : Fin 512) :
    multiReduction (F := Ideal) .add [1] S64x512 src 0x00000000#32 reduces_S64x16x512_S64x512 (.inl rfl) rfl (ix2 p o)
      = ∑ b : Fin 16, src (ix3 p b o) := by
  rw [Ideal.multiReduction_add_single src 0x00000000#32 reduces_S64x16x512_S64x512 (.inl rfl) rfl (ix2 p o)]
  refine Finset.sum_congr rfl fun b _ => congrArg src ?_
  funext a
  match a with
  | ⟨0, _⟩ => rfl
  | ⟨1, _⟩ => rfl
  | ⟨2, _⟩ => rfl

end Cert.KernelIdeal.FusedValue

end
-- ==== Proof.Spec.lean ====
/-
  The child-sum tree LSTM cell on rows of 512 extended reals, and the five levels of the 16-ary tree of depth 4.

  A node's state is a pair of rows (hidden H, cell C). A leaf with input row x has
    C = σ(aᵢ(x)) · tanh(aᵤ(x)),  H = σ(aₒ(x)) · tanh(C),
  and an inner node with input row x and children (H₀,C₀) … (H₁₅,C₁₅) has, with s = Σⱼ Hⱼ,
    C = σ(aᵢ(x,s)) · tanh(aᵤ(x,s)) + Σⱼ σ(a_f(x,Cⱼ)) · Cⱼ,  H = σ(aₒ(x,s)) · tanh(C),
  where every a_g is the affine map  (x,h) ↦ x·W_gᵀ[0:512] + h·W_gᵀ[512:1024] + b_g  of the gate's weight
  matrix W_g : 512 × 1024 and bias b_g (for a leaf h = 0).  The cell is stated over an abstract bundle `Pres`
  of the seven pre-activation maps, so that two different ARRANGEMENTS of the affine maps — the sum over the
  two halves of the weight matrix taken separately (with the bias added before or after the second half), and
  the one sum over all 1024 columns against the concatenated row — give the same tree once the bundles are
  shown equal (`kerPres_eq_refPres`): only commutativity and associativity of + on the extended reals, the
  splitting of a sum over Fin (512+512), and 0·w = 0 are used; no finiteness.
-/
import Idealize.ShloMosaic.PureOps.Ideal
import Mathlib.Algebra.BigOperators.Fin

noncomputable section

namespace Cert.TreeCell

open Idealize.ShloMosaic

/-- A row of 512 extended reals. -/
abbrev Row := Fin 512 → EReal

/-- The pre-activations of the four gates (input, output, update, forget) as maps of the input row and the
    hidden (for the forget gate: one child's cell) row, and of the three gates a leaf has as maps of its input row. -/
structure Pres where
  i : Row → Row → Row
  o : Row → Row → Row
  u : Row → Row → Row
  f : Row → Row → Row
  li : Row → Row
  lo : Row → Row
  lu : Row → Row

/-- The sum of the sixteen children's rows. -/
def hsum (H : Fin 16 → Row) : Row := fun k => ∑ j : Fin 16, H j k

/-- An inner node's cell row. -/
def nodeC (P : Pres) (x : Row) (H C : Fin 16 → Row) : Row := fun c =>
  Ideal.logistic (P.i x (hsum H) c) * Ideal.tanh (P.u x (hsum H) c)
    + ∑ j : Fin 16, Ideal.logistic (P.f x (C j) c) * C j c

/-- An inner node's hidden row. -/
def nodeH (P : Pres) (x : Row) (H C : Fin 16 → Row) : Row := fun c =>
  Ideal.logistic (P.o x (hsum H) c) * Ideal.tanh (nodeC P x H C c)

/-- A leaf's cell row. -/
def leafC (P : Pres) (x : Row) : Row := fun c => Ideal.logistic (P.li x c) * Ideal.tanh (P.lu x c)

/-- A leaf's hidden row. -/
def leafH (P : Pres) (x : Row) : Row := fun c => Ideal.logistic (P.lo x c) * Ideal.tanh (leafC P x c)

/-! ## The tree: rows 0, 1–16, 17–272, 273–4368, 4369–69904 of the input are levels 0 … 4; node n of a level has
    children 16n … 16n+15 of the next. -/

section Tree
variable (P : Pres) (x : Fin 69905 → Row)

def lvl4C (j : Fin 65536) : Row := leafC P (x ⟨4369 + j.val, by omega⟩)
def lvl4H (j : Fin 65536) : Row := leafH P (x ⟨4369 + j.val, by omega⟩)
def lvl3C (n : Fin 4096) : Row :=
  nodeC P (x ⟨273 + n.val, by omega⟩) (fun b => lvl4H P x ⟨16 * n.val + b.val, by omega⟩) (fun b => lvl4C P x ⟨16 * n.val + b.val, by omega⟩)
def lvl3H (n : Fin 4096) : Row :=
  nodeH P (x ⟨273 + n.val, by omega⟩) (fun b => lvl4H P x ⟨16 * n.val + b.val, by omega⟩) (fun b => lvl4C P x ⟨16 * n.val + b.val, by omega⟩)
def lvl2C (n : Fin 256) : Row :=
  nodeC P (x ⟨17 + n.val, by omega⟩) (fun b => lvl3H P x ⟨16 * n.val + b.val, by omega⟩) (fun b => lvl3C P x ⟨16 * n.val + b.val, by omega⟩)
def lvl2H (n : Fin 256) : Row :=
  nodeH P (x ⟨17 + n.val, by omega⟩) (fun b => lvl3H P x ⟨16 * n.val + b.val, by omega⟩) (fun b => lvl3C P x ⟨16 * n.val + b.val, by omega⟩)
def lvl1C (n : Fin 16) : Row :=
  nodeC P (x ⟨1 + n.val, by omega⟩) (fun b => lvl2H P x ⟨16 * n.val + b.val, by omega⟩) (fun b => lvl2C P x ⟨16 * n.val + b.val, by omega⟩)
def lvl1H (n : Fin 16) : Row :=
  nodeH P (x ⟨1 + n.val, by omega⟩) (fun b => lvl2H P x ⟨16 * n.val + b.val, by omega⟩) (fun b => lvl2C P x ⟨16 * n.val + b.val, by omega⟩)
def lvl0C : Row := nodeC P (x ⟨0, by omega⟩) (fun b => lvl1H P x b) (fun b => lvl1C P x b)
def lvl0H : Row := nodeH P (x ⟨0, by omega⟩) (fun b => lvl1H P x b) (fun b => lvl1C P x b)

end Tree

/-! ## Two arrangements of the affine maps -/

/-- Over the two halves of the transposed weight matrix, each 512 × 512 and indexed [input k][output c]: first
    half against the input row, second against the hidden row, then the bias. -/
def lin2 (Win Whid : Fin 512 → Fin 512 → EReal) (b : Row) (x h : Row) : Row := fun c =>
  (∑ k : Fin 512, x k * Win k c) + (∑ k : Fin 512, h k * Whid k c) + b c

/-- The same with the bias added to the first half's sum before the second half's sum is added. -/
def lin2f (Win Whid : Fin 512 → Fin 512 → EReal) (b : Row) (x h : Row) : Row := fun c =>
  ((∑ k : Fin 512, x k * Win k c) + b c) + ∑ k : Fin 512, h k * Whid k c

/-- A leaf: the first half only. -/
def lin1 (Win : Fin 512 → Fin 512 → EReal) (b : Row) (x : Row) : Row := fun c =>
  (∑ k : Fin 512, x k * Win k c) + b c

/-- The bundle in the split arrangement. -/
def kerPres (Wi_in Wi_hid : Fin 512 → Fin 512 → EReal) (bi : Row) (Wo_in Wo_hid : Fin 512 → Fin 512 → EReal) (bo : Row)
    (Wu_in Wu_hid : Fin 512 → Fin 512 → EReal) (bu : Row) (Wf_in Wf_hid : Fin 512 → Fin 512 → EReal) (bf : Row) : Pres where
  i := lin2 Wi_in Wi_hid bi
  o := lin2 Wo_in Wo_hid bo
  u := lin2 Wu_in Wu_hid bu
  f := lin2f Wf_in Wf_hid bf
  li := lin1 Wi_in bi
  lo := lin1 Wo_in bo
  lu := lin1 Wu_in bu

/-- A row of 1024: the input row, then the hidden row. -/
def cat (x h : Row) : Fin 1024 → EReal := fun k =>
  if hk : k.val < 512 then x ⟨k.val, hk⟩ else h ⟨k.val - 512, by have := k.isLt; omega⟩

theorem cat_left (x h : Row) (k : Fin 1024) (hk : k.val < 512) : cat x h k = x ⟨k.val, hk⟩ := dif_pos hk

theorem cat_right (x h : Row) (k : Fin 1024) (hk : 512 ≤ k.val) :
    cat x h k = h ⟨k.val - 512, by have := k.isLt; omega⟩ := dif_neg (by omega)

/-- Over the whole weight matrix W : 512 × 1024, indexed [output c][column k], against a row of 1024. -/
def linCat (W : Fin 512 → Fin 1024 → EReal) (b : Row) (xh : Fin 1024 → EReal) : Row := fun c =>
  (∑ k : Fin 1024, xh k * W c k) + b c

/-- The bundle in the concatenated arrangement; a leaf's hidden row is zero. -/
def refPres (Wi : Fin 512 → Fin 1024 → EReal) (bi : Row) (Wo : Fin 512 → Fin 1024 → EReal) (bo : Row)
    (Wu : Fin 512 → Fin 1024 → EReal) (bu : Row) (Wf : Fin 512 → Fin 1024 → EReal) (bf : Row) : Pres where
  i := fun x h => linCat Wi bi (cat x h)
  o := fun x h => linCat Wo bo (cat x h)
  u := fun x h => linCat Wu bu (cat x h)
  f := fun x h => linCat Wf bf (cat x h)
  li := fun x => linCat Wi bi (cat x (fun _ => 0))
  lo := fun x => linCat Wo bo (cat x (fun _ => 0))
  lu := fun x => linCat Wu bu (cat x (fun _ => 0))

/-- The first half of a weight matrix, transposed. -/
def inHalf (W : Fin 512 → Fin 1024 → EReal) : Fin 512 → Fin 512 → EReal := fun k c => W c ⟨k.val, by omega⟩
/-- The second half of a weight matrix, transposed. -/
def hidHalf (W : Fin 512 → Fin 1024 → EReal) : Fin 512 → Fin 512 → EReal := fun k c => W c ⟨512 + k.val, by omega⟩

/-- The sum over the 1024 columns against a concatenated row splits into the two halves' sums. -/
theorem sum_cat (W : Fin 512 → Fin 1024 → EReal) (x h : Row) (c : Fin 512) :
    (∑ k : Fin 1024, cat x h k * W c k)
      = (∑ k : Fin 512, x k * inHalf W k c) + ∑ k : Fin 512, h k * hidHalf W k c := by
  have e := Fin.sum_univ_add (M := EReal) (a := 512) (b := 512) (fun k : Fin (512 + 512) => cat x h k * W c k)
  refine e.trans (congrArg₂ (· + ·) ?_ ?_)
  · refine Finset.sum_congr rfl fun k _ => ?_
    have hk : (Fin.castAdd 512 k : Fin (512 + 512)).val < 512 := k.isLt
    show cat x h (Fin.castAdd 512 k) * W c (Fin.castAdd 512 k) = _
    rw [cat_left x h _ hk]; rfl
  · refine Finset.sum_congr rfl fun k _ => ?_
    have hk : 512 ≤ (Fin.natAdd 512 k : Fin (512 + 512)).val := Nat.le_add_right _ _
    show cat x h (Fin.natAdd 512 k) * W c (Fin.natAdd 512 k) = _
    rw [cat_right x h _ hk]
    have e1 : (⟨(Fin.natAdd 512 k : Fin (512 + 512)).val - 512, by have := k.isLt; simp only [Fin.val_natAdd]; omega⟩ : Fin 512) = k :=
      Fin.ext (by simp only [Fin.val_natAdd]; omega)
    rw [e1]; rfl

theorem linCat_cat (W : Fin 512 → Fin 1024 → EReal) (b x h : Row) :
    linCat W b (cat x h) = lin2 (inHalf W) (hidHalf W) b x h := by
  funext c; unfold linCat lin2; rw [sum_cat]

theorem linCat_cat_f (W : Fin 512 → Fin 1024 → EReal) (b x h : Row) :
    linCat W b (cat x h) = lin2f (inHalf W) (hidHalf W) b x h := by
  funext c; unfold linCat lin2f; rw [sum_cat]; exact add_right_comm _ _ _

theorem linCat_cat_zero (W : Fin 512 → Fin 1024 → EReal) (b x : Row) :
    linCat W b (cat x (fun _ => 0)) = lin1 (inHalf W) b x := by
  funext c; unfold linCat lin1; rw [sum_cat]
  simp only [zero_mul, Finset.sum_const_zero, add_zero]

/-- The two bundles are one. -/
theorem kerPres_eq_refPres (Wi : Fin 512 → Fin 1024 → EReal) (bi : Row) (Wo : Fin 512 → Fin 1024 → EReal) (bo : Row)
    (Wu : Fin 512 → Fin 1024 → EReal) (bu : Row) (Wf : Fin 512 → Fin 1024 → EReal) (bf : Row) :
    kerPres (inHalf Wi) (hidHalf Wi) bi (inHalf Wo) (hidHalf Wo) bo (inHalf Wu) (hidHalf Wu) bu (inHalf Wf) (hidHalf Wf) bf
      = refPres Wi bi Wo bo Wu bu Wf bf := by
  have e2 : ∀ (W : Fin 512 → Fin 1024 → EReal) (b : Row),
      (fun x h => linCat W b (cat x h)) = lin2 (inHalf W) (hidHalf W) b :=
    fun W b => funext fun x => funext fun h => linCat_cat W b x h
  have ef : (fun x h => linCat Wf bf (cat x h)) = lin2f (inHalf Wf) (hidHalf Wf) bf :=
    funext fun x => funext fun h => linCat_cat_f Wf bf x h
  have e1 : ∀ (W : Fin 512 → Fin 1024 → EReal) (b : Row),
      (fun x => linCat W b (cat x (fun _ => 0))) = lin1 (inHalf W) b :=
    fun W b => funext fun x => linCat_cat_zero W b x
  unfold kerPres refPres
  rw [ef, e2 Wi bi, e2 Wo bo, e2 Wu bu, e1 Wi bi, e1 Wo bo, e1 Wu bu]

end Cert.TreeCell

end
-- ==== Proof.KerFusedPay.lean ====
/-
  The fused kernel body's stored values at an index, as the tree cell. One grid point holds 64 parents (rows of
  x0) and their 1024 leaves (rows of x1; the children of parent p are rows 16·p … 16·p + 15). Each leaf's cell and
  hidden rows are the leaf cell of its input row; a parent's input, output and update gates are the affine maps of
  its row and of the sum of its leaves' hidden rows over the two halves of the gate's matrix; its forget gate for
  child b is the affine map of its row and that child's cell row, the bias added before the second half's sum; its
  cell and hidden rows are then the inner-node cell. Format changes are the identity on extended reals, so the
  bf16 copies of the operands are the operands.
-/
import proofs.«172855_j27504970564112_2_alg».proof.Proof.Gen.KernelIdeal.Skeleton
import proofs.«172855_j27504970564112_2_alg».proof.Proof.KerFusedOps
import proofs.«172855_j27504970564112_2_alg».proof.Proof.Spec

noncomputable section

namespace Cert.KernelIdeal.FusedValue

open Cert.KernelIdeal Cert.KernelIdeal.Gen Cert.TreeCell Idealize.ShloMosaic Idealize.ShloMosaic.ValueIdx
open Cert.KernelIdeal.Facts₀ Cert.KernelIdeal.Facts

theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- A weight block as a matrix indexed [input k][output c]. -/
abbrev mat (W : Vec Ideal S512x512 .f32) : Fin 512 → Fin 512 → EReal := fun k c => W (ix2 k c)
/-- A bias block as a row. -/
abbrev bias (B : Vec Ideal S1x512 .f32) : Row := fun c => B (ix2 (0 : Fin 1) c)
/-- Row r of the leaves' block. -/
abbrev leafRow (X : Vec Ideal S1024x512 .f32) (r : Fin 1024) : Row := fun k => X (ix2 r k)

theorem leaf_cell (x1 : Vec Ideal S1024x512 .f32) (x2 x8 : Vec Ideal S512x512 .f32) (x4 x10 : Vec Ideal S1x512 .f32)
    (r : Fin 1024) (o : Fin 512) :
    k0_pay8 x1 x2 x8 x4 x10 (ix2 r o)
      = Ideal.logistic (lin1 (mat x2) (bias x4) (leafRow x1 r) o) * Ideal.tanh (lin1 (mat x8) (bias x10) (leafRow x1 r) o) := by
  unfold k0_pay8 k0_pay4 k0_pay5 k0_pay7
  dsimp only
  rw [mulf_apply, logistic_apply, tanh_apply, addf_apply, addf_apply, matmul1024_apply, matmul1024_apply, bcast1024_apply, bcast1024_apply]
  simp only [shapeCast_self]
  rfl

/-- The leaves' cells reshaped: child b of parent p is row 16·p + b. -/
theorem leaf_cell3 (x1 : Vec Ideal S1024x512 .f32) (x2 x8 : Vec Ideal S512x512 .f32) (x4 x10 : Vec Ideal S1x512 .f32)
    (p : Fin 64) (b : Fin 16) (o : Fin 512) :
    k0_pay9 x1 x2 x8 x4 x10 (ix3 p b o) = k0_pay8 x1 x2 x8 x4 x10 (ix2 (⟨16 * p.val + b.val, by omega⟩ : Fin 1024) o) := by
  unfold k0_pay9
  exact unflatten_apply _ p b o

/-- The sum over a parent's sixteen leaves of their hidden rows. -/
theorem leaf_hsum (x1 : Vec Ideal S1024x512 .f32) (x2 x5 x8 : Vec Ideal S512x512 .f32) (x4 x7 x10 : Vec Ideal S1x512 .f32)
    (p : Fin 64) (o : Fin 512) :
    k0_pay10 x1 x2 x5 x8 x4 x7 x10 (ix2 p o)
      = ∑ b : Fin 16, Ideal.logistic (lin1 (mat x5) (bias x7) (leafRow x1 ⟨16 * p.val + b.val, by omega⟩) o)
          * Ideal.tanh (k0_pay8 x1 x2 x8 x4 x10 (ix2 (⟨16 * p.val + b.val, by omega⟩ : Fin 1024) o)) := by
  unfold k0_pay10 k0_pay4 k0_pay6
  dsimp only
  rw [sumChildren_apply]
  refine Finset.sum_congr rfl fun b _ => ?_
  rw [unflatten_apply, mulf_apply, logistic_apply, tanh_apply, addf_apply, matmul1024_apply, bcast1024_apply]
  simp only [shapeCast_self]
  rfl

/-- A parent gate's pre-activation: the parent's row against the first half, the children's sum against the second, the bias. -/
theorem gate_pre (v5 : FVec Ideal S512x512 .bf16) (v35 : FVec Ideal S64x512 .f32) (v38 : FVec Ideal S64x512 .bf16)
    (v40 : Vec Ideal S512x512 .f32) (v52 : Vec Ideal S1x512 .f32) (p : Fin 64) (o : Fin 512) :
    addf (addf (matmul D64 none v38 v5 (constant (F := Ideal) S64x512 .f32 0x00000000#32))
        (matmul D64 none (k0_pay12 v35) (truncf .bf16 (shapeCast S512x512 v40 Facts₀.shapeCasts_S512x512_S512x512) Facts₀.bitsLt_bf16_f32)
          (constant (F := Ideal) S64x512 .f32 0x00000000#32)))
      (broadcastTo S64x512 (shapeCast S1x512 v52 Facts₀.shapeCasts_S1x512_S1x512) Facts₀.broadcasts_S1x512_S64x512) (ix2 p o)
      = lin2 (fun k c => v5 (ix2 k c)) (mat v40) (bias v52) (fun k => v38 (ix2 p k)) (fun k => v35 (ix2 p k)) o := by
  rw [addf_apply, addf_apply, matmul64_apply, matmul64_apply, bcast64_apply]
  unfold k0_pay12
  simp only [shapeCast_self]
  rfl

theorem gate_i (v5 : FVec Ideal S512x512 .bf16) (v35 : FVec Ideal S64x512 .f32) (v38 : FVec Ideal S64x512 .bf16)
    (v40 : Vec Ideal S512x512 .f32) (v52 : Vec Ideal S1x512 .f32) (p : Fin 64) (o : Fin 512) :
    k0_pay13 v5 v35 v38 v40 v52 (ix2 p o)
      = Ideal.logistic (lin2 (fun k c => v5 (ix2 k c)) (mat v40) (bias v52) (fun k => v38 (ix2 p k)) (fun k => v35 (ix2 p k)) o) := by
  unfold k0_pay13
  rw [logistic_apply, gate_pre]

theorem gate_o (v8 : FVec Ideal S512x512 .bf16) (v35 : FVec Ideal S64x512 .f32) (v38 : FVec Ideal S64x512 .bf16)
    (v43 : Vec Ideal S512x512 .f32) (v60 : Vec Ideal S1x512 .f32) (p : Fin 64) (o : Fin 512) :
    k0_pay14 v8 v35 v38 v43 v60 (ix2 p o)
      = Ideal.logistic (lin2 (fun k c => v8 (ix2 k c)) (mat v43) (bias v60) (fun k => v38 (ix2 p k)) (fun k => v35 (ix2 p k)) o) := by
  unfold k0_pay14
  rw [logistic_apply, gate_pre]

theorem gate_u (v11 : FVec Ideal S512x512 .bf16) (v35 : FVec Ideal S64x512 .f32) (v38 : FVec Ideal S64x512 .bf16)
    (v46 : Vec Ideal S512x512 .f32) (v68 : Vec Ideal S1x512 .f32) (p : Fin 64) (o : Fin 512) :
    k0_pay15 v11 v35 v38 v46 v68 (ix2 p o)
      = Ideal.tanh (lin2 (fun k c => v11 (ix2 k c)) (mat v46) (bias v68) (fun k => v38 (ix2 p k)) (fun k => v35 (ix2 p k)) o) := by
  unfold k0_pay15
  rw [tanh_apply, gate_pre]

/-- The parent's cell: input gate times update, plus the children's cells each through its own forget gate. -/
theorem parent_cell (v34 : FVec Ideal S64x16x512 .f32) (v38 : FVec Ideal S64x512 .bf16) (v56 v72 : FVec Ideal S64x512 .f32)
    (v75 : FVec Ideal S512x512 .bf16) (v76 : Vec Ideal S512x512 .f32) (v80 : Vec Ideal S1x512 .f32) (p : Fin 64) (o : Fin 512) :
    k0_pay1 v34 v38 v56 v72 v75 v76 v80 (ix2 p o)
      = v56 (ix2 p o) * v72 (ix2 p o)
        + ∑ b : Fin 16, Ideal.logistic (lin2f (fun k c => v75 (ix2 k c)) (mat v76) (bias v80) (fun k => v38 (ix2 p k))
            (fun k => v34 (ix3 p b k)) o) * v34 (ix3 p b o) := by
  unfold k0_pay1
  dsimp only
  rw [addf_apply, mulf_apply, sumChildren_apply]
  congr 1
  refine Finset.sum_congr rfl fun b _ => ?_
  rw [mulf_apply, logistic_apply, addf_apply, overChildren_apply, addf_apply, matmul64_apply, bcast64_apply, unflatten_apply,
    matmul1024_apply]
  simp only [truncf_apply, flatten_apply, shapeCast_self]
  rfl

/-! ## The two stored values as the tree cell -/

section Stored
variable (x0 : Vec Ideal S64x512 .f32) (x1 : Vec Ideal S1024x512 .f32)
  (x2 x3 : Vec Ideal S512x512 .f32) (x4 : Vec Ideal S1x512 .f32) (x5 x6 : Vec Ideal S512x512 .f32) (x7 : Vec Ideal S1x512 .f32)
  (x8 x9 : Vec Ideal S512x512 .f32) (x10 : Vec Ideal S1x512 .f32) (x11 x12 : Vec Ideal S512x512 .f32) (x13 : Vec Ideal S1x512 .f32)

/-- The pre-activations over the weight and bias blocks of one grid point. -/
abbrev blockPres : Pres :=
  kerPres (mat x2) (mat x3) (bias x4) (mat x5) (mat x6) (bias x7) (mat x8) (mat x9) (bias x10) (mat x11) (mat x12) (bias x13)

theorem leafC_eq (r : Fin 1024) (o : Fin 512) :
    k0_pay8 x1 x2 x8 x4 x10 (ix2 r o) = leafC (blockPres x2 x3 x4 x5 x6 x7 x8 x9 x10 x11 x12 x13) (leafRow x1 r) o :=
  leaf_cell x1 x2 x8 x4 x10 r o

theorem leafH_sum_eq (p : Fin 64) (k : Fin 512) :
    k0_pay10 x1 x2 x5 x8 x4 x7 x10 (ix2 p k)
      = hsum (fun b => leafH (blockPres x2 x3 x4 x5 x6 x7 x8 x9 x10 x11 x12 x13) (leafRow x1 ⟨16 * p.val + b.val, by omega⟩)) k := by
  rw [leaf_hsum]
  refine Finset.sum_congr rfl fun b _ => ?_
  rw [leaf_cell]
  rfl

/-- The cell value stored for parent p: the tree cell of its row and its sixteen leaves. -/
theorem storedC_eq (p : Fin 64) (o : Fin 512) :
    k0_pay3 (k0_pay9 x1 x2 x8 x4 x10) (k0_pay11 x0)
        (k0_pay13 (k0_pay5 x2) (k0_pay10 x1 x2 x5 x8 x4 x7 x10) (k0_pay11 x0) x3 x4)
        (k0_pay15 (k0_pay7 x8) (k0_pay10 x1 x2 x5 x8 x4 x7 x10) (k0_pay11 x0) x9 x10)
        (k0_pay16 x11) x12 x13 (ix2 p o)
      = nodeC (blockPres x2 x3 x4 x5 x6 x7 x8 x9 x10 x11 x12 x13) (fun k => x0 (ix2 p k))
          (fun b => leafH (blockPres x2 x3 x4 x5 x6 x7 x8 x9 x10 x11 x12 x13) (leafRow x1 ⟨16 * p.val + b.val, by omega⟩))
          (fun b => leafC (blockPres x2 x3 x4 x5 x6 x7 x8 x9 x10 x11 x12 x13) (leafRow x1 ⟨16 * p.val + b.val, by omega⟩)) o := by
  have hs : (fun k => k0_pay10 x1 x2 x5 x8 x4 x7 x10 (ix2 p k))
      = hsum (fun b => leafH (blockPres x2 x3 x4 x5 x6 x7 x8 x9 x10 x11 x12 x13) (leafRow x1 ⟨16 * p.val + b.val, by omega⟩)) :=
    funext fun k => leafH_sum_eq x1 x2 x3 x4 x5 x6 x7 x8 x9 x10 x11 x12 x13 p k
  have hc : ∀ (b : Fin 16) (k : Fin 512), k0_pay9 x1 x2 x8 x4 x10 (ix3 p b k)
      = leafC (blockPres x2 x3 x4 x5 x6 x7 x8 x9 x10 x11 x12 x13) (leafRow x1 ⟨16 * p.val + b.val, by omega⟩) k :=
    fun b k => (leaf_cell3 x1 x2 x8 x4 x10 p b k).trans (leaf_cell x1 x2 x8 x4 x10 _ k)
  unfold k0_pay3
  rw [truncf_apply, parent_cell, gate_i, gate_u, hs]
  simp only [hc]
  unfold k0_pay5 k0_pay7 k0_pay11 k0_pay16
  simp only [shapeCast_self]
  rfl

/-- The hidden value stored for parent p. -/
theorem storedH_eq (p : Fin 64) (o : Fin 512) :
    k0_pay2 (k0_pay9 x1 x2 x8 x4 x10) (k0_pay11 x0)
        (k0_pay13 (k0_pay5 x2) (k0_pay10 x1 x2 x5 x8 x4 x7 x10) (k0_pay11 x0) x3 x4)
        (k0_pay14 (k0_pay6 x5) (k0_pay10 x1 x2 x5 x8 x4 x7 x10) (k0_pay11 x0) x6 x7)
        (k0_pay15 (k0_pay7 x8) (k0_pay10 x1 x2 x5 x8 x4 x7 x10) (k0_pay11 x0) x9 x10)
        (k0_pay16 x11) x12 x13 (ix2 p o)
      = nodeH (blockPres x2 x3 x4 x5 x6 x7 x8 x9 x10 x11 x12 x13) (fun k => x0 (ix2 p k))
          (fun b => leafH (blockPres x2 x3 x4 x5 x6 x7 x8 x9 x10 x11 x12 x13) (leafRow x1 ⟨16 * p.val + b.val, by omega⟩))
          (fun b => leafC (blockPres x2 x3 x4 x5 x6 x7 x8 x9 x10 x11 x12 x13) (leafRow x1 ⟨16 * p.val + b.val, by omega⟩)) o := by
  have hs : (fun k => k0_pay10 x1 x2 x5 x8 x4 x7 x10 (ix2 p k))
      = hsum (fun b => leafH (blockPres x2 x3 x4 x5 x6 x7 x8 x9 x10 x11 x12 x13) (leafRow x1 ⟨16 * p.val + b.val, by omega⟩)) :=
    funext fun k => leafH_sum_eq x1 x2 x3 x4 x5 x6 x7 x8 x9 x10 x11 x12 x13 p k
  have hC := storedC_eq x0 x1 x2 x3 x4 x5 x6 x7 x8 x9 x10 x11 x12 x13 p o
  unfold k0_pay3 at hC
  rw [truncf_apply] at hC
  unfold k0_pay2
  rw [truncf_apply, mulf_apply, tanh_apply, hC, gate_o, hs]
  unfold k0_pay6 k0_pay11
  simp only [shapeCast_self]
  rfl

end Stored

end Cert.KernelIdeal.FusedValue

end
-- ==== Proof.KerNodeArgs.lean ====
/-
  The bundle of the four gates' pre-activation maps in the split arrangement, from the twelve weight and bias arrays
  as functions of literal index types: a 512×512 matrix indexed [input k][output o] and a 1×512 bias row.
-/
import proofs.«172855_j27504970564112_2_alg».proof.Proof.Spec
import Idealize.ShloMosaic.Lib.ValueIdx

noncomputable section

namespace Cert.KernelIdeal.NodeValue

open Idealize.ShloMosaic Idealize.ShloMosaic.ValueIdx Cert.TreeCell

/-- A 512×512 array of extended reals. -/
abbrev Mat := (⟨2, ![512, 512]⟩ : Shape).Idx → EReal
/-- A 1×512 array of extended reals. -/
abbrev BiasRow := (⟨2, ![1, 512]⟩ : Shape).Idx → EReal

/-- The split-arrangement bundle of the gates i, o, u, f from their input-half matrix, hidden-half matrix and bias row. -/
def presOf (wi_in wi_hid : Mat) (bi : BiasRow) (wo_in wo_hid : Mat) (bo : BiasRow)
    (wu_in wu_hid : Mat) (bu : BiasRow) (wf_in wf_hid : Mat) (bf : BiasRow) : Pres :=
  kerPres (fun k o => wi_in (ix2 k o)) (fun k o => wi_hid (ix2 k o)) (fun o => bi (ix2 (0 : Fin 1) o))
    (fun k o => wo_in (ix2 k o)) (fun k o => wo_hid (ix2 k o)) (fun o => bo (ix2 (0 : Fin 1) o))
    (fun k o => wu_in (ix2 k o)) (fun k o => wu_hid (ix2 k o)) (fun o => bu (ix2 (0 : Fin 1) o))
    (fun k o => wf_in (ix2 k o)) (fun k o => wf_hid (ix2 k o)) (fun o => bf (ix2 (0 : Fin 1) o))

end Cert.KernelIdeal.NodeValue

end
-- ==== Proof.KerFusedBlocks.lean ====
/-
  From the fused kernel's blocks to its two output arrays. Grid point t of 64 holds parents 64·t … 64·t + 63
  (rows of the level-3 slice of the input) and leaves 1024·t … 1024·t + 1023 (rows of the leaf slice), the twelve
  weight and bias arrays whole; it writes back rows 64·t … 64·t + 63 of each output. So what point t writes back is
  its block of ONE whole-array function — row n of the output is the inner-node cell (hidden row) of row n of the
  parents' array and of its sixteen children, rows 16·n … 16·n + 15 of the leaves' array, each a leaf cell — and the
  64 blocks cover the 4096 rows (row n lies in block n / 64): both output arrays end holding that function.
-/
import proofs.«172855_j27504970564112_2_alg».proof.Proof.Gen.KernelIdeal.Frame
import proofs.«172855_j27504970564112_2_alg».proof.Proof.KerFusedPay
import proofs.«172855_j27504970564112_2_alg».proof.Proof.KerNodeArgs
import Idealize.ShloMosaic.Lib.Pipeline.Value

set_option maxRecDepth 16384

noncomputable section

namespace Cert.KernelIdeal.FusedValue

open Cert.KernelIdeal Cert.KernelIdeal.Gen Cert.TreeCell Cert.KernelIdeal.NodeValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps over the grid -/

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

theorem idx_whole : ∀ t : Fin cfg0.N,
    (∀ a : Fin 2, win0_2.index t a = 0)
    ∧ (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0)
    ∧ (∀ a : Fin 2, win0_13.index t a = 0) :=
  (by decide +kernel : ∀ t : Fin grid0.N, _)

/-- Parent p of grid point t is row 64·t + p. -/
def prow (t : Fin cfg0.N) (p : Fin 64) : Fin 4096 :=
  ⟨64 * t.val + p.val, by have := t.isLt; have hN : cfg0.N = 64 := N_0; omega⟩
/-- Leaf r of grid point t is row 1024·t + r. -/
def lrow (t : Fin cfg0.N) (r : Fin 1024) : Fin 65536 :=
  ⟨1024 * t.val + r.val, by have := t.isLt; have hN : cfg0.N = 64 := N_0; omega⟩
/-- Child b of node n is row 16·n + b of the next level. -/
def child (n : Fin 4096) (b : Fin 16) : Fin 65536 := ⟨16 * n.val + b.val, by omega⟩

/-! ## The input windows' blocks as rows of the arrays -/

theorem iblk_parents (c : Dev nD) (t : Fin cfg0.N) (p : Fin 64) (k : Fin 512) :
    (iblk0 V c 0 t : Vec Ideal S64x512 .f32) (ix2 p k) = (V c main_v3 : S4096x512.Idx → EReal) (ix2 (prow t p) k) := by
  obtain ⟨e0, e1, -⟩ := idx_rows t
  unfold iblk0
  rw [View.read_apply]
  show V c main_v3 _ = V c main_v3 _
  congr 1
  funext a
  apply Fin.ext
  match a with
  | ⟨0, _⟩ => show win0_0.index t 0 * 64 + 1 * p.val = 64 * t.val + p.val; rw [e0]; omega
  | ⟨1, _⟩ => show win0_0.index t 1 * 512 + 1 * k.val = k.val; rw [e1]; omega

theorem iblk_leaves (c : Dev nD) (t : Fin cfg0.N) (r : Fin 1024) (k : Fin 512) :
    (iblk0 V c 1 t : Vec Ideal S1024x512 .f32) (ix2 r k) = (V c main_v4 : S65536x512.Idx → EReal) (ix2 (lrow t r) k) := by
  obtain ⟨-, -, e0, e1, -⟩ := idx_rows t
  unfold iblk0
  rw [View.read_apply]
  show V c main_v4 _ = V c main_v4 _
  congr 1
  funext a
  apply Fin.ext
  match a with
  | ⟨0, _⟩ => show win0_1.index t 0 * 1024 + 1 * r.val = 1024 * t.val + r.val; rw [e0]; omega
  | ⟨1, _⟩ => show win0_1.index t 1 * 512 + 1 * k.val = k.val; rw [e1]; omega

theorem iblk_2 (c : Dev nD) (t : Fin cfg0.N) (k : Fin 512) (o : Fin 512) :
    (iblk0 V c 2 t : Vec Ideal S512x512 .f32) (ix2 k o) = (V c main_v6 : S512x512.Idx → EReal) (ix2 k o) := by
  have e := (idx_whole t).1
  unfold iblk0
  rw [View.read_apply]
  show V c main_v6 _ = V c main_v6 _
  congr 1
  funext a
  apply Fin.ext
  match a with
  | ⟨0, _⟩ => show win0_2.index t 0 * 512 + 1 * k.val = k.val; rw [e 0]; omega
  | ⟨1, _⟩ => show win0_2.index t 1 * 512 + 1 * o.val = o.val; rw [e 1]; omega

theorem iblk_3 (c : Dev nD) (t : Fin cfg0.N) (k : Fin 512) (o : Fin 512) :
    (iblk0 V c 3 t : Vec Ideal S512x512 .f32) (ix2 k o) = (V c main_v7 : S512x512.Idx → EReal) (ix2 k o) := by
  have e := (idx_whole t).2.1
  unfold iblk0
  rw [View.read_apply]
  show V c main_v7 _ = V c main_v7 _
  congr 1
  funext a
  apply Fin.ext
  match a with
  | ⟨0, _⟩ => show win0_3.index t 0 * 512 + 1 * k.val = k.val; rw [e 0]; omega
  | ⟨1, _⟩ => show win0_3.index t 1 * 512 + 1 * o.val = o.val; rw [e 1]; omega

theorem iblk_4 (c : Dev nD) (t : Fin cfg0.N) (k : Fin 1) (o : Fin 512) :
    (iblk0 V c 4 t : Vec Ideal S1x512 .f32) (ix2 k o) = (V c main_v17 : S1x512.Idx → EReal) (ix2 k o) := by
  have e := (idx_whole t).2.2.1
  unfold iblk0
  rw [View.read_apply]
  show V c main_v17 _ = V c main_v17 _
  congr 1
  funext a
  apply Fin.ext
  match a with
  | ⟨0, _⟩ => show win0_4.index t 0 * 1 + 1 * k.val = k.val; rw [e 0]; omega
  | ⟨1, _⟩ => show win0_4.index t 1 * 512 + 1 * o.val = o.val; rw [e 1]; omega

theorem iblk_5 (c : Dev nD) (t : Fin cfg0.N) (k : Fin 512) (o : Fin 512) :
    (iblk0 V c 5 t : Vec Ideal S512x512 .f32) (ix2 k o) = (V c main_v12 : S512x512.Idx → EReal) (ix2 k o) := by
  have e := (idx_whole t).2.2.2.1
  unfold iblk0
  rw [View.read_apply]
  show V c main_v12 _ = V c main_v12 _
  congr 1
  funext a
  apply Fin.ext
  match a with
  | ⟨0, _⟩ => show win0_5.index t 0 * 512 + 1 * k.val = k.val; rw [e 0]; omega
  | ⟨1, _⟩ => show win0_5.index t 1 * 512 + 1 * o.val = o.val; rw [e 1]; omega

theorem iblk_6 (c : Dev nD) (t : Fin cfg0.N) (k : Fin 512) (o : Fin 512) :
    (iblk0 V c 6 t : Vec Ideal S512x512 .f32) (ix2 k o) = (V c main_v13 : S512x512.Idx → EReal) (ix2 k o) := by
  have e := (idx_whole t).2.2.2.2.1
  unfold iblk0
  rw [View.read_apply]
  show V c main_v13 _ = V c main_v13 _
  congr 1
  funext a
  apply Fin.ext
  match a with
  | ⟨0, _⟩ => show win0_6.index t 0 * 512 + 1 * k.val = k.val; rw [e 0]; omega
  | ⟨1, _⟩ => show win0_6.index t 1 * 512 + 1 * o.val = o.val; rw [e 1]; omega

theorem iblk_7 (c : Dev nD) (t : Fin cfg0.N) (k : Fin 1) (o : Fin 512) :
    (iblk0 V c 7 t : Vec Ideal S1x512 .f32) (ix2 k o) = (V c main_v19 : S1x512.Idx → EReal) (ix2 k o) := by
  have e := (idx_whole t).2.2.2.2.2.1
  unfold iblk0
  rw [View.read_apply]
  show V c main_v19 _ = V c main_v19 _
  congr 1
  funext a
  apply Fin.ext
  match a with
  | ⟨0, _⟩ => show win0_7.index t 0 * 1 + 1 * k.val = k.val; rw [e 0]; omega
  | ⟨1, _⟩ => show win0_7.index t 1 * 512 + 1 * o.val = o.val; rw [e 1]; omega

theorem iblk_8 (c : Dev nD) (t : Fin cfg0.N) (k : Fin 512) (o : Fin 512) :
    (iblk0 V c 8 t : Vec Ideal S512x512 .f32) (ix2 k o) = (V c main_v15 : S512x512.Idx → EReal) (ix2 k o) := by
  have e := (idx_whole t).2.2.2.2.2.2.1
  unfold iblk0
  rw [View.read_apply]
  show V c main_v15 _ = V c main_v15 _
  congr 1
  funext a
  apply Fin.ext
  match a with
  | ⟨0, _⟩ => show win0_8.index t 0 * 512 + 1 * k.val = k.val; rw [e 0]; omega
  | ⟨1, _⟩ => show win0_8.index t 1 * 512 + 1 * o.val = o.val; rw [e 1]; omega

theorem iblk_9 (c : Dev nD) (t : Fin cfg0.N) (k : Fin 512) (o : Fin 512) :
    (iblk0 V c 9 t : Vec Ideal S512x512 .f32) (ix2 k o) = (V c main_v16 : S512x512.Idx → EReal) (ix2 k o) := by
  have e := (idx_whole t).2.2.2.2.2.2.2.1
  unfold iblk0
  rw [View.read_apply]
  show V c main_v16 _ = V c main_v16 _
  congr 1
  funext a
  apply Fin.ext
  match a with
  | ⟨0, _⟩ => show win0_9.index t 0 * 512 + 1 * k.val = k.val; rw [e 0]; omega
  | ⟨1, _⟩ => show win0_9.index t 1 * 512 + 1 * o.val = o.val; rw [e 1]; omega

theorem iblk_10 (c : Dev nD) (t : Fin cfg0.N) (k : Fin 1) (o : Fin 512) :
    (iblk0 V c 10 t : Vec Ideal S1x512 .f32) (ix2 k o) = (V c main_v20 : S1x512.Idx → EReal) (ix2 k o) := by
  have e := (idx_whole t).2.2.2.2.2.2.2.2.1
  unfold iblk0
  rw [View.read_apply]
  show V c main_v20 _ = V c main_v20 _
  congr 1
  funext a
  apply Fin.ext
  match a with
  | ⟨0, _⟩ => show win0_10.index t 0 * 1 + 1 * k.val = k.val; rw [e 0]; omega
  | ⟨1, _⟩ => show win0_10.index t 1 * 512 + 1 * o.val = o.val; rw [e 1]; omega

theorem iblk_11 (c : Dev nD) (t : Fin cfg0.N) (k : Fin 512) (o : Fin 512) :
    (iblk0 V c 11 t : Vec Ideal S512x512 .f32) (ix2 k o) = (V c main_v9 : S512x512.Idx → EReal) (ix2 k o) := by
  have e := (idx_whole t).2.2.2.2.2.2.2.2.2.1
  unfold iblk0
  rw [View.read_apply]
  show V c main_v9 _ = V c main_v9 _
  congr 1
  funext a
  apply Fin.ext
  match a with
  | ⟨0, _⟩ => show win0_11.index t 0 * 512 + 1 * k.val = k.val; rw [e 0]; omega
  | ⟨1, _⟩ => show win0_11.index t 1 * 512 + 1 * o.val = o.val; rw [e 1]; omega

theorem iblk_12 (c : Dev nD) (t : Fin cfg0.N) (k : Fin 512) (o : Fin 512) :
    (iblk0 V c 12 t : Vec Ideal S512x512 .f32) (ix2 k o) = (V c main_v10 : S512x512.Idx → EReal) (ix2 k o) := by
  have e := (idx_whole t).2.2.2.2.2.2.2.2.2.2.1
  unfold iblk0
  rw [View.read_apply]
  show V c main_v10 _ = V c main_v10 _
  congr 1
  funext a
  apply Fin.ext
  match a with
  | ⟨0, _⟩ => show win0_12.index t 0 * 512 + 1 * k.val = k.val; rw [e 0]; omega
  | ⟨1, _⟩ => show win0_12.index t 1 * 512 + 1 * o.val = o.val; rw [e 1]; omega

theorem iblk_13 (c : Dev nD) (t : Fin cfg0.N) (k : Fin 1) (o : Fin 512) :
    (iblk0 V c 13 t : Vec Ideal S1x512 .f32) (ix2 k o) = (V c main_v18 : S1x512.Idx → EReal) (ix2 k o) := by
  have e := (idx_whole t).2.2.2.2.2.2.2.2.2.2.2
  unfold iblk0
  rw [View.read_apply]
  show V c main_v18 _ = V c main_v18 _
  congr 1
  funext a
  apply Fin.ext
  match a with
  | ⟨0, _⟩ => show win0_13.index t 0 * 1 + 1 * k.val = k.val; rw [e 0]; omega
  | ⟨1, _⟩ => show win0_13.index t 1 * 512 + 1 * o.val = o.val; rw [e 1]; omega

/-! ## The two output arrays -/

/-- The pre-activations over the weight and bias arrays as the region finds them. -/
def PK (c : Dev nD) : Pres :=
  presOf (V c main_v6) (V c main_v7) (V c main_v17) (V c main_v12) (V c main_v13) (V c main_v19)
    (V c main_v15) (V c main_v16) (V c main_v20) (V c main_v9) (V c main_v10) (V c main_v18)

/-- Row n of the parents' array, row j of the leaves' array. -/
def parentRow (c : Dev nD) (n : Fin 4096) : Row := fun k => (V c main_v3 : S4096x512.Idx → EReal) (ix2 n k)
def leafRowOf (c : Dev nD) (j : Fin 65536) : Row := fun k => (V c main_v4 : S65536x512.Idx → EReal) (ix2 j k)

/-- The cell array: row n is the inner-node cell of parent n over its sixteen leaves. -/
def outC (c : Dev nD) : S4096x512.Idx → EReal := fun i =>
  nodeC (PK V c) (parentRow V c (i 0)) (fun b => leafH (PK V c) (leafRowOf V c (child (i 0) b)))
    (fun b => leafC (PK V c) (leafRowOf V c (child (i 0) b))) (i 1)
/-- The hidden array. -/
def outH (c : Dev nD) : S4096x512.Idx → EReal := fun i =>
  nodeH (PK V c) (parentRow V c (i 0)) (fun b => leafH (PK V c) (leafRowOf V c (child (i 0) b)))
    (fun b => leafC (PK V c) (leafRowOf V c (child (i 0) b))) (i 1)

/-- The bundle over a grid point's weight blocks is the bundle over the arrays. -/
theorem pres_blk (c : Dev nD) (t : Fin cfg0.N) : blockPres (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) = PK V c := by
  unfold PK presOf
  show kerPres (mat (iblk0 V c 2 t)) (mat (iblk0 V c 3 t)) (bias (iblk0 V c 4 t)) (mat (iblk0 V c 5 t)) (mat (iblk0 V c 6 t)) (bias (iblk0 V c 7 t)) (mat (iblk0 V c 8 t)) (mat (iblk0 V c 9 t)) (bias (iblk0 V c 10 t)) (mat (iblk0 V c 11 t)) (mat (iblk0 V c 12 t)) (bias (iblk0 V c 13 t)) = _
  have e2 : mat (iblk0 V c 2 t) = fun k o => (V c main_v6 : S512x512.Idx → EReal) (ix2 k o) :=
    funext fun k => funext fun o => iblk_2 V c t k o
  have e3 : mat (iblk0 V c 3 t) = fun k o => (V c main_v7 : S512x512.Idx → EReal) (ix2 k o) :=
    funext fun k => funext fun o => iblk_3 V c t k o
  have e4 : bias (iblk0 V c 4 t) = fun o => (V c main_v17 : S1x512.Idx → EReal) (ix2 (0 : Fin 1) o) :=
    funext fun o => iblk_4 V c t 0 o
  have e5 : mat (iblk0 V c 5 t) = fun k o => (V c main_v12 : S512x512.Idx → EReal) (ix2 k o) :=
    funext fun k => funext fun o => iblk_5 V c t k o
  have e6 : mat (iblk0 V c 6 t) = fun k o => (V c main_v13 : S512x512.Idx → EReal) (ix2 k o) :=
    funext fun k => funext fun o => iblk_6 V c t k o
  have e7 : bias (iblk0 V c 7 t) = fun o => (V c main_v19 : S1x512.Idx → EReal) (ix2 (0 : Fin 1) o) :=
    funext fun o => iblk_7 V c t 0 o
  have e8 : mat (iblk0 V c 8 t) = fun k o => (V c main_v15 : S512x512.Idx → EReal) (ix2 k o) :=
    funext fun k => funext fun o => iblk_8 V c t k o
  have e9 : mat (iblk0 V c 9 t) = fun k o => (V c main_v16 : S512x512.Idx → EReal) (ix2 k o) :=
    funext fun k => funext fun o => iblk_9 V c t k o
  have e10 : bias (iblk0 V c 10 t) = fun o => (V c main_v20 : S1x512.Idx → EReal) (ix2 (0 : Fin 1) o) :=
    funext fun o => iblk_10 V c t 0 o
  have e11 : mat (iblk0 V c 11 t) = fun k o => (V c main_v9 : S512x512.Idx → EReal) (ix2 k o) :=
    funext fun k => funext fun o => iblk_11 V c t k o
  have e12 : mat (iblk0 V c 12 t) = fun k o => (V c main_v10 : S512x512.Idx → EReal) (ix2 k o) :=
    funext fun k => funext fun o => iblk_12 V c t k o
  have e13 : bias (iblk0 V c 13 t) = fun o => (V c main_v18 : S1x512.Idx → EReal) (ix2 (0 : Fin 1) o) :=
    funext fun o => iblk_13 V c t 0 o
  rw [e2, e3, e4, e5, e6, e7, e8, e9, e10, e11, e12, e13]

theorem child_prow (t : Fin cfg0.N) (p : Fin 64) (b : Fin 16) :
    lrow t ⟨16 * p.val + b.val, by omega⟩ = child (prow t p) b := by
  apply Fin.ext
  show 1024 * t.val + (16 * p.val + b.val) = 16 * (64 * t.val + p.val) + b.val
  omega

theorem rows_blk (c : Dev nD) (t : Fin cfg0.N) (p : Fin 64) :
    (fun k => (iblk0 V c 0 t : Vec Ideal S64x512 .f32) (ix2 p k)) = parentRow V c (prow t p) :=
  funext fun k => iblk_parents V c t p k

theorem leaves_blk (c : Dev nD) (t : Fin cfg0.N) (p : Fin 64) (b : Fin 16) :
    leafRow (iblk0 V c 1 t) ⟨16 * p.val + b.val, by omega⟩ = leafRowOf V c (child (prow t p) b) := by
  funext k
  show (iblk0 V c 1 t : Vec Ideal S1024x512 .f32) (ix2 _ k) = _
  rw [iblk_leaves, child_prow]
  rfl

theorem emb15 (t : Fin cfg0.N) (p : Fin 64) (o : Fin 512) :
    ((cfg0.win 15).blk t).view.emb (ix2 p o) = ix2 (prow t p) o := by
  obtain ⟨-, -, -, -, -, -, e0, e1⟩ := idx_rows t
  funext a
  apply Fin.ext
  match a with
  | ⟨0, _⟩ => show win0_15.index t 0 * 64 + 1 * p.val = 64 * t.val + p.val; rw [e0]; omega
  | ⟨1, _⟩ => show win0_15.index t 1 * 512 + 1 * o.val = o.val; rw [e1]; omega

theorem emb14 (t : Fin cfg0.N) (p : Fin 64) (o : Fin 512) :
    ((cfg0.win 14).blk t).view.emb (ix2 p o) = ix2 (prow t p) o := by
  obtain ⟨-, -, -, -, e0, e1, -⟩ := idx_rows t
  funext a
  apply Fin.ext
  match a with
  | ⟨0, _⟩ => show win0_14.index t 0 * 64 + 1 * p.val = 64 * t.val + p.val; rw [e0]; omega
  | ⟨1, _⟩ => show win0_14.index t 1 * 512 + 1 * o.val = o.val; rw [e1]; omega

/-- What point t writes back to the cell array is its block of `outC`. -/
theorem flushedC_eq (c : Dev nD) (t : Fin cfg0.N) :
    (dat0 V c).flushed 15 t = ((cfg0.win 15).blk t).view.read (Elt Ideal) (outC V c) := by
  show (cfg0.win 15).cut (grid0.coords t) ((dat0 V c).after 15 t) = _
  rw [after0_15]
  unfold out0_15
  rw [View.canon_unit_zero hz]
  simp only [View.ld_unit_zero (S := S1024x512) hz, View.ld_unit_zero (S := S512x512) hz, View.ld_unit_zero (S := S1x512) hz,
    View.ld_unit_zero (S := S64x512) hz]
  funext j
  obtain ⟨p, o, rfl⟩ : ∃ (p : Fin 64) (o : Fin 512), j = ix2 p o := ⟨j 0, j 1, eq_ix2 j⟩
  refine (storedC_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) p o).trans ?_
  show _ = outC V c (((cfg0.win 15).blk t).view.emb (ix2 p o))
  rw [emb15, pres_blk, rows_blk]
  simp only [leaves_blk]
  rfl

/-- What point t writes back to the hidden array is its block of `outH`. -/
theorem flushedH_eq (c : Dev nD) (t : Fin cfg0.N) :
    (dat0 V c).flushed 14 t = ((cfg0.win 14).blk t).view.read (Elt Ideal) (outH V c) := by
  show (cfg0.win 14).cut (grid0.coords t) ((dat0 V c).after 14 t) = _
  rw [after0_14]
  unfold out0_14
  rw [View.canon_unit_zero hz]
  simp only [View.ld_unit_zero (S := S1024x512) hz, View.ld_unit_zero (S := S512x512) hz, View.ld_unit_zero (S := S1x512) hz,
    View.ld_unit_zero (S := S64x512) hz]
  funext j
  obtain ⟨p, o, rfl⟩ : ∃ (p : Fin 64) (o : Fin 512), j = ix2 p o := ⟨j 0, j 1, eq_ix2 j⟩
  refine (storedH_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) p o).trans ?_
  show _ = outH V c (((cfg0.win 14).blk t).view.emb (ix2 p o))
  rw [emb14, pres_blk, rows_blk]
  simp only [leaves_blk]
  rfl

/-! ## The cover -/

theorem mem_blk15 (t : Fin cfg0.N) (i : S4096x512.Idx) :
    i ∈ ((cfg0.win 15).blk t).view.set ↔ ∀ a : Fin 2, win0_15.index t a * S64x512.size a ≤ (i a).val ∧ (i a).val < win0_15.index t a * S64x512.size a + S64x512.size a := by
  show i ∈ ((View.whole main_v21_1).slice (win0_15.rect t)).set ↔ _
  rw [View.set_slice_whole, Rect.mem_set_unit]
  exact Iff.rfl

theorem mem_blk14 (t : Fin cfg0.N) (i : S4096x512.Idx) :
    i ∈ ((cfg0.win 14).blk t).view.set ↔ ∀ a : Fin 2, win0_14.index t a * S64x512.size a ≤ (i a).val ∧ (i a).val < win0_14.index t a * S64x512.size a + S64x512.size a := by
  show i ∈ ((View.whole main_v21_0).slice (win0_14.rect t)).set ↔ _
  rw [View.set_slice_whole, Rect.mem_set_unit]
  exact Iff.rfl

/-- The point whose block holds row n. -/
def pointOf (i : S4096x512.Idx) : Fin cfg0.N :=
  ⟨(i 0).val / 64, by have h : (i 0).val < 4096 := (i 0).isLt; have hN : cfg0.N = 64 := N_0; omega⟩

/-- The cell array after the region. -/
theorem region0_C (c : Dev nD) : (dat0 V c).arrAt 15 cfg0.N = outC V c :=
  (dat0 V c).arrAt_eq_of_cover 15 (outC V c) (fun t _ => flushedC_eq V c t) fun i =>
    ⟨pointOf i, flush0_15 (pointOf i), by
      rw [mem_blk15]
      obtain ⟨-, -, -, -, -, -, e0, e1⟩ := idx_rows (pointOf i)
      have h0 : (i 0).val < 4096 := (i 0).isLt
      have h1 : (i 1).val < 512 := (i 1).isLt
      intro a
      match a with
      | ⟨0, _⟩ =>
        show win0_15.index (pointOf i) 0 * 64 ≤ (i 0).val ∧ (i 0).val < win0_15.index (pointOf i) 0 * 64 + 64
        rw [e0]; show (i 0).val / 64 * 64 ≤ (i 0).val ∧ (i 0).val < (i 0).val / 64 * 64 + 64; omega
      | ⟨1, _⟩ =>
        show win0_15.index (pointOf i) 1 * 512 ≤ (i 1).val ∧ (i 1).val < win0_15.index (pointOf i) 1 * 512 + 512
        rw [e1]; omega⟩

/-- The hidden array after the region. -/
theorem region0_H (c : Dev nD) : (dat0 V c).arrAt 14 cfg0.N = outH V c :=
  (dat0 V c).arrAt_eq_of_cover 14 (outH V c) (fun t _ => flushedH_eq V c t) fun i =>
    ⟨pointOf i, flush0_14 (pointOf i), by
      rw [mem_blk14]
      obtain ⟨-, -, -, -, e0, e1, -⟩ := idx_rows (pointOf i)
      have h0 : (i 0).val < 4096 := (i 0).isLt
      have h1 : (i 1).val < 512 := (i 1).isLt
      intro a
      match a with
      | ⟨0, _⟩ =>
        show win0_14.index (pointOf i) 0 * 64 ≤ (i 0).val ∧ (i 0).val < win0_14.index (pointOf i) 0 * 64 + 64
        rw [e0]; show (i 0).val / 64 * 64 ≤ (i 0).val ∧ (i 0).val < (i 0).val / 64 * 64 + 64; omega
      | ⟨1, _⟩ =>
        show win0_14.index (pointOf i) 1 * 512 ≤ (i 1).val ∧ (i 1).val < win0_14.index (pointOf i) 1 * 512 + 512
        rw [e1]; omega⟩

end Cert.KernelIdeal.FusedValue

end
-- ==== Proof.KerGlue.lean ====
/-
  The host side of the idealized kernel program between its four pallas_calls, at the instance where a float is an
  extended real. Before the first call the host cuts the input into its five levels' row ranges (rows 0, 1–16,
  17–272, 273–4368, 4369–69904), transposes each gate's 512 × 1024 weight matrix and cuts it into its two 512 × 512
  halves, and reshapes each bias to one row: each of these arrays is read here at an index in terms of the launch
  arrays. A call reads the weights, biases and its own level's rows and writes only its two outputs, and the host
  stretch after it only reshapes those outputs to [nodes, 16 children, 512]: so every weight, bias and row range a
  later call reads still holds what it held before the first call, and entry (n, b) of a reshaped output is row
  16·n + b of the output.
-/
import proofs.«172855_j27504970564112_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the first host stretch leaves, read at an index -/

theorem V1_main_v0 (c : Dev nD) :
    V1 m ρ c main_v0 = extractStridedSlice S1x512 ![0, 0] (m ((c : Thread nD τ).loc main_arg0)) Facts₀.slices_S69905x512_S1x512_0_0 := by
  show StableHlo.after hostOps0 (W0 m ρ c) (Proc.devRef .tc main_v0) = _
  after_results
/-- Row n of the level's slice is row 0 + n of the input. -/
theorem V1_main_v0_apply (c : Dev nD) (n : Fin 1) (k : Fin 512) :
    (V1 m ρ c main_v0 : S1x512.Idx → EReal) (ix2 n k)
      = (m ((c : Thread nD τ).loc main_arg0) : S69905x512.Idx → EReal) (ix2 (⟨0 + n.val, by omega⟩ : Fin 69905) k) := by
  rw [V1_main_v0]
  exact extractStridedSlice_apply _ _ _ _ _ fun a => by
    match a with
    | ⟨0, _⟩ => rfl
    | ⟨1, _⟩ => show k.val = 0 + k.val; omega
theorem V1_main_v1 (c : Dev nD) :
    V1 m ρ c main_v1 = extractStridedSlice S16x512 ![1, 0] (m ((c : Thread nD τ).loc main_arg0)) Facts₀.slices_S69905x512_S16x512_1_0 := by
  show StableHlo.after hostOps0 (W0 m ρ c) (Proc.devRef .tc main_v1) = _
  after_results
/-- Row n of the level's slice is row 1 + n of the input. -/
theorem V1_main_v1_apply (c : Dev nD) (n : Fin 16) (k : Fin 512) :
    (V1 m ρ c main_v1 : S16x512.Idx → EReal) (ix2 n k)
      = (m ((c : Thread nD τ).loc main_arg0) : S69905x512.Idx → EReal) (ix2 (⟨1 + n.val, by omega⟩ : Fin 69905) k) := by
  rw [V1_main_v1]
  exact extractStridedSlice_apply _ _ _ _ _ fun a => by
    match a with
    | ⟨0, _⟩ => rfl
    | ⟨1, _⟩ => show k.val = 0 + k.val; omega
theorem V1_main_v2 (c : Dev nD) :
    V1 m ρ c main_v2 = extractStridedSlice S256x512 ![17, 0] (m ((c : Thread nD τ).loc main_arg0)) Facts₀.slices_S69905x512_S256x512_17_0 := by
  show StableHlo.after hostOps0 (W0 m ρ c) (Proc.devRef .tc main_v2) = _
  after_results
/-- Row n of the level's slice is row 17 + n of the input. -/
theorem V1_main_v2_apply (c : Dev nD) (n : Fin 256) (k : Fin 512) :
    (V1 m ρ c main_v2 : S256x512.Idx → EReal) (ix2 n k)
      = (m ((c : Thread nD τ).loc main_arg0) : S69905x512.Idx → EReal) (ix2 (⟨17 + n.val, by omega⟩ : Fin 69905) k) := by
  rw [V1_main_v2]
  exact extractStridedSlice_apply _ _ _ _ _ fun a => by
    match a with
    | ⟨0, _⟩ => rfl
    | ⟨1, _⟩ => show k.val = 0 + k.val; omega
theorem V1_main_v3 (c : Dev nD) :
    V1 m ρ c main_v3 = extractStridedSlice S4096x512 ![273, 0] (m ((c : Thread nD τ).loc main_arg0)) Facts₀.slices_S69905x512_S4096x512_273_0 := by
  show StableHlo.after hostOps0 (W0 m ρ c) (Proc.devRef .tc main_v3) = _
  after_results
/-- Row n of the level's slice is row 273 + n of the input. -/
theorem V1_main_v3_apply (c : Dev nD) (n : Fin 4096) (k : Fin 512) :
    (V1 m ρ c main_v3 : S4096x512.Idx → EReal) (ix2 n k)
      = (m ((c : Thread nD τ).loc main_arg0) : S69905x512.Idx → EReal) (ix2 (⟨273 + n.val, by omega⟩ : Fin 69905) k) := by
  rw [V1_main_v3]
  exact extractStridedSlice_apply _ _ _ _ _ fun a => by
    match a with
    | ⟨0, _⟩ => rfl
    | ⟨1, _⟩ => show k.val = 0 + k.val; omega
theorem V1_main_v4 (c : Dev nD) :
    V1 m ρ c main_v4 = extractStridedSlice S65536x512 ![4369, 0] (m ((c : Thread nD τ).loc main_arg0)) Facts₀.slices_S69905x512_S65536x512_4369_0 := by
  show StableHlo.after hostOps0 (W0 m ρ c) (Proc.devRef .tc main_v4) = _
  after_results
/-- Row n of the level's slice is row 4369 + n of the input. -/
theorem V1_main_v4_apply (c : Dev nD) (n : Fin 65536) (k : Fin 512) :
    (V1 m ρ c main_v4 : S65536x512.Idx → EReal) (ix2 n k)
      = (m ((c : Thread nD τ).loc main_arg0) : S69905x512.Idx → EReal) (ix2 (⟨4369 + n.val, by omega⟩ : Fin 69905) k) := by
  rw [V1_main_v4]
  exact extractStridedSlice_apply _ _ _ _ _ fun a => by
    match a with
    | ⟨0, _⟩ => rfl
    | ⟨1, _⟩ => show k.val = 0 + k.val; omega
theorem V1_main_v6 (c : Dev nD) :
    V1 m ρ c main_v6 = extractStridedSlice S512x512 ![0, 0] (transpose S1024x512 [1, 0] (m ((c : Thread nD τ).loc main_arg1)) Facts₀.transposes_S512x1024_S1024x512_1_0) Facts₀.slices_S1024x512_S512x512_0_0 := by
  show StableHlo.after hostOps0 (W0 m ρ c) (Proc.devRef .tc main_v6) = _
  after_results
/-- Entry [k][o] of this half of the transposed matrix is entry [o][0 + k] of the weight matrix. -/
theorem V1_main_v6_apply (c : Dev nD) (k : Fin 512) (o : Fin 512) :
    (V1 m ρ c main_v6 : S512x512.Idx → EReal) (ix2 k o)
      = (m ((c : Thread nD τ).loc main_arg1) : S512x1024.Idx → EReal) (ix2 o (⟨0 + k.val, by omega⟩ : Fin 1024)) := by
  rw [V1_main_v6]
  rw [extractStridedSlice_apply _ _ _ (ix2 k o) (ix2 (⟨0 + k.val, by omega⟩ : Fin 1024) o) fun a => by
    match a with
    | ⟨0, _⟩ => rfl
    | ⟨1, _⟩ => show o.val = 0 + o.val; omega]
  exact transpose_ix2_apply _ _ _ _
theorem V1_main_v7 (c : Dev nD) :
    V1 m ρ c main_v7 = extractStridedSlice S512x512 ![512, 0] (transpose S1024x512 [1, 0] (m ((c : Thread nD τ).loc main_arg1)) Facts₀.transposes_S512x1024_S1024x512_1_0) Facts₀.slices_S1024x512_S512x512_512_0 := by
  show StableHlo.after hostOps0 (W0 m ρ c) (Proc.devRef .tc main_v7) = _
  after_results
/-- Entry [k][o] of this half of the transposed matrix is entry [o][512 + k] of the weight matrix. -/
theorem V1_main_v7_apply (c : Dev nD) (k : Fin 512) (o : Fin 512) :
    (V1 m ρ c main_v7 : S512x512.Idx → EReal) (ix2 k o)
      = (m ((c : Thread nD τ).loc main_arg1) : S512x1024.Idx → EReal) (ix2 o (⟨512 + k.val, by omega⟩ : Fin 1024)) := by
  rw [V1_main_v7]
  rw [extractStridedSlice_apply _ _ _ (ix2 k o) (ix2 (⟨512 + k.val, by omega⟩ : Fin 1024) o) fun a => by
    match a with
    | ⟨0, _⟩ => rfl
    | ⟨1, _⟩ => show o.val = 0 + o.val; omega]
  exact transpose_ix2_apply _ _ _ _
theorem V1_main_v9 (c : Dev nD) :
    V1 m ρ c main_v9 = extractStridedSlice S512x512 ![0, 0] (transpose S1024x512 [1, 0] (m ((c : Thread nD τ).loc main_arg3)) Facts₀.transposes_S512x1024_S1024x512_1_0) Facts₀.slices_S1024x512_S512x512_0_0 := by
  show StableHlo.after hostOps0 (W0 m ρ c) (Proc.devRef .tc main_v9) = _
  after_results
/-- Entry [k][o] of this half of the transposed matrix is entry [o][0 + k] of the weight matrix. -/
theorem V1_main_v9_apply (c : Dev nD) (k : Fin 512) (o : Fin 512) :
    (V1 m ρ c main_v9 : S512x512.Idx → EReal) (ix2 k o)
      = (m ((c : Thread nD τ).loc main_arg3) : S512x1024.Idx → EReal) (ix2 o (⟨0 + k.val, by omega⟩ : Fin 1024)) := by
  rw [V1_main_v9]
  rw [extractStridedSlice_apply _ _ _ (ix2 k o) (ix2 (⟨0 + k.val, by omega⟩ : Fin 1024) o) fun a => by
    match a with
    | ⟨0, _⟩ => rfl
    | ⟨1, _⟩ => show o.val = 0 + o.val; omega]
  exact transpose_ix2_apply _ _ _ _
theorem V1_main_v10 (c : Dev nD) :
    V1 m ρ c main_v10 = extractStridedSlice S512x512 ![512, 0] (transpose S1024x512 [1, 0] (m ((c : Thread nD τ).loc main_arg3)) Facts₀.transposes_S512x1024_S1024x512_1_0) Facts₀.slices_S1024x512_S512x512_512_0 := by
  show StableHlo.after hostOps0 (W0 m ρ c) (Proc.devRef .tc main_v10) = _
  after_results
/-- Entry [k][o] of this half of the transposed matrix is entry [o][512 + k] of the weight matrix. -/
theorem V1_main_v10_apply (c : Dev nD) (k : Fin 512) (o : Fin 512) :
    (V1 m ρ c main_v10 : S512x512.Idx → EReal) (ix2 k o)
      = (m ((c : Thread nD τ).loc main_arg3) : S512x1024.Idx → EReal) (ix2 o (⟨512 + k.val, by omega⟩ : Fin 1024)) := by
  rw [V1_main_v10]
  rw [extractStridedSlice_apply _ _ _ (ix2 k o) (ix2 (⟨512 + k.val, by omega⟩ : Fin 1024) o) fun a => by
    match a with
    | ⟨0, _⟩ => rfl
    | ⟨1, _⟩ => show o.val = 0 + o.val; omega]
  exact transpose_ix2_apply _ _ _ _
theorem V1_main_v12 (c : Dev nD) :
    V1 m ρ c main_v12 = extractStridedSlice S512x512 ![0, 0] (transpose S1024x512 [1, 0] (m ((c : Thread nD τ).loc main_arg5)) Facts₀.transposes_S512x1024_S1024x512_1_0) Facts₀.slices_S1024x512_S512x512_0_0 := by
  show StableHlo.after hostOps0 (W0 m ρ c) (Proc.devRef .tc main_v12) = _
  after_results
/-- Entry [k][o] of this half of the transposed matrix is entry [o][0 + k] of the weight matrix. -/
theorem V1_main_v12_apply (c : Dev nD) (k : Fin 512) (o : Fin 512) :
    (V1 m ρ c main_v12 : S512x512.Idx → EReal) (ix2 k o)
      = (m ((c : Thread nD τ).loc main_arg5) : S512x1024.Idx → EReal) (ix2 o (⟨0 + k.val, by omega⟩ : Fin 1024)) := by
  rw [V1_main_v12]
  rw [extractStridedSlice_apply _ _ _ (ix2 k o) (ix2 (⟨0 + k.val, by omega⟩ : Fin 1024) o) fun a => by
    match a with
    | ⟨0, _⟩ => rfl
    | ⟨1, _⟩ => show o.val = 0 + o.val; omega]
  exact transpose_ix2_apply _ _ _ _
theorem V1_main_v13 (c : Dev nD) :
    V1 m ρ c main_v13 = extractStridedSlice S512x512 ![512, 0] (transpose S1024x512 [1, 0] (m ((c : Thread nD τ).loc main_arg5)) Facts₀.transposes_S512x1024_S1024x512_1_0) Facts₀.slices_S1024x512_S512x512_512_0 := by
  show StableHlo.after hostOps0 (W0 m ρ c) (Proc.devRef .tc main_v13) = _
  after_results
/-- Entry [k][o] of this half of the transposed matrix is entry [o][512 + k] of the weight matrix. -/
theorem V1_main_v13_apply (c : Dev nD) (k : Fin 512) (o : Fin 512) :
    (V1 m ρ c main_v13 : S512x512.Idx → EReal) (ix2 k o)
      = (m ((c : Thread nD τ).loc main_arg5) : S512x1024.Idx → EReal) (ix2 o (⟨512 + k.val, by omega⟩ : Fin 1024)) := by
  rw [V1_main_v13]
  rw [extractStridedSlice_apply _ _ _ (ix2 k o) (ix2 (⟨512 + k.val, by omega⟩ : Fin 1024) o) fun a => by
    match a with
    | ⟨0, _⟩ => rfl
    | ⟨1, _⟩ => show o.val = 0 + o.val; omega]
  exact transpose_ix2_apply _ _ _ _
theorem V1_main_v15 (c : Dev nD) :
    V1 m ρ c main_v15 = extractStridedSlice S512x512 ![0, 0] (transpose S1024x512 [1, 0] (m ((c : Thread nD τ).loc main_arg7)) Facts₀.transposes_S512x1024_S1024x512_1_0) Facts₀.slices_S1024x512_S512x512_0_0 := by
  show StableHlo.after hostOps0 (W0 m ρ c) (Proc.devRef .tc main_v15) = _
  after_results
/-- Entry [k][o] of this half of the transposed matrix is entry [o][0 + k] of the weight matrix. -/
theorem V1_main_v15_apply (c : Dev nD) (k : Fin 512) (o : Fin 512) :
    (V1 m ρ c main_v15 : S512x512.Idx → EReal) (ix2 k o)
      = (m ((c : Thread nD τ).loc main_arg7) : S512x1024.Idx → EReal) (ix2 o (⟨0 + k.val, by omega⟩ : Fin 1024)) := by
  rw [V1_main_v15]
  rw [extractStridedSlice_apply _ _ _ (ix2 k o) (ix2 (⟨0 + k.val, by omega⟩ : Fin 1024) o) fun a => by
    match a with
    | ⟨0, _⟩ => rfl
    | ⟨1, _⟩ => show o.val = 0 + o.val; omega]
  exact transpose_ix2_apply _ _ _ _
theorem V1_main_v16 (c : Dev nD) :
    V1 m ρ c main_v16 = extractStridedSlice S512x512 ![512, 0] (transpose S1024x512 [1, 0] (m ((c : Thread nD τ).loc main_arg7)) Facts₀.transposes_S512x1024_S1024x512_1_0) Facts₀.slices_S1024x512_S512x512_512_0 := by
  show StableHlo.after hostOps0 (W0 m ρ c) (Proc.devRef .tc main_v16) = _
  after_results
/-- Entry [k][o] of this half of the transposed matrix is entry [o][512 + k] of the weight matrix. -/
theorem V1_main_v16_apply (c : Dev nD) (k : Fin 512) (o : Fin 512) :
    (V1 m ρ c main_v16 : S512x512.Idx → EReal) (ix2 k o)
      = (m ((c : Thread nD τ).loc main_arg7) : S512x1024.Idx → EReal) (ix2 o (⟨512 + k.val, by omega⟩ : Fin 1024)) := by
  rw [V1_main_v16]
  rw [extractStridedSlice_apply _ _ _ (ix2 k o) (ix2 (⟨512 + k.val, by omega⟩ : Fin 1024) o) fun a => by
    match a with
    | ⟨0, _⟩ => rfl
    | ⟨1, _⟩ => show o.val = 0 + o.val; omega]
  exact transpose_ix2_apply _ _ _ _
theorem V1_main_v17 (c : Dev nD) :
    V1 m ρ c main_v17 = shapeCast S1x512 (m ((c : Thread nD τ).loc main_arg2)) Facts₀.shapeCasts_S512_S1x512 := by
  show StableHlo.after hostOps0 (W0 m ρ c) (Proc.devRef .tc main_v17) = _
  after_results <;> rfl
theorem V1_main_v17_apply (c : Dev nD) (o : Fin 512) :
    (V1 m ρ c main_v17 : S1x512.Idx → EReal) (ix2 (0 : Fin 1) o) = (m ((c : Thread nD τ).loc main_arg2) : S512.Idx → EReal) (ix1 o) := by
  rw [V1_main_v17]
  exact shapeCast_a_1a_apply _ _ _ _
theorem V1_main_v18 (c : Dev nD) :
    V1 m ρ c main_v18 = shapeCast S1x512 (m ((c : Thread nD τ).loc main_arg4)) Facts₀.shapeCasts_S512_S1x512 := by
  show StableHlo.after hostOps0 (W0 m ρ c) (Proc.devRef .tc main_v18) = _
  after_results <;> rfl
theorem V1_main_v18_apply (c : Dev nD) (o : Fin 512) :
    (V1 m ρ c main_v18 : S1x512.Idx → EReal) (ix2 (0 : Fin 1) o) = (m ((c : Thread nD τ).loc main_arg4) : S512.Idx → EReal) (ix1 o) := by
  rw [V1_main_v18]
  exact shapeCast_a_1a_apply _ _ _ _
theorem V1_main_v19 (c : Dev nD) :
    V1 m ρ c main_v19 = shapeCast S1x512 (m ((c : Thread nD τ).loc main_arg6)) Facts₀.shapeCasts_S512_S1x512 := by
  show StableHlo.after hostOps0 (W0 m ρ c) (Proc.devRef .tc main_v19) = _
  after_results <;> rfl
theorem V1_main_v19_apply (c : Dev nD) (o : Fin 512) :
    (V1 m ρ c main_v19 : S1x512.Idx → EReal) (ix2 (0 : Fin 1) o) = (m ((c : Thread nD τ).loc main_arg6) : S512.Idx → EReal) (ix1 o) := by
  rw [V1_main_v19]
  exact shapeCast_a_1a_apply _ _ _ _
theorem V1_main_v20 (c : Dev nD) :
    V1 m ρ c main_v20 = shapeCast S1x512 (m ((c : Thread nD τ).loc main_arg8)) Facts₀.shapeCasts_S512_S1x512 := by
  show StableHlo.after hostOps0 (W0 m ρ c) (Proc.devRef .tc main_v20) = _
  after_results <;> rfl
theorem V1_main_v20_apply (c : Dev nD) (o : Fin 512) :
    (V1 m ρ c main_v20 : S1x512.Idx → EReal) (ix2 (0 : Fin 1) o) = (m ((c : Thread nD τ).loc main_arg8) : S512.Idx → EReal) (ix1 o) := by
  rw [V1_main_v20]
  exact shapeCast_a_1a_apply _ _ _ _

/-! ## Weights, biases and row ranges are the same at every call's entry -/

theorem V3_main_v6 (c : Dev nD) : V3 m ρ c main_v6 = V1 m ρ c main_v6 :=
  calc W3 m ρ c (Proc.devRef .tc main_v6)
    _ = W2 m ρ c (Proc.devRef .tc main_v6) := StableHlo.after_of_forall_not_mem (b := Proc.devRef .tc main_v6) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 2 cfg0.N := W2_arr m ρ c 2
    _ = (dat0 (V1 m ρ) c).A 2 := (dat0 (V1 m ρ) c).arrAt_in 2 (by decide) cfg0.N
    _ = V1 m ρ c main_v6 := A_eq0 (V1 m ρ) c 2
theorem V5_main_v6 (c : Dev nD) : V5 m ρ c main_v6 = V3 m ρ c main_v6 :=
  calc W5 m ρ c (Proc.devRef .tc main_v6)
    _ = W4 m ρ c (Proc.devRef .tc main_v6) := StableHlo.after_of_forall_not_mem (b := Proc.devRef .tc main_v6) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 3 cfg1.N := W4_arr m ρ c 3
    _ = (dat1 (V3 m ρ) c).A 3 := (dat1 (V3 m ρ) c).arrAt_in 3 (by decide) cfg1.N
    _ = V3 m ρ c main_v6 := A_eq1 (V3 m ρ) c 3
theorem V7_main_v6 (c : Dev nD) : V7 m ρ c main_v6 = V5 m ρ c main_v6 :=
  calc W7 m ρ c (Proc.devRef .tc main_v6)
    _ = W6 m ρ c (Proc.devRef .tc main_v6) := StableHlo.after_of_forall_not_mem (b := Proc.devRef .tc main_v6) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 3 cfg2.N := W6_arr m ρ c 3
    _ = (dat2 (V5 m ρ) c).A 3 := (dat2 (V5 m ρ) c).arrAt_in 3 (by decide) cfg2.N
    _ = V5 m ρ c main_v6 := A_eq2 (V5 m ρ) c 3
theorem V3_main_v7 (c : Dev nD) : V3 m ρ c main_v7 = V1 m ρ c main_v7 :=
  calc W3 m ρ c (Proc.devRef .tc main_v7)
    _ = W2 m ρ c (Proc.devRef .tc main_v7) := StableHlo.after_of_forall_not_mem (b := Proc.devRef .tc main_v7) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 3 cfg0.N := W2_arr m ρ c 3
    _ = (dat0 (V1 m ρ) c).A 3 := (dat0 (V1 m ρ) c).arrAt_in 3 (by decide) cfg0.N
    _ = V1 m ρ c main_v7 := A_eq0 (V1 m ρ) c 3
theorem V5_main_v7 (c : Dev nD) : V5 m ρ c main_v7 = V3 m ρ c main_v7 :=
  calc W5 m ρ c (Proc.devRef .tc main_v7)
    _ = W4 m ρ c (Proc.devRef .tc main_v7) := StableHlo.after_of_forall_not_mem (b := Proc.devRef .tc main_v7) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 4 cfg1.N := W4_arr m ρ c 4
    _ = (dat1 (V3 m ρ) c).A 4 := (dat1 (V3 m ρ) c).arrAt_in 4 (by decide) cfg1.N
    _ = V3 m ρ c main_v7 := A_eq1 (V3 m ρ) c 4
theorem V7_main_v7 (c : Dev nD) : V7 m ρ c main_v7 = V5 m ρ c main_v7 :=
  calc W7 m ρ c (Proc.devRef .tc main_v7)
    _ = W6 m ρ c (Proc.devRef .tc main_v7) := StableHlo.after_of_forall_not_mem (b := Proc.devRef .tc main_v7) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 4 cfg2.N := W6_arr m ρ c 4
    _ = (dat2 (V5 m ρ) c).A 4 := (dat2 (V5 m ρ) c).arrAt_in 4 (by decide) cfg2.N
    _ = V5 m ρ c main_v7 := A_eq2 (V5 m ρ) c 4
theorem V3_main_v17 (c : Dev nD) : V3 m ρ c main_v17 = V1 m ρ c main_v17 :=
  calc W3 m ρ c (Proc.devRef .tc main_v17)
    _ = W2 m ρ c (Proc.devRef .tc main_v17) := StableHlo.after_of_forall_not_mem (b := Proc.devRef .tc main_v17) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 4 cfg0.N := W2_arr m ρ c 4
    _ = (dat0 (V1 m ρ) c).A 4 := (dat0 (V1 m ρ) c).arrAt_in 4 (by decide) cfg0.N
    _ = V1 m ρ c main_v17 := A_eq0 (V1 m ρ) c 4
theorem V5_main_v17 (c : Dev nD) : V5 m ρ c main_v17 = V3 m ρ c main_v17 :=
  calc W5 m ρ c (Proc.devRef .tc main_v17)
    _ = W4 m ρ c (Proc.devRef .tc main_v17) := StableHlo.after_of_forall_not_mem (b := Proc.devRef .tc main_v17) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 5 cfg1.N := W4_arr m ρ c 5
    _ = (dat1 (V3 m ρ) c).A 5 := (dat1 (V3 m ρ) c).arrAt_in 5 (by decide) cfg1.N
    _ = V3 m ρ c main_v17 := A_eq1 (V3 m ρ) c 5
theorem V7_main_v17 (c : Dev nD) : V7 m ρ c main_v17 = V5 m ρ c main_v17 :=
  calc W7 m ρ c (Proc.devRef .tc main_v17)
    _ = W6 m ρ c (Proc.devRef .tc main_v17) := StableHlo.after_of_forall_not_mem (b := Proc.devRef .tc main_v17) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 5 cfg2.N := W6_arr m ρ c 5
    _ = (dat2 (V5 m ρ) c).A 5 := (dat2 (V5 m ρ) c).arrAt_in 5 (by decide) cfg2.N
    _ = V5 m ρ c main_v17 := A_eq2 (V5 m ρ) c 5
theorem V3_main_v12 (c : Dev nD) : V3 m ρ c main_v12 = V1 m ρ c main_v12 :=
  calc W3 m ρ c (Proc.devRef .tc main_v12)
    _ = W2 m ρ c (Proc.devRef .tc main_v12) := StableHlo.after_of_forall_not_mem (b := Proc.devRef .tc main_v12) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 5 cfg0.N := W2_arr m ρ c 5
    _ = (dat0 (V1 m ρ) c).A 5 := (dat0 (V1 m ρ) c).arrAt_in 5 (by decide) cfg0.N
    _ = V1 m ρ c main_v12 := A_eq0 (V1 m ρ) c 5
theorem V5_main_v12 (c : Dev nD) : V5 m ρ c main_v12 = V3 m ρ c main_v12 :=
  calc W5 m ρ c (Proc.devRef .tc main_v12)
    _ = W4 m ρ c (Proc.devRef .tc main_v12) := StableHlo.after_of_forall_not_mem (b := Proc.devRef .tc main_v12) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 6 cfg1.N := W4_arr m ρ c 6
    _ = (dat1 (V3 m ρ) c).A 6 := (dat1 (V3 m ρ) c).arrAt_in 6 (by decide) cfg1.N
    _ = V3 m ρ c main_v12 := A_eq1 (V3 m ρ) c 6
theorem V7_main_v12 (c : Dev nD) : V7 m ρ c main_v12 = V5 m ρ c main_v12 :=
  calc W7 m ρ c (Proc.devRef .tc main_v12)
    _ = W6 m ρ c (Proc.devRef .tc main_v12) := StableHlo.after_of_forall_not_mem (b := Proc.devRef .tc main_v12) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 6 cfg2.N := W6_arr m ρ c 6
    _ = (dat2 (V5 m ρ) c).A 6 := (dat2 (V5 m ρ) c).arrAt_in 6 (by decide) cfg2.N
    _ = V5 m ρ c main_v12 := A_eq2 (V5 m ρ) c 6
theorem V3_main_v13 (c : Dev nD) : V3 m ρ c main_v13 = V1 m ρ c main_v13 :=
  calc W3 m ρ c (Proc.devRef .tc main_v13)
    _ = W2 m ρ c (Proc.devRef .tc main_v13) := StableHlo.after_of_forall_not_mem (b := Proc.devRef .tc main_v13) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 6 cfg0.N := W2_arr m ρ c 6
    _ = (dat0 (V1 m ρ) c).A 6 := (dat0 (V1 m ρ) c).arrAt_in 6 (by decide) cfg0.N
    _ = V1 m ρ c main_v13 := A_eq0 (V1 m ρ) c 6
theorem V5_main_v13 (c : Dev nD) : V5 m ρ c main_v13 = V3 m ρ c main_v13 :=
  calc W5 m ρ c (Proc.devRef .tc main_v13)
    _ = W4 m ρ c (Proc.devRef .tc main_v13) := StableHlo.after_of_forall_not_mem (b := Proc.devRef .tc main_v13) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 7 cfg1.N := W4_arr m ρ c 7
    _ = (dat1 (V3 m ρ) c).A 7 := (dat1 (V3 m ρ) c).arrAt_in 7 (by decide) cfg1.N
    _ = V3 m ρ c main_v13 := A_eq1 (V3 m ρ) c 7
theorem V7_main_v13 (c : Dev nD) : V7 m ρ c main_v13 = V5 m ρ c main_v13 :=
  calc W7 m ρ c (Proc.devRef .tc main_v13)
    _ = W6 m ρ c (Proc.devRef .tc main_v13) := StableHlo.after_of_forall_not_mem (b := Proc.devRef .tc main_v13) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 7 cfg2.N := W6_arr m ρ c 7
    _ = (dat2 (V5 m ρ) c).A 7 := (dat2 (V5 m ρ) c).arrAt_in 7 (by decide) cfg2.N
    _ = V5 m ρ c main_v13 := A_eq2 (V5 m ρ) c 7
theorem V3_main_v19 (c : Dev nD) : V3 m ρ c main_v19 = V1 m ρ c main_v19 :=
  calc W3 m ρ c (Proc.devRef .tc main_v19)
    _ = W2 m ρ c (Proc.devRef .tc main_v19) := StableHlo.after_of_forall_not_mem (b := Proc.devRef .tc main_v19) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 7 cfg0.N := W2_arr m ρ c 7
    _ = (dat0 (V1 m ρ) c).A 7 := (dat0 (V1 m ρ) c).arrAt_in 7 (by decide) cfg0.N
    _ = V1 m ρ c main_v19 := A_eq0 (V1 m ρ) c 7
theorem V5_main_v19 (c : Dev nD) : V5 m ρ c main_v19 = V3 m ρ c main_v19 :=
  calc W5 m ρ c (Proc.devRef .tc main_v19)
    _ = W4 m ρ c (Proc.devRef .tc main_v19) := StableHlo.after_of_forall_not_mem (b := Proc.devRef .tc main_v19) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 8 cfg1.N := W4_arr m ρ c 8
    _ = (dat1 (V3 m ρ) c).A 8 := (dat1 (V3 m ρ) c).arrAt_in 8 (by decide) cfg1.N
    _ = V3 m ρ c main_v19 := A_eq1 (V3 m ρ) c 8
theorem V7_main_v19 (c : Dev nD) : V7 m ρ c main_v19 = V5 m ρ c main_v19 :=
  calc W7 m ρ c (Proc.devRef .tc main_v19)
    _ = W6 m ρ c (Proc.devRef .tc main_v19) := StableHlo.after_of_forall_not_mem (b := Proc.devRef .tc main_v19) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 8 cfg2.N := W6_arr m ρ c 8
    _ = (dat2 (V5 m ρ) c).A 8 := (dat2 (V5 m ρ) c).arrAt_in 8 (by decide) cfg2.N
    _ = V5 m ρ c main_v19 := A_eq2 (V5 m ρ) c 8
theorem V3_main_v15 (c : Dev nD) : V3 m ρ c main_v15 = V1 m ρ c main_v15 :=
  calc W3 m ρ c (Proc.devRef .tc main_v15)
    _ = W2 m ρ c (Proc.devRef .tc main_v15) := StableHlo.after_of_forall_not_mem (b := Proc.devRef .tc main_v15) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 8 cfg0.N := W2_arr m ρ c 8
    _ = (dat0 (V1 m ρ) c).A 8 := (dat0 (V1 m ρ) c).arrAt_in 8 (by decide) cfg0.N
    _ = V1 m ρ c main_v15 := A_eq0 (V1 m ρ) c 8
theorem V5_main_v15 (c : Dev nD) : V5 m ρ c main_v15 = V3 m ρ c main_v15 :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 9 cfg1.N := W4_arr m ρ c 9
    _ = (dat1 (V3 m ρ) c).A 9 := (dat1 (V3 m ρ) c).arrAt_in 9 (by decide) cfg1.N
    _ = V3 m ρ c main_v15 := A_eq1 (V3 m ρ) c 9
theorem V7_main_v15 (c : Dev nD) : V7 m ρ c main_v15 = V5 m ρ c main_v15 :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 9 cfg2.N := W6_arr m ρ c 9
    _ = (dat2 (V5 m ρ) c).A 9 := (dat2 (V5 m ρ) c).arrAt_in 9 (by decide) cfg2.N
    _ = V5 m ρ c main_v15 := A_eq2 (V5 m ρ) c 9
theorem V3_main_v16 (c : Dev nD) : V3 m ρ c main_v16 = V1 m ρ c main_v16 :=
  calc W3 m ρ c (Proc.devRef .tc main_v16)
    _ = W2 m ρ c (Proc.devRef .tc main_v16) := StableHlo.after_of_forall_not_mem (b := Proc.devRef .tc main_v16) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 9 cfg0.N := W2_arr m ρ c 9
    _ = (dat0 (V1 m ρ) c).A 9 := (dat0 (V1 m ρ) c).arrAt_in 9 (by decide) cfg0.N
    _ = V1 m ρ c main_v16 := A_eq0 (V1 m ρ) c 9
theorem V5_main_v16 (c : Dev nD) : V5 m ρ c main_v16 = V3 m ρ c main_v16 :=
  calc W5 m ρ c (Proc.devRef .tc main_v16)
    _ = W4 m ρ c (Proc.devRef .tc main_v16) := StableHlo.after_of_forall_not_mem (b := Proc.devRef .tc main_v16) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 10 cfg1.N := W4_arr m ρ c 10
    _ = (dat1 (V3 m ρ) c).A 10 := (dat1 (V3 m ρ) c).arrAt_in 10 (by decide) cfg1.N
    _ = V3 m ρ c main_v16 := A_eq1 (V3 m ρ) c 10
theorem V7_main_v16 (c : Dev nD) : V7 m ρ c main_v16 = V5 m ρ c main_v16 :=
  calc W7 m ρ c (Proc.devRef .tc main_v16)
    _ = W6 m ρ c (Proc.devRef .tc main_v16) := StableHlo.after_of_forall_not_mem (b := Proc.devRef .tc main_v16) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 10 cfg2.N := W6_arr m ρ c 10
    _ = (dat2 (V5 m ρ) c).A 10 := (dat2 (V5 m ρ) c).arrAt_in 10 (by decide) cfg2.N
    _ = V5 m ρ c main_v16 := A_eq2 (V5 m ρ) c 10
theorem V3_main_v20 (c : Dev nD) : V3 m ρ c main_v20 = V1 m ρ c main_v20 :=
  calc W3 m ρ c (Proc.devRef .tc main_v20)
    _ = W2 m ρ c (Proc.devRef .tc main_v20) := StableHlo.after_of_forall_not_mem (b := Proc.devRef .tc main_v20) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 10 cfg0.N := W2_arr m ρ c 10
    _ = (dat0 (V1 m ρ) c).A 10 := (dat0 (V1 m ρ) c).arrAt_in 10 (by decide) cfg0.N
    _ = V1 m ρ c main_v20 := A_eq0 (V1 m ρ) c 10
theorem V5_main_v20 (c : Dev nD) : V5 m ρ c main_v20 = V3 m ρ c main_v20 :=
  calc W5 m ρ c (Proc.devRef .tc main_v20)
    _ = W4 m ρ c (Proc.devRef .tc main_v20) := StableHlo.after_of_forall_not_mem (b := Proc.devRef .tc main_v20) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 11 cfg1.N := W4_arr m ρ c 11
    _ = (dat1 (V3 m ρ) c).A 11 := (dat1 (V3 m ρ) c).arrAt_in 11 (by decide) cfg1.N
    _ = V3 m ρ c main_v20 := A_eq1 (V3 m ρ) c 11
theorem V7_main_v20 (c : Dev nD) : V7 m ρ c main_v20 = V5 m ρ c main_v20 :=
  calc W7 m ρ c (Proc.devRef .tc main_v20)
    _ = W6 m ρ c (Proc.devRef .tc main_v20) := StableHlo.after_of_forall_not_mem (b := Proc.devRef .tc main_v20) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 11 cfg2.N := W6_arr m ρ c 11
    _ = (dat2 (V5 m ρ) c).A 11 := (dat2 (V5 m ρ) c).arrAt_in 11 (by decide) cfg2.N
    _ = V5 m ρ c main_v20 := A_eq2 (V5 m ρ) c 11
theorem V3_main_v9 (c : Dev nD) : V3 m ρ c main_v9 = V1 m ρ c main_v9 :=
  calc W3 m ρ c (Proc.devRef .tc main_v9)
    _ = W2 m ρ c (Proc.devRef .tc main_v9) := StableHlo.after_of_forall_not_mem (b := Proc.devRef .tc main_v9) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 11 cfg0.N := W2_arr m ρ c 11
    _ = (dat0 (V1 m ρ) c).A 11 := (dat0 (V1 m ρ) c).arrAt_in 11 (by decide) cfg0.N
    _ = V1 m ρ c main_v9 := A_eq0 (V1 m ρ) c 11
theorem V5_main_v9 (c : Dev nD) : V5 m ρ c main_v9 = V3 m ρ c main_v9 :=
  calc W5 m ρ c (Proc.devRef .tc main_v9)
    _ = W4 m ρ c (Proc.devRef .tc main_v9) := StableHlo.after_of_forall_not_mem (b := Proc.devRef .tc main_v9) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 12 cfg1.N := W4_arr m ρ c 12
    _ = (dat1 (V3 m ρ) c).A 12 := (dat1 (V3 m ρ) c).arrAt_in 12 (by decide) cfg1.N
    _ = V3 m ρ c main_v9 := A_eq1 (V3 m ρ) c 12
theorem V7_main_v9 (c : Dev nD) : V7 m ρ c main_v9 = V5 m ρ c main_v9 :=
  calc W7 m ρ c (Proc.devRef .tc main_v9)
    _ = W6 m ρ c (Proc.devRef .tc main_v9) := StableHlo.after_of_forall_not_mem (b := Proc.devRef .tc main_v9) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 12 cfg2.N := W6_arr m ρ c 12
    _ = (dat2 (V5 m ρ) c).A 12 := (dat2 (V5 m ρ) c).arrAt_in 12 (by decide) cfg2.N
    _ = V5 m ρ c main_v9 := A_eq2 (V5 m ρ) c 12
theorem V3_main_v10 (c : Dev nD) : V3 m ρ c main_v10 = V1 m ρ c main_v10 :=
  calc W3 m ρ c (Proc.devRef .tc main_v10)
    _ = W2 m ρ c (Proc.devRef .tc main_v10) := StableHlo.after_of_forall_not_mem (b := Proc.devRef .tc main_v10) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 12 cfg0.N := W2_arr m ρ c 12
    _ = (dat0 (V1 m ρ) c).A 12 := (dat0 (V1 m ρ) c).arrAt_in 12 (by decide) cfg0.N
    _ = V1 m ρ c main_v10 := A_eq0 (V1 m ρ) c 12
theorem V5_main_v10 (c : Dev nD) : V5 m ρ c main_v10 = V3 m ρ c main_v10 :=
  calc W5 m ρ c (Proc.devRef .tc main_v10)
    _ = W4 m ρ c (Proc.devRef .tc main_v10) := StableHlo.after_of_forall_not_mem (b := Proc.devRef .tc main_v10) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 13 cfg1.N := W4_arr m ρ c 13
    _ = (dat1 (V3 m ρ) c).A 13 := (dat1 (V3 m ρ) c).arrAt_in 13 (by decide) cfg1.N
    _ = V3 m ρ c main_v10 := A_eq1 (V3 m ρ) c 13
theorem V7_main_v10 (c : Dev nD) : V7 m ρ c main_v10 = V5 m ρ c main_v10 :=
  calc W7 m ρ c (Proc.devRef .tc main_v10)
    _ = W6 m ρ c (Proc.devRef .tc main_v10) := StableHlo.after_of_forall_not_mem (b := Proc.devRef .tc main_v10) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 13 cfg2.N := W6_arr m ρ c 13
    _ = (dat2 (V5 m ρ) c).A 13 := (dat2 (V5 m ρ) c).arrAt_in 13 (by decide) cfg2.N
    _ = V5 m ρ c main_v10 := A_eq2 (V5 m ρ) c 13
theorem V3_main_v18 (c : Dev nD) : V3 m ρ c main_v18 = V1 m ρ c main_v18 :=
  calc W3 m ρ c (Proc.devRef .tc main_v18)
    _ = W2 m ρ c (Proc.devRef .tc main_v18) := StableHlo.after_of_forall_not_mem (b := Proc.devRef .tc main_v18) _ _ (List.forall_iff_forall_mem.mp (by
          simp only [hostOps1, List.Forall, StableHlo.reshape_writes, Finset.mem_singleton]
          repeat' apply And.intro
          all_goals exact StableHlo.devRef_ne_of_ne (by decide)))
    _ = (dat0 (V1 m ρ) c).arrAt 13 cfg0.N := W2_arr m ρ c 13
    _ = (dat0 (V1 m ρ) c).A 13 := (dat0 (V1 m ρ) c).arrAt_in 13 (by decide) cfg0.N
    _ = V1 m ρ c main_v18 := A_eq0 (V1 m ρ) c 13
theorem V5_main_v18 (c : Dev nD) : V5 m ρ c main_v18 = V3 m ρ c main_v18 :=
  calc W5 m ρ c (Proc.devRef .tc main_v18)
    _ = W4 m ρ c (Proc.devRef .tc main_v18) := StableHlo.after_of_forall_not_mem (b := Proc.devRef .tc main_v18) _ _ (List.forall_iff_forall_mem.mp (by
          simp only [hostOps2, List.Forall, StableHlo.reshape_writes, Finset.mem_singleton]
          repeat' apply And.intro
          all_goals exact StableHlo.devRef_ne_of_ne (by decide)))
    _ = (dat1 (V3 m ρ) c).arrAt 14 cfg1.N := W4_arr m ρ c 14
    _ = (dat1 (V3 m ρ) c).A 14 := (dat1 (V3 m ρ) c).arrAt_in 14 (by decide) cfg1.N
    _ = V3 m ρ c main_v18 := A_eq1 (V3 m ρ) c 14
theorem V7_main_v18 (c : Dev nD) : V7 m ρ c main_v18 = V5 m ρ c main_v18 :=
  calc W7 m ρ c (Proc.devRef .tc main_v18)
    _ = W6 m ρ c (Proc.devRef .tc main_v18) := StableHlo.after_of_forall_not_mem (b := Proc.devRef .tc main_v18) _ _ (List.forall_iff_forall_mem.mp (by
          simp only [hostOps3, List.Forall, StableHlo.reshape_writes, Finset.mem_singleton]
          repeat' apply And.intro
          all_goals exact StableHlo.devRef_ne_of_ne (by decide)))
    _ = (dat2 (V5 m ρ) c).arrAt 14 cfg2.N := W6_arr m ρ c 14
    _ = (dat2 (V5 m ρ) c).A 14 := (dat2 (V5 m ρ) c).arrAt_in 14 (by decide) cfg2.N
    _ = V5 m ρ c main_v18 := A_eq2 (V5 m ρ) c 14
theorem V3_main_v2 (c : Dev nD) : V3 m ρ c main_v2 = V1 m ρ c main_v2 :=
  calc W3 m ρ c (Proc.devRef .tc main_v2)
    _ = W2 m ρ c (Proc.devRef .tc main_v2) := StableHlo.after_of_forall_not_mem (b := Proc.devRef .tc main_v2) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_v2) := W2_of_ne m ρ c main_v2 (by decide)
theorem V5_main_v1 (c : Dev nD) : V5 m ρ c main_v1 = V1 m ρ c main_v1 :=
  calc W5 m ρ c (Proc.devRef .tc main_v1)
    _ = W4 m ρ c (Proc.devRef .tc main_v1) := StableHlo.after_of_forall_not_mem (b := Proc.devRef .tc main_v1) _ _ (List.forall_iff_forall_mem.mp (by
          simp only [hostOps2, List.Forall, StableHlo.reshape_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_v1) := W2_of_ne m ρ c main_v1 (by decide)
theorem V7_main_v0 (c : Dev nD) : V7 m ρ c main_v0 = V1 m ρ c main_v0 :=
  calc W7 m ρ c (Proc.devRef .tc main_v0)
    _ = W6 m ρ c (Proc.devRef .tc main_v0) := StableHlo.after_of_forall_not_mem (b := Proc.devRef .tc main_v0) _ _ (List.forall_iff_forall_mem.mp (by
          simp only [hostOps3, List.Forall, StableHlo.reshape_writes, Finset.mem_singleton]
          repeat' apply And.intro
          all_goals exact StableHlo.devRef_ne_of_ne (by decide)))
    _ = W5 m ρ c (Proc.devRef .tc main_v0) := W6_of_ne m ρ c main_v0 (by decide)
    _ = W4 m ρ c (Proc.devRef .tc main_v0) := StableHlo.after_of_forall_not_mem (b := Proc.devRef .tc main_v0) _ _ (List.forall_iff_forall_mem.mp (by
          simp only [hostOps2, List.Forall, StableHlo.reshape_writes, Finset.mem_singleton]
          repeat' apply And.intro
          all_goals exact StableHlo.devRef_ne_of_ne (by decide)))
    _ = W3 m ρ c (Proc.devRef .tc main_v0) := W4_of_ne m ρ c main_v0 (by decide)
    _ = W2 m ρ c (Proc.devRef .tc main_v0) := StableHlo.after_of_forall_not_mem (b := Proc.devRef .tc main_v0) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_v0) := W2_of_ne m ρ c main_v0 (by decide)

/-! ## The reshapes between the regions: child b of node n is row 16·n + b of the level below -/

theorem V3_main_v22 (c : Dev nD) :
    V3 m ρ c main_v22 = shapeCast S256x16x512 ((dat0 (V1 m ρ) c).arrAt 14 cfg0.N) Facts₀.shapeCasts_S4096x512_S256x16x512 := by
  rw [← W2_arr m ρ c 14]
  show StableHlo.after hostOps1 (W2 m ρ c) (Proc.devRef .tc main_v22) = _
  after_results <;> rfl
theorem V3_main_v23 (c : Dev nD) :
    V3 m ρ c main_v23 = shapeCast S256x16x512 ((dat0 (V1 m ρ) c).arrAt 15 cfg0.N) Facts₀.shapeCasts_S4096x512_S256x16x512 := by
  rw [← W2_arr m ρ c 15]
  show StableHlo.after hostOps1 (W2 m ρ c) (Proc.devRef .tc main_v23) = _
  after_results <;> rfl
theorem V5_main_v25 (c : Dev nD) :
    V5 m ρ c main_v25 = shapeCast S16x16x512 ((dat1 (V3 m ρ) c).arrAt 15 cfg1.N) Facts₀.shapeCasts_S256x512_S16x16x512 := by
  rw [← W4_arr m ρ c 15]
  show StableHlo.after hostOps2 (W4 m ρ c) (Proc.devRef .tc main_v25) = _
  after_results <;> rfl
theorem V5_main_v26 (c : Dev nD) :
    V5 m ρ c main_v26 = shapeCast S16x16x512 ((dat1 (V3 m ρ) c).arrAt 16 cfg1.N) Facts₀.shapeCasts_S256x512_S16x16x512 := by
  rw [← W4_arr m ρ c 16]
  show StableHlo.after hostOps2 (W4 m ρ c) (Proc.devRef .tc main_v26) = _
  after_results <;> rfl
theorem V7_main_v28 (c : Dev nD) :
    V7 m ρ c main_v28 = shapeCast S1x16x512 ((dat2 (V5 m ρ) c).arrAt 15 cfg2.N) Facts₀.shapeCasts_S16x512_S1x16x512 := by
  rw [← W6_arr m ρ c 15]
  show StableHlo.after hostOps3 (W6 m ρ c) (Proc.devRef .tc main_v28) = _
  after_results <;> rfl
theorem V7_main_v29 (c : Dev nD) :
    V7 m ρ c main_v29 = shapeCast S1x16x512 ((dat2 (V5 m ρ) c).arrAt 16 cfg2.N) Facts₀.shapeCasts_S16x512_S1x16x512 := by
  rw [← W6_arr m ρ c 16]
  show StableHlo.after hostOps3 (W6 m ρ c) (Proc.devRef .tc main_v29) = _
  after_results <;> rfl
theorem W9_main_v31 (c : Dev nD) :
    W9 m ρ c (Proc.devRef .tc main_v31) = shapeCast S512 ((dat3 (V7 m ρ) c).arrAt 15 cfg3.N) Facts₀.shapeCasts_S1x512_S512 := by
  rw [← W8_arr m ρ c 15]
  show StableHlo.after hostOps4 (W8 m ρ c) (Proc.devRef .tc main_v31) = _
  after_results <;> rfl
theorem W9_main_v32 (c : Dev nD) :
    W9 m ρ c (Proc.devRef .tc main_v32) = shapeCast S512 ((dat3 (V7 m ρ) c).arrAt 16 cfg3.N) Facts₀.shapeCasts_S1x512_S512 := by
  rw [← W8_arr m ρ c 16]
  show StableHlo.after hostOps4 (W8 m ρ c) (Proc.devRef .tc main_v32) = _
  after_results <;> rfl

/-- A [16·N, 512] array reshaped to [N, 16, 512]: entry (n, b) is row 16·n + b. -/
theorem regroup256 {α : Type} (v : S4096x512.Idx → α) (n : Fin 256) (b : Fin 16) (k : Fin 512) :
    shapeCast S256x16x512 v Facts₀.shapeCasts_S4096x512_S256x16x512 (ix3 n b k) = v (ix2 (⟨16 * n.val + b.val, by omega⟩ : Fin 4096) k) :=
  shapeCast_apply v _ _ _ (by
    rw [Shape.rowMajor_val_three, Shape.rowMajor_val_two]
    show (16 * n.val + b.val) * 512 + k.val = (n.val * 16 + b.val) * 512 + k.val
    omega)
theorem regroup16 {α : Type} (v : S256x512.Idx → α) (n : Fin 16) (b : Fin 16) (k : Fin 512) :
    shapeCast S16x16x512 v Facts₀.shapeCasts_S256x512_S16x16x512 (ix3 n b k) = v (ix2 (⟨16 * n.val + b.val, by omega⟩ : Fin 256) k) :=
  shapeCast_apply v _ _ _ (by
    rw [Shape.rowMajor_val_three, Shape.rowMajor_val_two]
    show (16 * n.val + b.val) * 512 + k.val = (n.val * 16 + b.val) * 512 + k.val
    omega)
theorem regroup1 {α : Type} (v : S16x512.Idx → α) (n : Fin 1) (b : Fin 16) (k : Fin 512) :
    shapeCast S1x16x512 v Facts₀.shapeCasts_S16x512_S1x16x512 (ix3 n b k) = v (ix2 (⟨16 * n.val + b.val, by omega⟩ : Fin 16) k) :=
  shapeCast_apply v _ _ _ (by
    rw [Shape.rowMajor_val_three, Shape.rowMajor_val_two]
    show (16 * n.val + b.val) * 512 + k.val = (n.val * 16 + b.val) * 512 + k.val
    omega)
/-- The one row of a [1, 512] array as a [512] array. -/
theorem dropRow {α : Type} (v : S1x512.Idx → α) (o : Fin 512) :
    shapeCast S512 v Facts₀.shapeCasts_S1x512_S512 (ix1 o) = v (ix2 (0 : Fin 1) o) :=
  shapeCast_1a_a_apply _ _ _

end Cert.KernelIdeal.Glue

end
-- ==== Proof.KerNodePK.lean ====
/-
  The split-arrangement bundle of the four gates read off the twelve weight and bias arrays as a node region finds them.
-/
import proofs.«172855_j27504970564112_2_alg».proof.Proof.Gen.KernelIdeal
import proofs.«172855_j27504970564112_2_alg».proof.Proof.KerNodeArgs

noncomputable section

open Idealize.ShloMosaic Idealize.ShloMosaic.TcCoe

namespace Cert.KernelIdeal.NodeValue

open Idealize.ShloMosaic.ValueIdx
open Cert.KernelIdeal Cert.TreeCell

variable (V : (c : Dev nD) → (b : Ref sig .tc) → Buf (Elt Ideal) ((c : Thread nD τ).loc b))

/-- The gates' bundle from the arrays of the input-half matrices, hidden-half matrices and bias rows of i, o, u, f. -/
def PK (c : Dev nD) : Pres :=
  presOf (V c main_v6) (V c main_v7) (V c main_v17) (V c main_v12) (V c main_v13) (V c main_v19)
    (V c main_v15) (V c main_v16) (V c main_v20) (V c main_v9) (V c main_v10) (V c main_v18)

/-- Spelled out over the arrays' entries. -/
theorem PK_eq (c : Dev nD) : PK V c
    = kerPres (fun k o => (V c main_v6 : S512x512.Idx → EReal) (ix2 k o)) (fun k o => (V c main_v7 : S512x512.Idx → EReal) (ix2 k o))
        (fun o => (V c main_v17 : S1x512.Idx → EReal) (ix2 (0 : Fin 1) o))
        (fun k o => (V c main_v12 : S512x512.Idx → EReal) (ix2 k o)) (fun k o => (V c main_v13 : S512x512.Idx → EReal) (ix2 k o))
        (fun o => (V c main_v19 : S1x512.Idx → EReal) (ix2 (0 : Fin 1) o))
        (fun k o => (V c main_v15 : S512x512.Idx → EReal) (ix2 k o)) (fun k o => (V c main_v16 : S512x512.Idx → EReal) (ix2 k o))
        (fun o => (V c main_v20 : S1x512.Idx → EReal) (ix2 (0 : Fin 1) o))
        (fun k o => (V c main_v9 : S512x512.Idx → EReal) (ix2 k o)) (fun k o => (V c main_v10 : S512x512.Idx → EReal) (ix2 k o))
        (fun o => (V c main_v18 : S1x512.Idx → EReal) (ix2 (0 : Fin 1) o)) := rfl

end Cert.KernelIdeal.NodeValue

end
-- ==== Proof.KerLevel3.lean ====
/-
  Level 3 of the tree from the kernel's first pallas_call. With x the launch input as 69905 rows and the four
  gates' 512 × 1024 weight matrices and biases as the launch holds them, the weight halves and bias rows the call
  finds are the halves of the launch matrices (transposed) and the launch biases, its parents' rows are rows
  273 + n and its leaves' rows are rows 4369 + j of x: so its two output arrays hold, at row n, the hidden and the
  cell row of node n of level 3, over leaves 16·n … 16·n + 15 of level 4.
-/
import proofs.«172855_j27504970564112_2_alg».proof.Proof.KerFusedBlocks
import proofs.«172855_j27504970564112_2_alg».proof.Proof.KerGlue
import proofs.«172855_j27504970564112_2_alg».proof.Proof.KerNodePK

set_option maxRecDepth 16384

noncomputable section

namespace Cert.KernelIdeal.Levels

open Cert.KernelIdeal Cert.KernelIdeal.Gen Cert.TreeCell Cert.KernelIdeal.NodeValue Cert.KernelIdeal.Glue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The launch input as rows. -/
def xK (c : Dev nD) : Fin 69905 → Row := fun r k => (m ((c : Thread nD τ).loc main_arg0) : S69905x512.Idx → EReal) (ix2 r k)
/-- The launch weight matrices and biases of the gates i, f, o, u. -/
def Wi (c : Dev nD) : Fin 512 → Fin 1024 → EReal := fun o k => (m ((c : Thread nD τ).loc main_arg1) : S512x1024.Idx → EReal) (ix2 o k)
def bi (c : Dev nD) : Row := fun o => (m ((c : Thread nD τ).loc main_arg2) : S512.Idx → EReal) (ix1 o)
def Wf (c : Dev nD) : Fin 512 → Fin 1024 → EReal := fun o k => (m ((c : Thread nD τ).loc main_arg3) : S512x1024.Idx → EReal) (ix2 o k)
def bf (c : Dev nD) : Row := fun o => (m ((c : Thread nD τ).loc main_arg4) : S512.Idx → EReal) (ix1 o)
def Wo (c : Dev nD) : Fin 512 → Fin 1024 → EReal := fun o k => (m ((c : Thread nD τ).loc main_arg5) : S512x1024.Idx → EReal) (ix2 o k)
def bo (c : Dev nD) : Row := fun o => (m ((c : Thread nD τ).loc main_arg6) : S512.Idx → EReal) (ix1 o)
def Wu (c : Dev nD) : Fin 512 → Fin 1024 → EReal := fun o k => (m ((c : Thread nD τ).loc main_arg7) : S512x1024.Idx → EReal) (ix2 o k)
def bu (c : Dev nD) : Row := fun o => (m ((c : Thread nD τ).loc main_arg8) : S512.Idx → EReal) (ix1 o)

/-- The gates' bundle in the split arrangement over the launch arrays. -/
def PKer (c : Dev nD) : Pres :=
  kerPres (inHalf (Wi m c)) (hidHalf (Wi m c)) (bi m c) (inHalf (Wo m c)) (hidHalf (Wo m c)) (bo m c)
    (inHalf (Wu m c)) (hidHalf (Wu m c)) (bu m c) (inHalf (Wf m c)) (hidHalf (Wf m c)) (bf m c)

/-- The bundle the first call finds is the bundle over the launch arrays. -/
theorem PK_V1 (c : Dev nD) : NodeValue.PK (V1 m ρ) c = PKer m c := by
  rw [PK_eq]
  unfold PKer
  have e6 : (fun k o => (V1 m ρ c main_v6 : S512x512.Idx → EReal) (ix2 k o)) = inHalf (Wi m c) :=
    funext fun k => funext fun o => by rw [V1_main_v6_apply]; unfold inHalf Wi; simp only [Nat.zero_add]
  have e7 : (fun k o => (V1 m ρ c main_v7 : S512x512.Idx → EReal) (ix2 k o)) = hidHalf (Wi m c) :=
    funext fun k => funext fun o => by rw [V1_main_v7_apply]; rfl
  have e17 : (fun o => (V1 m ρ c main_v17 : S1x512.Idx → EReal) (ix2 (0 : Fin 1) o)) = bi m c :=
    funext fun o => V1_main_v17_apply m ρ c o
  have e12 : (fun k o => (V1 m ρ c main_v12 : S512x512.Idx → EReal) (ix2 k o)) = inHalf (Wo m c) :=
    funext fun k => funext fun o => by rw [V1_main_v12_apply]; unfold inHalf Wo; simp only [Nat.zero_add]
  have e13 : (fun k o => (V1 m ρ c main_v13 : S512x512.Idx → EReal) (ix2 k o)) = hidHalf (Wo m c) :=
    funext fun k => funext fun o => by rw [V1_main_v13_apply]; rfl
  have e19 : (fun o => (V1 m ρ c main_v19 : S1x512.Idx → EReal) (ix2 (0 : Fin 1) o)) = bo m c :=
    funext fun o => V1_main_v19_apply m ρ c o
  have e15 : (fun k o => (V1 m ρ c main_v15 : S512x512.Idx → EReal) (ix2 k o)) = inHalf (Wu m c) :=
    funext fun k => funext fun o => by rw [V1_main_v15_apply]; unfold inHalf Wu; simp only [Nat.zero_add]
  have e16 : (fun k o => (V1 m ρ c main_v16 : S512x512.Idx → EReal) (ix2 k o)) = hidHalf (Wu m c) :=
    funext fun k => funext fun o => by rw [V1_main_v16_apply]; rfl
  have e20 : (fun o => (V1 m ρ c main_v20 : S1x512.Idx → EReal) (ix2 (0 : Fin 1) o)) = bu m c :=
    funext fun o => V1_main_v20_apply m ρ c o
  have e9 : (fun k o => (V1 m ρ c main_v9 : S512x512.Idx → EReal) (ix2 k o)) = inHalf (Wf m c) :=
    funext fun k => funext fun o => by rw [V1_main_v9_apply]; unfold inHalf Wf; simp only [Nat.zero_add]
  have e10 : (fun k o => (V1 m ρ c main_v10 : S512x512.Idx → EReal) (ix2 k o)) = hidHalf (Wf m c) :=
    funext fun k => funext fun o => by rw [V1_main_v10_apply]; rfl
  have e18 : (fun o => (V1 m ρ c main_v18 : S1x512.Idx → EReal) (ix2 (0 : Fin 1) o)) = bf m c :=
    funext fun o => V1_main_v18_apply m ρ c o
  rw [e6, e7, e17, e12, e13, e19, e15, e16, e20, e9, e10, e18]

theorem parentRow_V1 (c : Dev nD) (n : Fin 4096) :
    FusedValue.parentRow (V1 m ρ) c n = xK m c ⟨273 + n.val, by omega⟩ :=
  funext fun k => V1_main_v3_apply m ρ c n k

theorem leafRow_V1 (c : Dev nD) (j : Fin 65536) :
    FusedValue.leafRowOf (V1 m ρ) c j = xK m c ⟨4369 + j.val, by omega⟩ :=
  funext fun k => V1_main_v4_apply m ρ c j k

/-- The first call's cell array is level 3's cells. -/
theorem level3_C (c : Dev nD) :
    (dat0 (V1 m ρ) c).arrAt 15 cfg0.N = fun i => lvl3C (PKer m c) (xK m c) (i 0) (i 1) := by
  rw [FusedValue.region0_C]
  funext i
  obtain ⟨n, o, rfl⟩ : ∃ (n : Fin 4096) (o : Fin 512), i = ix2 n o := ⟨i 0, i 1, eq_ix2 i⟩
  show nodeC (FusedValue.PK (V1 m ρ) c) (FusedValue.parentRow (V1 m ρ) c n)
      (fun b => leafH (FusedValue.PK (V1 m ρ) c) (FusedValue.leafRowOf (V1 m ρ) c (FusedValue.child n b)))
      (fun b => leafC (FusedValue.PK (V1 m ρ) c) (FusedValue.leafRowOf (V1 m ρ) c (FusedValue.child n b))) o
    = lvl3C (PKer m c) (xK m c) n o
  rw [show FusedValue.PK (V1 m ρ) c = PKer m c from PK_V1 m ρ c, parentRow_V1]
  simp only [leafRow_V1]
  rfl

/-- The first call's hidden array is level 3's hidden rows. -/
theorem level3_H (c : Dev nD) :
    (dat0 (V1 m ρ) c).arrAt 14 cfg0.N = fun i => lvl3H (PKer m c) (xK m c) (i 0) (i 1) := by
  rw [FusedValue.region0_H]
  funext i
  obtain ⟨n, o, rfl⟩ : ∃ (n : Fin 4096) (o : Fin 512), i = ix2 n o := ⟨i 0, i 1, eq_ix2 i⟩
  show nodeH (FusedValue.PK (V1 m ρ) c) (FusedValue.parentRow (V1 m ρ) c n)
      (fun b => leafH (FusedValue.PK (V1 m ρ) c) (FusedValue.leafRowOf (V1 m ρ) c (FusedValue.child n b)))
      (fun b => leafC (FusedValue.PK (V1 m ρ) c) (FusedValue.leafRowOf (V1 m ρ) c (FusedValue.child n b))) o
    = lvl3H (PKer m c) (xK m c) n o
  rw [show FusedValue.PK (V1 m ρ) c = PKer m c from PK_V1 m ρ c, parentRow_V1]
  simp only [leafRow_V1]
  rfl

end Cert.KernelIdeal.Levels

end
-- ==== Proof.KerNodeOps.lean ====
/-
  The tensor operations of the tree cell's inner-node body, read at an index, on the extended reals: a matrix product
  into a zero accumulator as a sum over the contracted coordinate, the sum over the children axis, the flattening of
  the (parent, child) pair of axes into one row axis and back, and a row repeated over the children axis.
  All statements are over literal shapes with the extents as variables, so one statement serves 64, 16 and 1 parents.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.NodeValue

open Idealize.ShloMosaic Idealize.ShloMosaic.ValueIdx

/-- The logistic function of an array, at an index. -/
theorem logistic_apply {s : Shape} {φ : FTy} (a : FVec Ideal s φ) (i : s.Idx) : logistic a i = Ideal.logistic (a i) := rfl

/-- The hyperbolic tangent of an array, at an index. -/
theorem tanh_apply {s : Shape} {φ : FTy} (a : FVec Ideal s φ) (i : s.Idx) : tanh a i = Ideal.tanh (a i) := rfl

/-- The product of an m×k by a k×n matrix added into the zero matrix, at (a, b), is the sum over the contracted coordinate
    of the products of the entries. -/
theorem matmul_zero_apply {m k n : Nat} {φ₁ φ₂ : FTy}
    (d : DotDims ⟨2, ![m, k]⟩ ⟨2, ![k, n]⟩ ⟨2, ![m, n]⟩)
    (hl : d.lhsContracting = [1]) (hr : d.rhsContracting = [0]) (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant (F := Ideal) ⟨2, ![m, n]⟩ .f32 0x00000000#32) (ix2 a b)
      = ∑ c : Fin k, A (ix2 a c) * B (ix2 c b) := by
  obtain ⟨lc, rc, ln, rn, lb, rb, w⟩ := d
  dsimp only at hl hr hln hrn hlb hrb
  subst hl hr hln hrn hlb hrb
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum over the middle axis of an a×B×c array, at (p, o), is the sum over the B middle coordinates. -/
theorem sumMiddle_apply {a B c : Nat} (src : FVec Ideal ⟨3, ![a, B, c]⟩ .f32)
    (h : (⟨3, ![a, B, c]⟩ : Shape).Reduces [1] ⟨2, ![a, c]⟩) (hφ : FKind.Formats .f32)
    (hacc : (0x00000000#32 : BitVec 32) = FKind.add.neutral .f32 hφ) (p : Fin a) (o : Fin c) :
    multiReduction (F := Ideal) .add [1] ⟨2, ![a, c]⟩ src 0x00000000#32 h hφ hacc (ix2 p o) = ∑ b : Fin B, src (ix3 p b o) := by
  refine (Ideal.multiReduction_add_single src _ h hφ hacc (ix2 p o)).trans ?_
  refine Finset.sum_congr rfl fun b _ => congrArg src ?_
  funext ax; apply Fin.ext
  match ax with
  | ⟨0, _⟩ => rfl
  | ⟨1, _⟩ => rfl
  | ⟨2, _⟩ => rfl

/-- Flattening the first two axes of an a×B×c array: row p·B + b of the flat array is (p, b). -/
theorem flatten_apply {α : Type} {a B c n : Nat} (x : (⟨3, ![a, B, c]⟩ : Shape).Idx → α)
    (h : (⟨3, ![a, B, c]⟩ : Shape).ShapeCasts ⟨2, ![n, c]⟩) (p : Fin a) (b : Fin B) (o : Fin c) (r : Fin n)
    (hr : r.val = p.val * B + b.val) :
    shapeCast ⟨2, ![n, c]⟩ x h (ix2 r o) = x (ix3 p b o) := by
  refine shapeCast_apply x h (ix2 r o) (ix3 p b o) ?_
  rw [Shape.rowMajor_val_three, Shape.rowMajor_val_two]
  show (p.val * B + b.val) * c + o.val = r.val * c + o.val
  rw [hr]

/-- The inverse: (p, b) of the unflattened array is row p·B + b. -/
theorem unflatten_apply {α : Type} {a B c n : Nat} (x : (⟨2, ![n, c]⟩ : Shape).Idx → α)
    (h : (⟨2, ![n, c]⟩ : Shape).ShapeCasts ⟨3, ![a, B, c]⟩) (p : Fin a) (b : Fin B) (o : Fin c) (r : Fin n)
    (hr : r.val = p.val * B + b.val) :
    shapeCast ⟨3, ![a, B, c]⟩ x h (ix3 p b o) = x (ix2 r o) := by
  refine shapeCast_apply x h (ix3 p b o) (ix2 r o) ?_
  rw [Shape.rowMajor_val_three, Shape.rowMajor_val_two]
  show r.val * c + o.val = (p.val * B + b.val) * c + o.val
  rw [hr]

/-- A row given a unit middle axis and repeated B times along it: every copy is the row. -/
theorem repeatMiddle_apply {α : Type} {a B c : Nat} (x : (⟨2, ![a, c]⟩ : Shape).Idx → α)
    (h : (⟨2, ![a, c]⟩ : Shape).ShapeCasts ⟨3, ![a, 1, c]⟩)
    (h' : (⟨3, ![a, 1, c]⟩ : Shape).Broadcasts ⟨3, ![a, B, c]⟩) (p : Fin a) (b : Fin B) (o : Fin c) :
    broadcastTo ⟨3, ![a, B, c]⟩ (shapeCast ⟨3, ![a, 1, c]⟩ x h) h' (ix3 p b o) = x (ix2 p o) := by
  refine (broadcastTo_apply (shapeCast ⟨3, ![a, 1, c]⟩ x h) h' (ix3 p b o) (ix3 p (0 : Fin 1) o) fun ax => ?_).trans ?_
  · match ax with
    | ⟨0, _⟩ =>
      show p.val = if a = 1 then 0 else p.val
      split
      · have := p.isLt; omega
      · rfl
    | ⟨1, _⟩ => rfl
    | ⟨2, _⟩ =>
      show o.val = if c = 1 then 0 else o.val
      split
      · have := o.isLt; omega
      · rfl
  · refine shapeCast_apply x h (ix3 p (0 : Fin 1) o) (ix2 p o) ?_
    rw [Shape.rowMajor_val_three, Shape.rowMajor_val_two]
    show p.val * c + o.val = (p.val * 1 + 0) * c + o.val
    rw [Nat.mul_one, Nat.add_zero]

end Cert.KernelIdeal.NodeValue

end
-- ==== Proof.KerNode1Pay.lean ====
/-
  The two stored payloads of the inner-node body over 64 parents per block, read at an index: the cell row and the
  hidden row of parent p at output coordinate o are the tree cell's nodeC and nodeH of the parent's input row, its
  sixteen children's hidden and cell rows, and the split-arrangement bundle of the twelve weight and bias blocks.
-/
import proofs.«172855_j27504970564112_2_alg».proof.Proof.Gen.KernelIdeal.Skeleton
import proofs.«172855_j27504970564112_2_alg».proof.Proof.KerNodeOps
import proofs.«172855_j27504970564112_2_alg».proof.Proof.KerNodeArgs

noncomputable section

namespace Cert.KernelIdeal.NodeValue

open Idealize.ShloMosaic Idealize.ShloMosaic.ValueIdx
open Cert.KernelIdeal Cert.KernelIdeal.Gen Cert.TreeCell

/-- The children's hidden rows summed, at (p, k). -/
theorem k1_hsum_apply (x1 : Vec Ideal S64x16x512 .bf16) (p : Fin 64) (k : Fin 512) :
    k1_pay6 x1 (ix2 p k) = ∑ b : Fin 16, x1 (ix3 p b k) := by
  unfold k1_pay6
  simp only [shapeCast_self, truncf_apply]
  exact sumMiddle_apply _ _ _ _ p k

/-- The input gate's two products added, at (p, o). -/
theorem k1_pay11_apply (x1 : Vec Ideal S64x16x512 .bf16) (x0 : Vec Ideal S64x512 .f32) (x3 x4 : Vec Ideal S512x512 .f32)
    (p : Fin 64) (o : Fin 512) :
    k1_pay11 x1 x0 x3 x4 (ix2 p o)
      = (∑ k : Fin 512, x0 (ix2 p k) * x3 (ix2 k o)) + ∑ k : Fin 512, (∑ b : Fin 16, x1 (ix3 p b k)) * x4 (ix2 k o) := by
  unfold k1_pay11
  simp only [addf_apply, shapeCast_self]
  refine congrArg₂ (· + ·) ((matmul_zero_apply _ rfl rfl rfl rfl rfl rfl none _ _ p o).trans ?_)
    ((matmul_zero_apply _ rfl rfl rfl rfl rfl rfl none _ _ p o).trans ?_)
  · refine Finset.sum_congr rfl fun k _ => congrArg₂ (· * ·) ?_ rfl
    unfold k1_pay5
    simp only [shapeCast_self]
    rfl
  · exact Finset.sum_congr rfl fun k _ => congrArg₂ (· * ·) (k1_hsum_apply x1 p k) rfl

/-- The cell payload over its already formed operands, at (p, o). -/
theorem k1_pay13_apply (v4 : FVec Ideal S64x16x512 .bf16) (v5 : FVec Ideal S64x16x512 .f32) (v9 v10 : FVec Ideal S64x512 .bf16)
    (v25 v28 : FVec Ideal S512x512 .bf16) (v31 : FVec Ideal S64x512 .f32) (v33 : FVec Ideal S1x512 .f32)
    (v48 : Vec Ideal S1x512 .f32) (v53 v56 : Vec Ideal S512x512 .f32) (v60 : Vec Ideal S1x512 .f32) (p : Fin 64) (o : Fin 512) :
    k1_pay13 v4 v5 v9 v10 v25 v28 v31 v33 v48 v53 v56 v60 (ix2 p o)
      = Ideal.logistic (v31 (ix2 p o) + v33 (ix2 (0 : Fin 1) o))
          * Ideal.tanh (((∑ k : Fin 512, v9 (ix2 p k) * v25 (ix2 k o)) + ∑ k : Fin 512, v10 (ix2 p k) * v28 (ix2 k o))
              + v48 (ix2 (0 : Fin 1) o))
        + ∑ b : Fin 16, Ideal.logistic (((∑ k : Fin 512, v9 (ix2 p k) * v53 (ix2 k o)) + v60 (ix2 (0 : Fin 1) o))
              + ∑ k : Fin 512, v4 (ix3 p b k) * v56 (ix2 k o)) * v5 (ix3 p b o) := by
  unfold k1_pay13
  simp only [addf_apply, mulf_apply, logistic_apply, tanh_apply, shapeCast_self]
  refine congrArg₂ (· + ·) (congrArg₂ (· * ·) (congrArg Ideal.logistic (congrArg (v31 (ix2 p o) + ·) (broadcastTo_1b_ab_apply _ _ p o)))
    (congrArg Ideal.tanh ?_)) ((sumMiddle_apply _ _ _ _ p o).trans (Finset.sum_congr rfl fun b _ => ?_))
  · exact congrArg₂ (· + ·) (congrArg₂ (· + ·) (matmul_zero_apply _ rfl rfl rfl rfl rfl rfl none v9 v25 p o)
      (matmul_zero_apply _ rfl rfl rfl rfl rfl rfl none v10 v28 p o)) (broadcastTo_1b_ab_apply _ _ p o)
  · simp only [addf_apply, mulf_apply, logistic_apply]
    refine congrArg₂ (· * ·) (congrArg Ideal.logistic (congrArg₂ (· + ·) ?_ ?_)) rfl
    · refine (repeatMiddle_apply _ _ _ p b o).trans ?_
      simp only [addf_apply]
      exact congrArg₂ (· + ·) (matmul_zero_apply _ rfl rfl rfl rfl rfl rfl none v9 _ p o) (broadcastTo_1b_ab_apply _ _ p o)
    · have hlt : p.val * 16 + b.val < 1024 := by have := p.isLt; have := b.isLt; omega
      refine (unflatten_apply _ _ p b o ⟨p.val * 16 + b.val, hlt⟩ rfl).trans ?_
      refine (matmul_zero_apply _ rfl rfl rfl rfl rfl rfl none _ _ ⟨p.val * 16 + b.val, hlt⟩ o).trans ?_
      exact Finset.sum_congr rfl fun k _ => congrArg₂ (· * ·) (flatten_apply v4 _ p b k ⟨p.val * 16 + b.val, hlt⟩ rfl) rfl

/-- The hidden payload over its already formed operands, at (p, o). -/
theorem k1_pay14_apply (v4 : FVec Ideal S64x16x512 .bf16) (v5 : FVec Ideal S64x16x512 .f32) (v9 v10 : FVec Ideal S64x512 .bf16)
    (v19 v22 v25 v28 : FVec Ideal S512x512 .bf16) (v31 : FVec Ideal S64x512 .f32) (v33 : FVec Ideal S1x512 .f32)
    (v40 v48 : Vec Ideal S1x512 .f32) (v53 v56 : Vec Ideal S512x512 .f32) (v60 : Vec Ideal S1x512 .f32) (p : Fin 64) (o : Fin 512) :
    k1_pay14 v4 v5 v9 v10 v19 v22 v25 v28 v31 v33 v40 v48 v53 v56 v60 (ix2 p o)
      = Ideal.logistic (((∑ k : Fin 512, v9 (ix2 p k) * v19 (ix2 k o)) + ∑ k : Fin 512, v10 (ix2 p k) * v22 (ix2 k o))
            + v40 (ix2 (0 : Fin 1) o))
          * Ideal.tanh (k1_pay13 v4 v5 v9 v10 v25 v28 v31 v33 v48 v53 v56 v60 (ix2 p o)) := by
  unfold k1_pay14
  simp only [addf_apply, mulf_apply, logistic_apply, tanh_apply, shapeCast_self]
  exact congrArg₂ (· * ·) (congrArg Ideal.logistic (congrArg₂ (· + ·) (congrArg₂ (· + ·)
    (matmul_zero_apply _ rfl rfl rfl rfl rfl rfl none v9 v19 p o) (matmul_zero_apply _ rfl rfl rfl rfl rfl rfl none v10 v22 p o))
    (broadcastTo_1b_ab_apply _ _ p o))) rfl

/-- The identity casts of the loaded blocks. -/
theorem k1_pay3_eq (x : Vec Ideal S64x16x512 .bf16) : k1_pay3 x = x := by unfold k1_pay3; exact shapeCast_self _ _
theorem k1_pay4_eq (x : Vec Ideal S64x16x512 .bf16) : k1_pay4 x = x := by unfold k1_pay4; rw [k1_pay3_eq]; rfl
theorem k1_pay5_eq (x : Vec Ideal S64x512 .f32) : k1_pay5 x = x := by unfold k1_pay5; simp only [shapeCast_self]; rfl
theorem k1_pay7_eq (x : Vec Ideal S512x512 .f32) : k1_pay7 x = x := by unfold k1_pay7; simp only [shapeCast_self]; rfl
theorem k1_pay8_eq (x : Vec Ideal S512x512 .f32) : k1_pay8 x = x := by unfold k1_pay8; simp only [shapeCast_self]; rfl
theorem k1_pay9_eq (x : Vec Ideal S512x512 .f32) : k1_pay9 x = x := by unfold k1_pay9; simp only [shapeCast_self]; rfl
theorem k1_pay10_eq (x : Vec Ideal S512x512 .f32) : k1_pay10 x = x := by unfold k1_pay10; simp only [shapeCast_self]; rfl
theorem k1_pay12_eq (x : Vec Ideal S1x512 .f32) : k1_pay12 x = x := by unfold k1_pay12; exact shapeCast_self _ _

/-- THE CELL ROW: the stored cell payload of the loaded blocks, at (p, o), is nodeC. -/
theorem k1_cell_apply (x0 : Vec Ideal S64x512 .f32) (x1 x2 : Vec Ideal S64x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) (p : Fin 64) (o : Fin 512) :
    k1_pay2 (k1_pay13 (k1_pay3 x2) (k1_pay4 x2) (k1_pay5 x0) (k1_pay6 x1) (k1_pay9 x9) (k1_pay10 x10)
        (k1_pay11 x1 x0 x3 x4) (k1_pay12 x5) x11 x12 x13 x14) (ix2 p o)
      = nodeC (presOf x3 x4 x5 x6 x7 x8 x9 x10 x11 x12 x13 x14) (fun k => x0 (ix2 p k)) (fun b k => x1 (ix3 p b k))
          (fun b k => x2 (ix3 p b k)) o := by
  show k1_pay13 (F := Ideal) _ _ _ _ _ _ _ _ _ _ _ _ (ix2 p o) = _
  rw [k1_pay13_apply, k1_pay11_apply]
  simp only [k1_hsum_apply, k1_pay3_eq, k1_pay4_eq, k1_pay5_eq, k1_pay9_eq, k1_pay10_eq, k1_pay12_eq]
  rfl

/-- THE HIDDEN ROW: the stored hidden payload of the loaded blocks, at (p, o), is nodeH. -/
theorem k1_hidden_apply (x0 : Vec Ideal S64x512 .f32) (x1 x2 : Vec Ideal S64x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) (p : Fin 64) (o : Fin 512) :
    k1_pay1 (k1_pay14 (k1_pay3 x2) (k1_pay4 x2) (k1_pay5 x0) (k1_pay6 x1) (k1_pay7 x6) (k1_pay8 x7) (k1_pay9 x9)
        (k1_pay10 x10) (k1_pay11 x1 x0 x3 x4) (k1_pay12 x5) x8 x11 x12 x13 x14) (ix2 p o)
      = nodeH (presOf x3 x4 x5 x6 x7 x8 x9 x10 x11 x12 x13 x14) (fun k => x0 (ix2 p k)) (fun b k => x1 (ix3 p b k))
          (fun b k => x2 (ix3 p b k)) o := by
  show k1_pay14 (F := Ideal) _ _ _ _ _ _ _ _ _ _ _ _ _ _ _ (ix2 p o) = _
  rw [k1_pay14_apply]
  have hC := k1_cell_apply x0 x1 x2 x3 x4 x5 x6 x7 x8 x9 x10 x11 x12 x13 x14 p o
  rw [show k1_pay13 (k1_pay3 x2) (k1_pay4 x2) (k1_pay5 x0) (k1_pay6 x1) (k1_pay9 x9) (k1_pay10 x10)
        (k1_pay11 x1 x0 x3 x4) (k1_pay12 x5) x11 x12 x13 x14 (ix2 p o) = _ from hC]
  simp only [k1_hsum_apply, k1_pay5_eq, k1_pay7_eq, k1_pay8_eq]
  rfl

/-- The stored cell payload as a function of the block's index. -/
theorem k1_cell_fun (x0 : Vec Ideal S64x512 .f32) (x1 x2 : Vec Ideal S64x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) :
    k1_pay2 (k1_pay13 (k1_pay3 x2) (k1_pay4 x2) (k1_pay5 x0) (k1_pay6 x1) (k1_pay9 x9) (k1_pay10 x10)
        (k1_pay11 x1 x0 x3 x4) (k1_pay12 x5) x11 x12 x13 x14)
      = fun j : S64x512.Idx => nodeC (presOf x3 x4 x5 x6 x7 x8 x9 x10 x11 x12 x13 x14) (fun k => x0 (ix2 (j 0) k))
          (fun b k => x1 (ix3 (j 0) b k)) (fun b k => x2 (ix3 (j 0) b k)) (j 1) := by
  funext j
  obtain ⟨p, q, rfl⟩ : ∃ (p : Fin 64) (q : Fin 512), j = ix2 p q := ⟨j 0, j 1, eq_ix2 j⟩
  exact k1_cell_apply x0 x1 x2 x3 x4 x5 x6 x7 x8 x9 x10 x11 x12 x13 x14 p q

/-- The stored hidden payload as a function of the block's index. -/
theorem k1_hidden_fun (x0 : Vec Ideal S64x512 .f32) (x1 x2 : Vec Ideal S64x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) :
    k1_pay1 (k1_pay14 (k1_pay3 x2) (k1_pay4 x2) (k1_pay5 x0) (k1_pay6 x1) (k1_pay7 x6) (k1_pay8 x7) (k1_pay9 x9)
        (k1_pay10 x10) (k1_pay11 x1 x0 x3 x4) (k1_pay12 x5) x8 x11 x12 x13 x14)
      = fun j : S64x512.Idx => nodeH (presOf x3 x4 x5 x6 x7 x8 x9 x10 x11 x12 x13 x14) (fun k => x0 (ix2 (j 0) k))
          (fun b k => x1 (ix3 (j 0) b k)) (fun b k => x2 (ix3 (j 0) b k)) (j 1) := by
  funext j
  obtain ⟨p, q, rfl⟩ : ∃ (p : Fin 64) (q : Fin 512), j = ix2 p q := ⟨j 0, j 1, eq_ix2 j⟩
  exact k1_hidden_apply x0 x1 x2 x3 x4 x5 x6 x7 x8 x9 x10 x11 x12 x13 x14 p q

end Cert.KernelIdeal.NodeValue

end
-- ==== Proof.KerNode1Blocks.lean ====
/-
  From the blocks of the inner-node region over 256 parents (4 grid points of 64 parents) to its two output arrays:
  after the region the cell array holds nodeC, and the hidden array nodeH, of each parent's input row, its sixteen
  children's rows and the gates' bundle, all read off the arrays as the region finds them.
-/
import proofs.«172855_j27504970564112_2_alg».proof.Proof.Gen.KernelIdeal.Frame
import proofs.«172855_j27504970564112_2_alg».proof.Proof.KerNode1Pay
import proofs.«172855_j27504970564112_2_alg».proof.Proof.KerNodePK
import Idealize.ShloMosaic.Lib.Pipeline.Value

noncomputable section

open Idealize.ShloMosaic Idealize.ShloMosaic.TcCoe Idealize.SL.Sem
open Idealize.ShloMosaic.Pipeline (Dat)

namespace Cert.KernelIdeal.NodeValue

open Idealize.ShloMosaic.ValueIdx
open Cert.KernelIdeal Cert.KernelIdeal.Gen Cert.TreeCell

variable (V : (c : Dev nD) → (b : Ref sig .tc) → Buf (Elt Ideal) ((c : Thread nD τ).loc b))

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- The cell array the region leaves: row n is nodeC of parent n. -/
def cellArr1 (c : Dev nD) : S256x512.Idx → EReal := fun i =>
  nodeC (PK V c) (fun k => (V c main_v2 : S256x512.Idx → EReal) (ix2 (i 0) k)) (fun b k => (V c main_v22 : S256x16x512.Idx → EReal) (ix3 (i 0) b k))
    (fun b k => (V c main_v23 : S256x16x512.Idx → EReal) (ix3 (i 0) b k)) (i 1)

/-- The hidden array the region leaves: row n is nodeH of parent n. -/
def hiddenArr1 (c : Dev nD) : S256x512.Idx → EReal := fun i =>
  nodeH (PK V c) (fun k => (V c main_v2 : S256x512.Idx → EReal) (ix2 (i 0) k)) (fun b k => (V c main_v22 : S256x16x512.Idx → EReal) (ix3 (i 0) b k))
    (fun b k => (V c main_v23 : S256x16x512.Idx → EReal) (ix3 (i 0) b k)) (i 1)

/-- The printed index maps, decided over the grid: the three row windows and the two outputs sit at block t on the
    parents axis and block 0 elsewhere; the twelve weight windows at block 0. -/
theorem idx1 : ∀ t : Fin cfg1.N,
    (win1_0.index t (0 : Fin 2) = t.val ∧ win1_0.index t (1 : Fin 2) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_15.index t (0 : Fin 2) = t.val ∧ win1_15.index t (1 : Fin 2) = 0)
    ∧ (win1_16.index t (0 : Fin 2) = t.val ∧ win1_16.index t (1 : Fin 2) = 0) :=
  (by decide +kernel : ∀ t : Fin grid1.N, _)

theorem widx1 : ∀ t : Fin cfg1.N,
    (win1_3.index t (0 : Fin 2) = 0 ∧ win1_3.index t (1 : Fin 2) = 0) ∧ (win1_4.index t (0 : Fin 2) = 0 ∧ win1_4.index t (1 : Fin 2) = 0)
    ∧ (win1_5.index t (0 : Fin 2) = 0 ∧ win1_5.index t (1 : Fin 2) = 0) ∧ (win1_6.index t (0 : Fin 2) = 0 ∧ win1_6.index t (1 : Fin 2) = 0)
    ∧ (win1_7.index t (0 : Fin 2) = 0 ∧ win1_7.index t (1 : Fin 2) = 0) ∧ (win1_8.index t (0 : Fin 2) = 0 ∧ win1_8.index t (1 : Fin 2) = 0)
    ∧ (win1_9.index t (0 : Fin 2) = 0 ∧ win1_9.index t (1 : Fin 2) = 0) ∧ (win1_10.index t (0 : Fin 2) = 0 ∧ win1_10.index t (1 : Fin 2) = 0)
    ∧ (win1_11.index t (0 : Fin 2) = 0 ∧ win1_11.index t (1 : Fin 2) = 0) ∧ (win1_12.index t (0 : Fin 2) = 0 ∧ win1_12.index t (1 : Fin 2) = 0)
    ∧ (win1_13.index t (0 : Fin 2) = 0 ∧ win1_13.index t (1 : Fin 2) = 0) ∧ (win1_14.index t (0 : Fin 2) = 0 ∧ win1_14.index t (1 : Fin 2) = 0) :=
  (by decide +kernel : ∀ t : Fin grid1.N, _)

/-- Row p of point t's block of the input rows is row t·64 + p of the array. -/
theorem xrow1 (c : Dev nD) (t : Fin cfg1.N) (p : Fin 64) (n : Fin 256) (hn : n.val = t.val * 64 + p.val) (k : Fin 512) :
    (iblk1 V c 0 t : Vec Ideal S64x512 .f32) (ix2 p k) = (V c main_v2 : S256x512.Idx → EReal) (ix2 n k) := by
  obtain ⟨⟨e0, e1⟩, -⟩ := idx1 t
  unfold iblk1
  rw [View.read_apply]
  show V c main_v2 _ = V c main_v2 _
  congr 1
  funext a; apply Fin.ext
  match a with
  | ⟨0, _⟩ => show win1_0.index t (0 : Fin 2) * 64 + 1 * p.val = n.val; rw [e0, hn]; omega
  | ⟨1, _⟩ => show win1_0.index t (1 : Fin 2) * 512 + 1 * k.val = k.val; rw [e1]; omega

/-- Child b of parent p in point t's block of the children's hidden rows. -/
theorem hrow1 (c : Dev nD) (t : Fin cfg1.N) (p : Fin 64) (n : Fin 256) (hn : n.val = t.val * 64 + p.val) (b : Fin 16) (k : Fin 512) :
    (iblk1 V c 1 t : Vec Ideal S64x16x512 .bf16) (ix3 p b k) = (V c main_v22 : S256x16x512.Idx → EReal) (ix3 n b k) := by
  obtain ⟨-, ⟨e0, e1, e2⟩, -⟩ := idx1 t
  unfold iblk1
  rw [View.read_apply]
  show V c main_v22 _ = V c main_v22 _
  congr 1
  funext a; apply Fin.ext
  match a with
  | ⟨0, _⟩ => show win1_1.index t (0 : Fin 3) * 64 + 1 * p.val = n.val; rw [e0, hn]; omega
  | ⟨1, _⟩ => show win1_1.index t (1 : Fin 3) * 16 + 1 * b.val = b.val; rw [e1]; omega
  | ⟨2, _⟩ => show win1_1.index t (2 : Fin 3) * 512 + 1 * k.val = k.val; rw [e2]; omega

/-- Child b of parent p in point t's block of the children's cell rows. -/
theorem crow1 (c : Dev nD) (t : Fin cfg1.N) (p : Fin 64) (n : Fin 256) (hn : n.val = t.val * 64 + p.val) (b : Fin 16) (k : Fin 512) :
    (iblk1 V c 2 t : Vec Ideal S64x16x512 .bf16) (ix3 p b k) = (V c main_v23 : S256x16x512.Idx → EReal) (ix3 n b k) := by
  obtain ⟨-, -, ⟨e0, e1, e2⟩, -⟩ := idx1 t
  unfold iblk1
  rw [View.read_apply]
  show V c main_v23 _ = V c main_v23 _
  congr 1
  funext a; apply Fin.ext
  match a with
  | ⟨0, _⟩ => show win1_2.index t (0 : Fin 3) * 64 + 1 * p.val = n.val; rw [e0, hn]; omega
  | ⟨1, _⟩ => show win1_2.index t (1 : Fin 3) * 16 + 1 * b.val = b.val; rw [e1]; omega
  | ⟨2, _⟩ => show win1_2.index t (2 : Fin 3) * 512 + 1 * k.val = k.val; rw [e2]; omega

/-! ## Each weight window's block is its whole array -/

theorem wblk1_3 (c : Dev nD) (t : Fin cfg1.N) : (iblk1 V c 3 t : Vec Ideal S512x512 .f32) = (V c main_v6 : S512x512.Idx → EReal) := by
  obtain ⟨⟨e0, e1⟩, -, -, -, -, -, -, -, -, -, -, -⟩ := widx1 t
  funext y
  unfold iblk1
  rw [View.read_apply]
  show V c main_v6 _ = V c main_v6 y
  congr 1
  funext a; apply Fin.ext
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega

theorem wblk1_4 (c : Dev nD) (t : Fin cfg1.N) : (iblk1 V c 4 t : Vec Ideal S512x512 .f32) = (V c main_v7 : S512x512.Idx → EReal) := by
  obtain ⟨-, ⟨e0, e1⟩, -, -, -, -, -, -, -, -, -, -⟩ := widx1 t
  funext y
  unfold iblk1
  rw [View.read_apply]
  show V c main_v7 _ = V c main_v7 y
  congr 1
  funext a; apply Fin.ext
  match a with
  | ⟨0, _⟩ => show win1_4.index t (0 : Fin 2) * 512 + 1 * (y 0).val = (y 0).val; rw [e0]; omega
  | ⟨1, _⟩ => show win1_4.index t (1 : Fin 2) * 512 + 1 * (y 1).val = (y 1).val; rw [e1]; omega

theorem wblk1_5 (c : Dev nD) (t : Fin cfg1.N) : (iblk1 V c 5 t : Vec Ideal S1x512 .f32) = (V c main_v17 : S1x512.Idx → EReal) := by
  obtain ⟨-, -, ⟨e0, e1⟩, -, -, -, -, -, -, -, -, -⟩ := widx1 t
  funext y
  unfold iblk1
  rw [View.read_apply]
  show V c main_v17 _ = V c main_v17 y
  congr 1
  funext a; apply Fin.ext
  match a with
  | ⟨0, _⟩ => show win1_5.index t (0 : Fin 2) * 1 + 1 * (y 0).val = (y 0).val; rw [e0]; omega
  | ⟨1, _⟩ => show win1_5.index t (1 : Fin 2) * 512 + 1 * (y 1).val = (y 1).val; rw [e1]; omega

theorem wblk1_6 (c : Dev nD) (t : Fin cfg1.N) : (iblk1 V c 6 t : Vec Ideal S512x512 .f32) = (V c main_v12 : S512x512.Idx → EReal) := by
  obtain ⟨-, -, -, ⟨e0, e1⟩, -, -, -, -, -, -, -, -⟩ := widx1 t
  funext y
  unfold iblk1
  rw [View.read_apply]
  show V c main_v12 _ = V c main_v12 y
  congr 1
  funext a; apply Fin.ext
  match a with
  | ⟨0, _⟩ => show win1_6.index t (0 : Fin 2) * 512 + 1 * (y 0).val = (y 0).val; rw [e0]; omega
  | ⟨1, _⟩ => show win1_6.index t (1 : Fin 2) * 512 + 1 * (y 1).val = (y 1).val; rw [e1]; omega

theorem wblk1_7 (c : Dev nD) (t : Fin cfg1.N) : (iblk1 V c 7 t : Vec Ideal S512x512 .f32) = (V c main_v13 : S512x512.Idx → EReal) := by
  obtain ⟨-, -, -, -, ⟨e0, e1⟩, -, -, -, -, -, -, -⟩ := widx1 t
  funext y
  unfold iblk1
  rw [View.read_apply]
  show V c main_v13 _ = V c main_v13 y
  congr 1
  funext a; apply Fin.ext
  match a with
  | ⟨0, _⟩ => show win1_7.index t (0 : Fin 2) * 512 + 1 * (y 0).val = (y 0).val; rw [e0]; omega
  | ⟨1, _⟩ => show win1_7.index t (1 : Fin 2) * 512 + 1 * (y 1).val = (y 1).val; rw [e1]; omega

theorem wblk1_8 (c : Dev nD) (t : Fin cfg1.N) : (iblk1 V c 8 t : Vec Ideal S1x512 .f32) = (V c main_v19 : S1x512.Idx → EReal) := by
  obtain ⟨-, -, -, -, -, ⟨e0, e1⟩, -, -, -, -, -, -⟩ := widx1 t
  funext y
  unfold iblk1
  rw [View.read_apply]
  show V c main_v19 _ = V c main_v19 y
  congr 1
  funext a; apply Fin.ext
  match a with
  | ⟨0, _⟩ => show win1_8.index t (0 : Fin 2) * 1 + 1 * (y 0).val = (y 0).val; rw [e0]; omega
  | ⟨1, _⟩ => show win1_8.index t (1 : Fin 2) * 512 + 1 * (y 1).val = (y 1).val; rw [e1]; omega

theorem wblk1_9 (c : Dev nD) (t : Fin cfg1.N) : (iblk1 V c 9 t : Vec Ideal S512x512 .f32) = (V c main_v15 : S512x512.Idx → EReal) := by
  obtain ⟨-, -, -, -, -, -, ⟨e0, e1⟩, -, -, -, -, -⟩ := widx1 t
  funext y
  unfold iblk1
  rw [View.read_apply]
  show V c main_v15 _ = V c main_v15 y
  congr 1
  funext a; apply Fin.ext
  match a with
  | ⟨0, _⟩ => show win1_9.index t (0 : Fin 2) * 512 + 1 * (y 0).val = (y 0).val; rw [e0]; omega
  | ⟨1, _⟩ => show win1_9.index t (1 : Fin 2) * 512 + 1 * (y 1).val = (y 1).val; rw [e1]; omega

theorem wblk1_10 (c : Dev nD) (t : Fin cfg1.N) : (iblk1 V c 10 t : Vec Ideal S512x512 .f32) = (V c main_v16 : S512x512.Idx → EReal) := by
  obtain ⟨-, -, -, -, -, -, -, ⟨e0, e1⟩, -, -, -, -⟩ := widx1 t
  funext y
  unfold iblk1
  rw [View.read_apply]
  show V c main_v16 _ = V c main_v16 y
  congr 1
  funext a; apply Fin.ext
  match a with
  | ⟨0, _⟩ => show win1_10.index t (0 : Fin 2) * 512 + 1 * (y 0).val = (y 0).val; rw [e0]; omega
  | ⟨1, _⟩ => show win1_10.index t (1 : Fin 2) * 512 + 1 * (y 1).val = (y 1).val; rw [e1]; omega

theorem wblk1_11 (c : Dev nD) (t : Fin cfg1.N) : (iblk1 V c 11 t : Vec Ideal S1x512 .f32) = (V c main_v20 : S1x512.Idx → EReal) := by
  obtain ⟨-, -, -, -, -, -, -, -, ⟨e0, e1⟩, -, -, -⟩ := widx1 t
  funext y
  unfold iblk1
  rw [View.read_apply]
  show V c main_v20 _ = V c main_v20 y
  congr 1
  funext a; apply Fin.ext
  match a with
  | ⟨0, _⟩ => show win1_11.index t (0 : Fin 2) * 1 + 1 * (y 0).val = (y 0).val; rw [e0]; omega
  | ⟨1, _⟩ => show win1_11.index t (1 : Fin 2) * 512 + 1 * (y 1).val = (y 1).val; rw [e1]; omega

theorem wblk1_12 (c : Dev nD) (t : Fin cfg1.N) : (iblk1 V c 12 t : Vec Ideal S512x512 .f32) = (V c main_v9 : S512x512.Idx → EReal) := by
  obtain ⟨-, -, -, -, -, -, -, -, -, ⟨e0, e1⟩, -, -⟩ := widx1 t
  funext y
  unfold iblk1
  rw [View.read_apply]
  show V c main_v9 _ = V c main_v9 y
  congr 1
  funext a; apply Fin.ext
  match a with
  | ⟨0, _⟩ => show win1_12.index t (0 : Fin 2) * 512 + 1 * (y 0).val = (y 0).val; rw [e0]; omega
  | ⟨1, _⟩ => show win1_12.index t (1 : Fin 2) * 512 + 1 * (y 1).val = (y 1).val; rw [e1]; omega

theorem wblk1_13 (c : Dev nD) (t : Fin cfg1.N) : (iblk1 V c 13 t : Vec Ideal S512x512 .f32) = (V c main_v10 : S512x512.Idx → EReal) := by
  obtain ⟨-, -, -, -, -, -, -, -, -, -, ⟨e0, e1⟩, -⟩ := widx1 t
  funext y
  unfold iblk1
  rw [View.read_apply]
  show V c main_v10 _ = V c main_v10 y
  congr 1
  funext a; apply Fin.ext
  match a with
  | ⟨0, _⟩ => show win1_13.index t (0 : Fin 2) * 512 + 1 * (y 0).val = (y 0).val; rw [e0]; omega
  | ⟨1, _⟩ => show win1_13.index t (1 : Fin 2) * 512 + 1 * (y 1).val = (y 1).val; rw [e1]; omega

theorem wblk1_14 (c : Dev nD) (t : Fin cfg1.N) : (iblk1 V c 14 t : Vec Ideal S1x512 .f32) = (V c main_v18 : S1x512.Idx → EReal) := by
  obtain ⟨-, -, -, -, -, -, -, -, -, -, -, ⟨e0, e1⟩⟩ := widx1 t
  funext y
  unfold iblk1
  rw [View.read_apply]
  show V c main_v18 _ = V c main_v18 y
  congr 1
  funext a; apply Fin.ext
  match a with
  | ⟨0, _⟩ => show win1_14.index t (0 : Fin 2) * 1 + 1 * (y 0).val = (y 0).val; rw [e0]; omega
  | ⟨1, _⟩ => show win1_14.index t (1 : Fin 2) * 512 + 1 * (y 1).val = (y 1).val; rw [e1]; omega

/-- The bundle of the weight blocks at any point is the arrays' bundle. -/
theorem presBlk1 (c : Dev nD) (t : Fin cfg1.N) : presOf (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) = PK V c := by
  unfold PK
  rw [wblk1_3 V c t, wblk1_4 V c t, wblk1_5 V c t, wblk1_6 V c t, wblk1_7 V c t, wblk1_8 V c t, wblk1_9 V c t, wblk1_10 V c t, wblk1_11 V c t, wblk1_12 V c t, wblk1_13 V c t, wblk1_14 V c t]

/-- Point t's block of the cell rows, at (p, q), is the cell array at the row the block's place gives. -/
theorem cellBlk1 (c : Dev nD) (t : Fin cfg1.N) (p : Fin 64) (q : Fin 512) (i : S256x512.Idx)
    (h0 : (i 0).val = t.val * 64 + p.val) (h1 : (i 1).val = q.val) :
    nodeC (PK V c) (fun k => (iblk1 V c 0 t : Vec Ideal S64x512 .f32) (ix2 p k))
      (fun b k => (iblk1 V c 1 t : Vec Ideal S64x16x512 .bf16) (ix3 p b k))
      (fun b k => (iblk1 V c 2 t : Vec Ideal S64x16x512 .bf16) (ix3 p b k)) q = cellArr1 V c i := by
  unfold cellArr1
  have ex : (fun k => (iblk1 V c 0 t : Vec Ideal S64x512 .f32) (ix2 p k)) = fun k => (V c main_v2 : S256x512.Idx → EReal) (ix2 (i 0) k) :=
    funext fun k => xrow1 V c t p (i 0) h0 k
  have eh : (fun b k => (iblk1 V c 1 t : Vec Ideal S64x16x512 .bf16) (ix3 p b k)) = fun b k => (V c main_v22 : S256x16x512.Idx → EReal) (ix3 (i 0) b k) :=
    funext fun b => funext fun k => hrow1 V c t p (i 0) h0 b k
  have ec : (fun b k => (iblk1 V c 2 t : Vec Ideal S64x16x512 .bf16) (ix3 p b k)) = fun b k => (V c main_v23 : S256x16x512.Idx → EReal) (ix3 (i 0) b k) :=
    funext fun b => funext fun k => crow1 V c t p (i 0) h0 b k
  have eq : q = i 1 := Fin.ext h1.symm
  rw [ex, eh, ec, eq]

/-- WHAT POINT t WRITES BACK to the cell array is block t of cellArr. -/
theorem cellFlushed1 (c : Dev nD) (t : Fin cfg1.N) :
    (dat1 V c).flushed 16 t = ((cfg1.win 16).blk t).view.read (Elt Ideal) (cellArr1 V c) := by
  show (cfg1.win 16).cut (grid1.coords t) ((dat1 V c).after 16 t) = _
  rw [after1_16]
  unfold out1_16
  rw [View.canon_unit_zero r1_hz2]
  simp only [View.ld_unit_zero (S := S64x512) r1_hz2, View.ld_unit_zero (S := S64x16x512) r1_hz3, View.ld_unit_zero (S := S512x512) r1_hz2, View.ld_unit_zero (S := S1x512) r1_hz2]
  rw [k1_cell_fun (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t), presBlk1 V c t]
  obtain ⟨-, -, -, -, ⟨e0, e1⟩⟩ := idx1 t
  funext j
  have h0 : ((((cfg1.win 16).blk t).view.emb j) 0).val = t.val * 64 + (j 0).val := by
    show win1_16.index t (0 : Fin 2) * 64 + 1 * (j 0).val = _
    rw [e0]; omega
  have h1 : ((((cfg1.win 16).blk t).view.emb j) 1).val = (j 1).val := by
    show win1_16.index t (1 : Fin 2) * 512 + 1 * (j 1).val = _
    rw [e1]; omega
  exact cellBlk1 V c t (j 0) (j 1) (((cfg1.win 16).blk t).view.emb j) h0 h1

/-- An index of the cell array is in point t's block iff each coordinate is in the block's range on its axis. -/
theorem cellMem1 (t : Fin cfg1.N) (i : S256x512.Idx) :
    i ∈ ((cfg1.win 16).blk t).view.set ↔ ∀ a : Fin 2, win1_16.index t a * S64x512.size a ≤ (i a).val ∧ (i a).val < win1_16.index t a * S64x512.size a + S64x512.size a := by
  show i ∈ ((View.whole main_v24_1).slice (win1_16.rect t)).set ↔ _
  rw [View.set_slice_whole, Rect.mem_set_unit]
  exact Iff.rfl

/-- Every index of the cell array is in the block of the point its row falls in. -/
theorem cellCover1 (i : S256x512.Idx) :
    ∃ t : Fin cfg1.N, (cfg1.win 16).flush t = true ∧ i ∈ ((cfg1.win 16).blk t).view.set := by
  have hN : cfg1.N = 4 := N_1
  have hi0 : (i 0).val < 256 := (i 0).isLt
  have hi1 : (i 1).val < 512 := (i 1).isLt
  have ht : (i 0).val / 64 < cfg1.N := (by omega : (i 0).val / 64 < 4).trans_eq hN.symm
  refine ⟨⟨(i 0).val / 64, ht⟩, flush1_16 _, ?_⟩
  rw [cellMem1]
  obtain ⟨-, -, -, -, ⟨e0, e1⟩⟩ := idx1 ⟨(i 0).val / 64, ht⟩
  intro a
  match a with
  | ⟨0, _⟩ =>
    show win1_16.index ⟨(i 0).val / 64, ht⟩ (0 : Fin 2) * 64 ≤ (i 0).val ∧ (i 0).val < win1_16.index ⟨(i 0).val / 64, ht⟩ (0 : Fin 2) * 64 + 64
    rw [e0]; show (i 0).val / 64 * 64 ≤ (i 0).val ∧ (i 0).val < (i 0).val / 64 * 64 + 64; omega
  | ⟨1, _⟩ =>
    show win1_16.index ⟨(i 0).val / 64, ht⟩ (1 : Fin 2) * 512 ≤ (i 1).val ∧ (i 1).val < win1_16.index ⟨(i 0).val / 64, ht⟩ (1 : Fin 2) * 512 + 512
    rw [e1]; omega

/-- THE CELL ARRAY after the region. -/
theorem cellFinal1 (c : Dev nD) : (dat1 V c).arrAt 16 cfg1.N = cellArr1 V c :=
  (dat1 V c).arrAt_eq_of_cover 16 (cellArr1 V c) (fun t _ => cellFlushed1 V c t) cellCover1

/-- Point t's block of the hidden rows, at (p, q), is the hidden array at the row the block's place gives. -/
theorem hiddenBlk1 (c : Dev nD) (t : Fin cfg1.N) (p : Fin 64) (q : Fin 512) (i : S256x512.Idx)
    (h0 : (i 0).val = t.val * 64 + p.val) (h1 : (i 1).val = q.val) :
    nodeH (PK V c) (fun k => (iblk1 V c 0 t : Vec Ideal S64x512 .f32) (ix2 p k))
      (fun b k => (iblk1 V c 1 t : Vec Ideal S64x16x512 .bf16) (ix3 p b k))
      (fun b k => (iblk1 V c 2 t : Vec Ideal S64x16x512 .bf16) (ix3 p b k)) q = hiddenArr1 V c i := by
  unfold hiddenArr1
  have ex : (fun k => (iblk1 V c 0 t : Vec Ideal S64x512 .f32) (ix2 p k)) = fun k => (V c main_v2 : S256x512.Idx → EReal) (ix2 (i 0) k) :=
    funext fun k => xrow1 V c t p (i 0) h0 k
  have eh : (fun b k => (iblk1 V c 1 t : Vec Ideal S64x16x512 .bf16) (ix3 p b k)) = fun b k => (V c main_v22 : S256x16x512.Idx → EReal) (ix3 (i 0) b k) :=
    funext fun b => funext fun k => hrow1 V c t p (i 0) h0 b k
  have ec : (fun b k => (iblk1 V c 2 t : Vec Ideal S64x16x512 .bf16) (ix3 p b k)) = fun b k => (V c main_v23 : S256x16x512.Idx → EReal) (ix3 (i 0) b k) :=
    funext fun b => funext fun k => crow1 V c t p (i 0) h0 b k
  have eq : q = i 1 := Fin.ext h1.symm
  rw [ex, eh, ec, eq]

/-- WHAT POINT t WRITES BACK to the hidden array is block t of hiddenArr. -/
theorem hiddenFlushed1 (c : Dev nD) (t : Fin cfg1.N) :
    (dat1 V c).flushed 15 t = ((cfg1.win 15).blk t).view.read (Elt Ideal) (hiddenArr1 V c) := by
  show (cfg1.win 15).cut (grid1.coords t) ((dat1 V c).after 15 t) = _
  rw [after1_15]
  unfold out1_15
  rw [View.canon_unit_zero r1_hz2]
  simp only [View.ld_unit_zero (S := S64x512) r1_hz2, View.ld_unit_zero (S := S64x16x512) r1_hz3, View.ld_unit_zero (S := S512x512) r1_hz2, View.ld_unit_zero (S := S1x512) r1_hz2]
  rw [k1_hidden_fun (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t), presBlk1 V c t]
  obtain ⟨-, -, -, ⟨e0, e1⟩, -⟩ := idx1 t
  funext j
  have h0 : ((((cfg1.win 15).blk t).view.emb j) 0).val = t.val * 64 + (j 0).val := by
    show win1_15.index t (0 : Fin 2) * 64 + 1 * (j 0).val = _
    rw [e0]; omega
  have h1 : ((((cfg1.win 15).blk t).view.emb j) 1).val = (j 1).val := by
    show win1_15.index t (1 : Fin 2) * 512 + 1 * (j 1).val = _
    rw [e1]; omega
  exact hiddenBlk1 V c t (j 0) (j 1) (((cfg1.win 15).blk t).view.emb j) h0 h1

/-- An index of the hidden array is in point t's block iff each coordinate is in the block's range on its axis. -/
theorem hiddenMem1 (t : Fin cfg1.N) (i : S256x512.Idx) :
    i ∈ ((cfg1.win 15).blk t).view.set ↔ ∀ a : Fin 2, win1_15.index t a * S64x512.size a ≤ (i a).val ∧ (i a).val < win1_15.index t a * S64x512.size a + S64x512.size a := by
  show i ∈ ((View.whole main_v24_0).slice (win1_15.rect t)).set ↔ _
  rw [View.set_slice_whole, Rect.mem_set_unit]
  exact Iff.rfl

/-- Every index of the hidden array is in the block of the point its row falls in. -/
theorem hiddenCover1 (i : S256x512.Idx) :
    ∃ t : Fin cfg1.N, (cfg1.win 15).flush t = true ∧ i ∈ ((cfg1.win 15).blk t).view.set := by
  have hN : cfg1.N = 4 := N_1
  have hi0 : (i 0).val < 256 := (i 0).isLt
  have hi1 : (i 1).val < 512 := (i 1).isLt
  have ht : (i 0).val / 64 < cfg1.N := (by omega : (i 0).val / 64 < 4).trans_eq hN.symm
  refine ⟨⟨(i 0).val / 64, ht⟩, flush1_15 _, ?_⟩
  rw [hiddenMem1]
  obtain ⟨-, -, -, ⟨e0, e1⟩, -⟩ := idx1 ⟨(i 0).val / 64, ht⟩
  intro a
  match a with
  | ⟨0, _⟩ =>
    show win1_15.index ⟨(i 0).val / 64, ht⟩ (0 : Fin 2) * 64 ≤ (i 0).val ∧ (i 0).val < win1_15.index ⟨(i 0).val / 64, ht⟩ (0 : Fin 2) * 64 + 64
    rw [e0]; show (i 0).val / 64 * 64 ≤ (i 0).val ∧ (i 0).val < (i 0).val / 64 * 64 + 64; omega
  | ⟨1, _⟩ =>
    show win1_15.index ⟨(i 0).val / 64, ht⟩ (1 : Fin 2) * 512 ≤ (i 1).val ∧ (i 1).val < win1_15.index ⟨(i 0).val / 64, ht⟩ (1 : Fin 2) * 512 + 512
    rw [e1]; omega

/-- THE HIDDEN ARRAY after the region. -/
theorem hiddenFinal1 (c : Dev nD) : (dat1 V c).arrAt 15 cfg1.N = hiddenArr1 V c :=
  (dat1 V c).arrAt_eq_of_cover 15 (hiddenArr1 V c) (fun t _ => hiddenFlushed1 V c t) hiddenCover1

/-- REGION 1, the hidden array: row n at o is nodeH of parent n. -/
theorem region1_H (c : Dev nD) (n : Fin 256) (o : Fin 512) :
    ((dat1 V c).arrAt 15 cfg1.N : S256x512.Idx → EReal) (ix2 n o)
      = nodeH (PK V c) (fun k => (V c main_v2 : S256x512.Idx → EReal) (ix2 n k)) (fun b k => (V c main_v22 : S256x16x512.Idx → EReal) (ix3 n b k))
          (fun b k => (V c main_v23 : S256x16x512.Idx → EReal) (ix3 n b k)) o := by
  rw [hiddenFinal1]; rfl

/-- REGION 1, the cell array: row n at o is nodeC of parent n. -/
theorem region1_C (c : Dev nD) (n : Fin 256) (o : Fin 512) :
    ((dat1 V c).arrAt 16 cfg1.N : S256x512.Idx → EReal) (ix2 n o)
      = nodeC (PK V c) (fun k => (V c main_v2 : S256x512.Idx → EReal) (ix2 n k)) (fun b k => (V c main_v22 : S256x16x512.Idx → EReal) (ix3 n b k))
          (fun b k => (V c main_v23 : S256x16x512.Idx → EReal) (ix3 n b k)) o := by
  rw [cellFinal1]; rfl

end Cert.KernelIdeal.NodeValue

end
-- ==== Proof.KerNode2Pay.lean ====
/-
  The two stored payloads of the inner-node body over 16 parents per block, read at an index: the cell row and the
  hidden row of parent p at output coordinate o are the tree cell's nodeC and nodeH of the parent's input row, its
  sixteen children's hidden and cell rows, and the split-arrangement bundle of the twelve weight and bias blocks.
-/
import proofs.«172855_j27504970564112_2_alg».proof.Proof.Gen.KernelIdeal.Skeleton
import proofs.«172855_j27504970564112_2_alg».proof.Proof.KerNodeOps
import proofs.«172855_j27504970564112_2_alg».proof.Proof.KerNodeArgs

noncomputable section

namespace Cert.KernelIdeal.NodeValue

open Idealize.ShloMosaic Idealize.ShloMosaic.ValueIdx
open Cert.KernelIdeal Cert.KernelIdeal.Gen Cert.TreeCell

/-- The children's hidden rows summed, at (p, k). -/
theorem k2_hsum_apply (x1 : Vec Ideal S16x16x512 .bf16) (p : Fin 16) (k : Fin 512) :
    k2_pay6 x1 (ix2 p k) = ∑ b : Fin 16, x1 (ix3 p b k) := by
  unfold k2_pay6
  simp only [shapeCast_self, truncf_apply]
  exact sumMiddle_apply _ _ _ _ p k

/-- The input gate's two products added, at (p, o). -/
theorem k2_pay11_apply (x1 : Vec Ideal S16x16x512 .bf16) (x0 : Vec Ideal S16x512 .f32) (x3 x4 : Vec Ideal S512x512 .f32)
    (p : Fin 16) (o : Fin 512) :
    k2_pay11 x1 x0 x3 x4 (ix2 p o)
      = (∑ k : Fin 512, x0 (ix2 p k) * x3 (ix2 k o)) + ∑ k : Fin 512, (∑ b : Fin 16, x1 (ix3 p b k)) * x4 (ix2 k o) := by
  unfold k2_pay11
  simp only [addf_apply, shapeCast_self]
  refine congrArg₂ (· + ·) ((matmul_zero_apply _ rfl rfl rfl rfl rfl rfl none _ _ p o).trans ?_)
    ((matmul_zero_apply _ rfl rfl rfl rfl rfl rfl none _ _ p o).trans ?_)
  · refine Finset.sum_congr rfl fun k _ => congrArg₂ (· * ·) ?_ rfl
    unfold k2_pay5
    simp only [shapeCast_self]
    rfl
  · exact Finset.sum_congr rfl fun k _ => congrArg₂ (· * ·) (k2_hsum_apply x1 p k) rfl

/-- The cell payload over its already formed operands, at (p, o). -/
theorem k2_pay13_apply (v4 : FVec Ideal S16x16x512 .bf16) (v5 : FVec Ideal S16x16x512 .f32) (v9 v10 : FVec Ideal S16x512 .bf16)
    (v25 v28 : FVec Ideal S512x512 .bf16) (v31 : FVec Ideal S16x512 .f32) (v33 : FVec Ideal S1x512 .f32)
    (v48 : Vec Ideal S1x512 .f32) (v53 v56 : Vec Ideal S512x512 .f32) (v60 : Vec Ideal S1x512 .f32) (p : Fin 16) (o : Fin 512) :
    k2_pay13 v4 v5 v9 v10 v25 v28 v31 v33 v48 v53 v56 v60 (ix2 p o)
      = Ideal.logistic (v31 (ix2 p o) + v33 (ix2 (0 : Fin 1) o))
          * Ideal.tanh (((∑ k : Fin 512, v9 (ix2 p k) * v25 (ix2 k o)) + ∑ k : Fin 512, v10 (ix2 p k) * v28 (ix2 k o))
              + v48 (ix2 (0 : Fin 1) o))
        + ∑ b : Fin 16, Ideal.logistic (((∑ k : Fin 512, v9 (ix2 p k) * v53 (ix2 k o)) + v60 (ix2 (0 : Fin 1) o))
              + ∑ k : Fin 512, v4 (ix3 p b k) * v56 (ix2 k o)) * v5 (ix3 p b o) := by
  unfold k2_pay13
  simp only [addf_apply, mulf_apply, logistic_apply, tanh_apply, shapeCast_self]
  refine congrArg₂ (· + ·) (congrArg₂ (· * ·) (congrArg Ideal.logistic (congrArg (v31 (ix2 p o) + ·) (broadcastTo_1b_ab_apply _ _ p o)))
    (congrArg Ideal.tanh ?_)) ((sumMiddle_apply _ _ _ _ p o).trans (Finset.sum_congr rfl fun b _ => ?_))
  · exact congrArg₂ (· + ·) (congrArg₂ (· + ·) (matmul_zero_apply _ rfl rfl rfl rfl rfl rfl none v9 v25 p o)
      (matmul_zero_apply _ rfl rfl rfl rfl rfl rfl none v10 v28 p o)) (broadcastTo_1b_ab_apply _ _ p o)
  · simp only [addf_apply, mulf_apply, logistic_apply]
    refine congrArg₂ (· * ·) (congrArg Ideal.logistic (congrArg₂ (· + ·) ?_ ?_)) rfl
    · refine (repeatMiddle_apply _ _ _ p b o).trans ?_
      simp only [addf_apply]
      exact congrArg₂ (· + ·) (matmul_zero_apply _ rfl rfl rfl rfl rfl rfl none v9 _ p o) (broadcastTo_1b_ab_apply _ _ p o)
    · have hlt : p.val * 16 + b.val < 256 := by have := p.isLt; have := b.isLt; omega
      refine (unflatten_apply _ _ p b o ⟨p.val * 16 + b.val, hlt⟩ rfl).trans ?_
      refine (matmul_zero_apply _ rfl rfl rfl rfl rfl rfl none _ _ ⟨p.val * 16 + b.val, hlt⟩ o).trans ?_
      exact Finset.sum_congr rfl fun k _ => congrArg₂ (· * ·) (flatten_apply v4 _ p b k ⟨p.val * 16 + b.val, hlt⟩ rfl) rfl

/-- The hidden payload over its already formed operands, at (p, o). -/
theorem k2_pay14_apply (v4 : FVec Ideal S16x16x512 .bf16) (v5 : FVec Ideal S16x16x512 .f32) (v9 v10 : FVec Ideal S16x512 .bf16)
    (v19 v22 v25 v28 : FVec Ideal S512x512 .bf16) (v31 : FVec Ideal S16x512 .f32) (v33 : FVec Ideal S1x512 .f32)
    (v40 v48 : Vec Ideal S1x512 .f32) (v53 v56 : Vec Ideal S512x512 .f32) (v60 : Vec Ideal S1x512 .f32) (p : Fin 16) (o : Fin 512) :
    k2_pay14 v4 v5 v9 v10 v19 v22 v25 v28 v31 v33 v40 v48 v53 v56 v60 (ix2 p o)
      = Ideal.logistic (((∑ k : Fin 512, v9 (ix2 p k) * v19 (ix2 k o)) + ∑ k : Fin 512, v10 (ix2 p k) * v22 (ix2 k o))
            + v40 (ix2 (0 : Fin 1) o))
          * Ideal.tanh (k2_pay13 v4 v5 v9 v10 v25 v28 v31 v33 v48 v53 v56 v60 (ix2 p o)) := by
  unfold k2_pay14
  simp only [addf_apply, mulf_apply, logistic_apply, tanh_apply, shapeCast_self]
  exact congrArg₂ (· * ·) (congrArg Ideal.logistic (congrArg₂ (· + ·) (congrArg₂ (· + ·)
    (matmul_zero_apply _ rfl rfl rfl rfl rfl rfl none v9 v19 p o) (matmul_zero_apply _ rfl rfl rfl rfl rfl rfl none v10 v22 p o))
    (broadcastTo_1b_ab_apply _ _ p o))) rfl

/-- The identity casts of the loaded blocks. -/
theorem k2_pay3_eq (x : Vec Ideal S16x16x512 .bf16) : k2_pay3 x = x := by unfold k2_pay3; exact shapeCast_self _ _
theorem k2_pay4_eq (x : Vec Ideal S16x16x512 .bf16) : k2_pay4 x = x := by unfold k2_pay4; rw [k2_pay3_eq]; rfl
theorem k2_pay5_eq (x : Vec Ideal S16x512 .f32) : k2_pay5 x = x := by unfold k2_pay5; simp only [shapeCast_self]; rfl
theorem k2_pay7_eq (x : Vec Ideal S512x512 .f32) : k2_pay7 x = x := by unfold k2_pay7; simp only [shapeCast_self]; rfl
theorem k2_pay8_eq (x : Vec Ideal S512x512 .f32) : k2_pay8 x = x := by unfold k2_pay8; simp only [shapeCast_self]; rfl
theorem k2_pay9_eq (x : Vec Ideal S512x512 .f32) : k2_pay9 x = x := by unfold k2_pay9; simp only [shapeCast_self]; rfl
theorem k2_pay10_eq (x : Vec Ideal S512x512 .f32) : k2_pay10 x = x := by unfold k2_pay10; simp only [shapeCast_self]; rfl
theorem k2_pay12_eq (x : Vec Ideal S1x512 .f32) : k2_pay12 x = x := by unfold k2_pay12; exact shapeCast_self _ _

/-- THE CELL ROW: the stored cell payload of the loaded blocks, at (p, o), is nodeC. -/
theorem k2_cell_apply (x0 : Vec Ideal S16x512 .f32) (x1 x2 : Vec Ideal S16x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) (p : Fin 16) (o : Fin 512) :
    k2_pay2 (k2_pay13 (k2_pay3 x2) (k2_pay4 x2) (k2_pay5 x0) (k2_pay6 x1) (k2_pay9 x9) (k2_pay10 x10)
        (k2_pay11 x1 x0 x3 x4) (k2_pay12 x5) x11 x12 x13 x14) (ix2 p o)
      = nodeC (presOf x3 x4 x5 x6 x7 x8 x9 x10 x11 x12 x13 x14) (fun k => x0 (ix2 p k)) (fun b k => x1 (ix3 p b k))
          (fun b k => x2 (ix3 p b k)) o := by
  show k2_pay13 (F := Ideal) _ _ _ _ _ _ _ _ _ _ _ _ (ix2 p o) = _
  rw [k2_pay13_apply, k2_pay11_apply]
  simp only [k2_hsum_apply, k2_pay3_eq, k2_pay4_eq, k2_pay5_eq, k2_pay9_eq, k2_pay10_eq, k2_pay12_eq]
  rfl

/-- THE HIDDEN ROW: the stored hidden payload of the loaded blocks, at (p, o), is nodeH. -/
theorem k2_hidden_apply (x0 : Vec Ideal S16x512 .f32) (x1 x2 : Vec Ideal S16x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) (p : Fin 16) (o : Fin 512) :
    k2_pay1 (k2_pay14 (k2_pay3 x2) (k2_pay4 x2) (k2_pay5 x0) (k2_pay6 x1) (k2_pay7 x6) (k2_pay8 x7) (k2_pay9 x9)
        (k2_pay10 x10) (k2_pay11 x1 x0 x3 x4) (k2_pay12 x5) x8 x11 x12 x13 x14) (ix2 p o)
      = nodeH (presOf x3 x4 x5 x6 x7 x8 x9 x10 x11 x12 x13 x14) (fun k => x0 (ix2 p k)) (fun b k => x1 (ix3 p b k))
          (fun b k => x2 (ix3 p b k)) o := by
  show k2_pay14 (F := Ideal) _ _ _ _ _ _ _ _ _ _ _ _ _ _ _ (ix2 p o) = _
  rw [k2_pay14_apply]
  have hC := k2_cell_apply x0 x1 x2 x3 x4 x5 x6 x7 x8 x9 x10 x11 x12 x13 x14 p o
  rw [show k2_pay13 (k2_pay3 x2) (k2_pay4 x2) (k2_pay5 x0) (k2_pay6 x1) (k2_pay9 x9) (k2_pay10 x10)
        (k2_pay11 x1 x0 x3 x4) (k2_pay12 x5) x11 x12 x13 x14 (ix2 p o) = _ from hC]
  simp only [k2_hsum_apply, k2_pay5_eq, k2_pay7_eq, k2_pay8_eq]
  rfl

/-- The stored cell payload as a function of the block's index. -/
theorem k2_cell_fun (x0 : Vec Ideal S16x512 .f32) (x1 x2 : Vec Ideal S16x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) :
    k2_pay2 (k2_pay13 (k2_pay3 x2) (k2_pay4 x2) (k2_pay5 x0) (k2_pay6 x1) (k2_pay9 x9) (k2_pay10 x10)
        (k2_pay11 x1 x0 x3 x4) (k2_pay12 x5) x11 x12 x13 x14)
      = fun j : S16x512.Idx => nodeC (presOf x3 x4 x5 x6 x7 x8 x9 x10 x11 x12 x13 x14) (fun k => x0 (ix2 (j 0) k))
          (fun b k => x1 (ix3 (j 0) b k)) (fun b k => x2 (ix3 (j 0) b k)) (j 1) := by
  funext j
  obtain ⟨p, q, rfl⟩ : ∃ (p : Fin 16) (q : Fin 512), j = ix2 p q := ⟨j 0, j 1, eq_ix2 j⟩
  exact k2_cell_apply x0 x1 x2 x3 x4 x5 x6 x7 x8 x9 x10 x11 x12 x13 x14 p q

/-- The stored hidden payload as a function of the block's index. -/
theorem k2_hidden_fun (x0 : Vec Ideal S16x512 .f32) (x1 x2 : Vec Ideal S16x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) :
    k2_pay1 (k2_pay14 (k2_pay3 x2) (k2_pay4 x2) (k2_pay5 x0) (k2_pay6 x1) (k2_pay7 x6) (k2_pay8 x7) (k2_pay9 x9)
        (k2_pay10 x10) (k2_pay11 x1 x0 x3 x4) (k2_pay12 x5) x8 x11 x12 x13 x14)
      = fun j : S16x512.Idx => nodeH (presOf x3 x4 x5 x6 x7 x8 x9 x10 x11 x12 x13 x14) (fun k => x0 (ix2 (j 0) k))
          (fun b k => x1 (ix3 (j 0) b k)) (fun b k => x2 (ix3 (j 0) b k)) (j 1) := by
  funext j
  obtain ⟨p, q, rfl⟩ : ∃ (p : Fin 16) (q : Fin 512), j = ix2 p q := ⟨j 0, j 1, eq_ix2 j⟩
  exact k2_hidden_apply x0 x1 x2 x3 x4 x5 x6 x7 x8 x9 x10 x11 x12 x13 x14 p q

end Cert.KernelIdeal.NodeValue

end
-- ==== Proof.KerNode2Blocks.lean ====
/-
  From the blocks of the inner-node region over 16 parents (1 grid point of 16 parents) to its two output arrays:
  after the region the cell array holds nodeC, and the hidden array nodeH, of each parent's input row, its sixteen
  children's rows and the gates' bundle, all read off the arrays as the region finds them.
-/
import proofs.«172855_j27504970564112_2_alg».proof.Proof.Gen.KernelIdeal.Frame
import proofs.«172855_j27504970564112_2_alg».proof.Proof.KerNode2Pay
import proofs.«172855_j27504970564112_2_alg».proof.Proof.KerNodePK
import Idealize.ShloMosaic.Lib.Pipeline.Value

noncomputable section

open Idealize.ShloMosaic Idealize.ShloMosaic.TcCoe Idealize.SL.Sem
open Idealize.ShloMosaic.Pipeline (Dat)

namespace Cert.KernelIdeal.NodeValue

open Idealize.ShloMosaic.ValueIdx
open Cert.KernelIdeal Cert.KernelIdeal.Gen Cert.TreeCell

variable (V : (c : Dev nD) → (b : Ref sig .tc) → Buf (Elt Ideal) ((c : Thread nD τ).loc b))

theorem r2_hz2 : (![0, 0] : Fin 2 → Nat) = fun _ => 0 := funext fun a => by fin_cases a <;> rfl
theorem r2_hz3 : (![0, 0, 0] : Fin 3 → Nat) = fun _ => 0 := funext fun a => by fin_cases a <;> rfl

/-- The cell array the region leaves: row n is nodeC of parent n. -/
def cellArr2 (c : Dev nD) : S16x512.Idx → EReal := fun i =>
  nodeC (PK V c) (fun k => (V c main_v1 : S16x512.Idx → EReal) (ix2 (i 0) k)) (fun b k => (V c main_v25 : S16x16x512.Idx → EReal) (ix3 (i 0) b k))
    (fun b k => (V c main_v26 : S16x16x512.Idx → EReal) (ix3 (i 0) b k)) (i 1)

/-- The hidden array the region leaves: row n is nodeH of parent n. -/
def hiddenArr2 (c : Dev nD) : S16x512.Idx → EReal := fun i =>
  nodeH (PK V c) (fun k => (V c main_v1 : S16x512.Idx → EReal) (ix2 (i 0) k)) (fun b k => (V c main_v25 : S16x16x512.Idx → EReal) (ix3 (i 0) b k))
    (fun b k => (V c main_v26 : S16x16x512.Idx → EReal) (ix3 (i 0) b k)) (i 1)

/-- The printed index maps, decided over the grid: the three row windows and the two outputs sit at block t on the
    parents axis and block 0 elsewhere; the twelve weight windows at block 0. -/
theorem idx2 : ∀ t : Fin cfg2.N,
    (win2_0.index t (0 : Fin 2) = t.val ∧ win2_0.index t (1 : Fin 2) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_15.index t (0 : Fin 2) = t.val ∧ win2_15.index t (1 : Fin 2) = 0)
    ∧ (win2_16.index t (0 : Fin 2) = t.val ∧ win2_16.index t (1 : Fin 2) = 0) :=
  (by decide +kernel : ∀ t : Fin grid2.N, _)

theorem widx2 : ∀ t : Fin cfg2.N,
    (win2_3.index t (0 : Fin 2) = 0 ∧ win2_3.index t (1 : Fin 2) = 0) ∧ (win2_4.index t (0 : Fin 2) = 0 ∧ win2_4.index t (1 : Fin 2) = 0)
    ∧ (win2_5.index t (0 : Fin 2) = 0 ∧ win2_5.index t (1 : Fin 2) = 0) ∧ (win2_6.index t (0 : Fin 2) = 0 ∧ win2_6.index t (1 : Fin 2) = 0)
    ∧ (win2_7.index t (0 : Fin 2) = 0 ∧ win2_7.index t (1 : Fin 2) = 0) ∧ (win2_8.index t (0 : Fin 2) = 0 ∧ win2_8.index t (1 : Fin 2) = 0)
    ∧ (win2_9.index t (0 : Fin 2) = 0 ∧ win2_9.index t (1 : Fin 2) = 0) ∧ (win2_10.index t (0 : Fin 2) = 0 ∧ win2_10.index t (1 : Fin 2) = 0)
    ∧ (win2_11.index t (0 : Fin 2) = 0 ∧ win2_11.index t (1 : Fin 2) = 0) ∧ (win2_12.index t (0 : Fin 2) = 0 ∧ win2_12.index t (1 : Fin 2) = 0)
    ∧ (win2_13.index t (0 : Fin 2) = 0 ∧ win2_13.index t (1 : Fin 2) = 0) ∧ (win2_14.index t (0 : Fin 2) = 0 ∧ win2_14.index t (1 : Fin 2) = 0) :=
  (by decide +kernel : ∀ t : Fin grid2.N, _)

/-- Row p of point t's block of the input rows is row t·16 + p of the array. -/
theorem xrow2 (c : Dev nD) (t : Fin cfg2.N) (p : Fin 16) (n : Fin 16) (hn : n.val = t.val * 16 + p.val) (k : Fin 512) :
    (iblk2 V c 0 t : Vec Ideal S16x512 .f32) (ix2 p k) = (V c main_v1 : S16x512.Idx → EReal) (ix2 n k) := by
  obtain ⟨⟨e0, e1⟩, -⟩ := idx2 t
  unfold iblk2
  rw [View.read_apply]
  show V c main_v1 _ = V c main_v1 _
  congr 1
  funext a; apply Fin.ext
  match a with
  | ⟨0, _⟩ => show win2_0.index t (0 : Fin 2) * 16 + 1 * p.val = n.val; rw [e0, hn]; omega
  | ⟨1, _⟩ => show win2_0.index t (1 : Fin 2) * 512 + 1 * k.val = k.val; rw [e1]; omega

/-- Child b of parent p in point t's block of the children's hidden rows. -/
theorem hrow2 (c : Dev nD) (t : Fin cfg2.N) (p : Fin 16) (n : Fin 16) (hn : n.val = t.val * 16 + p.val) (b : Fin 16) (k : Fin 512) :
    (iblk2 V c 1 t : Vec Ideal S16x16x512 .bf16) (ix3 p b k) = (V c main_v25 : S16x16x512.Idx → EReal) (ix3 n b k) := by
  obtain ⟨-, ⟨e0, e1, e2⟩, -⟩ := idx2 t
  unfold iblk2
  rw [View.read_apply]
  show V c main_v25 _ = V c main_v25 _
  congr 1
  funext a; apply Fin.ext
  match a with
  | ⟨0, _⟩ => show win2_1.index t (0 : Fin 3) * 16 + 1 * p.val = n.val; rw [e0, hn]; omega
  | ⟨1, _⟩ => show win2_1.index t (1 : Fin 3) * 16 + 1 * b.val = b.val; rw [e1]; omega
  | ⟨2, _⟩ => show win2_1.index t (2 : Fin 3) * 512 + 1 * k.val = k.val; rw [e2]; omega

/-- Child b of parent p in point t's block of the children's cell rows. -/
theorem crow2 (c : Dev nD) (t : Fin cfg2.N) (p : Fin 16) (n : Fin 16) (hn : n.val = t.val * 16 + p.val) (b : Fin 16) (k : Fin 512) :
    (iblk2 V c 2 t : Vec Ideal S16x16x512 .bf16) (ix3 p b k) = (V c main_v26 : S16x16x512.Idx → EReal) (ix3 n b k) := by
  obtain ⟨-, -, ⟨e0, e1, e2⟩, -⟩ := idx2 t
  unfold iblk2
  rw [View.read_apply]
  show V c main_v26 _ = V c main_v26 _
  congr 1
  funext a; apply Fin.ext
  match a with
  | ⟨0, _⟩ => show win2_2.index t (0 : Fin 3) * 16 + 1 * p.val = n.val; rw [e0, hn]; omega
  | ⟨1, _⟩ => show win2_2.index t (1 : Fin 3) * 16 + 1 * b.val = b.val; rw [e1]; omega
  | ⟨2, _⟩ => show win2_2.index t (2 : Fin 3) * 512 + 1 * k.val = k.val; rw [e2]; omega

/-! ## Each weight window's block is its whole array -/

theorem wblk2_3 (c : Dev nD) (t : Fin cfg2.N) : (iblk2 V c 3 t : Vec Ideal S512x512 .f32) = (V c main_v6 : S512x512.Idx → EReal) := by
  obtain ⟨⟨e0, e1⟩, -, -, -, -, -, -, -, -, -, -, -⟩ := widx2 t
  funext y
  unfold iblk2
  rw [View.read_apply]
  show V c main_v6 _ = V c main_v6 y
  congr 1
  funext a; apply Fin.ext
  match a with
  | ⟨0, _⟩ => show win2_3.index t (0 : Fin 2) * 512 + 1 * (y 0).val = (y 0).val; rw [e0]; omega
  | ⟨1, _⟩ => show win2_3.index t (1 : Fin 2) * 512 + 1 * (y 1).val = (y 1).val; rw [e1]; omega

theorem wblk2_4 (c : Dev nD) (t : Fin cfg2.N) : (iblk2 V c 4 t : Vec Ideal S512x512 .f32) = (V c main_v7 : S512x512.Idx → EReal) := by
  obtain ⟨-, ⟨e0, e1⟩, -, -, -, -, -, -, -, -, -, -⟩ := widx2 t
  funext y
  unfold iblk2
  rw [View.read_apply]
  show V c main_v7 _ = V c main_v7 y
  congr 1
  funext a; apply Fin.ext
  match a with
  | ⟨0, _⟩ => show win2_4.index t (0 : Fin 2) * 512 + 1 * (y 0).val = (y 0).val; rw [e0]; omega
  | ⟨1, _⟩ => show win2_4.index t (1 : Fin 2) * 512 + 1 * (y 1).val = (y 1).val; rw [e1]; omega

theorem wblk2_5 (c : Dev nD) (t : Fin cfg2.N) : (iblk2 V c 5 t : Vec Ideal S1x512 .f32) = (V c main_v17 : S1x512.Idx → EReal) := by
  obtain ⟨-, -, ⟨e0, e1⟩, -, -, -, -, -, -, -, -, -⟩ := widx2 t
  funext y
  unfold iblk2
  rw [View.read_apply]
  show V c main_v17 _ = V c main_v17 y
  congr 1
  funext a; apply Fin.ext
  match a with
  | ⟨0, _⟩ => show win2_5.index t (0 : Fin 2) * 1 + 1 * (y 0).val = (y 0).val; rw [e0]; omega
  | ⟨1, _⟩ => show win2_5.index t (1 : Fin 2) * 512 + 1 * (y 1).val = (y 1).val; rw [e1]; omega

theorem wblk2_6 (c : Dev nD) (t : Fin cfg2.N) : (iblk2 V c 6 t : Vec Ideal S512x512 .f32) = (V c main_v12 : S512x512.Idx → EReal) := by
  obtain ⟨-, -, -, ⟨e0, e1⟩, -, -, -, -, -, -, -, -⟩ := widx2 t
  funext y
  unfold iblk2
  rw [View.read_apply]
  show V c main_v12 _ = V c main_v12 y
  congr 1
  funext a; apply Fin.ext
  match a with
  | ⟨0, _⟩ => show win2_6.index t (0 : Fin 2) * 512 + 1 * (y 0).val = (y 0).val; rw [e0]; omega
  | ⟨1, _⟩ => show win2_6.index t (1 : Fin 2) * 512 + 1 * (y 1).val = (y 1).val; rw [e1]; omega

theorem wblk2_7 (c : Dev nD) (t : Fin cfg2.N) : (iblk2 V c 7 t : Vec Ideal S512x512 .f32) = (V c main_v13 : S512x512.Idx → EReal) := by
  obtain ⟨-, -, -, -, ⟨e0, e1⟩, -, -, -, -, -, -, -⟩ := widx2 t
  funext y
  unfold iblk2
  rw [View.read_apply]
  show V c main_v13 _ = V c main_v13 y
  congr 1
  funext a; apply Fin.ext
  match a with
  | ⟨0, _⟩ => show win2_7.index t (0 : Fin 2) * 512 + 1 * (y 0).val = (y 0).val; rw [e0]; omega
  | ⟨1, _⟩ => show win2_7.index t (1 : Fin 2) * 512 + 1 * (y 1).val = (y 1).val; rw [e1]; omega

theorem wblk2_8 (c : Dev nD) (t : Fin cfg2.N) : (iblk2 V c 8 t : Vec Ideal S1x512 .f32) = (V c main_v19 : S1x512.Idx → EReal) := by
  obtain ⟨-, -, -, -, -, ⟨e0, e1⟩, -, -, -, -, -, -⟩ := widx2 t
  funext y
  unfold iblk2
  rw [View.read_apply]
  show V c main_v19 _ = V c main_v19 y
  congr 1
  funext a; apply Fin.ext
  match a with
  | ⟨0, _⟩ => show win2_8.index t (0 : Fin 2) * 1 + 1 * (y 0).val = (y 0).val; rw [e0]; omega
  | ⟨1, _⟩ => show win2_8.index t (1 : Fin 2) * 512 + 1 * (y 1).val = (y 1).val; rw [e1]; omega

theorem wblk2_9 (c : Dev nD) (t : Fin cfg2.N) : (iblk2 V c 9 t : Vec Ideal S512x512 .f32) = (V c main_v15 : S512x512.Idx → EReal) := by
  obtain ⟨-, -, -, -, -, -, ⟨e0, e1⟩, -, -, -, -, -⟩ := widx2 t
  funext y
  unfold iblk2
  rw [View.read_apply]
  show V c main_v15 _ = V c main_v15 y
  congr 1
  funext a; apply Fin.ext
  match a with
  | ⟨0, _⟩ => show win2_9.index t (0 : Fin 2) * 512 + 1 * (y 0).val = (y 0).val; rw [e0]; omega
  | ⟨1, _⟩ => show win2_9.index t (1 : Fin 2) * 512 + 1 * (y 1).val = (y 1).val; rw [e1]; omega

theorem wblk2_10 (c : Dev nD) (t : Fin cfg2.N) : (iblk2 V c 10 t : Vec Ideal S512x512 .f32) = (V c main_v16 : S512x512.Idx → EReal) := by
  obtain ⟨-, -, -, -, -, -, -, ⟨e0, e1⟩, -, -, -, -⟩ := widx2 t
  funext y
  unfold iblk2
  rw [View.read_apply]
  show V c main_v16 _ = V c main_v16 y
  congr 1
  funext a; apply Fin.ext
  match a with
  | ⟨0, _⟩ => show win2_10.index t (0 : Fin 2) * 512 + 1 * (y 0).val = (y 0).val; rw [e0]; omega
  | ⟨1, _⟩ => show win2_10.index t (1 : Fin 2) * 512 + 1 * (y 1).val = (y 1).val; rw [e1]; omega

theorem wblk2_11 (c : Dev nD) (t : Fin cfg2.N) : (iblk2 V c 11 t : Vec Ideal S1x512 .f32) = (V c main_v20 : S1x512.Idx → EReal) := by
  obtain ⟨-, -, -, -, -, -, -, -, ⟨e0, e1⟩, -, -, -⟩ := widx2 t
  funext y
  unfold iblk2
  rw [View.read_apply]
  show V c main_v20 _ = V c main_v20 y
  congr 1
  funext a; apply Fin.ext
  match a with
  | ⟨0, _⟩ => show win2_11.index t (0 : Fin 2) * 1 + 1 * (y 0).val = (y 0).val; rw [e0]; omega
  | ⟨1, _⟩ => show win2_11.index t (1 : Fin 2) * 512 + 1 * (y 1).val = (y 1).val; rw [e1]; omega

theorem wblk2_12 (c : Dev nD) (t : Fin cfg2.N) : (iblk2 V c 12 t : Vec Ideal S512x512 .f32) = (V c main_v9 : S512x512.Idx → EReal) := by
  obtain ⟨-, -, -, -, -, -, -, -, -, ⟨e0, e1⟩, -, -⟩ := widx2 t
  funext y
  unfold iblk2
  rw [View.read_apply]
  show V c main_v9 _ = V c main_v9 y
  congr 1
  funext a; apply Fin.ext
  match a with
  | ⟨0, _⟩ => show win2_12.index t (0 : Fin 2) * 512 + 1 * (y 0).val = (y 0).val; rw [e0]; omega
  | ⟨1, _⟩ => show win2_12.index t (1 : Fin 2) * 512 + 1 * (y 1).val = (y 1).val; rw [e1]; omega

theorem wblk2_13 (c : Dev nD) (t : Fin cfg2.N) : (iblk2 V c 13 t : Vec Ideal S512x512 .f32) = (V c main_v10 : S512x512.Idx → EReal) := by
  obtain ⟨-, -, -, -, -, -, -, -, -, -, ⟨e0, e1⟩, -⟩ := widx2 t
  funext y
  unfold iblk2
  rw [View.read_apply]
  show V c main_v10 _ = V c main_v10 y
  congr 1
  funext a; apply Fin.ext
  match a with
  | ⟨0, _⟩ => show win2_13.index t (0 : Fin 2) * 512 + 1 * (y 0).val = (y 0).val; rw [e0]; omega
  | ⟨1, _⟩ => show win2_13.index t (1 : Fin 2) * 512 + 1 * (y 1).val = (y 1).val; rw [e1]; omega

theorem wblk2_14 (c : Dev nD) (t : Fin cfg2.N) : (iblk2 V c 14 t : Vec Ideal S1x512 .f32) = (V c main_v18 : S1x512.Idx → EReal) := by
  obtain ⟨-, -, -, -, -, -, -, -, -, -, -, ⟨e0, e1⟩⟩ := widx2 t
  funext y
  unfold iblk2
  rw [View.read_apply]
  show V c main_v18 _ = V c main_v18 y
  congr 1
  funext a; apply Fin.ext
  match a with
  | ⟨0, _⟩ => show win2_14.index t (0 : Fin 2) * 1 + 1 * (y 0).val = (y 0).val; rw [e0]; omega
  | ⟨1, _⟩ => show win2_14.index t (1 : Fin 2) * 512 + 1 * (y 1).val = (y 1).val; rw [e1]; omega

/-- The bundle of the weight blocks at any point is the arrays' bundle. -/
theorem presBlk2 (c : Dev nD) (t : Fin cfg2.N) : presOf (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) = PK V c := by
  unfold PK
  rw [wblk2_3 V c t, wblk2_4 V c t, wblk2_5 V c t, wblk2_6 V c t, wblk2_7 V c t, wblk2_8 V c t, wblk2_9 V c t, wblk2_10 V c t, wblk2_11 V c t, wblk2_12 V c t, wblk2_13 V c t, wblk2_14 V c t]

/-- Point t's block of the cell rows, at (p, q), is the cell array at the row the block's place gives. -/
theorem cellBlk2 (c : Dev nD) (t : Fin cfg2.N) (p : Fin 16) (q : Fin 512) (i : S16x512.Idx)
    (h0 : (i 0).val = t.val * 16 + p.val) (h1 : (i 1).val = q.val) :
    nodeC (PK V c) (fun k => (iblk2 V c 0 t : Vec Ideal S16x512 .f32) (ix2 p k))
      (fun b k => (iblk2 V c 1 t : Vec Ideal S16x16x512 .bf16) (ix3 p b k))
      (fun b k => (iblk2 V c 2 t : Vec Ideal S16x16x512 .bf16) (ix3 p b k)) q = cellArr2 V c i := by
  unfold cellArr2
  have ex : (fun k => (iblk2 V c 0 t : Vec Ideal S16x512 .f32) (ix2 p k)) = fun k => (V c main_v1 : S16x512.Idx → EReal) (ix2 (i 0) k) :=
    funext fun k => xrow2 V c t p (i 0) h0 k
  have eh : (fun b k => (iblk2 V c 1 t : Vec Ideal S16x16x512 .bf16) (ix3 p b k)) = fun b k => (V c main_v25 : S16x16x512.Idx → EReal) (ix3 (i 0) b k) :=
    funext fun b => funext fun k => hrow2 V c t p (i 0) h0 b k
  have ec : (fun b k => (iblk2 V c 2 t : Vec Ideal S16x16x512 .bf16) (ix3 p b k)) = fun b k => (V c main_v26 : S16x16x512.Idx → EReal) (ix3 (i 0) b k) :=
    funext fun b => funext fun k => crow2 V c t p (i 0) h0 b k
  have eq : q = i 1 := Fin.ext h1.symm
  rw [ex, eh, ec, eq]

/-- WHAT POINT t WRITES BACK to the cell array is block t of cellArr. -/
theorem cellFlushed2 (c : Dev nD) (t : Fin cfg2.N) :
    (dat2 V c).flushed 16 t = ((cfg2.win 16).blk t).view.read (Elt Ideal) (cellArr2 V c) := by
  show (cfg2.win 16).cut (grid2.coords t) ((dat2 V c).after 16 t) = _
  rw [after2_16]
  unfold out2_16
  rw [View.canon_unit_zero r2_hz2]
  simp only [View.ld_unit_zero (S := S16x512) r2_hz2, View.ld_unit_zero (S := S16x16x512) r2_hz3, View.ld_unit_zero (S := S512x512) r2_hz2, View.ld_unit_zero (S := S1x512) r2_hz2]
  rw [k2_cell_fun (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t), presBlk2 V c t]
  obtain ⟨-, -, -, -, ⟨e0, e1⟩⟩ := idx2 t
  funext j
  have h0 : ((((cfg2.win 16).blk t).view.emb j) 0).val = t.val * 16 + (j 0).val := by
    show win2_16.index t (0 : Fin 2) * 16 + 1 * (j 0).val = _
    rw [e0]; omega
  have h1 : ((((cfg2.win 16).blk t).view.emb j) 1).val = (j 1).val := by
    show win2_16.index t (1 : Fin 2) * 512 + 1 * (j 1).val = _
    rw [e1]; omega
  exact cellBlk2 V c t (j 0) (j 1) (((cfg2.win 16).blk t).view.emb j) h0 h1

/-- An index of the cell array is in point t's block iff each coordinate is in the block's range on its axis. -/
theorem cellMem2 (t : Fin cfg2.N) (i : S16x512.Idx) :
    i ∈ ((cfg2.win 16).blk t).view.set ↔ ∀ a : Fin 2, win2_16.index t a * S16x512.size a ≤ (i a).val ∧ (i a).val < win2_16.index t a * S16x512.size a + S16x512.size a := by
  show i ∈ ((View.whole main_v27_1).slice (win2_16.rect t)).set ↔ _
  rw [View.set_slice_whole, Rect.mem_set_unit]
  exact Iff.rfl

/-- Every index of the cell array is in the block of the point its row falls in. -/
theorem cellCover2 (i : S16x512.Idx) :
    ∃ t : Fin cfg2.N, (cfg2.win 16).flush t = true ∧ i ∈ ((cfg2.win 16).blk t).view.set := by
  have hN : cfg2.N = 1 := N_2
  have hi0 : (i 0).val < 16 := (i 0).isLt
  have hi1 : (i 1).val < 512 := (i 1).isLt
  have ht : (i 0).val / 16 < cfg2.N := (by omega : (i 0).val / 16 < 1).trans_eq hN.symm
  refine ⟨⟨(i 0).val / 16, ht⟩, flush2_16 _, ?_⟩
  rw [cellMem2]
  obtain ⟨-, -, -, -, ⟨e0, e1⟩⟩ := idx2 ⟨(i 0).val / 16, ht⟩
  intro a
  match a with
  | ⟨0, _⟩ =>
    show win2_16.index ⟨(i 0).val / 16, ht⟩ (0 : Fin 2) * 16 ≤ (i 0).val ∧ (i 0).val < win2_16.index ⟨(i 0).val / 16, ht⟩ (0 : Fin 2) * 16 + 16
    rw [e0]; show (i 0).val / 16 * 16 ≤ (i 0).val ∧ (i 0).val < (i 0).val / 16 * 16 + 16; omega
  | ⟨1, _⟩ =>
    show win2_16.index ⟨(i 0).val / 16, ht⟩ (1 : Fin 2) * 512 ≤ (i 1).val ∧ (i 1).val < win2_16.index ⟨(i 0).val / 16, ht⟩ (1 : Fin 2) * 512 + 512
    rw [e1]; omega

/-- THE CELL ARRAY after the region. -/
theorem cellFinal2 (c : Dev nD) : (dat2 V c).arrAt 16 cfg2.N = cellArr2 V c :=
  (dat2 V c).arrAt_eq_of_cover 16 (cellArr2 V c) (fun t _ => cellFlushed2 V c t) cellCover2

/-- Point t's block of the hidden rows, at (p, q), is the hidden array at the row the block's place gives. -/
theorem hiddenBlk2 (c : Dev nD) (t : Fin cfg2.N) (p : Fin 16) (q : Fin 512) (i : S16x512.Idx)
    (h0 : (i 0).val = t.val * 16 + p.val) (h1 : (i 1).val = q.val) :
    nodeH (PK V c) (fun k => (iblk2 V c 0 t : Vec Ideal S16x512 .f32) (ix2 p k))
      (fun b k => (iblk2 V c 1 t : Vec Ideal S16x16x512 .bf16) (ix3 p b k))
      (fun b k => (iblk2 V c 2 t : Vec Ideal S16x16x512 .bf16) (ix3 p b k)) q = hiddenArr2 V c i := by
  unfold hiddenArr2
  have ex : (fun k => (iblk2 V c 0 t : Vec Ideal S16x512 .f32) (ix2 p k)) = fun k => (V c main_v1 : S16x512.Idx → EReal) (ix2 (i 0) k) :=
    funext fun k => xrow2 V c t p (i 0) h0 k
  have eh : (fun b k => (iblk2 V c 1 t : Vec Ideal S16x16x512 .bf16) (ix3 p b k)) = fun b k => (V c main_v25 : S16x16x512.Idx → EReal) (ix3 (i 0) b k) :=
    funext fun b => funext fun k => hrow2 V c t p (i 0) h0 b k
  have ec : (fun b k => (iblk2 V c 2 t : Vec Ideal S16x16x512 .bf16) (ix3 p b k)) = fun b k => (V c main_v26 : S16x16x512.Idx → EReal) (ix3 (i 0) b k) :=
    funext fun b => funext fun k => crow2 V c t p (i 0) h0 b k
  have eq : q = i 1 := Fin.ext h1.symm
  rw [ex, eh, ec, eq]

/-- WHAT POINT t WRITES BACK to the hidden array is block t of hiddenArr. -/
theorem hiddenFlushed2 (c : Dev nD) (t : Fin cfg2.N) :
    (dat2 V c).flushed 15 t = ((cfg2.win 15).blk t).view.read (Elt Ideal) (hiddenArr2 V c) := by
  show (cfg2.win 15).cut (grid2.coords t) ((dat2 V c).after 15 t) = _
  rw [after2_15]
  unfold out2_15
  rw [View.canon_unit_zero r2_hz2]
  simp only [View.ld_unit_zero (S := S16x512) r2_hz2, View.ld_unit_zero (S := S16x16x512) r2_hz3, View.ld_unit_zero (S := S512x512) r2_hz2, View.ld_unit_zero (S := S1x512) r2_hz2]
  rw [k2_hidden_fun (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t), presBlk2 V c t]
  obtain ⟨-, -, -, ⟨e0, e1⟩, -⟩ := idx2 t
  funext j
  have h0 : ((((cfg2.win 15).blk t).view.emb j) 0).val = t.val * 16 + (j 0).val := by
    show win2_15.index t (0 : Fin 2) * 16 + 1 * (j 0).val = _
    rw [e0]; omega
  have h1 : ((((cfg2.win 15).blk t).view.emb j) 1).val = (j 1).val := by
    show win2_15.index t (1 : Fin 2) * 512 + 1 * (j 1).val = _
    rw [e1]; omega
  exact hiddenBlk2 V c t (j 0) (j 1) (((cfg2.win 15).blk t).view.emb j) h0 h1

/-- An index of the hidden array is in point t's block iff each coordinate is in the block's range on its axis. -/
theorem hiddenMem2 (t : Fin cfg2.N) (i : S16x512.Idx) :
    i ∈ ((cfg2.win 15).blk t).view.set ↔ ∀ a : Fin 2, win2_15.index t a * S16x512.size a ≤ (i a).val ∧ (i a).val < win2_15.index t a * S16x512.size a + S16x512.size a := by
  show i ∈ ((View.whole main_v27_0).slice (win2_15.rect t)).set ↔ _
  rw [View.set_slice_whole, Rect.mem_set_unit]
  exact Iff.rfl

/-- Every index of the hidden array is in the block of the point its row falls in. -/
theorem hiddenCover2 (i : S16x512.Idx) :
    ∃ t : Fin cfg2.N, (cfg2.win 15).flush t = true ∧ i ∈ ((cfg2.win 15).blk t).view.set := by
  have hN : cfg2.N = 1 := N_2
  have hi0 : (i 0).val < 16 := (i 0).isLt
  have hi1 : (i 1).val < 512 := (i 1).isLt
  have ht : (i 0).val / 16 < cfg2.N := (by omega : (i 0).val / 16 < 1).trans_eq hN.symm
  refine ⟨⟨(i 0).val / 16, ht⟩, flush2_15 _, ?_⟩
  rw [hiddenMem2]
  obtain ⟨-, -, -, ⟨e0, e1⟩, -⟩ := idx2 ⟨(i 0).val / 16, ht⟩
  intro a
  match a with
  | ⟨0, _⟩ =>
    show win2_15.index ⟨(i 0).val / 16, ht⟩ (0 : Fin 2) * 16 ≤ (i 0).val ∧ (i 0).val < win2_15.index ⟨(i 0).val / 16, ht⟩ (0 : Fin 2) * 16 + 16
    rw [e0]; show (i 0).val / 16 * 16 ≤ (i 0).val ∧ (i 0).val < (i 0).val / 16 * 16 + 16; omega
  | ⟨1, _⟩ =>
    show win2_15.index ⟨(i 0).val / 16, ht⟩ (1 : Fin 2) * 512 ≤ (i 1).val ∧ (i 1).val < win2_15.index ⟨(i 0).val / 16, ht⟩ (1 : Fin 2) * 512 + 512
    rw [e1]; omega

/-- THE HIDDEN ARRAY after the region. -/
theorem hiddenFinal2 (c : Dev nD) : (dat2 V c).arrAt 15 cfg2.N = hiddenArr2 V c :=
  (dat2 V c).arrAt_eq_of_cover 15 (hiddenArr2 V c) (fun t _ => hiddenFlushed2 V c t) hiddenCover2

/-- REGION 2, the hidden array: row n at o is nodeH of parent n. -/
theorem region2_H (c : Dev nD) (n : Fin 16) (o : Fin 512) :
    ((dat2 V c).arrAt 15 cfg2.N : S16x512.Idx → EReal) (ix2 n o)
      = nodeH (PK V c) (fun k => (V c main_v1 : S16x512.Idx → EReal) (ix2 n k)) (fun b k => (V c main_v25 : S16x16x512.Idx → EReal) (ix3 n b k))
          (fun b k => (V c main_v26 : S16x16x512.Idx → EReal) (ix3 n b k)) o := by
  rw [hiddenFinal2]; rfl

/-- REGION 2, the cell array: row n at o is nodeC of parent n. -/
theorem region2_C (c : Dev nD) (n : Fin 16) (o : Fin 512) :
    ((dat2 V c).arrAt 16 cfg2.N : S16x512.Idx → EReal) (ix2 n o)
      = nodeC (PK V c) (fun k => (V c main_v1 : S16x512.Idx → EReal) (ix2 n k)) (fun b k => (V c main_v25 : S16x16x512.Idx → EReal) (ix3 n b k))
          (fun b k => (V c main_v26 : S16x16x512.Idx → EReal) (ix3 n b k)) o := by
  rw [cellFinal2]; rfl

end Cert.KernelIdeal.NodeValue

end
-- ==== Proof.KerNode3Pay.lean ====
/-
  The two stored payloads of the inner-node body over the one root parent, read at an index: the cell row and the hidden
  row at output coordinate o are the tree cell's nodeC and nodeH of the root's input row, its sixteen children's hidden
  and cell rows, and the split-arrangement bundle of the twelve weight and bias blocks. With one parent the bias rows
  are added without repetition, and both rows are stored unrounded.
-/
import proofs.«172855_j27504970564112_2_alg».proof.Proof.Gen.KernelIdeal.Skeleton
import proofs.«172855_j27504970564112_2_alg».proof.Proof.KerNodeOps
import proofs.«172855_j27504970564112_2_alg».proof.Proof.KerNodeArgs

noncomputable section

namespace Cert.KernelIdeal.NodeValue

open Idealize.ShloMosaic Idealize.ShloMosaic.ValueIdx
open Cert.KernelIdeal Cert.KernelIdeal.Gen Cert.TreeCell

/-- The children's hidden rows summed, at (p, k). -/
theorem k3_hsum_apply (x1 : Vec Ideal S1x16x512 .bf16) (p : Fin 1) (k : Fin 512) :
    k3_pay4 x1 (ix2 p k) = ∑ b : Fin 16, x1 (ix3 p b k) := by
  unfold k3_pay4
  simp only [shapeCast_self, truncf_apply]
  exact sumMiddle_apply _ _ _ _ p k

/-- The input gate's two products added, at (p, o). -/
theorem k3_pay9_apply (x1 : Vec Ideal S1x16x512 .bf16) (x0 : Vec Ideal S1x512 .f32) (x3 x4 : Vec Ideal S512x512 .f32)
    (p : Fin 1) (o : Fin 512) :
    k3_pay9 x1 x0 x3 x4 (ix2 p o)
      = (∑ k : Fin 512, x0 (ix2 p k) * x3 (ix2 k o)) + ∑ k : Fin 512, (∑ b : Fin 16, x1 (ix3 p b k)) * x4 (ix2 k o) := by
  unfold k3_pay9
  simp only [addf_apply, shapeCast_self]
  refine congrArg₂ (· + ·) ((matmul_zero_apply _ rfl rfl rfl rfl rfl rfl none _ _ p o).trans ?_)
    ((matmul_zero_apply _ rfl rfl rfl rfl rfl rfl none _ _ p o).trans ?_)
  · refine Finset.sum_congr rfl fun k _ => congrArg₂ (· * ·) ?_ rfl
    unfold k3_pay3
    simp only [shapeCast_self]
    rfl
  · exact Finset.sum_congr rfl fun k _ => congrArg₂ (· * ·) (k3_hsum_apply x1 p k) rfl

/-- The cell payload over its already formed operands, at (p, o). -/
theorem k3_pay11_apply (v4 : FVec Ideal S1x16x512 .bf16) (v5 : FVec Ideal S1x16x512 .f32) (v9 v10 : FVec Ideal S1x512 .bf16)
    (v25 v28 : FVec Ideal S512x512 .bf16) (v31 : FVec Ideal S1x512 .f32) (v33 : FVec Ideal S1x512 .f32)
    (v46 : Vec Ideal S1x512 .f32) (v50 v53 : Vec Ideal S512x512 .f32) (v57 : Vec Ideal S1x512 .f32) (p : Fin 1) (o : Fin 512) :
    k3_pay11 v4 v5 v9 v10 v25 v28 v31 v33 v46 v50 v53 v57 (ix2 p o)
      = Ideal.logistic (v31 (ix2 p o) + v33 (ix2 p o))
          * Ideal.tanh (((∑ k : Fin 512, v9 (ix2 p k) * v25 (ix2 k o)) + ∑ k : Fin 512, v10 (ix2 p k) * v28 (ix2 k o))
              + v46 (ix2 p o))
        + ∑ b : Fin 16, Ideal.logistic (((∑ k : Fin 512, v9 (ix2 p k) * v50 (ix2 k o)) + v57 (ix2 p o))
              + ∑ k : Fin 512, v4 (ix3 p b k) * v53 (ix2 k o)) * v5 (ix3 p b o) := by
  unfold k3_pay11
  simp only [addf_apply, mulf_apply, logistic_apply, tanh_apply, shapeCast_self]
  refine congrArg₂ (· + ·) (congrArg₂ (· * ·) rfl
    (congrArg Ideal.tanh ?_)) ((sumMiddle_apply _ _ _ _ p o).trans (Finset.sum_congr rfl fun b _ => ?_))
  · exact congrArg₂ (· + ·) (congrArg₂ (· + ·) (matmul_zero_apply _ rfl rfl rfl rfl rfl rfl none v9 v25 p o)
      (matmul_zero_apply _ rfl rfl rfl rfl rfl rfl none v10 v28 p o)) rfl
  · simp only [addf_apply, mulf_apply, logistic_apply]
    refine congrArg₂ (· * ·) (congrArg Ideal.logistic (congrArg₂ (· + ·) ?_ ?_)) rfl
    · refine (repeatMiddle_apply _ _ _ p b o).trans ?_
      simp only [addf_apply]
      exact congrArg₂ (· + ·) (matmul_zero_apply _ rfl rfl rfl rfl rfl rfl none v9 _ p o) rfl
    · have hlt : p.val * 16 + b.val < 16 := by have := p.isLt; have := b.isLt; omega
      refine (unflatten_apply _ _ p b o ⟨p.val * 16 + b.val, hlt⟩ rfl).trans ?_
      refine (matmul_zero_apply _ rfl rfl rfl rfl rfl rfl none _ _ ⟨p.val * 16 + b.val, hlt⟩ o).trans ?_
      exact Finset.sum_congr rfl fun k _ => congrArg₂ (· * ·) (flatten_apply v4 _ p b k ⟨p.val * 16 + b.val, hlt⟩ rfl) rfl

/-- The hidden payload over its already formed operands, at (p, o). -/
theorem k3_pay12_apply (v4 : FVec Ideal S1x16x512 .bf16) (v5 : FVec Ideal S1x16x512 .f32) (v9 v10 : FVec Ideal S1x512 .bf16)
    (v19 v22 v25 v28 : FVec Ideal S512x512 .bf16) (v31 : FVec Ideal S1x512 .f32) (v33 : FVec Ideal S1x512 .f32)
    (v39 v46 : Vec Ideal S1x512 .f32) (v50 v53 : Vec Ideal S512x512 .f32) (v57 : Vec Ideal S1x512 .f32) (p : Fin 1) (o : Fin 512) :
    k3_pay12 v4 v5 v9 v10 v19 v22 v25 v28 v31 v33 v39 v46 v50 v53 v57 (ix2 p o)
      = Ideal.logistic (((∑ k : Fin 512, v9 (ix2 p k) * v19 (ix2 k o)) + ∑ k : Fin 512, v10 (ix2 p k) * v22 (ix2 k o))
            + v39 (ix2 p o))
          * Ideal.tanh (k3_pay11 v4 v5 v9 v10 v25 v28 v31 v33 v46 v50 v53 v57 (ix2 p o)) := by
  unfold k3_pay12
  simp only [addf_apply, mulf_apply, logistic_apply, tanh_apply, shapeCast_self]
  exact congrArg₂ (· * ·) (congrArg Ideal.logistic (congrArg₂ (· + ·) (congrArg₂ (· + ·)
    (matmul_zero_apply _ rfl rfl rfl rfl rfl rfl none v9 v19 p o) (matmul_zero_apply _ rfl rfl rfl rfl rfl rfl none v10 v22 p o))
    rfl)) rfl

/-- The identity casts of the loaded blocks. -/
theorem k3_pay1_eq (x : Vec Ideal S1x16x512 .bf16) : k3_pay1 x = x := by unfold k3_pay1; exact shapeCast_self _ _
theorem k3_pay2_eq (x : Vec Ideal S1x16x512 .bf16) : k3_pay2 x = x := by unfold k3_pay2; rw [k3_pay1_eq]; rfl
theorem k3_pay3_eq (x : Vec Ideal S1x512 .f32) : k3_pay3 x = x := by unfold k3_pay3; simp only [shapeCast_self]; rfl
theorem k3_pay5_eq (x : Vec Ideal S512x512 .f32) : k3_pay5 x = x := by unfold k3_pay5; simp only [shapeCast_self]; rfl
theorem k3_pay6_eq (x : Vec Ideal S512x512 .f32) : k3_pay6 x = x := by unfold k3_pay6; simp only [shapeCast_self]; rfl
theorem k3_pay7_eq (x : Vec Ideal S512x512 .f32) : k3_pay7 x = x := by unfold k3_pay7; simp only [shapeCast_self]; rfl
theorem k3_pay8_eq (x : Vec Ideal S512x512 .f32) : k3_pay8 x = x := by unfold k3_pay8; simp only [shapeCast_self]; rfl
theorem k3_pay10_eq (x : Vec Ideal S1x512 .f32) : k3_pay10 x = x := by unfold k3_pay10; exact shapeCast_self _ _

/-- With one parent the only row index is 0. -/
theorem fin1_eq_zero (p : Fin 1) : p = 0 := Subsingleton.elim _ _

/-- THE CELL ROW: the stored cell payload of the loaded blocks, at (p, o), is nodeC. -/
theorem k3_cell_apply (x0 : Vec Ideal S1x512 .f32) (x1 x2 : Vec Ideal S1x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) (p : Fin 1) (o : Fin 512) :
    k3_pay11 (k3_pay1 x2) (k3_pay2 x2) (k3_pay3 x0) (k3_pay4 x1) (k3_pay7 x9) (k3_pay8 x10)
        (k3_pay9 x1 x0 x3 x4) (k3_pay10 x5) x11 x12 x13 x14 (ix2 p o)
      = nodeC (presOf x3 x4 x5 x6 x7 x8 x9 x10 x11 x12 x13 x14) (fun k => x0 (ix2 p k)) (fun b k => x1 (ix3 p b k))
          (fun b k => x2 (ix3 p b k)) o := by
  rw [k3_pay11_apply, k3_pay9_apply]
  simp only [k3_hsum_apply, k3_pay1_eq, k3_pay2_eq, k3_pay3_eq, k3_pay7_eq, k3_pay8_eq, k3_pay10_eq]
  obtain rfl := fin1_eq_zero p
  rfl

/-- THE HIDDEN ROW: the stored hidden payload of the loaded blocks, at (p, o), is nodeH. -/
theorem k3_hidden_apply (x0 : Vec Ideal S1x512 .f32) (x1 x2 : Vec Ideal S1x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) (p : Fin 1) (o : Fin 512) :
    k3_pay12 (k3_pay1 x2) (k3_pay2 x2) (k3_pay3 x0) (k3_pay4 x1) (k3_pay5 x6) (k3_pay6 x7) (k3_pay7 x9)
        (k3_pay8 x10) (k3_pay9 x1 x0 x3 x4) (k3_pay10 x5) x8 x11 x12 x13 x14 (ix2 p o)
      = nodeH (presOf x3 x4 x5 x6 x7 x8 x9 x10 x11 x12 x13 x14) (fun k => x0 (ix2 p k)) (fun b k => x1 (ix3 p b k))
          (fun b k => x2 (ix3 p b k)) o := by
  rw [k3_pay12_apply, k3_cell_apply x0 x1 x2 x3 x4 x5 x6 x7 x8 x9 x10 x11 x12 x13 x14 p o]
  simp only [k3_hsum_apply, k3_pay3_eq, k3_pay5_eq, k3_pay6_eq]
  obtain rfl := fin1_eq_zero p
  rfl

/-- The stored cell payload as a function of the block's index. -/
theorem k3_cell_fun (x0 : Vec Ideal S1x512 .f32) (x1 x2 : Vec Ideal S1x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) :
    k3_pay11 (k3_pay1 x2) (k3_pay2 x2) (k3_pay3 x0) (k3_pay4 x1) (k3_pay7 x9) (k3_pay8 x10)
        (k3_pay9 x1 x0 x3 x4) (k3_pay10 x5) x11 x12 x13 x14
      = fun j : S1x512.Idx => nodeC (presOf x3 x4 x5 x6 x7 x8 x9 x10 x11 x12 x13 x14) (fun k => x0 (ix2 (j 0) k))
          (fun b k => x1 (ix3 (j 0) b k)) (fun b k => x2 (ix3 (j 0) b k)) (j 1) := by
  funext j
  obtain ⟨p, q, rfl⟩ : ∃ (p : Fin 1) (q : Fin 512), j = ix2 p q := ⟨j 0, j 1, eq_ix2 j⟩
  exact k3_cell_apply x0 x1 x2 x3 x4 x5 x6 x7 x8 x9 x10 x11 x12 x13 x14 p q

/-- The stored hidden payload as a function of the block's index. -/
theorem k3_hidden_fun (x0 : Vec Ideal S1x512 .f32) (x1 x2 : Vec Ideal S1x16x512 .bf16) (x3 x4 : Vec Ideal S512x512 .f32)
    (x5 : Vec Ideal S1x512 .f32) (x6 x7 : Vec Ideal S512x512 .f32) (x8 : Vec Ideal S1x512 .f32) (x9 x10 : Vec Ideal S512x512 .f32)
    (x11 : Vec Ideal S1x512 .f32) (x12 x13 : Vec Ideal S512x512 .f32) (x14 : Vec Ideal S1x512 .f32) :
    k3_pay12 (k3_pay1 x2) (k3_pay2 x2) (k3_pay3 x0) (k3_pay4 x1) (k3_pay5 x6) (k3_pay6 x7) (k3_pay7 x9)
        (k3_pay8 x10) (k3_pay9 x1 x0 x3 x4) (k3_pay10 x5) x8 x11 x12 x13 x14
      = fun j : S1x512.Idx => nodeH (presOf x3 x4 x5 x6 x7 x8 x9 x10 x11 x12 x13 x14) (fun k => x0 (ix2 (j 0) k))
          (fun b k => x1 (ix3 (j 0) b k)) (fun b k => x2 (ix3 (j 0) b k)) (j 1) := by
  funext j
  obtain ⟨p, q, rfl⟩ : ∃ (p : Fin 1) (q : Fin 512), j = ix2 p q := ⟨j 0, j 1, eq_ix2 j⟩
  exact k3_hidden_apply x0 x1 x2 x3 x4 x5 x6 x7 x8 x9 x10 x11 x12 x13 x14 p q

end Cert.KernelIdeal.NodeValue

end
-- ==== Proof.KerNode3Blocks.lean ====
/-
  From the blocks of the inner-node region over 1 parents (1 grid point of 1 parents) to its two output arrays:
  after the region the cell array holds nodeC, and the hidden array nodeH, of each parent's input row, its sixteen
  children's rows and the gates' bundle, all read off the arrays as the region finds them.
-/
import proofs.«172855_j27504970564112_2_alg».proof.Proof.Gen.KernelIdeal.Frame
import proofs.«172855_j27504970564112_2_alg».proof.Proof.KerNode3Pay
import proofs.«172855_j27504970564112_2_alg».proof.Proof.KerNodePK
import Idealize.ShloMosaic.Lib.Pipeline.Value

noncomputable section

open Idealize.ShloMosaic Idealize.ShloMosaic.TcCoe Idealize.SL.Sem
open Idealize.ShloMosaic.Pipeline (Dat)

namespace Cert.KernelIdeal.NodeValue

open Idealize.ShloMosaic.ValueIdx
open Cert.KernelIdeal Cert.KernelIdeal.Gen Cert.TreeCell

variable (V : (c : Dev nD) → (b : Ref sig .tc) → Buf (Elt Ideal) ((c : Thread nD τ).loc b))

theorem r3_hz2 : (![0, 0] : Fin 2 → Nat) = fun _ => 0 := funext fun a => by fin_cases a <;> rfl
theorem r3_hz3 : (![0, 0, 0] : Fin 3 → Nat) = fun _ => 0 := funext fun a => by fin_cases a <;> rfl

/-- The cell array the region leaves: row n is nodeC of parent n. -/
def cellArr3 (c : Dev nD) : S1x512.Idx → EReal := fun i =>
  nodeC (PK V c) (fun k => (V c main_v0 : S1x512.Idx → EReal) (ix2 (i 0) k)) (fun b k => (V c main_v28 : S1x16x512.Idx → EReal) (ix3 (i 0) b k))
    (fun b k => (V c main_v29 : S1x16x512.Idx → EReal) (ix3 (i 0) b k)) (i 1)

/-- The hidden array the region leaves: row n is nodeH of parent n. -/
def hiddenArr3 (c : Dev nD) : S1x512.Idx → EReal := fun i =>
  nodeH (PK V c) (fun k => (V c main_v0 : S1x512.Idx → EReal) (ix2 (i 0) k)) (fun b k => (V c main_v28 : S1x16x512.Idx → EReal) (ix3 (i 0) b k))
    (fun b k => (V c main_v29 : S1x16x512.Idx → EReal) (ix3 (i 0) b k)) (i 1)

/-- The printed index maps, decided over the grid: the three row windows and the two outputs sit at block t on the
    parents axis and block 0 elsewhere; the twelve weight windows at block 0. -/
theorem idx3 : ∀ t : Fin cfg3.N,
    (win3_0.index t (0 : Fin 2) = t.val ∧ win3_0.index t (1 : Fin 2) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_15.index t (0 : Fin 2) = t.val ∧ win3_15.index t (1 : Fin 2) = 0)
    ∧ (win3_16.index t (0 : Fin 2) = t.val ∧ win3_16.index t (1 : Fin 2) = 0) :=
  (by decide +kernel : ∀ t : Fin grid3.N, _)

theorem widx3 : ∀ t : Fin cfg3.N,
    (win3_3.index t (0 : Fin 2) = 0 ∧ win3_3.index t (1 : Fin 2) = 0) ∧ (win3_4.index t (0 : Fin 2) = 0 ∧ win3_4.index t (1 : Fin 2) = 0)
    ∧ (win3_5.index t (0 : Fin 2) = 0 ∧ win3_5.index t (1 : Fin 2) = 0) ∧ (win3_6.index t (0 : Fin 2) = 0 ∧ win3_6.index t (1 : Fin 2) = 0)
    ∧ (win3_7.index t (0 : Fin 2) = 0 ∧ win3_7.index t (1 : Fin 2) = 0) ∧ (win3_8.index t (0 : Fin 2) = 0 ∧ win3_8.index t (1 : Fin 2) = 0)
    ∧ (win3_9.index t (0 : Fin 2) = 0 ∧ win3_9.index t (1 : Fin 2) = 0) ∧ (win3_10.index t (0 : Fin 2) = 0 ∧ win3_10.index t (1 : Fin 2) = 0)
    ∧ (win3_11.index t (0 : Fin 2) = 0 ∧ win3_11.index t (1 : Fin 2) = 0) ∧ (win3_12.index t (0 : Fin 2) = 0 ∧ win3_12.index t (1 : Fin 2) = 0)
    ∧ (win3_13.index t (0 : Fin 2) = 0 ∧ win3_13.index t (1 : Fin 2) = 0) ∧ (win3_14.index t (0 : Fin 2) = 0 ∧ win3_14.index t (1 : Fin 2) = 0) :=
  (by decide +kernel : ∀ t : Fin grid3.N, _)

/-- Row p of point t's block of the input rows is row t·1 + p of the array. -/
theorem xrow3 (c : Dev nD) (t : Fin cfg3.N) (p : Fin 1) (n : Fin 1) (hn : n.val = t.val * 1 + p.val) (k : Fin 512) :
    (iblk3 V c 0 t : Vec Ideal S1x512 .f32) (ix2 p k) = (V c main_v0 : S1x512.Idx → EReal) (ix2 n k) := by
  obtain ⟨⟨e0, e1⟩, -⟩ := idx3 t
  unfold iblk3
  rw [View.read_apply]
  show V c main_v0 _ = V c main_v0 _
  congr 1
  funext a; apply Fin.ext
  match a with
  | ⟨0, _⟩ => show win3_0.index t (0 : Fin 2) * 1 + 1 * p.val = n.val; rw [e0, hn]; omega
  | ⟨1, _⟩ => show win3_0.index t (1 : Fin 2) * 512 + 1 * k.val = k.val; rw [e1]; omega

/-- Child b of parent p in point t's block of the children's hidden rows. -/
theorem hrow3 (c : Dev nD) (t : Fin cfg3.N) (p : Fin 1) (n : Fin 1) (hn : n.val = t.val * 1 + p.val) (b : Fin 16) (k : Fin 512) :
    (iblk3 V c 1 t : Vec Ideal S1x16x512 .bf16) (ix3 p b k) = (V c main_v28 : S1x16x512.Idx → EReal) (ix3 n b k) := by
  obtain ⟨-, ⟨e0, e1, e2⟩, -⟩ := idx3 t
  unfold iblk3
  rw [View.read_apply]
  show V c main_v28 _ = V c main_v28 _
  congr 1
  funext a; apply Fin.ext
  match a with
  | ⟨0, _⟩ => show win3_1.index t (0 : Fin 3) * 1 + 1 * p.val = n.val; rw [e0, hn]; omega
  | ⟨1, _⟩ => show win3_1.index t (1 : Fin 3) * 16 + 1 * b.val = b.val; rw [e1]; omega
  | ⟨2, _⟩ => show win3_1.index t (2 : Fin 3) * 512 + 1 * k.val = k.val; rw [e2]; omega

/-- Child b of parent p in point t's block of the children's cell rows. -/
theorem crow3 (c : Dev nD) (t : Fin cfg3.N) (p : Fin 1) (n : Fin 1) (hn : n.val = t.val * 1 + p.val) (b : Fin 16) (k : Fin 512) :
    (iblk3 V c 2 t : Vec Ideal S1x16x512 .bf16) (ix3 p b k) = (V c main_v29 : S1x16x512.Idx → EReal) (ix3 n b k) := by
  obtain ⟨-, -, ⟨e0, e1, e2⟩, -⟩ := idx3 t
  unfold iblk3
  rw [View.read_apply]
  show V c main_v29 _ = V c main_v29 _
  congr 1
  funext a; apply Fin.ext
  match a with
  | ⟨0, _⟩ => show win3_2.index t (0 : Fin 3) * 1 + 1 * p.val = n.val; rw [e0, hn]; omega
  | ⟨1, _⟩ => show win3_2.index t (1 : Fin 3) * 16 + 1 * b.val = b.val; rw [e1]; omega
  | ⟨2, _⟩ => show win3_2.index t (2 : Fin 3) * 512 + 1 * k.val = k.val; rw [e2]; omega

/-! ## Each weight window's block is its whole array -/

theorem wblk3_3 (c : Dev nD) (t : Fin cfg3.N) : (iblk3 V c 3 t : Vec Ideal S512x512 .f32) = (V c main_v6 : S512x512.Idx → EReal) := by
  obtain ⟨⟨e0, e1⟩, -, -, -, -, -, -, -, -, -, -, -⟩ := widx3 t
  funext y
  unfold iblk3
  rw [View.read_apply]
  show V c main_v6 _ = V c main_v6 y
  congr 1
  funext a; apply Fin.ext
  match a with
  | ⟨0, _⟩ => show win3_3.index t (0 : Fin 2) * 512 + 1 * (y 0).val = (y 0).val; rw [e0]; omega
  | ⟨1, _⟩ => show win3_3.index t (1 : Fin 2) * 512 + 1 * (y 1).val = (y 1).val; rw [e1]; omega

theorem wblk3_4 (c : Dev nD) (t : Fin cfg3.N) : (iblk3 V c 4 t : Vec Ideal S512x512 .f32) = (V c main_v7 : S512x512.Idx → EReal) := by
  obtain ⟨-, ⟨e0, e1⟩, -, -, -, -, -, -, -, -, -, -⟩ := widx3 t
  funext y
  unfold iblk3
  rw [View.read_apply]
  show V c main_v7 _ = V c main_v7 y
  congr 1
  funext a; apply Fin.ext
  match a with
  | ⟨0, _⟩ => show win3_4.index t (0 : Fin 2) * 512 + 1 * (y 0).val = (y 0).val; rw [e0]; omega
  | ⟨1, _⟩ => show win3_4.index t (1 : Fin 2) * 512 + 1 * (y 1).val = (y 1).val; rw [e1]; omega

theorem wblk3_5 (c : Dev nD) (t : Fin cfg3.N) : (iblk3 V c 5 t : Vec Ideal S1x512 .f32) = (V c main_v17 : S1x512.Idx → EReal) := by
  obtain ⟨-, -, ⟨e0, e1⟩, -, -, -, -, -, -, -, -, -⟩ := widx3 t
  funext y
  unfold iblk3
  rw [View.read_apply]
  show V c main_v17 _ = V c main_v17 y
  congr 1
  funext a; apply Fin.ext
  match a with
  | ⟨0, _⟩ => show win3_5.index t (0 : Fin 2) * 1 + 1 * (y 0).val = (y 0).val; rw [e0]; omega
  | ⟨1, _⟩ => show win3_5.index t (1 : Fin 2) * 512 + 1 * (y 1).val = (y 1).val; rw [e1]; omega

theorem wblk3_6 (c : Dev nD) (t : Fin cfg3.N) : (iblk3 V c 6 t : Vec Ideal S512x512 .f32) = (V c main_v12 : S512x512.Idx → EReal) := by
  obtain ⟨-, -, -, ⟨e0, e1⟩, -, -, -, -, -, -, -, -⟩ := widx3 t
  funext y
  unfold iblk3
  rw [View.read_apply]
  show V c main_v12 _ = V c main_v12 y
  congr 1
  funext a; apply Fin.ext
  match a with
  | ⟨0, _⟩ => show win3_6.index t (0 : Fin 2) * 512 + 1 * (y 0).val = (y 0).val; rw [e0]; omega
  | ⟨1, _⟩ => show win3_6.index t (1 : Fin 2) * 512 + 1 * (y 1).val = (y 1).val; rw [e1]; omega

theorem wblk3_7 (c : Dev nD) (t : Fin cfg3.N) : (iblk3 V c 7 t : Vec Ideal S512x512 .f32) = (V c main_v13 : S512x512.Idx → EReal) := by
  obtain ⟨-, -, -, -, ⟨e0, e1⟩, -, -, -, -, -, -, -⟩ := widx3 t
  funext y
  unfold iblk3
  rw [View.read_apply]
  show V c main_v13 _ = V c main_v13 y
  congr 1
  funext a; apply Fin.ext
  match a with
  | ⟨0, _⟩ => show win3_7.index t (0 : Fin 2) * 512 + 1 * (y 0).val = (y 0).val; rw [e0]; omega
  | ⟨1, _⟩ => show win3_7.index t (1 : Fin 2) * 512 + 1 * (y 1).val = (y 1).val; rw [e1]; omega

theorem wblk3_8 (c : Dev nD) (t : Fin cfg3.N) : (iblk3 V c 8 t : Vec Ideal S1x512 .f32) = (V c main_v19 : S1x512.Idx → EReal) := by
  obtain ⟨-, -, -, -, -, ⟨e0, e1⟩, -, -, -, -, -, -⟩ := widx3 t
  funext y
  unfold iblk3
  rw [View.read_apply]
  show V c main_v19 _ = V c main_v19 y
  congr 1
  funext a; apply Fin.ext
  match a with
  | ⟨0, _⟩ => show win3_8.index t (0 : Fin 2) * 1 + 1 * (y 0).val = (y 0).val; rw [e0]; omega
  | ⟨1, _⟩ => show win3_8.index t (1 : Fin 2) * 512 + 1 * (y 1).val = (y 1).val; rw [e1]; omega

theorem wblk3_9 (c : Dev nD) (t : Fin cfg3.N) : (iblk3 V c 9 t : Vec Ideal S512x512 .f32) = (V c main_v15 : S512x512.Idx → EReal) := by
  obtain ⟨-, -, -, -, -, -, ⟨e0, e1⟩, -, -, -, -, -⟩ := widx3 t
  funext y
  unfold iblk3
  rw [View.read_apply]
  show V c main_v15 _ = V c main_v15 y
  congr 1
  funext a; apply Fin.ext
  match a with
  | ⟨0, _⟩ => show win3_9.index t (0 : Fin 2) * 512 + 1 * (y 0).val = (y 0).val; rw [e0]; omega
  | ⟨1, _⟩ => show win3_9.index t (1 : Fin 2) * 512 + 1 * (y 1).val = (y 1).val; rw [e1]; omega

theorem wblk3_10 (c : Dev nD) (t : Fin cfg3.N) : (iblk3 V c 10 t : Vec Ideal S512x512 .f32) = (V c main_v16 : S512x512.Idx → EReal) := by
  obtain ⟨-, -, -, -, -, -, -, ⟨e0, e1⟩, -, -, -, -⟩ := widx3 t
  funext y
  unfold iblk3
  rw [View.read_apply]
  show V c main_v16 _ = V c main_v16 y
  congr 1
  funext a; apply Fin.ext
  match a with
  | ⟨0, _⟩ => show win3_10.index t (0 : Fin 2) * 512 + 1 * (y 0).val = (y 0).val; rw [e0]; omega
  | ⟨1, _⟩ => show win3_10.index t (1 : Fin 2) * 512 + 1 * (y 1).val = (y 1).val; rw [e1]; omega

theorem wblk3_11 (c : Dev nD) (t : Fin cfg3.N) : (iblk3 V c 11 t : Vec Ideal S1x512 .f32) = (V c main_v20 : S1x512.Idx → EReal) := by
  obtain ⟨-, -, -, -, -, -, -, -, ⟨e0, e1⟩, -, -, -⟩ := widx3 t
  funext y
  unfold iblk3
  rw [View.read_apply]
  show V c main_v20 _ = V c main_v20 y
  congr 1
  funext a; apply Fin.ext
  match a with
  | ⟨0, _⟩ => show win3_11.index t (0 : Fin 2) * 1 + 1 * (y 0).val = (y 0).val; rw [e0]; omega
  | ⟨1, _⟩ => show win3_11.index t (1 : Fin 2) * 512 + 1 * (y 1).val = (y 1).val; rw [e1]; omega

theorem wblk3_12 (c : Dev nD) (t : Fin cfg3.N) : (iblk3 V c 12 t : Vec Ideal S512x512 .f32) = (V c main_v9 : S512x512.Idx → EReal) := by
  obtain ⟨-, -, -, -, -, -, -, -, -, ⟨e0, e1⟩, -, -⟩ := widx3 t
  funext y
  unfold iblk3
  rw [View.read_apply]
  show V c main_v9 _ = V c main_v9 y
  congr 1
  funext a; apply Fin.ext
  match a with
  | ⟨0, _⟩ => show win3_12.index t (0 : Fin 2) * 512 + 1 * (y 0).val = (y 0).val; rw [e0]; omega
  | ⟨1, _⟩ => show win3_12.index t (1 : Fin 2) * 512 + 1 * (y 1).val = (y 1).val; rw [e1]; omega

theorem wblk3_13 (c : Dev nD) (t : Fin cfg3.N) : (iblk3 V c 13 t : Vec Ideal S512x512 .f32) = (V c main_v10 : S512x512.Idx → EReal) := by
  obtain ⟨-, -, -, -, -, -, -, -, -, -, ⟨e0, e1⟩, -⟩ := widx3 t
  funext y
  unfold iblk3
  rw [View.read_apply]
  show V c main_v10 _ = V c main_v10 y
  congr 1
  funext a; apply Fin.ext
  match a with
  | ⟨0, _⟩ => show win3_13.index t (0 : Fin 2) * 512 + 1 * (y 0).val = (y 0).val; rw [e0]; omega
  | ⟨1, _⟩ => show win3_13.index t (1 : Fin 2) * 512 + 1 * (y 1).val = (y 1).val; rw [e1]; omega

theorem wblk3_14 (c : Dev nD) (t : Fin cfg3.N) : (iblk3 V c 14 t : Vec Ideal S1x512 .f32) = (V c main_v18 : S1x512.Idx → EReal) := by
  obtain ⟨-, -, -, -, -, -, -, -, -, -, -, ⟨e0, e1⟩⟩ := widx3 t
  funext y
  unfold iblk3
  rw [View.read_apply]
  show V c main_v18 _ = V c main_v18 y
  congr 1
  funext a; apply Fin.ext
  match a with
  | ⟨0, _⟩ => show win3_14.index t (0 : Fin 2) * 1 + 1 * (y 0).val = (y 0).val; rw [e0]; omega
  | ⟨1, _⟩ => show win3_14.index t (1 : Fin 2) * 512 + 1 * (y 1).val = (y 1).val; rw [e1]; omega

/-- The bundle of the weight blocks at any point is the arrays' bundle. -/
theorem presBlk3 (c : Dev nD) (t : Fin cfg3.N) : presOf (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) = PK V c := by
  unfold PK
  rw [wblk3_3 V c t, wblk3_4 V c t, wblk3_5 V c t, wblk3_6 V c t, wblk3_7 V c t, wblk3_8 V c t, wblk3_9 V c t, wblk3_10 V c t, wblk3_11 V c t, wblk3_12 V c t, wblk3_13 V c t, wblk3_14 V c t]

/-- Point t's block of the cell rows, at (p, q), is the cell array at the row the block's place gives. -/
theorem cellBlk3 (c : Dev nD) (t : Fin cfg3.N) (p : Fin 1) (q : Fin 512) (i : S1x512.Idx)
    (h0 : (i 0).val = t.val * 1 + p.val) (h1 : (i 1).val = q.val) :
    nodeC (PK V c) (fun k => (iblk3 V c 0 t : Vec Ideal S1x512 .f32) (ix2 p k))
      (fun b k => (iblk3 V c 1 t : Vec Ideal S1x16x512 .bf16) (ix3 p b k))
      (fun b k => (iblk3 V c 2 t : Vec Ideal S1x16x512 .bf16) (ix3 p b k)) q = cellArr3 V c i := by
  unfold cellArr3
  have ex : (fun k => (iblk3 V c 0 t : Vec Ideal S1x512 .f32) (ix2 p k)) = fun k => (V c main_v0 : S1x512.Idx → EReal) (ix2 (i 0) k) :=
    funext fun k => xrow3 V c t p (i 0) h0 k
  have eh : (fun b k => (iblk3 V c 1 t : Vec Ideal S1x16x512 .bf16) (ix3 p b k)) = fun b k => (V c main_v28 : S1x16x512.Idx → EReal) (ix3 (i 0) b k) :=
    funext fun b => funext fun k => hrow3 V c t p (i 0) h0 b k
  have ec : (fun b k => (iblk3 V c 2 t : Vec Ideal S1x16x512 .bf16) (ix3 p b k)) = fun b k => (V c main_v29 : S1x16x512.Idx → EReal) (ix3 (i 0) b k) :=
    funext fun b => funext fun k => crow3 V c t p (i 0) h0 b k
  have eq : q = i 1 := Fin.ext h1.symm
  rw [ex, eh, ec, eq]

/-- WHAT POINT t WRITES BACK to the cell array is block t of cellArr. -/
theorem cellFlushed3 (c : Dev nD) (t : Fin cfg3.N) :
    (dat3 V c).flushed 16 t = ((cfg3.win 16).blk t).view.read (Elt Ideal) (cellArr3 V c) := by
  show (cfg3.win 16).cut (grid3.coords t) ((dat3 V c).after 16 t) = _
  rw [after3_16]
  unfold out3_16
  rw [View.canon_unit_zero r3_hz2]
  simp only [View.ld_unit_zero (S := S1x512) r3_hz2, View.ld_unit_zero (S := S1x16x512) r3_hz3, View.ld_unit_zero (S := S512x512) r3_hz2]
  rw [k3_cell_fun (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t), presBlk3 V c t]
  obtain ⟨-, -, -, -, ⟨e0, e1⟩⟩ := idx3 t
  funext j
  have h0 : ((((cfg3.win 16).blk t).view.emb j) 0).val = t.val * 1 + (j 0).val := by
    show win3_16.index t (0 : Fin 2) * 1 + 1 * (j 0).val = _
    rw [e0]; omega
  have h1 : ((((cfg3.win 16).blk t).view.emb j) 1).val = (j 1).val := by
    show win3_16.index t (1 : Fin 2) * 512 + 1 * (j 1).val = _
    rw [e1]; omega
  exact cellBlk3 V c t (j 0) (j 1) (((cfg3.win 16).blk t).view.emb j) h0 h1

/-- An index of the cell array is in point t's block iff each coordinate is in the block's range on its axis. -/
theorem cellMem3 (t : Fin cfg3.N) (i : S1x512.Idx) :
    i ∈ ((cfg3.win 16).blk t).view.set ↔ ∀ a : Fin 2, win3_16.index t a * S1x512.size a ≤ (i a).val ∧ (i a).val < win3_16.index t a * S1x512.size a + S1x512.size a := by
  show i ∈ ((View.whole main_v30_1).slice (win3_16.rect t)).set ↔ _
  rw [View.set_slice_whole, Rect.mem_set_unit]
  exact Iff.rfl

/-- Every index of the cell array is in the block of the point its row falls in. -/
theorem cellCover3 (i : S1x512.Idx) :
    ∃ t : Fin cfg3.N, (cfg3.win 16).flush t = true ∧ i ∈ ((cfg3.win 16).blk t).view.set := by
  have hN : cfg3.N = 1 := N_3
  have hi0 : (i 0).val < 1 := (i 0).isLt
  have hi1 : (i 1).val < 512 := (i 1).isLt
  have ht : (i 0).val / 1 < cfg3.N := (by omega : (i 0).val / 1 < 1).trans_eq hN.symm
  refine ⟨⟨(i 0).val / 1, ht⟩, flush3_16 _, ?_⟩
  rw [cellMem3]
  obtain ⟨-, -, -, -, ⟨e0, e1⟩⟩ := idx3 ⟨(i 0).val / 1, ht⟩
  intro a
  match a with
  | ⟨0, _⟩ =>
    show win3_16.index ⟨(i 0).val / 1, ht⟩ (0 : Fin 2) * 1 ≤ (i 0).val ∧ (i 0).val < win3_16.index ⟨(i 0).val / 1, ht⟩ (0 : Fin 2) * 1 + 1
    rw [e0]; show (i 0).val / 1 * 1 ≤ (i 0).val ∧ (i 0).val < (i 0).val / 1 * 1 + 1; omega
  | ⟨1, _⟩ =>
    show win3_16.index ⟨(i 0).val / 1, ht⟩ (1 : Fin 2) * 512 ≤ (i 1).val ∧ (i 1).val < win3_16.index ⟨(i 0).val / 1, ht⟩ (1 : Fin 2) * 512 + 512
    rw [e1]; omega

/-- THE CELL ARRAY after the region. -/
theorem cellFinal3 (c : Dev nD) : (dat3 V c).arrAt 16 cfg3.N = cellArr3 V c :=
  (dat3 V c).arrAt_eq_of_cover 16 (cellArr3 V c) (fun t _ => cellFlushed3 V c t) cellCover3

/-- Point t's block of the hidden rows, at (p, q), is the hidden array at the row the block's place gives. -/
theorem hiddenBlk3 (c : Dev nD) (t : Fin cfg3.N) (p : Fin 1) (q : Fin 512) (i : S1x512.Idx)
    (h0 : (i 0).val = t.val * 1 + p.val) (h1 : (i 1).val = q.val) :
    nodeH (PK V c) (fun k => (iblk3 V c 0 t : Vec Ideal S1x512 .f32) (ix2 p k))
      (fun b k => (iblk3 V c 1 t : Vec Ideal S1x16x512 .bf16) (ix3 p b k))
      (fun b k => (iblk3 V c 2 t : Vec Ideal S1x16x512 .bf16) (ix3 p b k)) q = hiddenArr3 V c i := by
  unfold hiddenArr3
  have ex : (fun k => (iblk3 V c 0 t : Vec Ideal S1x512 .f32) (ix2 p k)) = fun k => (V c main_v0 : S1x512.Idx → EReal) (ix2 (i 0) k) :=
    funext fun k => xrow3 V c t p (i 0) h0 k
  have eh : (fun b k => (iblk3 V c 1 t : Vec Ideal S1x16x512 .bf16) (ix3 p b k)) = fun b k => (V c main_v28 : S1x16x512.Idx → EReal) (ix3 (i 0) b k) :=
    funext fun b => funext fun k => hrow3 V c t p (i 0) h0 b k
  have ec : (fun b k => (iblk3 V c 2 t : Vec Ideal S1x16x512 .bf16) (ix3 p b k)) = fun b k => (V c main_v29 : S1x16x512.Idx → EReal) (ix3 (i 0) b k) :=
    funext fun b => funext fun k => crow3 V c t p (i 0) h0 b k
  have eq : q = i 1 := Fin.ext h1.symm
  rw [ex, eh, ec, eq]

/-- WHAT POINT t WRITES BACK to the hidden array is block t of hiddenArr. -/
theorem hiddenFlushed3 (c : Dev nD) (t : Fin cfg3.N) :
    (dat3 V c).flushed 15 t = ((cfg3.win 15).blk t).view.read (Elt Ideal) (hiddenArr3 V c) := by
  show (cfg3.win 15).cut (grid3.coords t) ((dat3 V c).after 15 t) = _
  rw [after3_15]
  unfold out3_15
  rw [View.canon_unit_zero r3_hz2]
  simp only [View.ld_unit_zero (S := S1x512) r3_hz2, View.ld_unit_zero (S := S1x16x512) r3_hz3, View.ld_unit_zero (S := S512x512) r3_hz2]
  rw [k3_hidden_fun (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t), presBlk3 V c t]
  obtain ⟨-, -, -, ⟨e0, e1⟩, -⟩ := idx3 t
  funext j
  have h0 : ((((cfg3.win 15).blk t).view.emb j) 0).val = t.val * 1 + (j 0).val := by
    show win3_15.index t (0 : Fin 2) * 1 + 1 * (j 0).val = _
    rw [e0]; omega
  have h1 : ((((cfg3.win 15).blk t).view.emb j) 1).val = (j 1).val := by
    show win3_15.index t (1 : Fin 2) * 512 + 1 * (j 1).val = _
    rw [e1]; omega
  exact hiddenBlk3 V c t (j 0) (j 1) (((cfg3.win 15).blk t).view.emb j) h0 h1

/-- An index of the hidden array is in point t's block iff each coordinate is in the block's range on its axis. -/
theorem hiddenMem3 (t : Fin cfg3.N) (i : S1x512.Idx) :
    i ∈ ((cfg3.win 15).blk t).view.set ↔ ∀ a : Fin 2, win3_15.index t a * S1x512.size a ≤ (i a).val ∧ (i a).val < win3_15.index t a * S1x512.size a + S1x512.size a := by
  show i ∈ ((View.whole main_v30_0).slice (win3_15.rect t)).set ↔ _
  rw [View.set_slice_whole, Rect.mem_set_unit]
  exact Iff.rfl

/-- Every index of the hidden array is in the block of the point its row falls in. -/
theorem hiddenCover3 (i : S1x512.Idx) :
    ∃ t : Fin cfg3.N, (cfg3.win 15).flush t = true ∧ i ∈ ((cfg3.win 15).blk t).view.set := by
  have hN : cfg3.N = 1 := N_3
  have hi0 : (i 0).val < 1 := (i 0).isLt
  have hi1 : (i 1).val < 512 := (i 1).isLt
  have ht : (i 0).val / 1 < cfg3.N := (by omega : (i 0).val / 1 < 1).trans_eq hN.symm
  refine ⟨⟨(i 0).val / 1, ht⟩, flush3_15 _, ?_⟩
  rw [hiddenMem3]
  obtain ⟨-, -, -, ⟨e0, e1⟩, -⟩ := idx3 ⟨(i 0).val / 1, ht⟩
  intro a
  match a with
  | ⟨0, _⟩ =>
    show win3_15.index ⟨(i 0).val / 1, ht⟩ (0 : Fin 2) * 1 ≤ (i 0).val ∧ (i 0).val < win3_15.index ⟨(i 0).val / 1, ht⟩ (0 : Fin 2) * 1 + 1
    rw [e0]; show (i 0).val / 1 * 1 ≤ (i 0).val ∧ (i 0).val < (i 0).val / 1 * 1 + 1; omega
  | ⟨1, _⟩ =>
    show win3_15.index ⟨(i 0).val / 1, ht⟩ (1 : Fin 2) * 512 ≤ (i 1).val ∧ (i 1).val < win3_15.index ⟨(i 0).val / 1, ht⟩ (1 : Fin 2) * 512 + 512
    rw [e1]; omega

/-- THE HIDDEN ARRAY after the region. -/
theorem hiddenFinal3 (c : Dev nD) : (dat3 V c).arrAt 15 cfg3.N = hiddenArr3 V c :=
  (dat3 V c).arrAt_eq_of_cover 15 (hiddenArr3 V c) (fun t _ => hiddenFlushed3 V c t) hiddenCover3

/-- REGION 3, the hidden array: row n at o is nodeH of parent n. -/
theorem region3_H (c : Dev nD) (n : Fin 1) (o : Fin 512) :
    ((dat3 V c).arrAt 15 cfg3.N : S1x512.Idx → EReal) (ix2 n o)
      = nodeH (PK V c) (fun k => (V c main_v0 : S1x512.Idx → EReal) (ix2 n k)) (fun b k => (V c main_v28 : S1x16x512.Idx → EReal) (ix3 n b k))
          (fun b k => (V c main_v29 : S1x16x512.Idx → EReal) (ix3 n b k)) o := by
  rw [hiddenFinal3]; rfl

/-- REGION 3, the cell array: row n at o is nodeC of parent n. -/
theorem region3_C (c : Dev nD) (n : Fin 1) (o : Fin 512) :
    ((dat3 V c).arrAt 16 cfg3.N : S1x512.Idx → EReal) (ix2 n o)
      = nodeC (PK V c) (fun k => (V c main_v0 : S1x512.Idx → EReal) (ix2 n k)) (fun b k => (V c main_v28 : S1x16x512.Idx → EReal) (ix3 n b k))
          (fun b k => (V c main_v29 : S1x16x512.Idx → EReal) (ix3 n b k)) o := by
  rw [cellFinal3]; rfl

end Cert.KernelIdeal.NodeValue

end
-- ==== Proof.KerLevels.lean ====
/-
  Levels 2, 1 and 0 of the tree from the kernel's second, third and fourth pallas_calls. Each call finds the same
  weight halves and bias rows as the first (so the same bundle over the launch arrays), its own level's rows of the
  input, and the previous call's two outputs regrouped as [nodes, 16 children, 512]; its outputs are the inner-node
  hidden and cell rows of those: by induction down the levels they are the tree's levels, and the program's two
  results are the root's hidden and cell rows.
-/
import proofs.«172855_j27504970564112_2_alg».proof.Proof.KerLevel3
import proofs.«172855_j27504970564112_2_alg».proof.Proof.KerNode1Blocks
import proofs.«172855_j27504970564112_2_alg».proof.Proof.KerNode2Blocks
import proofs.«172855_j27504970564112_2_alg».proof.Proof.KerNode3Blocks

set_option maxRecDepth 16384

noncomputable section

namespace Cert.KernelIdeal.Levels

open Cert.KernelIdeal Cert.KernelIdeal.Gen Cert.TreeCell Cert.KernelIdeal.NodeValue Cert.KernelIdeal.Glue
open Idealize.ShloMosaic Idealize.ShloMosaic.TcCoe Idealize.ShloMosaic.ValueIdx Idealize.SL.Sem

variable (m : (ℓ : Loc nD τ sig) → Buf (Elt Ideal) ℓ) (ρ : Dev nD → PrngReg)

theorem PK_V3 (c : Dev nD) : NodeValue.PK (V3 m ρ) c = PKer m c := by
  rw [← PK_V1 m ρ c]
  unfold NodeValue.PK
  rw [V3_main_v6 m ρ c, V3_main_v7 m ρ c, V3_main_v17 m ρ c, V3_main_v12 m ρ c, V3_main_v13 m ρ c, V3_main_v19 m ρ c, V3_main_v15 m ρ c, V3_main_v16 m ρ c, V3_main_v20 m ρ c, V3_main_v9 m ρ c, V3_main_v10 m ρ c, V3_main_v18 m ρ c]

theorem PK_V5 (c : Dev nD) : NodeValue.PK (V5 m ρ) c = PKer m c := by
  rw [← PK_V3 m ρ c]
  unfold NodeValue.PK
  rw [V5_main_v6 m ρ c, V5_main_v7 m ρ c, V5_main_v17 m ρ c, V5_main_v12 m ρ c, V5_main_v13 m ρ c, V5_main_v19 m ρ c, V5_main_v15 m ρ c, V5_main_v16 m ρ c, V5_main_v20 m ρ c, V5_main_v9 m ρ c, V5_main_v10 m ρ c, V5_main_v18 m ρ c]

theorem PK_V7 (c : Dev nD) : NodeValue.PK (V7 m ρ) c = PKer m c := by
  rw [← PK_V5 m ρ c]
  unfold NodeValue.PK
  rw [V7_main_v6 m ρ c, V7_main_v7 m ρ c, V7_main_v17 m ρ c, V7_main_v12 m ρ c, V7_main_v13 m ρ c, V7_main_v19 m ρ c, V7_main_v15 m ρ c, V7_main_v16 m ρ c, V7_main_v20 m ρ c, V7_main_v9 m ρ c, V7_main_v10 m ρ c, V7_main_v18 m ρ c]

/-! ## Level 2 -/

theorem rows2 (c : Dev nD) (n : Fin 256) :
    (fun k => (V3 m ρ c main_v2 : S256x512.Idx → EReal) (ix2 n k)) = xK m c ⟨17 + n.val, by omega⟩ :=
  funext fun k => by rw [V3_main_v2]; exact V1_main_v2_apply m ρ c n k

theorem kidsH2 (c : Dev nD) (n : Fin 256) :
    (fun (b : Fin 16) (k : Fin 512) => (V3 m ρ c main_v22 : S256x16x512.Idx → EReal) (ix3 n b k))
      = fun b => lvl3H (PKer m c) (xK m c) ⟨16 * n.val + b.val, by omega⟩ :=
  funext fun b => funext fun k => by rw [V3_main_v22, regroup256, level3_H]; rfl

theorem kidsC2 (c : Dev nD) (n : Fin 256) :
    (fun (b : Fin 16) (k : Fin 512) => (V3 m ρ c main_v23 : S256x16x512.Idx → EReal) (ix3 n b k))
      = fun b => lvl3C (PKer m c) (xK m c) ⟨16 * n.val + b.val, by omega⟩ :=
  funext fun b => funext fun k => by rw [V3_main_v23, regroup256, level3_C]; rfl

theorem level2_C (c : Dev nD) :
    (dat1 (V3 m ρ) c).arrAt 16 cfg1.N = fun i => lvl2C (PKer m c) (xK m c) (i 0) (i 1) := by
  funext i
  obtain ⟨n, o, rfl⟩ : ∃ (n : Fin 256) (o : Fin 512), i = ix2 n o := ⟨i 0, i 1, eq_ix2 i⟩
  show ((dat1 (V3 m ρ) c).arrAt 16 cfg1.N : S256x512.Idx → EReal) (ix2 n o) = lvl2C (PKer m c) (xK m c) n o
  rw [region1_C (V3 m ρ) c n o, PK_V3, rows2, kidsH2, kidsC2]
  rfl

theorem level2_H (c : Dev nD) :
    (dat1 (V3 m ρ) c).arrAt 15 cfg1.N = fun i => lvl2H (PKer m c) (xK m c) (i 0) (i 1) := by
  funext i
  obtain ⟨n, o, rfl⟩ : ∃ (n : Fin 256) (o : Fin 512), i = ix2 n o := ⟨i 0, i 1, eq_ix2 i⟩
  show ((dat1 (V3 m ρ) c).arrAt 15 cfg1.N : S256x512.Idx → EReal) (ix2 n o) = lvl2H (PKer m c) (xK m c) n o
  rw [region1_H (V3 m ρ) c n o, PK_V3, rows2, kidsH2, kidsC2]
  rfl

/-! ## Level 1 -/

theorem rows1 (c : Dev nD) (n : Fin 16) :
    (fun k => (V5 m ρ c main_v1 : S16x512.Idx → EReal) (ix2 n k)) = xK m c ⟨1 + n.val, by omega⟩ :=
  funext fun k => by rw [V5_main_v1]; exact V1_main_v1_apply m ρ c n k

theorem kidsH1 (c : Dev nD) (n : Fin 16) :
    (fun (b : Fin 16) (k : Fin 512) => (V5 m ρ c main_v25 : S16x16x512.Idx → EReal) (ix3 n b k))
      = fun b => lvl2H (PKer m c) (xK m c) ⟨16 * n.val + b.val, by omega⟩ :=
  funext fun b => funext fun k => by rw [V5_main_v25, regroup16, level2_H]; rfl

theorem kidsC1 (c : Dev nD) (n : Fin 16) :
    (fun (b : Fin 16) (k : Fin 512) => (V5 m ρ c main_v26 : S16x16x512.Idx → EReal) (ix3 n b k))
      = fun b => lvl2C (PKer m c) (xK m c) ⟨16 * n.val + b.val, by omega⟩ :=
  funext fun b => funext fun k => by rw [V5_main_v26, regroup16, level2_C]; rfl

theorem level1_C (c : Dev nD) :
    (dat2 (V5 m ρ) c).arrAt 16 cfg2.N = fun i => lvl1C (PKer m c) (xK m c) (i 0) (i 1) := by
  funext i
  obtain ⟨n, o, rfl⟩ : ∃ (n : Fin 16) (o : Fin 512), i = ix2 n o := ⟨i 0, i 1, eq_ix2 i⟩
  show ((dat2 (V5 m ρ) c).arrAt 16 cfg2.N : S16x512.Idx → EReal) (ix2 n o) = lvl1C (PKer m c) (xK m c) n o
  rw [region2_C (V5 m ρ) c n o, PK_V5, rows1, kidsH1, kidsC1]
  rfl

theorem level1_H (c : Dev nD) :
    (dat2 (V5 m ρ) c).arrAt 15 cfg2.N = fun i => lvl1H (PKer m c) (xK m c) (i 0) (i 1) := by
  funext i
  obtain ⟨n, o, rfl⟩ : ∃ (n : Fin 16) (o : Fin 512), i = ix2 n o := ⟨i 0, i 1, eq_ix2 i⟩
  show ((dat2 (V5 m ρ) c).arrAt 15 cfg2.N : S16x512.Idx → EReal) (ix2 n o) = lvl1H (PKer m c) (xK m c) n o
  rw [region2_H (V5 m ρ) c n o, PK_V5, rows1, kidsH1, kidsC1]
  rfl

/-! ## Level 0: the root -/

theorem rows0 (c : Dev nD) (n : Fin 1) :
    (fun k => (V7 m ρ c main_v0 : S1x512.Idx → EReal) (ix2 n k)) = xK m c ⟨0, by omega⟩ :=
  funext fun k => by
    rw [V7_main_v0, V1_main_v0_apply]
    have hn : n.val = 0 := by omega
    simp only [hn, Nat.add_zero]
    rfl

theorem kidsH0 (c : Dev nD) (n : Fin 1) :
    (fun (b : Fin 16) (k : Fin 512) => (V7 m ρ c main_v28 : S1x16x512.Idx → EReal) (ix3 n b k))
      = fun b => lvl1H (PKer m c) (xK m c) b :=
  funext fun b => funext fun k => by
    rw [V7_main_v28, regroup1, level1_H]
    have hn : n.val = 0 := by omega
    have e : (⟨16 * n.val + b.val, by omega⟩ : Fin 16) = b := Fin.ext (by show 16 * n.val + b.val = b.val; omega)
    show lvl1H (PKer m c) (xK m c) ⟨16 * n.val + b.val, _⟩ k = _
    rw [e]

theorem kidsC0 (c : Dev nD) (n : Fin 1) :
    (fun (b : Fin 16) (k : Fin 512) => (V7 m ρ c main_v29 : S1x16x512.Idx → EReal) (ix3 n b k))
      = fun b => lvl1C (PKer m c) (xK m c) b :=
  funext fun b => funext fun k => by
    rw [V7_main_v29, regroup1, level1_C]
    have hn : n.val = 0 := by omega
    have e : (⟨16 * n.val + b.val, by omega⟩ : Fin 16) = b := Fin.ext (by show 16 * n.val + b.val = b.val; omega)
    show lvl1C (PKer m c) (xK m c) ⟨16 * n.val + b.val, _⟩ k = _
    rw [e]

theorem level0_C (c : Dev nD) :
    (dat3 (V7 m ρ) c).arrAt 16 cfg3.N = fun i => lvl0C (PKer m c) (xK m c) (i 1) := by
  funext i
  obtain ⟨n, o, rfl⟩ : ∃ (n : Fin 1) (o : Fin 512), i = ix2 n o := ⟨i 0, i 1, eq_ix2 i⟩
  show ((dat3 (V7 m ρ) c).arrAt 16 cfg3.N : S1x512.Idx → EReal) (ix2 n o) = lvl0C (PKer m c) (xK m c) o
  rw [region3_C (V7 m ρ) c n o, PK_V7, rows0, kidsH0, kidsC0]
  rfl

theorem level0_H (c : Dev nD) :
    (dat3 (V7 m ρ) c).arrAt 15 cfg3.N = fun i => lvl0H (PKer m c) (xK m c) (i 1) := by
  funext i
  obtain ⟨n, o, rfl⟩ : ∃ (n : Fin 1) (o : Fin 512), i = ix2 n o := ⟨i 0, i 1, eq_ix2 i⟩
  show ((dat3 (V7 m ρ) c).arrAt 15 cfg3.N : S1x512.Idx → EReal) (ix2 n o) = lvl0H (PKer m c) (xK m c) o
  rw [region3_H (V7 m ρ) c n o, PK_V7, rows0, kidsH0, kidsC0]
  rfl

/-! ## The program's two results -/

/-- The first result is the root's hidden row. -/
theorem result_H (c : Dev nD) :
    (W9 m ρ c (Proc.devRef .tc main_v31) : S512.Idx → EReal) = fun i => lvl0H (PKer m c) (xK m c) (i 0) := by
  rw [W9_main_v31]
  funext i
  obtain ⟨o, rfl⟩ : ∃ o : Fin 512, i = ix1 o := ⟨i 0, eq_ix1 i⟩
  rw [dropRow, level0_H]
  rfl

/-- The second result is the root's cell row. -/
theorem result_C (c : Dev nD) :
    (W9 m ρ c (Proc.devRef .tc main_v32) : S512.Idx → EReal) = fun i => lvl0C (PKer m c) (xK m c) (i 0) := by
  rw [W9_main_v32]
  funext i
  obtain ⟨o, rfl⟩ : ∃ o : Fin 512, i = ix1 o := ⟨i 0, eq_ix1 i⟩
  rw [dropRow, level0_C]
  rfl

end Cert.KernelIdeal.Levels

end
-- ==== Proof.RefOps.lean ====
/-
  The reference program's operations read at an index, at the ideal values: the host sigmoid, the affine map of a gate
  (a product with a transposed weight matrix plus a broadcast bias, over matrices of rows and over stacks of sixteen rows),
  a row of a concatenation, the sum over the sixteen children, the reshapes between a matrix of 16·N rows and a stack of N
  groups of sixteen rows, and a slice of rows. Each is stated for any number of rows N.
-/
import Idealize.ShloMosaic.Lib.StackMember
import Idealize.ShloMosaic.Lib.IdealHost
import Idealize.ShloMosaic.Lib.ValueLayout
import Idealize.ShloMosaic.Lib.Pipeline.Value
import proofs.«172855_j27504970564112_2_alg».proof.Proof.Spec

noncomputable section

namespace Cert.ReferenceIdeal.RefValue

open Idealize.ShloMosaic Idealize.ShloMosaic.ValueIdx Cert.TreeCell
open scoped BigOperators

/-- The host's 1 / (1 + e^(-z)) with the constant one broadcast from a scalar is the logistic function at each element. -/
theorem sigm_apply {T : Shape} (h : (⟨0, ![]⟩ : Shape).BroadcastsInDim T (![] : Fin 0 → Fin T.rank)) (z : FVec Ideal T .f32) (j : T.Idx) :
    Host.divf (broadcastInDim T ![] h (constant (F := Ideal) ⟨0, ![]⟩ .f32 0x3F800000#32))
        (addf (broadcastInDim T ![] h (constant (F := Ideal) ⟨0, ![]⟩ .f32 0x3F800000#32)) (Host.exp (Host.negf z))) j
      = Ideal.logistic (z j) := by
  show Ideal.div (broadcastInDim T ![] h (constant (F := Ideal) ⟨0, ![]⟩ .f32 0x3F800000#32) j)
      (broadcastInDim T ![] h (constant (F := Ideal) ⟨0, ![]⟩ .f32 0x3F800000#32) j + Ideal.exp (-(z j))) = _
  rw [broadcastInDim_scalar_apply]
  show Ideal.div (Ideal.ofBits .f32 0x3F800000#32) (Ideal.ofBits .f32 0x3F800000#32 + Ideal.exp (-(z j))) = _
  rw [Ideal.ofBits_one_f32]
  rfl

/-- A bias vector broadcast to one row reads the vector. -/
theorem bias1_apply (hb1 : (⟨1, ![512]⟩ : Shape).BroadcastsInDim ⟨2, ![1, 512]⟩ (![1] : Fin 1 → Fin 2))
    (b : (⟨1, ![512]⟩ : Shape).Idx → EReal) (u : Fin 1) (c : Fin 512) :
    broadcastInDim ⟨2, ![1, 512]⟩ ![1] hb1 b (ix2 u c) = b (ix1 c) :=
  broadcastInDim_apply _ hb1 b (ix2 u c) (ix1 c) fun a => match a with | ⟨0, _⟩ => rfl

/-- A bias vector broadcast to one row and then to N rows reads the vector. -/
theorem bias2_apply {N : Nat} (hb1 : (⟨1, ![512]⟩ : Shape).BroadcastsInDim ⟨2, ![1, 512]⟩ (![1] : Fin 1 → Fin 2))
    (hb2 : (⟨2, ![1, 512]⟩ : Shape).BroadcastsInDim ⟨2, ![N, 512]⟩ (![0, 1] : Fin 2 → Fin 2))
    (b : (⟨1, ![512]⟩ : Shape).Idx → EReal) (n : Fin N) (c : Fin 512) :
    broadcastInDim ⟨2, ![N, 512]⟩ ![0, 1] hb2 (broadcastInDim ⟨2, ![1, 512]⟩ ![1] hb1 b) (ix2 n c) = b (ix1 c) :=
  (broadcastInDim_apply _ hb2 _ (ix2 n c) (ix2 (0 : Fin 1) c) fun a => match a with | ⟨0, _⟩ => rfl | ⟨1, _⟩ => rfl).trans
    (bias1_apply hb1 b 0 c)

/-- A bias vector broadcast to one row of one group and then to N groups of sixteen rows reads the vector. -/
theorem bias3_apply {N : Nat} (hb1 : (⟨1, ![512]⟩ : Shape).BroadcastsInDim ⟨3, ![1, 1, 512]⟩ (![2] : Fin 1 → Fin 3))
    (hb2 : (⟨3, ![1, 1, 512]⟩ : Shape).BroadcastsInDim ⟨3, ![N, 16, 512]⟩ (![0, 1, 2] : Fin 3 → Fin 3))
    (b : (⟨1, ![512]⟩ : Shape).Idx → EReal) (n : Fin N) (q : Fin 16) (c : Fin 512) :
    broadcastInDim ⟨3, ![N, 16, 512]⟩ ![0, 1, 2] hb2 (broadcastInDim ⟨3, ![1, 1, 512]⟩ ![2] hb1 b) (ix3 n q c) = b (ix1 c) :=
  (broadcastInDim_apply _ hb2 _ (ix3 n q c) (ix3 (0 : Fin 1) (0 : Fin 1) c) fun a => match a with
      | ⟨0, _⟩ => rfl | ⟨1, _⟩ => rfl | ⟨2, _⟩ => rfl).trans
    (broadcastInDim_apply _ hb1 b (ix3 (0 : Fin 1) (0 : Fin 1) c) (ix1 c) fun a => match a with | ⟨0, _⟩ => rfl)

/-- A matrix of N rows broadcast to N groups of one row and then to N groups of sixteen rows reads the group's row. -/
theorem rows3_apply {N : Nat} (hb1 : (⟨2, ![N, 512]⟩ : Shape).BroadcastsInDim ⟨3, ![N, 1, 512]⟩ (![0, 2] : Fin 2 → Fin 3))
    (hb2 : (⟨3, ![N, 1, 512]⟩ : Shape).BroadcastsInDim ⟨3, ![N, 16, 512]⟩ (![0, 1, 2] : Fin 3 → Fin 3))
    (X : (⟨2, ![N, 512]⟩ : Shape).Idx → EReal) (n : Fin N) (q : Fin 16) (k : Fin 512) :
    broadcastInDim ⟨3, ![N, 16, 512]⟩ ![0, 1, 2] hb2 (broadcastInDim ⟨3, ![N, 1, 512]⟩ ![0, 2] hb1 X) (ix3 n q k) = X (ix2 n k) := by
  refine (broadcastInDim_apply _ hb2 _ (ix3 n q k) (ix3 n (0 : Fin 1) k) fun a => ?_).trans
    (broadcastInDim_apply _ hb1 X (ix3 n (0 : Fin 1) k) (ix2 n k) fun a => ?_)
  · match a with
    | ⟨0, _⟩ =>
      show n.val = if N = 1 then 0 else n.val
      split
      · have := n.isLt; omega
      · rfl
    | ⟨1, _⟩ => rfl
    | ⟨2, _⟩ => rfl
  · match a with
    | ⟨0, _⟩ =>
      show n.val = if N = 1 then 0 else n.val
      split
      · have := n.isLt; omega
      · rfl
    | ⟨1, _⟩ => rfl

/-- The product of a matrix of N rows of 1024 with a transposed 512 × 1024 weight matrix, read at (n, c): the sum over the
    1024 columns of the row's entries times the weight matrix's row c. -/
theorem dotT_apply {N : Nat} (d : DotDims ⟨2, ![N, 1024]⟩ ⟨2, ![1024, 512]⟩ ⟨2, ![N, 512]⟩) (hd : d = DotDims.plain N 1024 512)
    (ht : (⟨2, ![512, 1024]⟩ : Shape).Transposes [1, 0] ⟨2, ![1024, 512]⟩)
    (A : FVec Ideal ⟨2, ![N, 1024]⟩ .f32) (W : FVec Ideal ⟨2, ![512, 1024]⟩ .f32) (n : Fin N) (c : Fin 512) :
    Host.dotGeneral d none A (transpose ⟨2, ![1024, 512]⟩ [1, 0] W ht) (ix2 n c) = ∑ k : Fin 1024, A (ix2 n k) * W (ix2 c k) := by
  subst hd
  rw [StackMember.dotGeneral_plain_apply]
  refine Finset.sum_congr rfl fun k _ => ?_
  rw [transpose_ix2_apply]

/-- A gate's affine map over a matrix of N rows: the product with the transposed weight matrix plus the bias broadcast
    to every row is the affine map of the row. -/
theorem gate2_apply {N : Nat} (d : DotDims ⟨2, ![N, 1024]⟩ ⟨2, ![1024, 512]⟩ ⟨2, ![N, 512]⟩) (hd : d = DotDims.plain N 1024 512)
    (ht : (⟨2, ![512, 1024]⟩ : Shape).Transposes [1, 0] ⟨2, ![1024, 512]⟩)
    (hb1 : (⟨1, ![512]⟩ : Shape).BroadcastsInDim ⟨2, ![1, 512]⟩ (![1] : Fin 1 → Fin 2))
    (hb2 : (⟨2, ![1, 512]⟩ : Shape).BroadcastsInDim ⟨2, ![N, 512]⟩ (![0, 1] : Fin 2 → Fin 2))
    (A : FVec Ideal ⟨2, ![N, 1024]⟩ .f32) (W : FVec Ideal ⟨2, ![512, 1024]⟩ .f32) (b : FVec Ideal ⟨1, ![512]⟩ .f32) (n : Fin N) (c : Fin 512) :
    addf (Host.dotGeneral d none A (transpose ⟨2, ![1024, 512]⟩ [1, 0] W ht))
        (broadcastInDim ⟨2, ![N, 512]⟩ ![0, 1] hb2 (broadcastInDim ⟨2, ![1, 512]⟩ ![1] hb1 b)) (ix2 n c)
      = linCat (fun c k => W (ix2 c k)) (fun c => b (ix1 c)) (fun k => A (ix2 n k)) c := by
  show Host.dotGeneral d none A (transpose ⟨2, ![1024, 512]⟩ [1, 0] W ht) (ix2 n c)
      + broadcastInDim ⟨2, ![N, 512]⟩ ![0, 1] hb2 (broadcastInDim ⟨2, ![1, 512]⟩ ![1] hb1 b) (ix2 n c) = _
  rw [dotT_apply d hd ht A W n c, bias2_apply hb1 hb2 b n c]
  rfl

/-- The same over a single row, whose bias is broadcast once. -/
theorem gate1_apply (d : DotDims ⟨2, ![1, 1024]⟩ ⟨2, ![1024, 512]⟩ ⟨2, ![1, 512]⟩) (hd : d = DotDims.plain 1 1024 512)
    (ht : (⟨2, ![512, 1024]⟩ : Shape).Transposes [1, 0] ⟨2, ![1024, 512]⟩)
    (hb1 : (⟨1, ![512]⟩ : Shape).BroadcastsInDim ⟨2, ![1, 512]⟩ (![1] : Fin 1 → Fin 2))
    (A : FVec Ideal ⟨2, ![1, 1024]⟩ .f32) (W : FVec Ideal ⟨2, ![512, 1024]⟩ .f32) (b : FVec Ideal ⟨1, ![512]⟩ .f32) (n : Fin 1) (c : Fin 512) :
    addf (Host.dotGeneral d none A (transpose ⟨2, ![1024, 512]⟩ [1, 0] W ht)) (broadcastInDim ⟨2, ![1, 512]⟩ ![1] hb1 b) (ix2 n c)
      = linCat (fun c k => W (ix2 c k)) (fun c => b (ix1 c)) (fun k => A (ix2 n k)) c := by
  show Host.dotGeneral d none A (transpose ⟨2, ![1024, 512]⟩ [1, 0] W ht) (ix2 n c)
      + broadcastInDim ⟨2, ![1, 512]⟩ ![1] hb1 b (ix2 n c) = _
  rw [dotT_apply d hd ht A W n c, bias1_apply hb1 b n c]
  rfl

/-- The product of N groups of sixteen rows of 1024 with a 512 × 1024 weight matrix along the 1024 columns, read at
    (n, q, c): the sum over the columns of the row's entries times the weight matrix's row c. -/
theorem dot3_apply {N : Nat}
    (w : DotDims.WF ⟨3, ![N, 16, 1024]⟩ ⟨2, ![512, 1024]⟩ ⟨3, ![N, 16, 512]⟩ [2] [1] [0, 1] [0] [] [])
    (A : FVec Ideal ⟨3, ![N, 16, 1024]⟩ .f32) (W : FVec Ideal ⟨2, ![512, 1024]⟩ .f32) (n : Fin N) (q : Fin 16) (c : Fin 512) :
    Host.dotGeneral (⟨[2], [1], [0, 1], [0], [], [], w⟩ : DotDims _ _ _) none A W (ix3 n q c)
      = ∑ k : Fin 1024, A (ix3 n q k) * W (ix2 c k) := by
  show FloatOps.dotGeneral _ none _ A W (ix3 n q c) = _
  rw [Ideal.dotGeneral_apply,
    ← Equiv.sum_comp (contrEquiv1 (⟨[2], [1], [0, 1], [0], [], [], w⟩ : DotDims _ _ _) 1024 rfl rfl).symm]
  refine Finset.sum_congr rfl fun k _ => ?_
  have c3 := contrEquiv1_symm_val
    (⟨[2], [1], [0, 1], [0], [], [], w⟩ : DotDims ⟨3, ![N, 16, 1024]⟩ ⟨2, ![512, 1024]⟩ ⟨3, ![N, 16, 512]⟩) 1024 rfl rfl k
  have l3 : (⟨[2], [1], [0, 1], [0], [], [], w⟩ : DotDims ⟨3, ![N, 16, 1024]⟩ ⟨2, ![512, 1024]⟩ ⟨3, ![N, 16, 512]⟩).lhsIdx (ix3 n q c)
      ((contrEquiv1 _ 1024 rfl rfl).symm k) = ix3 n q k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![N, 16, 1024]⟩ ⟨2, ![512, 1024]⟩ ⟨3, ![N, 16, 512]⟩).rhsIdx (ix3 n q c)
      ((contrEquiv1 _ 1024 rfl rfl).symm k) = ix2 c k := by
    funext ax; apply Fin.ext
    match ax with
    | ⟨0, _⟩ => simp [DotDims.rhsIdx]; rfl
    | ⟨1, _⟩ => simp [DotDims.rhsIdx]; exact c3
  rw [l3, r3]

/-- A row of the concatenation of two matrices of N rows of 512 along the columns is the concatenated row. -/
theorem cat2_apply {N : Nat} (h : Shape.Concatenates [(⟨2, ![N, 512]⟩ : Shape), ⟨2, ![N, 512]⟩] ⟨2, ![N, 1024]⟩ 1)
    (X S : (⟨2, ![N, 512]⟩ : Shape).Idx → EReal) (n : Fin N) (k : Fin 1024) :
    concatenate ⟨2, ![N, 1024]⟩ 1 [⟨⟨2, ![N, 512]⟩, X⟩, ⟨⟨2, ![N, 512]⟩, S⟩] h (ix2 n k)
      = cat (fun k => X (ix2 n k)) (fun k => S (ix2 n k)) k := by
  by_cases hk : k.val < 512
  · rw [cat_left _ _ k hk]
    exact concatenate_pair_apply_left 1 X S h (ix2 n k) rfl (ix2 n ⟨k.val, hk⟩) fun b => match b with
      | ⟨0, _⟩ => rfl | ⟨1, _⟩ => rfl
  · rw [cat_right _ _ k (by omega)]
    refine concatenate_pair_apply_right 1 X S h (ix2 n k) rfl rfl (ix2 n ⟨k.val - 512, by have := k.isLt; omega⟩) (fun b hb => ?_) ?_
    · match b with
      | ⟨0, _⟩ => rfl
      | ⟨1, _⟩ => exact absurd rfl hb
    · show k.val - 512 + 512 = k.val
      omega

/-- A row of the concatenation of two stacks of N groups of sixteen rows of 512 along the columns is the concatenated row. -/
theorem cat3_apply {N : Nat} (h : Shape.Concatenates [(⟨3, ![N, 16, 512]⟩ : Shape), ⟨3, ![N, 16, 512]⟩] ⟨3, ![N, 16, 1024]⟩ 2)
    (X S : (⟨3, ![N, 16, 512]⟩ : Shape).Idx → EReal) (n : Fin N) (q : Fin 16) (k : Fin 1024) :
    concatenate ⟨3, ![N, 16, 1024]⟩ 2 [⟨⟨3, ![N, 16, 512]⟩, X⟩, ⟨⟨3, ![N, 16, 512]⟩, S⟩] h (ix3 n q k)
      = cat (fun k => X (ix3 n q k)) (fun k => S (ix3 n q k)) k := by
  by_cases hk : k.val < 512
  · rw [cat_left _ _ k hk]
    exact concatenate_pair_apply_left 2 X S h (ix3 n q k) rfl (ix3 n q ⟨k.val, hk⟩) fun b => match b with
      | ⟨0, _⟩ => rfl | ⟨1, _⟩ => rfl | ⟨2, _⟩ => rfl
  · rw [cat_right _ _ k (by omega)]
    refine concatenate_pair_apply_right 2 X S h (ix3 n q k) rfl rfl (ix3 n q ⟨k.val - 512, by have := k.isLt; omega⟩) (fun b hb => ?_) ?_
    · match b with
      | ⟨0, _⟩ => rfl
      | ⟨1, _⟩ => rfl
      | ⟨2, _⟩ => exact absurd rfl hb
    · show k.val - 512 + 512 = k.val
      omega

/-- The forget gate's affine map over N groups of sixteen rows: the product of the concatenated stack with the weight
    matrix plus the bias broadcast to every row is the affine map of the concatenated row. -/
theorem gate3_apply {N : Nat}
    (w : DotDims.WF ⟨3, ![N, 16, 1024]⟩ ⟨2, ![512, 1024]⟩ ⟨3, ![N, 16, 512]⟩ [2] [1] [0, 1] [0] [] [])
    (hc : Shape.Concatenates [(⟨3, ![N, 16, 512]⟩ : Shape), ⟨3, ![N, 16, 512]⟩] ⟨3, ![N, 16, 1024]⟩ 2)
    (hx1 : (⟨2, ![N, 512]⟩ : Shape).BroadcastsInDim ⟨3, ![N, 1, 512]⟩ (![0, 2] : Fin 2 → Fin 3))
    (hx2 : (⟨3, ![N, 1, 512]⟩ : Shape).BroadcastsInDim ⟨3, ![N, 16, 512]⟩ (![0, 1, 2] : Fin 3 → Fin 3))
    (hb1 : (⟨1, ![512]⟩ : Shape).BroadcastsInDim ⟨3, ![1, 1, 512]⟩ (![2] : Fin 1 → Fin 3))
    (hb2 : (⟨3, ![1, 1, 512]⟩ : Shape).BroadcastsInDim ⟨3, ![N, 16, 512]⟩ (![0, 1, 2] : Fin 3 → Fin 3))
    (X : FVec Ideal ⟨2, ![N, 512]⟩ .f32) (C3 : FVec Ideal ⟨3, ![N, 16, 512]⟩ .f32)
    (W : FVec Ideal ⟨2, ![512, 1024]⟩ .f32) (b : FVec Ideal ⟨1, ![512]⟩ .f32) (n : Fin N) (q : Fin 16) (c : Fin 512) :
    addf (Host.dotGeneral (⟨[2], [1], [0, 1], [0], [], [], w⟩ : DotDims _ _ _) none
          (concatenate ⟨3, ![N, 16, 1024]⟩ 2 [⟨⟨3, ![N, 16, 512]⟩,
              broadcastInDim ⟨3, ![N, 16, 512]⟩ ![0, 1, 2] hx2 (broadcastInDim ⟨3, ![N, 1, 512]⟩ ![0, 2] hx1 X)⟩, ⟨⟨3, ![N, 16, 512]⟩, C3⟩] hc) W)
        (broadcastInDim ⟨3, ![N, 16, 512]⟩ ![0, 1, 2] hb2 (broadcastInDim ⟨3, ![1, 1, 512]⟩ ![2] hb1 b)) (ix3 n q c)
      = linCat (fun c k => W (ix2 c k)) (fun c => b (ix1 c)) (cat (fun k => X (ix2 n k)) (fun k => C3 (ix3 n q k))) c := by
  show Host.dotGeneral (⟨[2], [1], [0, 1], [0], [], [], w⟩ : DotDims _ _ _) none _ W (ix3 n q c)
      + broadcastInDim ⟨3, ![N, 16, 512]⟩ ![0, 1, 2] hb2 (broadcastInDim ⟨3, ![1, 1, 512]⟩ ![2] hb1 b) (ix3 n q c) = _
  rw [dot3_apply w _ W n q c, bias3_apply hb1 hb2 b n q c]
  unfold linCat
  refine congrArg (· + b (ix1 c)) (Finset.sum_congr rfl fun k _ => ?_)
  rw [cat3_apply hc _ C3 n q k]
  refine congrArg (· * W (ix2 c k)) (congrArg (fun f => cat f (fun k => C3 (ix3 n q k)) k) (funext fun k' => ?_))
  exact rows3_apply hx1 hx2 X n q k'

/-- The host's sum over the sixteen rows of each group, from zero, read at (n, c). -/
theorem sum16_apply {N : Nat} (hr : (⟨3, ![N, 16, 512]⟩ : Shape).ReducesTo [1] ⟨2, ![N, 512]⟩) (h0 : 0 < (⟨0, ![]⟩ : Shape).numel)
    (G : FVec Ideal ⟨3, ![N, 16, 512]⟩ .f32) (n : Fin N) (c : Fin 512) :
    Host.reduceAdd G (constant (F := Ideal) ⟨0, ![]⟩ .f32 0x00000000#32) hr h0 (ix2 n c) = ∑ q : Fin 16, G (ix3 n q c) := by
  have h : (⟨3, ![N, 16, 512]⟩ : Shape).Reduces [1] ⟨2, ![N, 512]⟩ := ⟨hr.1, Nat.two_pos, hr.2⟩
  rw [hostReduceAdd_apply, Ideal.hostReduceAdd_single hr h]
  show Ideal.ofBits .f32 0x00000000#32 + _ = _
  rw [Ideal.ofBits_zero_f32, zero_add]
  refine Finset.sum_congr rfl fun q _ => congrArg G (funext fun a => Fin.ext ?_)
  match a with
  | ⟨0, _⟩ => rfl
  | ⟨1, _⟩ => rfl
  | ⟨2, _⟩ => rfl

/-- A matrix of M = 16·N rows reshaped to N groups of sixteen rows reads, at (n, q, c), row 16·n + q. -/
theorem group16_apply {M N : Nat} (hs : (⟨2, ![M, 512]⟩ : Shape).ShapeCasts ⟨3, ![N, 16, 512]⟩)
    (Hf : (⟨2, ![M, 512]⟩ : Shape).Idx → EReal) (n : Fin N) (q : Fin 16) (c : Fin 512) (r : Fin M) (hrv : r.val = 16 * n.val + q.val) :
    shapeCast ⟨3, ![N, 16, 512]⟩ Hf hs (ix3 n q c) = Hf (ix2 r c) :=
  shapeCast_apply Hf hs _ _ (by
    rw [Shape.rowMajor_val_three, Shape.rowMajor_val_two]
    show r.val * 512 + c.val = (n.val * 16 + q.val) * 512 + c.val
    rw [hrv]; omega)

/-- A slice of N rows from row o reads row o + n. -/
theorem rows_apply {R N : Nat} (o : Nat) (X : (⟨2, ![R, 512]⟩ : Shape).Idx → EReal)
    (h : (⟨2, ![R, 512]⟩ : Shape).Slices ![o, 0] ⟨2, ![N, 512]⟩) (n : Fin N) (k : Fin 512) (r : Fin R) (hrv : r.val = o + n.val) :
    extractStridedSlice ⟨2, ![N, 512]⟩ ![o, 0] X h (ix2 n k) = X (ix2 r k) :=
  slice2_axis0_apply o X h n k r hrv

/-- σ(z₁)·tanh(z₂) at an element: a leaf's cell row from its input and update gates, and any hidden row from its output
    gate and cell row. -/
theorem cell_apply {T : Shape} (h : (⟨0, ![]⟩ : Shape).BroadcastsInDim T (![] : Fin 0 → Fin T.rank)) (z₁ z₂ : FVec Ideal T .f32) (j : T.Idx) :
    mulf (Host.divf (broadcastInDim T ![] h (constant (F := Ideal) ⟨0, ![]⟩ .f32 0x3F800000#32))
        (addf (broadcastInDim T ![] h (constant (F := Ideal) ⟨0, ![]⟩ .f32 0x3F800000#32)) (Host.exp (Host.negf z₁)))) (Host.tanh z₂) j
      = Ideal.logistic (z₁ j) * Ideal.tanh (z₂ j) := by
  exact congrArg (· * Ideal.tanh (z₂ j)) (sigm_apply h z₁ j)

/-- An inner node's cell row over a matrix of N nodes: σ(zᵢ)·tanh(zᵤ) plus the sum over the sixteen children of
    σ(forget gate of the node's input row and the child's cell row) times the child's cell row. -/
theorem nodeC_apply {N : Nat}
    (h2 : (⟨0, ![]⟩ : Shape).BroadcastsInDim ⟨2, ![N, 512]⟩ (![] : Fin 0 → Fin 2))
    (h3 : (⟨0, ![]⟩ : Shape).BroadcastsInDim ⟨3, ![N, 16, 512]⟩ (![] : Fin 0 → Fin 3))
    (w : DotDims.WF ⟨3, ![N, 16, 1024]⟩ ⟨2, ![512, 1024]⟩ ⟨3, ![N, 16, 512]⟩ [2] [1] [0, 1] [0] [] [])
    (hc : Shape.Concatenates [(⟨3, ![N, 16, 512]⟩ : Shape), ⟨3, ![N, 16, 512]⟩] ⟨3, ![N, 16, 1024]⟩ 2)
    (hx1 : (⟨2, ![N, 512]⟩ : Shape).BroadcastsInDim ⟨3, ![N, 1, 512]⟩ (![0, 2] : Fin 2 → Fin 3))
    (hx2 : (⟨3, ![N, 1, 512]⟩ : Shape).BroadcastsInDim ⟨3, ![N, 16, 512]⟩ (![0, 1, 2] : Fin 3 → Fin 3))
    (hb1 : (⟨1, ![512]⟩ : Shape).BroadcastsInDim ⟨3, ![1, 1, 512]⟩ (![2] : Fin 1 → Fin 3))
    (hb2 : (⟨3, ![1, 1, 512]⟩ : Shape).BroadcastsInDim ⟨3, ![N, 16, 512]⟩ (![0, 1, 2] : Fin 3 → Fin 3))
    (hr : (⟨3, ![N, 16, 512]⟩ : Shape).ReducesTo [1] ⟨2, ![N, 512]⟩) (h0 : 0 < (⟨0, ![]⟩ : Shape).numel)
    (Zi Zu : FVec Ideal ⟨2, ![N, 512]⟩ .f32) (X : FVec Ideal ⟨2, ![N, 512]⟩ .f32) (C3 : FVec Ideal ⟨3, ![N, 16, 512]⟩ .f32)
    (W : FVec Ideal ⟨2, ![512, 1024]⟩ .f32) (b : FVec Ideal ⟨1, ![512]⟩ .f32) (n : Fin N) (c : Fin 512) :
    addf (mulf (Host.divf (broadcastInDim ⟨2, ![N, 512]⟩ ![] h2 (constant (F := Ideal) ⟨0, ![]⟩ .f32 0x3F800000#32))
            (addf (broadcastInDim ⟨2, ![N, 512]⟩ ![] h2 (constant (F := Ideal) ⟨0, ![]⟩ .f32 0x3F800000#32)) (Host.exp (Host.negf Zi))))
          (Host.tanh Zu))
        (Host.reduceAdd
          (mulf (Host.divf (broadcastInDim ⟨3, ![N, 16, 512]⟩ ![] h3 (constant (F := Ideal) ⟨0, ![]⟩ .f32 0x3F800000#32))
              (addf (broadcastInDim ⟨3, ![N, 16, 512]⟩ ![] h3 (constant (F := Ideal) ⟨0, ![]⟩ .f32 0x3F800000#32))
                (Host.exp (Host.negf
                  (addf (Host.dotGeneral (⟨[2], [1], [0, 1], [0], [], [], w⟩ : DotDims _ _ _) none
                      (concatenate ⟨3, ![N, 16, 1024]⟩ 2 [⟨⟨3, ![N, 16, 512]⟩,
                          broadcastInDim ⟨3, ![N, 16, 512]⟩ ![0, 1, 2] hx2 (broadcastInDim ⟨3, ![N, 1, 512]⟩ ![0, 2] hx1 X)⟩,
                        ⟨⟨3, ![N, 16, 512]⟩, C3⟩] hc) W)
                    (broadcastInDim ⟨3, ![N, 16, 512]⟩ ![0, 1, 2] hb2 (broadcastInDim ⟨3, ![1, 1, 512]⟩ ![2] hb1 b)))))))
            C3)
          (constant (F := Ideal) ⟨0, ![]⟩ .f32 0x00000000#32) hr h0) (ix2 n c)
      = Ideal.logistic (Zi (ix2 n c)) * Ideal.tanh (Zu (ix2 n c))
        + ∑ q : Fin 16, Ideal.logistic (linCat (fun c k => W (ix2 c k)) (fun c => b (ix1 c))
              (cat (fun k => X (ix2 n k)) (fun k => C3 (ix3 n q k))) c) * C3 (ix3 n q c) := by
  rw [addf_apply, cell_apply h2 Zi Zu (ix2 n c), sum16_apply hr h0 _ n c]
  refine congrArg (Ideal.logistic (Zi (ix2 n c)) * Ideal.tanh (Zu (ix2 n c)) + ·) (Finset.sum_congr rfl fun q _ => ?_)
  rw [mulf_apply, sigm_apply h3 _ (ix3 n q c), gate3_apply w hc hx1 hx2 hb1 hb2 X C3 W b n q c]

/-- A row of an inner node's concatenation: the node's input row, then the sum of its sixteen children's hidden rows,
    the children's rows being rows 16·n … 16·n + 15 of a matrix of M = 16·N rows. -/
theorem nodeRow_apply {M N : Nat}
    (hc : Shape.Concatenates [(⟨2, ![N, 512]⟩ : Shape), ⟨2, ![N, 512]⟩] ⟨2, ![N, 1024]⟩ 1)
    (hs : (⟨2, ![M, 512]⟩ : Shape).ShapeCasts ⟨3, ![N, 16, 512]⟩)
    (hr : (⟨3, ![N, 16, 512]⟩ : Shape).ReducesTo [1] ⟨2, ![N, 512]⟩) (h0 : 0 < (⟨0, ![]⟩ : Shape).numel)
    (X : FVec Ideal ⟨2, ![N, 512]⟩ .f32) (Hf : FVec Ideal ⟨2, ![M, 512]⟩ .f32) (n : Fin N) (k : Fin 1024)
    (x : Row) (H : Fin 16 → Row) (hx : ∀ k, X (ix2 n k) = x k)
    (hH : ∀ (q : Fin 16) (c : Fin 512), ∃ r : Fin M, r.val = 16 * n.val + q.val ∧ Hf (ix2 r c) = H q c) :
    concatenate ⟨2, ![N, 1024]⟩ 1 [⟨⟨2, ![N, 512]⟩, X⟩, ⟨⟨2, ![N, 512]⟩,
        Host.reduceAdd (shapeCast ⟨3, ![N, 16, 512]⟩ Hf hs) (constant (F := Ideal) ⟨0, ![]⟩ .f32 0x00000000#32) hr h0⟩] hc (ix2 n k)
      = cat x (hsum H) k := by
  rw [cat2_apply hc X _ n k]
  refine congrArg₂ (fun f g => cat f g k) (funext hx) (funext fun c => ?_)
  rw [sum16_apply hr h0 _ n c]
  refine Finset.sum_congr rfl fun q _ => ?_
  obtain ⟨r, hrv, hrH⟩ := hH q c
  rw [group16_apply hs Hf n q c r hrv, hrH]

end Cert.ReferenceIdeal.RefValue

end
-- ==== Proof.RefLeaf.lean ====
/-
  The reference program's leaf level read at an index: the 65536 leaves' concatenated rows (input row, then zeros), their
  cell rows and their hidden rows are the tree's level-4 rows.
-/
import proofs.«172855_j27504970564112_2_alg».proof.Proof.Gen.ReferenceIdeal.Run
import proofs.«172855_j27504970564112_2_alg».proof.Proof.RefOps

noncomputable section

namespace Cert.ReferenceIdeal.RefValue

open Cert.ReferenceIdeal Cert.ReferenceIdeal.Gen Cert.ReferenceIdeal.Value Cert.TreeCell
open Idealize.ShloMosaic Idealize.ShloMosaic.ValueIdx Idealize.ShloMosaic.TcCoe Idealize.SL.Sem Idealize.ShloMosaic.StableHlo
open scoped BigOperators

/-- The launch contents of the reference program's buffers, at the ideal values. -/
abbrev Val := Valuation τ sig (Elt Ideal)

/-- The input's rows. -/
def xR (V0 : Val) : Fin 69905 → Row := fun r k => (V0 (Proc.devRef .tc main_arg0) : FVec Ideal S69905x512 .f32) (ix2 r k)

/-- A weight matrix by rows and columns. -/
def wM (W : FVec Ideal S512x1024 .f32) : Fin 512 → Fin 1024 → EReal := fun c k => W (ix2 c k)
/-- A bias vector by entries. -/
def bV (b : FVec Ideal S512 .f32) : Row := fun c => b (ix1 c)

/-- The gates' pre-activations in the concatenated arrangement, over the launch contents of the weights and biases. -/
def PR (V0 : Val) : Pres :=
  refPres (wM (V0 (Proc.devRef .tc main_arg1))) (bV (V0 (Proc.devRef .tc main_arg2)))
    (wM (V0 (Proc.devRef .tc main_arg5))) (bV (V0 (Proc.devRef .tc main_arg6)))
    (wM (V0 (Proc.devRef .tc main_arg7))) (bV (V0 (Proc.devRef .tc main_arg8)))
    (wM (V0 (Proc.devRef .tc main_arg3))) (bV (V0 (Proc.devRef .tc main_arg4)))

variable (V0 : Val)

/-- A leaf's concatenated row: its input row, then zeros. -/
theorem v6_row (j : Fin 65536) (k : Fin 1024) :
    res_main_v6 V0 (ix2 j k) = cat (xR V0 ⟨4369 + j.val, by omega⟩) (fun _ => 0) k := by
  unfold res_main_v6
  rw [cat2_apply]
  refine congrArg₂ (fun f g => cat f g k) (funext fun k' => ?_) (funext fun k' => ?_)
  · exact rows_apply 4369 _ _ j k' ⟨4369 + j.val, by omega⟩ rfl
  · rw [broadcastInDim_scalar_apply]
    exact Ideal.ofBits_zero_f32

/-- A gate's affine map at a leaf. -/
theorem leaf_gate (W : FVec Ideal S512x1024 .f32) (b : FVec Ideal S512 .f32) (j : Fin 65536) (c : Fin 512) :
    addf (Host.dotGeneral dot_S65536x1024_S1024x512_S65536x512_1_0_0_1_n_n none (res_main_v6 V0)
          (transpose S1024x512 [1, 0] W transposes_S512x1024_S1024x512_1_0))
        (broadcastInDim S65536x512 ![0, 1] bcast_S1x512_S65536x512_0_1 (broadcastInDim S1x512 ![1] bcast_S512_S1x512_1 b)) (ix2 j c)
      = linCat (wM W) (bV b) (cat (xR V0 ⟨4369 + j.val, by omega⟩) (fun _ => 0)) c := by
  refine (gate2_apply dot_S65536x1024_S1024x512_S65536x512_1_0_0_1_n_n rfl transposes_S512x1024_S1024x512_1_0 bcast_S512_S1x512_1
    bcast_S1x512_S65536x512_0_1 (res_main_v6 V0) W b j c).trans ?_
  exact congrArg (fun f => linCat (wM W) (bV b) f c) (funext fun k => v6_row V0 j k)

/-- The leaves' cell rows. -/
theorem leaf_C (j : Fin 65536) (c : Fin 512) : res_main_v35 V0 (ix2 j c) = lvl4C (PR V0) (xR V0) j c := by
  unfold res_main_v35
  refine (cell_apply bcast_S_S65536x512 _ _ (ix2 j c)).trans ?_
  rw [leaf_gate, leaf_gate]
  rfl

/-- A leaf's hidden row from its output gate's pre-activations and its cell row, for any spelling of the two vectors. -/
theorem leaf_H_of (Zo Cv : FVec Ideal S65536x512 .f32) (j : Fin 65536) (c : Fin 512)
    (hZ : Zo (ix2 j c) = linCat (wM (V0 (Proc.devRef .tc main_arg5))) (bV (V0 (Proc.devRef .tc main_arg6))) (cat (xR V0 ⟨4369 + j.val, by omega⟩) (fun _ => 0)) c)
    (hC : Cv (ix2 j c) = lvl4C (PR V0) (xR V0) j c) :
    Ideal.logistic (Zo (ix2 j c)) * Ideal.tanh (Cv (ix2 j c)) = lvl4H (PR V0) (xR V0) j c := by
  rw [hZ, hC]
  rfl

end Cert.ReferenceIdeal.RefValue

end
-- ==== Proof.RefNode3.lean ====
/-
  The reference program's level 3 read at an index: the 4096 nodes' concatenated rows (input row, then the sum of the
  sixteen children's hidden rows), their cell rows and their hidden rows are the tree's level-3 rows.
-/
import proofs.«172855_j27504970564112_2_alg».proof.Proof.RefLeaf

noncomputable section

namespace Cert.ReferenceIdeal.RefValue

open Cert.ReferenceIdeal Cert.ReferenceIdeal.Gen Cert.ReferenceIdeal.Value Cert.TreeCell
open Idealize.ShloMosaic Idealize.ShloMosaic.ValueIdx Idealize.ShloMosaic.TcCoe Idealize.SL.Sem Idealize.ShloMosaic.StableHlo
open scoped BigOperators

variable (V0 : Val)

/-- The level's input rows. -/
theorem v3_at (n : Fin 4096) (k : Fin 512) : res_main_v3 V0 (ix2 n k) = xR V0 ⟨273 + n.val, by omega⟩ k := by
  unfold res_main_v3
  exact rows_apply 273 _ _ n k ⟨273 + n.val, by omega⟩ rfl

/-- The children's cell rows, grouped by parent. -/
theorem v39_at (n : Fin 4096) (q : Fin 16) (c : Fin 512) :
    res_main_v39 V0 (ix3 n q c) = lvl4C (PR V0) (xR V0) ⟨16 * n.val + q.val, by omega⟩ c := by
  unfold res_main_v39
  exact (group16_apply _ _ n q c ⟨16 * n.val + q.val, by omega⟩ rfl).trans (leaf_C V0 _ c)

/-- A node's concatenated row: its input row, then the sum of its children's hidden rows. -/
theorem v41_row (n : Fin 4096) (k : Fin 1024) :
    res_main_v41 V0 (ix2 n k)
      = cat (xR V0 ⟨273 + n.val, by omega⟩) (hsum fun q => lvl4H (PR V0) (xR V0) ⟨16 * n.val + q.val, by omega⟩) k := by
  unfold res_main_v41
  refine nodeRow_apply concatenates_S4096x512_S4096x512_S4096x1024_d1 shapeCasts_S65536x512_S4096x16x512
    reducesTo_S4096x16x512_S4096x512_d1 h_S_ (res_main_v3 V0) _ n k _ _ (fun k' => v3_at V0 n k')
    (fun q c => ⟨⟨16 * n.val + q.val, by omega⟩, rfl, ?_⟩)
  refine (cell_apply bcast_S_S65536x512 _ _ _).trans ?_
  exact leaf_H_of V0 _ _ _ c (leaf_gate V0 _ _ _ c) (leaf_C V0 _ c)

/-- A gate's affine map at a node. -/
theorem l3_gate (W : FVec Ideal S512x1024 .f32) (b : FVec Ideal S512 .f32) (n : Fin 4096) (c : Fin 512) :
    addf (Host.dotGeneral dot_S4096x1024_S1024x512_S4096x512_1_0_0_1_n_n none (res_main_v41 V0)
          (transpose S1024x512 [1, 0] W transposes_S512x1024_S1024x512_1_0))
        (broadcastInDim S4096x512 ![0, 1] bcast_S1x512_S4096x512_0_1 (broadcastInDim S1x512 ![1] bcast_S512_S1x512_1 b)) (ix2 n c)
      = linCat (wM W) (bV b) (cat (xR V0 ⟨273 + n.val, by omega⟩)
          (hsum fun q => lvl4H (PR V0) (xR V0) ⟨16 * n.val + q.val, by omega⟩)) c := by
  refine (gate2_apply dot_S4096x1024_S1024x512_S4096x512_1_0_0_1_n_n rfl transposes_S512x1024_S1024x512_1_0 bcast_S512_S1x512_1
    bcast_S1x512_S4096x512_0_1 (res_main_v41 V0) W b n c).trans ?_
  exact congrArg (fun f => linCat (wM W) (bV b) f c) (funext fun k => v41_row V0 n k)

/-- The level's cell rows. -/
theorem lvl3_C (n : Fin 4096) (c : Fin 512) : res_main_v86 V0 (ix2 n c) = lvl3C (PR V0) (xR V0) n c := by
  unfold res_main_v86
  refine (nodeC_apply bcast_S_S4096x512 bcast_S_S4096x16x512 _ concatenates_S4096x16x512_S4096x16x512_S4096x16x1024_d2
    bcast_S4096x512_S4096x1x512_0_2 bcast_S4096x1x512_S4096x16x512_0_1_2 bcast_S512_S1x1x512_2 bcast_S1x1x512_S4096x16x512_0_1_2
    reducesTo_S4096x16x512_S4096x512_d1 h_S_ _ _ (res_main_v3 V0) (res_main_v39 V0) _ _ n c).trans ?_
  rw [l3_gate, l3_gate]
  simp only [v3_at V0, v39_at V0]
  rfl

/-- A node's hidden row from its output gate's pre-activations and its cell row, for any spelling of the two vectors. -/
theorem lvl3_H_of (Zo Cv : FVec Ideal S4096x512 .f32) (n : Fin 4096) (c : Fin 512)
    (hZ : Zo (ix2 n c) = linCat (wM (V0 (Proc.devRef .tc main_arg5))) (bV (V0 (Proc.devRef .tc main_arg6)))
      (cat (xR V0 ⟨273 + n.val, by omega⟩) (hsum fun q => lvl4H (PR V0) (xR V0) ⟨16 * n.val + q.val, by omega⟩)) c)
    (hC : Cv (ix2 n c) = lvl3C (PR V0) (xR V0) n c) :
    Ideal.logistic (Zo (ix2 n c)) * Ideal.tanh (Cv (ix2 n c)) = lvl3H (PR V0) (xR V0) n c := by
  rw [hZ, hC]
  rfl

end Cert.ReferenceIdeal.RefValue

end
-- ==== Proof.RefNode2.lean ====
/-
  The reference program's level 2 read at an index: the 256 nodes' concatenated rows (input row, then the sum of the
  sixteen children's hidden rows), their cell rows and their hidden rows are the tree's level-2 rows.
-/
import proofs.«172855_j27504970564112_2_alg».proof.Proof.RefNode3

noncomputable section

namespace Cert.ReferenceIdeal.RefValue

open Cert.ReferenceIdeal Cert.ReferenceIdeal.Gen Cert.ReferenceIdeal.Value Cert.TreeCell
open Idealize.ShloMosaic Idealize.ShloMosaic.ValueIdx Idealize.ShloMosaic.TcCoe Idealize.SL.Sem Idealize.ShloMosaic.StableHlo
open scoped BigOperators

variable (V0 : Val)

/-- The level's input rows. -/
theorem v2_at (n : Fin 256) (k : Fin 512) : res_main_v2 V0 (ix2 n k) = xR V0 ⟨17 + n.val, by omega⟩ k := by
  unfold res_main_v2
  exact rows_apply 17 _ _ n k ⟨17 + n.val, by omega⟩ rfl

/-- The children's cell rows, grouped by parent. -/
theorem v90_at (n : Fin 256) (q : Fin 16) (c : Fin 512) :
    res_main_v90 V0 (ix3 n q c) = lvl3C (PR V0) (xR V0) ⟨16 * n.val + q.val, by omega⟩ c := by
  unfold res_main_v90
  exact (group16_apply _ _ n q c ⟨16 * n.val + q.val, by omega⟩ rfl).trans (lvl3_C V0 _ c)

/-- A node's concatenated row: its input row, then the sum of its children's hidden rows. -/
theorem v92_row (n : Fin 256) (k : Fin 1024) :
    res_main_v92 V0 (ix2 n k)
      = cat (xR V0 ⟨17 + n.val, by omega⟩) (hsum fun q => lvl3H (PR V0) (xR V0) ⟨16 * n.val + q.val, by omega⟩) k := by
  unfold res_main_v92
  refine nodeRow_apply concatenates_S256x512_S256x512_S256x1024_d1 shapeCasts_S4096x512_S256x16x512
    reducesTo_S256x16x512_S256x512_d1 h_S_ (res_main_v2 V0) _ n k _ _ (fun k' => v2_at V0 n k')
    (fun q c => ⟨⟨16 * n.val + q.val, by omega⟩, rfl, ?_⟩)
  refine (cell_apply bcast_S_S4096x512 _ _ _).trans ?_
  exact lvl3_H_of V0 _ _ _ c (l3_gate V0 _ _ _ c) (lvl3_C V0 _ c)

/-- A gate's affine map at a node. -/
theorem l2_gate (W : FVec Ideal S512x1024 .f32) (b : FVec Ideal S512 .f32) (n : Fin 256) (c : Fin 512) :
    addf (Host.dotGeneral dot_S256x1024_S1024x512_S256x512_1_0_0_1_n_n none (res_main_v92 V0)
          (transpose S1024x512 [1, 0] W transposes_S512x1024_S1024x512_1_0))
        (broadcastInDim S256x512 ![0, 1] bcast_S1x512_S256x512_0_1 (broadcastInDim S1x512 ![1] bcast_S512_S1x512_1 b)) (ix2 n c)
      = linCat (wM W) (bV b) (cat (xR V0 ⟨17 + n.val, by omega⟩)
          (hsum fun q => lvl3H (PR V0) (xR V0) ⟨16 * n.val + q.val, by omega⟩)) c := by
  refine (gate2_apply dot_S256x1024_S1024x512_S256x512_1_0_0_1_n_n rfl transposes_S512x1024_S1024x512_1_0 bcast_S512_S1x512_1
    bcast_S1x512_S256x512_0_1 (res_main_v92 V0) W b n c).trans ?_
  exact congrArg (fun f => linCat (wM W) (bV b) f c) (funext fun k => v92_row V0 n k)

/-- The level's cell rows. -/
theorem lvl2_C (n : Fin 256) (c : Fin 512) : res_main_v137 V0 (ix2 n c) = lvl2C (PR V0) (xR V0) n c := by
  unfold res_main_v137
  refine (nodeC_apply bcast_S_S256x512 bcast_S_S256x16x512 _ concatenates_S256x16x512_S256x16x512_S256x16x1024_d2
    bcast_S256x512_S256x1x512_0_2 bcast_S256x1x512_S256x16x512_0_1_2 bcast_S512_S1x1x512_2 bcast_S1x1x512_S256x16x512_0_1_2
    reducesTo_S256x16x512_S256x512_d1 h_S_ _ _ (res_main_v2 V0) (res_main_v90 V0) _ _ n c).trans ?_
  rw [l2_gate, l2_gate]
  simp only [v2_at V0, v90_at V0]
  rfl

/-- A node's hidden row from its output gate's pre-activations and its cell row, for any spelling of the two vectors. -/
theorem lvl2_H_of (Zo Cv : FVec Ideal S256x512 .f32) (n : Fin 256) (c : Fin 512)
    (hZ : Zo (ix2 n c) = linCat (wM (V0 (Proc.devRef .tc main_arg5))) (bV (V0 (Proc.devRef .tc main_arg6)))
      (cat (xR V0 ⟨17 + n.val, by omega⟩) (hsum fun q => lvl3H (PR V0) (xR V0) ⟨16 * n.val + q.val, by omega⟩)) c)
    (hC : Cv (ix2 n c) = lvl2C (PR V0) (xR V0) n c) :
    Ideal.logistic (Zo (ix2 n c)) * Ideal.tanh (Cv (ix2 n c)) = lvl2H (PR V0) (xR V0) n c := by
  rw [hZ, hC]
  rfl

end Cert.ReferenceIdeal.RefValue

end
-- ==== Proof.RefNode1.lean ====
/-
  The reference program's level 1 read at an index: the 16 nodes' concatenated rows (input row, then the sum of the
  sixteen children's hidden rows), their cell rows and their hidden rows are the tree's level-1 rows.
-/
import proofs.«172855_j27504970564112_2_alg».proof.Proof.RefNode2

noncomputable section

namespace Cert.ReferenceIdeal.RefValue

open Cert.ReferenceIdeal Cert.ReferenceIdeal.Gen Cert.ReferenceIdeal.Value Cert.TreeCell
open Idealize.ShloMosaic Idealize.ShloMosaic.ValueIdx Idealize.ShloMosaic.TcCoe Idealize.SL.Sem Idealize.ShloMosaic.StableHlo
open scoped BigOperators

variable (V0 : Val)

/-- The level's input rows. -/
theorem v1_at (n : Fin 16) (k : Fin 512) : res_main_v1 V0 (ix2 n k) = xR V0 ⟨1 + n.val, by omega⟩ k := by
  unfold res_main_v1
  exact rows_apply 1 _ _ n k ⟨1 + n.val, by omega⟩ rfl

/-- The children's cell rows, grouped by parent. -/
theorem v141_at (n : Fin 16) (q : Fin 16) (c : Fin 512) :
    res_main_v141 V0 (ix3 n q c) = lvl2C (PR V0) (xR V0) ⟨16 * n.val + q.val, by omega⟩ c := by
  unfold res_main_v141
  exact (group16_apply _ _ n q c ⟨16 * n.val + q.val, by omega⟩ rfl).trans (lvl2_C V0 _ c)

/-- A node's concatenated row: its input row, then the sum of its children's hidden rows. -/
theorem v143_row (n : Fin 16) (k : Fin 1024) :
    res_main_v143 V0 (ix2 n k)
      = cat (xR V0 ⟨1 + n.val, by omega⟩) (hsum fun q => lvl2H (PR V0) (xR V0) ⟨16 * n.val + q.val, by omega⟩) k := by
  unfold res_main_v143
  refine nodeRow_apply concatenates_S16x512_S16x512_S16x1024_d1 shapeCasts_S256x512_S16x16x512
    reducesTo_S16x16x512_S16x512_d1 h_S_ (res_main_v1 V0) _ n k _ _ (fun k' => v1_at V0 n k')
    (fun q c => ⟨⟨16 * n.val + q.val, by omega⟩, rfl, ?_⟩)
  refine (cell_apply bcast_S_S256x512 _ _ _).trans ?_
  exact lvl2_H_of V0 _ _ _ c (l2_gate V0 _ _ _ c) (lvl2_C V0 _ c)

/-- A gate's affine map at a node. -/
theorem l1_gate (W : FVec Ideal S512x1024 .f32) (b : FVec Ideal S512 .f32) (n : Fin 16) (c : Fin 512) :
    addf (Host.dotGeneral dot_S16x1024_S1024x512_S16x512_1_0_0_1_n_n none (res_main_v143 V0)
          (transpose S1024x512 [1, 0] W transposes_S512x1024_S1024x512_1_0))
        (broadcastInDim S16x512 ![0, 1] bcast_S1x512_S16x512_0_1 (broadcastInDim S1x512 ![1] bcast_S512_S1x512_1 b)) (ix2 n c)
      = linCat (wM W) (bV b) (cat (xR V0 ⟨1 + n.val, by omega⟩)
          (hsum fun q => lvl2H (PR V0) (xR V0) ⟨16 * n.val + q.val, by omega⟩)) c := by
  refine (gate2_apply dot_S16x1024_S1024x512_S16x512_1_0_0_1_n_n rfl transposes_S512x1024_S1024x512_1_0 bcast_S512_S1x512_1
    bcast_S1x512_S16x512_0_1 (res_main_v143 V0) W b n c).trans ?_
  exact congrArg (fun f => linCat (wM W) (bV b) f c) (funext fun k => v143_row V0 n k)

/-- The level's cell rows. -/
theorem lvl1_C (n : Fin 16) (c : Fin 512) : res_main_v188 V0 (ix2 n c) = lvl1C (PR V0) (xR V0) n c := by
  unfold res_main_v188
  refine (nodeC_apply bcast_S_S16x512 bcast_S_S16x16x512 _ concatenates_S16x16x512_S16x16x512_S16x16x1024_d2
    bcast_S16x512_S16x1x512_0_2 bcast_S16x1x512_S16x16x512_0_1_2 bcast_S512_S1x1x512_2 bcast_S1x1x512_S16x16x512_0_1_2
    reducesTo_S16x16x512_S16x512_d1 h_S_ _ _ (res_main_v1 V0) (res_main_v141 V0) _ _ n c).trans ?_
  rw [l1_gate, l1_gate]
  simp only [v1_at V0, v141_at V0]
  rfl

/-- A node's hidden row from its output gate's pre-activations and its cell row, for any spelling of the two vectors. -/
theorem lvl1_H_of (Zo Cv : FVec Ideal S16x512 .f32) (n : Fin 16) (c : Fin 512)
    (hZ : Zo (ix2 n c) = linCat (wM (V0 (Proc.devRef .tc main_arg5))) (bV (V0 (Proc.devRef .tc main_arg6)))
      (cat (xR V0 ⟨1 + n.val, by omega⟩) (hsum fun q => lvl2H (PR V0) (xR V0) ⟨16 * n.val + q.val, by omega⟩)) c)
    (hC : Cv (ix2 n c) = lvl1C (PR V0) (xR V0) n c) :
    Ideal.logistic (Zo (ix2 n c)) * Ideal.tanh (Cv (ix2 n c)) = lvl1H (PR V0) (xR V0) n c := by
  rw [hZ, hC]
  rfl

end Cert.ReferenceIdeal.RefValue

end
-- ==== Proof.RefRoot.lean ====
/-
  The reference program's root read at an index: the root's concatenated row (input row 0, then the sum of the sixteen
  level-1 hidden rows), its cell row and its hidden row are the tree's level-0 rows, and the program's two results are
  the root's hidden and cell rows.
-/
import proofs.«172855_j27504970564112_2_alg».proof.Proof.RefNode1

noncomputable section

namespace Cert.ReferenceIdeal.RefValue

open Cert.ReferenceIdeal Cert.ReferenceIdeal.Gen Cert.ReferenceIdeal.Value Cert.TreeCell
open Idealize.ShloMosaic Idealize.ShloMosaic.ValueIdx Idealize.ShloMosaic.TcCoe Idealize.SL.Sem Idealize.ShloMosaic.StableHlo
open scoped BigOperators

variable (V0 : Val)

/-- The root's input row. -/
theorem v0_at (n : Fin 1) (k : Fin 512) : res_main_v0 V0 (ix2 n k) = xR V0 ⟨0, by omega⟩ k := by
  unfold res_main_v0
  exact rows_apply 0 _ _ n k ⟨0, by omega⟩ (by have := n.isLt; show 0 = 0 + n.val; omega)

/-- The level-1 cell rows, as the root's one group of sixteen. -/
theorem v192_at (n : Fin 1) (q : Fin 16) (c : Fin 512) : res_main_v192 V0 (ix3 n q c) = lvl1C (PR V0) (xR V0) q c := by
  unfold res_main_v192
  exact (group16_apply _ _ n q c q (by have := n.isLt; omega)).trans (lvl1_C V0 q c)

/-- The root's concatenated row: its input row, then the sum of the level-1 hidden rows. -/
theorem v194_row (n : Fin 1) (k : Fin 1024) :
    res_main_v194 V0 (ix2 n k) = cat (xR V0 ⟨0, by omega⟩) (hsum fun q => lvl1H (PR V0) (xR V0) q) k := by
  unfold res_main_v194
  refine nodeRow_apply concatenates_S1x512_S1x512_S1x1024_d1 shapeCasts_S16x512_S1x16x512
    reducesTo_S1x16x512_S1x512_d1 h_S_ (res_main_v0 V0) _ n k _ _ (fun k' => v0_at V0 n k')
    (fun q c => ⟨q, by have := n.isLt; omega, ?_⟩)
  refine (cell_apply bcast_S_S16x512 _ _ _).trans ?_
  exact lvl1_H_of V0 _ _ _ c (l1_gate V0 _ _ _ c) (lvl1_C V0 _ c)

/-- A gate's affine map at the root. -/
theorem l0_gate (W : FVec Ideal S512x1024 .f32) (b : FVec Ideal S512 .f32) (n : Fin 1) (c : Fin 512) :
    addf (Host.dotGeneral dot_S1x1024_S1024x512_S1x512_1_0_0_1_n_n none (res_main_v194 V0)
          (transpose S1024x512 [1, 0] W transposes_S512x1024_S1024x512_1_0))
        (broadcastInDim S1x512 ![1] bcast_S512_S1x512_1 b) (ix2 n c)
      = linCat (wM W) (bV b) (cat (xR V0 ⟨0, by omega⟩) (hsum fun q => lvl1H (PR V0) (xR V0) q)) c := by
  refine (gate1_apply dot_S1x1024_S1024x512_S1x512_1_0_0_1_n_n rfl transposes_S512x1024_S1024x512_1_0 bcast_S512_S1x512_1
    (res_main_v194 V0) W b n c).trans ?_
  exact congrArg (fun f => linCat (wM W) (bV b) f c) (funext fun k => v194_row V0 n k)

/-- The root's cell row. -/
theorem lvl0_C (c : Fin 512) : res_main_v236 V0 (ix2 (0 : Fin 1) c) = lvl0C (PR V0) (xR V0) c := by
  unfold res_main_v236
  refine (nodeC_apply bcast_S_S1x512 bcast_S_S1x16x512 _ concatenates_S1x16x512_S1x16x512_S1x16x1024_d2
    bcast_S1x512_S1x1x512_0_2 bcast_S1x1x512_S1x16x512_0_1_2 bcast_S512_S1x1x512_2 bcast_S1x1x512_S1x16x512_0_1_2
    reducesTo_S1x16x512_S1x512_d1 h_S_ _ _ (res_main_v0 V0) (res_main_v192 V0) _ _ 0 c).trans ?_
  rw [l0_gate, l0_gate]
  simp only [v0_at V0, v192_at V0]
  rfl

/-- The root's hidden row from its output gate's pre-activations and its cell row, for any spelling of the two vectors. -/
theorem lvl0_H_of (Zo Cv : FVec Ideal S1x512 .f32) (c : Fin 512)
    (hZ : Zo (ix2 (0 : Fin 1) c) = linCat (wM (V0 (Proc.devRef .tc main_arg5))) (bV (V0 (Proc.devRef .tc main_arg6)))
      (cat (xR V0 ⟨0, by omega⟩) (hsum fun q => lvl1H (PR V0) (xR V0) q)) c)
    (hC : Cv (ix2 (0 : Fin 1) c) = lvl0C (PR V0) (xR V0) c) :
    Ideal.logistic (Zo (ix2 (0 : Fin 1) c)) * Ideal.tanh (Cv (ix2 (0 : Fin 1) c)) = lvl0H (PR V0) (xR V0) c := by
  rw [hZ, hC]
  rfl

/-- The program's second result is the root's cell row. -/
theorem result_C :
    (shapeCast _ (res_main_v236 V0) shapeCasts_S1x512_S512 : FVec Ideal S512 .f32) = fun i => lvl0C (PR V0) (xR V0) (i 0) := by
  funext i
  obtain ⟨c, rfl⟩ : ∃ c : Fin 512, i = ix1 c := ⟨i 0, eq_ix1 i⟩
  exact (shapeCast_1a_a_apply _ _ c).trans (lvl0_C V0 c)

/-- The program's first result is the root's hidden row. -/
theorem result_H :
    (shapeCast _ (mulf (Host.divf (broadcastInDim S1x512 ![] bcast_S_S1x512 (constant S_ .f32 0x3F800000#32)) (addf (broadcastInDim S1x512 ![] bcast_S_S1x512 (constant S_ .f32 0x3F800000#32)) (Host.exp (Host.negf (addf (Host.dotGeneral (φ₁ := .f32) (φ₂ := .f32) dot_S1x1024_S1024x512_S1x512_1_0_0_1_n_n none (res_main_v194 V0) (transpose S1024x512 [1, 0] (V0 (Proc.devRef .tc main_arg5)) transposes_S512x1024_S1024x512_1_0)) (broadcastInDim S1x512 ![1] bcast_S512_S1x512_1 (V0 (Proc.devRef .tc main_arg6)))))))) (Host.tanh (res_main_v236 V0))) shapeCasts_S1x512_S512 : FVec Ideal S512 .f32)
      = fun i => lvl0H (PR V0) (xR V0) (i 0) := by
  funext i
  obtain ⟨c, rfl⟩ : ∃ c : Fin 512, i = ix1 c := ⟨i 0, eq_ix1 i⟩
  refine (shapeCast_1a_a_apply _ _ c).trans ?_
  refine (cell_apply bcast_S_S1x512 _ _ _).trans ?_
  exact lvl0_H_of V0 _ _ c (l0_gate V0 _ _ 0 c) (lvl0_C V0 c)

/-- The same two, as the generated run's closing valuation reads them. -/
theorem val5_C : (val5 V0 (no_index (Proc.devRef .tc main_v240)) : FVec Ideal S512 .f32) = fun i => lvl0C (PR V0) (xR V0) (i 0) :=
  (val5_main_v240 V0).trans (result_C V0)

theorem val5_H : (val5 V0 (no_index (Proc.devRef .tc main_v239)) : FVec Ideal S512 .f32) = fun i => lvl0H (PR V0) (xR V0) (i 0) :=
  (val5_main_v239 V0).trans (result_H V0)

end Cert.ReferenceIdeal.RefValue

end
-- ==== Proof.Bridge.lean ====
/-
  The reference program's run stated over the tree: its two results are the root's hidden and cell rows over the bundle
  of pre-activations and the input rows read from its launch arrays; and from memories that agree on the nine arguments,
  that bundle and those rows are the ones read from the kernel's launch arrays (the split and the concatenated
  arrangements of the affine maps give one bundle).
-/
import proofs.«172855_j27504970564112_2_alg».proof.Defs
import proofs.«172855_j27504970564112_2_alg».proof.Proof.RefRoot
import proofs.«172855_j27504970564112_2_alg».proof.Proof.KerLevel3

noncomputable section

namespace Cert.Proof.Bridge

open Idealize.ShloMosaic Idealize.SL.Sem Idealize.ShloMosaic.TcCoe Idealize.ShloMosaic.ValueIdx Idealize.ShloMosaic.StableHlo
open Cert.TreeCell Cert.ReferenceIdeal.RefValue

/-- Every run of the reference program ends with the root's hidden row and cell row in its two results, the arguments
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v239) = (fun i => lvl0H (PR (launchContents m' c)) (xR (launchContents m' c)) (i 0))
      ∧ r.2.mem ((c.tc : Thread Cert.ReferenceIdeal.nD Cert.ReferenceIdeal.τ).loc Cert.ReferenceIdeal.main_v240) = (fun i => lvl0C (PR (launchContents m' c)) (xR (launchContents m' c)) (i 0))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run _ _ _).mono (fun _ h c => ⟨(h c).1.trans (result_H (launchContents m' c)), (h c).2.1.trans (result_C (launchContents m' c)), (h c).2.2⟩)
    (Cert.ReferenceIdeal.Value.run (F := Ideal) m' ρ')

/-- The concatenated bundle depends only on the eight arrays. -/
theorem refPres_congr {Wi Wi' Wo Wo' Wu Wu' Wf Wf' : Fin 512 → Fin 1024 → EReal} {bi bi' bo bo' bu bu' bf bf' : Row}
    (h1 : Wi = Wi') (h2 : bi = bi') (h3 : Wo = Wo') (h4 : bo = bo') (h5 : Wu = Wu') (h6 : bu = bu') (h7 : Wf = Wf') (h8 : bf = bf') :
    refPres Wi bi Wo bo Wu bu Wf bf = refPres Wi' bi' Wo' bo' Wu' bu' Wf' bf' := by
  subst h1 h2 h3 h4 h5 h6 h7 h8; rfl

section Agree
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From memories agreeing on the arguments, the reference's bundle (concatenated arrangement) is the kernel's (split
    arrangement). -/
theorem PR_agree
    (hc : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    PR (launchContents m' c) = Cert.KernelIdeal.Levels.PKer m c := by
  obtain ⟨_, h1, h2, h3, h4, h5, h6, h7, h8⟩ := hc
  have e := kerPres_eq_refPres (Cert.KernelIdeal.Levels.Wi m c) (Cert.KernelIdeal.Levels.bi m c) (Cert.KernelIdeal.Levels.Wo m c)
    (Cert.KernelIdeal.Levels.bo m c) (Cert.KernelIdeal.Levels.Wu m c) (Cert.KernelIdeal.Levels.bu m c) (Cert.KernelIdeal.Levels.Wf m c)
    (Cert.KernelIdeal.Levels.bf m c)
  exact (refPres_congr (congrArg wM h1) (congrArg bV h2) (congrArg wM h5) (congrArg bV h6) (congrArg wM h7) (congrArg bV h8)
    (congrArg wM h3) (congrArg bV h4)).trans e.symm

/-- From memories agreeing on the arguments, the reference's input rows are the kernel's. -/
theorem xR_agree
    (hc : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    xR (launchContents m' c) = Cert.KernelIdeal.Levels.xK m c :=
  congrArg (fun (A : FVec Ideal Cert.ReferenceIdeal.S69905x512 .f32) => fun (r : Fin 69905) (k : Fin 512) => A (ix2 r k)) hc.1

end Agree

end Cert.Proof.Bridge

end
-- ==== Proof.lean ====
/-
  The child-sum tree LSTM kernel against its jnp reference, over the extended reals. The 16-ary tree of depth 4 has
  its levels in rows 0, 1–16, 17–272, 273–4368, 4369–69904 of the input; a leaf's cell is σ(aᵢ)·tanh(aᵤ) and an inner
  node's is σ(aᵢ)·tanh(aᵤ) + Σ_children σ(a_f(x, C_child))·C_child, the hidden row σ(aₒ)·tanh(C), every a_g an affine
  map of the node's input row and of the sum of its children's hidden rows (for the forget gate: of one child's cell
  row) through the gate's 512 × 1024 weight matrix and bias. The results are the root's hidden and cell rows.

  The kernel computes levels 4 and 3 in one pallas_call and levels 2, 1, 0 in three more, each gate as the sum of the
  products with the two 512 × 512 halves of the transposed weight matrix (the forget gate's bias added before the
  second half's sum), its sigmoid as one operation. The reference concatenates the input row and the hidden (cell) row
  and contracts all 1024 columns at once (a leaf's hidden half is zero), its sigmoid spelled 1 / (1 + exp(−·)).
  On the extended reals these are one function: the sum over 1024 columns splits into its two halves' sums, + is
  commutative and associative, 0·w = 0, format changes are the identity, and the logistic function IS 1 / (1 + exp(−·))
  there. No finiteness of the inputs is used for the value; the three frames are the programs' runs with the
  results dropped.
-/
import proofs.«172855_j27504970564112_2_alg».proof.Defs
import proofs.«172855_j27504970564112_2_alg».proof.Proof.Gen.Kernel
import proofs.«172855_j27504970564112_2_alg».proof.Proof.Gen.Kernel.Skeleton
import proofs.«172855_j27504970564112_2_alg».proof.Proof.Gen.Kernel.Launch
import proofs.«172855_j27504970564112_2_alg».proof.Proof.Gen.Kernel.Points
import proofs.«172855_j27504970564112_2_alg».proof.Proof.Gen.Kernel.Frame
import proofs.«172855_j27504970564112_2_alg».proof.Proof.Gen.KernelIdeal
import proofs.«172855_j27504970564112_2_alg».proof.Proof.Gen.KernelIdeal.Skeleton
import proofs.«172855_j27504970564112_2_alg».proof.Proof.Gen.KernelIdeal.Launch
import proofs.«172855_j27504970564112_2_alg».proof.Proof.Gen.KernelIdeal.Points
import proofs.«172855_j27504970564112_2_alg».proof.Proof.Gen.KernelIdeal.Frame
import proofs.«172855_j27504970564112_2_alg».proof.Proof.Gen.ReferenceIdeal
import proofs.«172855_j27504970564112_2_alg».proof.Proof.Gen.ReferenceIdeal.Run
import proofs.«172855_j27504970564112_2_alg».proof.Proof.Gen.Pre_finite_inputs
import proofs.«172855_j27504970564112_2_alg».proof.Proof.KerRun
import proofs.«172855_j27504970564112_2_alg».proof.Proof.KerLevels
import proofs.«172855_j27504970564112_2_alg».proof.Proof.Bridge
import Idealize.ShloMosaic.Adequacy
import Idealize.ShloMosaic.Init

noncomputable section

namespace Cert.Proof

open Idealize.ShloMosaic Idealize.SL.Sem Cert.TreeCell

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the root's hidden row and the root's cell row of the tree over the kernel's launch arrays:
    the kernel by its four calls level by level, the reference by its run read level by level, the two arrangements
    of the gates' affine maps being one bundle and the launch arrays agreeing. -/
theorem algebraic : Cert.algebraic_KernelIdeal_ReferenceIdeal := by
  intro m ρ m' ρ' _ hagree
  refine ⟨fun c => (fun i => lvl0H (Cert.KernelIdeal.Levels.PKer m c) (Cert.KernelIdeal.Levels.xK m c) (i 0)),
    fun c => (fun i => lvl0C (Cert.KernelIdeal.Levels.PKer m c) (Cert.KernelIdeal.Levels.xK m c) (i 0)), ?_, ?_⟩
  · exact (θ_run Cert.KernelIdeal.defs _ _).mono
      (fun _ h c => ⟨(h c).1.trans (Cert.KernelIdeal.Levels.result_H m ρ c),
        (h c).2.1.trans (Cert.KernelIdeal.Levels.result_C m ρ c), (h c).2.2⟩)
      (Cert.KernelIdeal.RunValue.run (F := Ideal) m ρ)
  · refine (θ_run Cert.ReferenceIdeal.defs _ _).mono (fun _ h c => ⟨(h c).1.trans ?_, (h c).2.1.trans ?_, (h c).2.2⟩)
      (Cert.Proof.Bridge.ref_run m' ρ')
    · rw [Cert.Proof.Bridge.PR_agree m m' c (hagree c), Cert.Proof.Bridge.xR_agree m m' c (hagree c)]
      rfl
    · rw [Cert.Proof.Bridge.PR_agree m m' c (hagree c), Cert.Proof.Bridge.xR_agree m m' c (hagree c)]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
